-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  main_v3
-- ==== Pre_finite_inputs_ReferenceIdeal.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S256x4096 : Shape := ⟨2, ![256, 4096]⟩
abbrev S4096x256 : Shape := ⟨2, ![4096, 256]⟩
abbrev S16x256x256 : Shape := ⟨3, ![16, 256, 256]⟩
abbrev S_ : Shape := ⟨0, ![]⟩
abbrev S16 : Shape := ⟨1, ![16]⟩
abbrev S1 : Shape := ⟨1, ![1]⟩
abbrev S256x256 : Shape := ⟨2, ![256, 256]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S4096x256, .f32⟩
  | .local _ .vmem, ⟨0, _⟩ => ⟨S256x4096, .f32⟩
  | .local _ .vmem, ⟨1, _⟩ => ⟨S16x256x256, .bf16⟩
  | .local _ .vmem, ⟨2, _⟩ => ⟨S16x256x256, .bf16⟩
  | .local _ .vmem, ⟨3, _⟩ => ⟨S16x256x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  { ofTc nBuf bufTy 1 49 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_610 : BitVec 32 := 0#32
  let c0_i32_608 : BitVec 32 := 0#32
  let c1_i32_609 : BitVec 32 := 1#32
  let v932 : BitVec 32 := Scalar.muli c0_i32_608 c1_i32_609
  let v933 : BitVec 32 := Scalar.addi c0_i32_610 v932
  v933.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_610 : BitVec 32 := 0#32
  let c1_i32_608 : BitVec 32 := 1#32
  let c1_i32_609 : BitVec 32 := 1#32
  let v932 : BitVec 32 := Scalar.muli c1_i32_608 c1_i32_609
  let v933 : BitVec 32 := Scalar.addi c0_i32_610 v932
  v933.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_610 : BitVec 32 := 0#32
  let c2_i32_608 : BitVec 32 := 2#32
  let c1_i32_609 : BitVec 32 := 1#32
  let v932 : BitVec 32 := Scalar.muli c2_i32_608 c1_i32_609
  let v933 : BitVec 32 := Scalar.addi c0_i32_610 v932
  v933.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_610 : BitVec 32 := 0#32
  let c3_i32_608 : BitVec 32 := 3#32
  let c1_i32_609 : BitVec 32 := 1#32
  let v932 : BitVec 32 := Scalar.muli c3_i32_608 c1_i32_609
  let v933 : BitVec 32 := Scalar.addi c0_i32_610 v932
  v933.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_610 : BitVec 32 := 0#32
  let c4_i32_608 : BitVec 32 := 4#32
  let c1_i32_609 : BitVec 32 := 1#32
  let v932 : BitVec 32 := Scalar.muli c4_i32_608 c1_i32_609
  let v933 : BitVec 32 := Scalar.addi c0_i32_610 v932
  v933.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_610 : BitVec 32 := 0#32
  let c5_i32_608 : BitVec 32 := 5#32
  let c1_i32_609 : BitVec 32 := 1#32
  let v932 : BitVec 32 := Scalar.muli c5_i32_608 c1_i32_609
  let v933 : BitVec 32 := Scalar.addi c0_i32_610 v932
  v933.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_610 : BitVec 32 := 0#32
  let c6_i32_608 : BitVec 32 := 6#32
  let c1_i32_609 : BitVec 32 := 1#32
  let v932 : BitVec 32 := Scalar.muli c6_i32_608 c1_i32_609
  let v933 : BitVec 32 := Scalar.addi c0_i32_610 v932
  v933.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_610 : BitVec 32 := 0#32
  let c7_i32_608 : BitVec 32 := 7#32
  let c1_i32_609 : BitVec 32 := 1#32
  let v932 : BitVec 32 := Scalar.muli c7_i32_608 c1_i32_609
  let v933 : BitVec 32 := Scalar.addi c0_i32_610 v932
  v933.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_610 : BitVec 32 := 0#32
  let c8_i32_608 : BitVec 32 := 8#32
  let c1_i32_609 : BitVec 32 := 1#32
  let v932 : BitVec 32 := Scalar.muli c8_i32_608 c1_i32_609
  let v933 : BitVec 32 := Scalar.addi c0_i32_610 v932
  v933.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_610 : BitVec 32 := 0#32
  let c9_i32_608 : BitVec 32 := 9#32
  let c1_i32_609 : BitVec 32 := 1#32
  let v932 : BitVec 32 := Scalar.muli c9_i32_608 c1_i32_609
  let v933 : BitVec 32 := Scalar.addi c0_i32_610 v932
  v933.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_610 : BitVec 32 := 0#32
  let c10_i32_608 : BitVec 32 := 10#32
  let c1_i32_609 : BitVec 32 := 1#32
  let v932 : BitVec 32 := Scalar.muli c10_i32_608 c1_i32_609
  let v933 : BitVec 32 := Scalar.addi c0_i32_610 v932
  v933.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_610 : BitVec 32 := 0#32
  let c11_i32_608 : BitVec 32 := 11#32
  let c1_i32_609 : BitVec 32 := 1#32
  let v932 : BitVec 32 := Scalar.muli c11_i32_608 c1_i32_609
  let v933 : BitVec 32 := Scalar.addi c0_i32_610 v932
  v933.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_610 : BitVec 32 := 0#32
  let c12_i32_608 : BitVec 32 := 12#32
  let c1_i32_609 : BitVec 32 := 1#32
  let v932 : BitVec 32 := Scalar.muli c12_i32_608 c1_i32_609
  let v933 : BitVec 32 := Scalar.addi c0_i32_610 v932
  v933.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_610 : BitVec 32 := 0#32
  let c13_i32_608 : BitVec 32 := 13#32
  let c1_i32_609 : BitVec 32 := 1#32
  let v932 : BitVec 32 := Scalar.muli c13_i32_608 c1_i32_609
  let v933 : BitVec 32 := Scalar.addi c0_i32_610 v932
  v933.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_610 : BitVec 32 := 0#32
  let c14_i32_608 : BitVec 32 := 14#32
  let c1_i32_609 : BitVec 32 := 1#32
  let v932 : BitVec 32 := Scalar.muli c14_i32_608 c1_i32_609
  let v933 : BitVec 32 := Scalar.addi c0_i32_610 v932
  v933.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_610 : BitVec 32 := 0#32
  let c15_i32_608 : BitVec 32 := 15#32
  let c1_i32_609 : BitVec 32 := 1#32
  let v932 : BitVec 32 := Scalar.muli c15_i32_608 c1_i32_609
  let v933 : BitVec 32 := Scalar.addi c0_i32_610 v932
  v933.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_17 : BitVec 32 := 256#32
  let v53 : BitVec 32 := Scalar.muli v2 c256_i32_17
  let c0_i32_18 : BitVec 32 := 0#32
  ![v53.toNat, 0]
def k0_off3 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v52 : BitVec 32 := Scalar.muli v2 c256_i32
  ![0, v52.toNat]
def k0_off4 (d0 : Dev nD) (c1_i32_20 : BitVec 32) : Fin 2 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v58 : BitVec 32 := Scalar.addi v2 c1_i32_20
  let c16_i32_21 : BitVec 32 := 16#32
  let v59 : BitVec 32 := Scalar.remsi v58 c16_i32_21
  let c256_i32_22 : BitVec 32 := 256#32
  let v60 : BitVec 32 := Scalar.muli v59 c256_i32_22
  let v61 : Index := Scalar.indexCast v60
  ![0, v61.toNat]
def k0_off5 (d0 : Dev nD) (c1_i32_20 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v58 : BitVec 32 := Scalar.addi v2 c1_i32_20
  let c16_i32_21 : BitVec 32 := 16#32
  let v59 : BitVec 32 := Scalar.remsi v58 c16_i32_21
  let v64 : Index := Scalar.indexCast v59
  let c0_23 : Index := 0#32
  let c0_24 : Index := 0#32
  ![v64.toNat, 0, 0]
def k0_off6 (d0 : Dev nD) (c1_i32_110 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_110
  let c16_i32_111 : BitVec 32 := 16#32
  let v209 : BitVec 32 := Scalar.remsi v208 c16_i32_111
  ![v209.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_114 : BitVec 32 := 0#32
  let c0_i32_115 : BitVec 32 := 0#32
  ![v2.toNat, 0, 0]
def k0_off8 (d0 : Dev nD) (c1_i32_110 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_110
  let c16_i32_111 : BitVec 32 := 16#32
  let v209 : BitVec 32 := Scalar.remsi v208 c16_i32_111
  let c0_i32_116 : BitVec 32 := 0#32
  let c0_i32_117 : BitVec 32 := 0#32
  ![v209.toNat, 0, 0]
def k0_dev17 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_110 : BitVec 32 := 1#32
  let v208 : BitVec 32 := Scalar.addi v2 c1_i32_110
  let c16_i32_111 : BitVec 32 := 16#32
  let v209 : BitVec 32 := Scalar.remsi v208 c16_i32_111
  let c1_i32_112 : BitVec 32 := 1#32
  let v210 : BitVec 32 := Scalar.muli v209 c1_i32_112
  let v211 : BitVec 32 := Scalar.addi c0_i32_113 v210
  v211.toNat
def k0_dev18 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_118 : BitVec 32 := 2#32
  let v220 : BitVec 32 := Scalar.addi v2 c2_i32_118
  let c16_i32_119 : BitVec 32 := 16#32
  let v221 : BitVec 32 := Scalar.remsi v220 c16_i32_119
  let c1_i32_120 : BitVec 32 := 1#32
  let v222 : BitVec 32 := Scalar.muli v221 c1_i32_120
  let v223 : BitVec 32 := Scalar.addi c0_i32_121 v222
  v223.toNat
def k0_dev19 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_126 : BitVec 32 := 3#32
  let v232 : BitVec 32 := Scalar.addi v2 c3_i32_126
  let c16_i32_127 : BitVec 32 := 16#32
  let v233 : BitVec 32 := Scalar.remsi v232 c16_i32_127
  let c1_i32_128 : BitVec 32 := 1#32
  let v234 : BitVec 32 := Scalar.muli v233 c1_i32_128
  let v235 : BitVec 32 := Scalar.addi c0_i32_129 v234
  v235.toNat
def k0_dev20 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_134 : BitVec 32 := 4#32
  let v244 : BitVec 32 := Scalar.addi v2 c4_i32_134
  let c16_i32_135 : BitVec 32 := 16#32
  let v245 : BitVec 32 := Scalar.remsi v244 c16_i32_135
  let c1_i32_136 : BitVec 32 := 1#32
  let v246 : BitVec 32 := Scalar.muli v245 c1_i32_136
  let v247 : BitVec 32 := Scalar.addi c0_i32_137 v246
  v247.toNat
def k0_dev21 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_142 : BitVec 32 := 5#32
  let v256 : BitVec 32 := Scalar.addi v2 c5_i32_142
  let c16_i32_143 : BitVec 32 := 16#32
  let v257 : BitVec 32 := Scalar.remsi v256 c16_i32_143
  let c1_i32_144 : BitVec 32 := 1#32
  let v258 : BitVec 32 := Scalar.muli v257 c1_i32_144
  let v259 : BitVec 32 := Scalar.addi c0_i32_145 v258
  v259.toNat
def k0_dev22 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_150 : BitVec 32 := 6#32
  let v268 : BitVec 32 := Scalar.addi v2 c6_i32_150
  let c16_i32_151 : BitVec 32 := 16#32
  let v269 : BitVec 32 := Scalar.remsi v268 c16_i32_151
  let c1_i32_152 : BitVec 32 := 1#32
  let v270 : BitVec 32 := Scalar.muli v269 c1_i32_152
  let v271 : BitVec 32 := Scalar.addi c0_i32_153 v270
  v271.toNat
def k0_dev23 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_158 : BitVec 32 := 7#32
  let v280 : BitVec 32 := Scalar.addi v2 c7_i32_158
  let c16_i32_159 : BitVec 32 := 16#32
  let v281 : BitVec 32 := Scalar.remsi v280 c16_i32_159
  let c1_i32_160 : BitVec 32 := 1#32
  let v282 : BitVec 32 := Scalar.muli v281 c1_i32_160
  let v283 : BitVec 32 := Scalar.addi c0_i32_161 v282
  v283.toNat
def k0_dev24 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_166 : BitVec 32 := 8#32
  let v292 : BitVec 32 := Scalar.addi v2 c8_i32_166
  let c16_i32_167 : BitVec 32 := 16#32
  let v293 : BitVec 32 := Scalar.remsi v292 c16_i32_167
  let c1_i32_168 : BitVec 32 := 1#32
  let v294 : BitVec 32 := Scalar.muli v293 c1_i32_168
  let v295 : BitVec 32 := Scalar.addi c0_i32_169 v294
  v295.toNat
def k0_dev25 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_174 : BitVec 32 := 9#32
  let v304 : BitVec 32 := Scalar.addi v2 c9_i32_174
  let c16_i32_175 : BitVec 32 := 16#32
  let v305 : BitVec 32 := Scalar.remsi v304 c16_i32_175
  let c1_i32_176 : BitVec 32 := 1#32
  let v306 : BitVec 32 := Scalar.muli v305 c1_i32_176
  let v307 : BitVec 32 := Scalar.addi c0_i32_177 v306
  v307.toNat
def k0_dev26 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_182 : BitVec 32 := 10#32
  let v316 : BitVec 32 := Scalar.addi v2 c10_i32_182
  let c16_i32_183 : BitVec 32 := 16#32
  let v317 : BitVec 32 := Scalar.remsi v316 c16_i32_183
  let c1_i32_184 : BitVec 32 := 1#32
  let v318 : BitVec 32 := Scalar.muli v317 c1_i32_184
  let v319 : BitVec 32 := Scalar.addi c0_i32_185 v318
  v319.toNat
def k0_dev27 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_190 : BitVec 32 := 11#32
  let v328 : BitVec 32 := Scalar.addi v2 c11_i32_190
  let c16_i32_191 : BitVec 32 := 16#32
  let v329 : BitVec 32 := Scalar.remsi v328 c16_i32_191
  let c1_i32_192 : BitVec 32 := 1#32
  let v330 : BitVec 32 := Scalar.muli v329 c1_i32_192
  let v331 : BitVec 32 := Scalar.addi c0_i32_193 v330
  v331.toNat
def k0_dev28 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_198 : BitVec 32 := 12#32
  let v340 : BitVec 32 := Scalar.addi v2 c12_i32_198
  let c16_i32_199 : BitVec 32 := 16#32
  let v341 : BitVec 32 := Scalar.remsi v340 c16_i32_199
  let c1_i32_200 : BitVec 32 := 1#32
  let v342 : BitVec 32 := Scalar.muli v341 c1_i32_200
  let v343 : BitVec 32 := Scalar.addi c0_i32_201 v342
  v343.toNat
def k0_dev29 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_206 : BitVec 32 := 13#32
  let v352 : BitVec 32 := Scalar.addi v2 c13_i32_206
  let c16_i32_207 : BitVec 32 := 16#32
  let v353 : BitVec 32 := Scalar.remsi v352 c16_i32_207
  let c1_i32_208 : BitVec 32 := 1#32
  let v354 : BitVec 32 := Scalar.muli v353 c1_i32_208
  let v355 : BitVec 32 := Scalar.addi c0_i32_209 v354
  v355.toNat
def k0_dev30 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_214 : BitVec 32 := 14#32
  let v364 : BitVec 32 := Scalar.addi v2 c14_i32_214
  let c16_i32_215 : BitVec 32 := 16#32
  let v365 : BitVec 32 := Scalar.remsi v364 c16_i32_215
  let c1_i32_216 : BitVec 32 := 1#32
  let v366 : BitVec 32 := Scalar.muli v365 c1_i32_216
  let v367 : BitVec 32 := Scalar.addi c0_i32_217 v366
  v367.toNat
def k0_dev31 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_222 : BitVec 32 := 15#32
  let v376 : BitVec 32 := Scalar.addi v2 c15_i32_222
  let c16_i32_223 : BitVec 32 := 16#32
  let v377 : BitVec 32 := Scalar.remsi v376 c16_i32_223
  let c1_i32_224 : BitVec 32 := 1#32
  let v378 : BitVec 32 := Scalar.muli v377 c1_i32_224
  let v379 : BitVec 32 := Scalar.addi c0_i32_225 v378
  v379.toNat
def k0_off9 (d0 : Dev nD) (c1_i32_230 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v388 : BitVec 32 := Scalar.subi v2 c1_i32_230
  let c16_i32_231 : BitVec 32 := 16#32
  let v389 : BitVec 32 := Scalar.addi v388 c16_i32_231
  let c16_i32_232 : BitVec 32 := 16#32
  let v390 : BitVec 32 := Scalar.remsi v389 c16_i32_232
  ![v390.toNat]
def k0_off10 (d0 : Dev nD) (c1_i32_230 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v388 : BitVec 32 := Scalar.subi v2 c1_i32_230
  let c16_i32_231 : BitVec 32 := 16#32
  let v389 : BitVec 32 := Scalar.addi v388 c16_i32_231
  let c16_i32_232 : BitVec 32 := 16#32
  let v390 : BitVec 32 := Scalar.remsi v389 c16_i32_232
  let c0_i32_235 : BitVec 32 := 0#32
  let c0_i32_236 : BitVec 32 := 0#32
  ![v390.toNat, 0, 0]
def k0_off11 (d0 : Dev nD) (c1_i32_230 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v388 : BitVec 32 := Scalar.subi v2 c1_i32_230
  let c16_i32_231 : BitVec 32 := 16#32
  let v389 : BitVec 32 := Scalar.addi v388 c16_i32_231
  let c16_i32_232 : BitVec 32 := 16#32
  let v390 : BitVec 32 := Scalar.remsi v389 c16_i32_232
  let v399 : Index := Scalar.indexCast v390
  let c0_239 : Index := 0#32
  let c0_240 : Index := 0#32
  ![v399.toNat, 0, 0]
def k0_off12 (d0 : Dev nD) (c1_i32_230 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v388 : BitVec 32 := Scalar.subi v2 c1_i32_230
  let c16_i32_231 : BitVec 32 := 16#32
  let v389 : BitVec 32 := Scalar.addi v388 c16_i32_231
  let c16_i32_232 : BitVec 32 := 16#32
  let v390 : BitVec 32 := Scalar.remsi v389 c16_i32_232
  let c256_i32_243 : BitVec 32 := 256#32
  let v407 : BitVec 32 := Scalar.muli v390 c256_i32_243
  let c0_i32_244 : BitVec 32 := 0#32
  ![v407.toNat, 0]

class Facts₀ : Prop where
  hamt_1 : (1#32 : BitVec 32).msb = false
  squeezes_S1_S_ : S1.Squeezes S_
  h_S256x256 : 0 < S256x256.numel
  bitsLt_bf16_f32 : FTy.bits .bf16 < FTy.bits .f32
  h_S1x256x256 : 0 < S1x256x256.numel
  shapeCasts_S1x256x256_S256x256 : S1x256x256.ShapeCasts S256x256
  shapeCasts_S256x256_S1x256x256 : S256x256.ShapeCasts S1x256x256
  hamt_15 : (15#32 : BitVec 32).msb = false
  squeezes_S1x256x256_S256x256 : S1x256x256.Squeezes S256x256
  hcc0_scratch4 : 0 + S_.numel ≤ 49
  hcc0_scratch5 : 1 + S16.numel ≤ 49
  hcc0_scratch6 : 17 + S16.numel ≤ 49
  hcc0_scratch7 : 33 + S16.numel ≤ 49
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_off1_inb : ∀ d0 : Dev nD, ∀ a, (k0_off1 d0) a + S1.size a ≤ S16.size a
  k0_off2_inb : ∀ d0 : Dev nD, ∀ a, (k0_off2 d0) a + S256x256.size a ≤ S4096x256.size a
  k0_off3_inb : ∀ d0 : Dev nD, ∀ a, (k0_off3 d0) a + S256x256.size a ≤ S256x4096.size a
  k0_off4_inb : ∀ d0 : Dev nD, ∀ (r : Fin 15), ∀ a, (k0_off4 d0 (BitVec.ofNat 32 (1 + r.val))) a + S256x256.size a ≤ S256x4096.size a
  k0_off5_inb : ∀ d0 : Dev nD, ∀ (r : Fin 15), ∀ a, (k0_off5 d0 (BitVec.ofNat 32 (1 + r.val))) a + S1x256x256.size a ≤ S16x256x256.size a
  k0_off5_packedbf16 : ∀ d0 : Dev nD, ∀ (r : Fin 15), (Rect.unit (s := S16x256x256) (k0_off5 d0 (BitVec.ofNat 32 (1 + r.val))) S1x256x256.size (k0_off5_inb d0 r)).PackedRows (EltTy.packing .bf16)
  k0_off6_inb : ∀ d0 : Dev nD, ∀ (r : Fin 15), ∀ a, (k0_off6 d0 (BitVec.ofNat 32 (1 + r.val))) a + S1.size a ≤ S16.size a
  k0_off7_inb : ∀ d0 : Dev nD, ∀ a, (k0_off7 d0) a + S1x256x256.size a ≤ S16x256x256.size a
  k0_off8_inb : ∀ d0 : Dev nD, ∀ (r : Fin 15), ∀ a, (k0_off8 d0 (BitVec.ofNat 32 (1 + r.val))) a + S1x256x256.size a ≤ S16x256x256.size a
  k0_off8_wordsbf16 : ∀ d0 : Dev nD, ∀ (r : Fin 15), (Rect.unit (s := S16x256x256) (k0_off8 d0 (BitVec.ofNat 32 (1 + r.val))) S1x256x256.size (k0_off8_inb d0 r)).WholeWords (EltTy.packing .bf16)
  k0_off7_wordsbf16 : ∀ d0 : Dev nD, (Rect.unit (s := S16x256x256) (k0_off7 d0) S1x256x256.size (k0_off7_inb d0)).WholeWords (EltTy.packing .bf16)
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off9_inb : ∀ d0 : Dev nD, ∀ (r : Fin 15), ∀ a, (k0_off9 d0 (BitVec.ofNat 32 (1 + r.val))) a + S1.size a ≤ S16.size a
  k0_off10_inb : ∀ d0 : Dev nD, ∀ (r : Fin 15), ∀ a, (k0_off10 d0 (BitVec.ofNat 32 (1 + r.val))) a + S1x256x256.size a ≤ S16x256x256.size a
  k0_off10_wordsbf16 : ∀ d0 : Dev nD, ∀ (r : Fin 15), (Rect.unit (s := S16x256x256) (k0_off10 d0 (BitVec.ofNat 32 (1 + r.val))) S1x256x256.size (k0_off10_inb d0 r)).WholeWords (EltTy.packing .bf16)
  k0_off11_inb : ∀ d0 : Dev nD, ∀ (r : Fin 15), ∀ a, (k0_off11 d0 (BitVec.ofNat 32 (1 + r.val))) a + S1x256x256.size a ≤ S16x256x256.size a
  k0_off12_inb : ∀ d0 : Dev nD, ∀ (r : Fin 15), ∀ a, (k0_off12 d0 (BitVec.ofNat 32 (1 + r.val))) a + S256x256.size a ≤ S4096x256.size a

variable [Facts₀]

abbrev cc0_scratch4 : DmaSems sig S_ := SemArray.consecutive 0 S_ hcc0_scratch4
abbrev cc0_scratch5 : DmaSems sig S16 := SemArray.consecutive 1 S16 hcc0_scratch5
abbrev cc0_scratch6 : DmaSems sig S16 := SemArray.consecutive 17 S16 hcc0_scratch6
abbrev cc0_scratch7 : DmaSems sig S16 := SemArray.consecutive 33 S16 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x4096 : Shape := ⟨2, ![4096, 4096]⟩

abbrev nBuf : Space → Nat
  | .hbm => 1
  | .vmem => 0
  | .smem => 0
  | _ => 0

abbrev bufTy : (tb : Table) → Fin (tcTables nBuf tb) → BufTy
  | .hbm, ⟨0, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Slots.lean ====
/-
  The pieces of the four big buffers that the all-to-all moves one at a time.

  The three scratch buffers of shape 16 × 256 × 256 are used slot by slot: slot `s` is the 256 × 256 matrix
  at first coordinate `s`. The result array of shape 4096 × 256 is written row block by row block: block `s` is
  rows `256·s … 256·s + 255`. The argument array of shape 256 × 4096 is read column block by column block.
  Each of the three semaphore arrays has one semaphore per slot.
-/
import proofs.«900406_g7700000000000407_dist_a2a_v7x_i16_i_m256_n256_bf16_1_alg».proof.Proof.Gen.KernelIdeal
import Idealize.ShloMosaic.Lib.Pipeline.Kit

noncomputable section

namespace Cert.KernelIdealProof

open Cert.KernelIdeal Cert.KernelIdeal.Gen
open Idealize.ShloMosaic
open Idealize.ShloMosaic.TcCoe

/-! ## Slots -/

theorem slot_inb (s : Fin 16) : ∀ a, (![s.val, 0, 0] : Fin 3 → Nat) a + S1x256x256.size a ≤ S16x256x256.size a := by
  intro a; have := s.isLt; fin_cases a <;> simp [Shape.size] <;> omega

/-- Slot `s` of a 16 × 256 × 256 scratch buffer, as a 256 × 256 matrix. -/
abbrev slotM {e : EltTy} (b : Memref sig .tc .vmem S16x256x256 e) (s : Fin 16) : Memref sig .tc .vmem S256x256 e :=
  (b.slice (Rect.unit (s := S16x256x256) ![s.val, 0, 0] S1x256x256.size (slot_inb s)) (fun _ => rfl)).squeeze S256x256 squeezes_S1x256x256_S256x256

theorem rows_inb (s : Fin 16) : ∀ a, (![256 * s.val, 0] : Fin 2 → Nat) a + S256x256.size a ≤ S4096x256.size a := by
  intro a; have := s.isLt; fin_cases a <;> simp [Shape.size] <;> omega

/-- Row block `s` of the 4096 × 256 result array. -/
abbrev rowsM (b : Memref sig .tc .hbm S4096x256 .f32) (s : Fin 16) : Memref sig .tc .hbm S256x256 .f32 :=
  b.slice (Rect.unit (s := S4096x256) ![256 * s.val, 0] S256x256.size (rows_inb s)) (fun _ => rfl)

theorem cols_inb (s : Fin 16) : ∀ a, (![0, 256 * s.val] : Fin 2 → Nat) a + S256x256.size a ≤ S256x4096.size a := by
  intro a; have := s.isLt; fin_cases a <;> simp [Shape.size] <;> omega

/-- Column block `s` of a 256 × 4096 array. -/
abbrev colsM {sp : Space} (b : Memref sig .tc sp S256x4096 .f32) (s : Fin 16) : Memref sig .tc sp S256x256 .f32 :=
  b.slice (Rect.unit (s := S256x4096) ![0, 256 * s.val] S256x256.size (cols_inb s)) (fun _ => rfl)

theorem sem_inb (s : Fin 16) : ∀ a, (![s.val] : Fin 1 → Nat) a + S1.size a ≤ S16.size a := by
  intro a; have := s.isLt; fin_cases a; simp [Shape.size]; omega

/-- Semaphore `s` of an array of sixteen. -/
abbrev semAt (a : DmaSems sig S16) (s : Fin 16) : DmaSem sig :=
  ((a.slice (Rect.unit (s := S16) ![s.val] S1.size (sem_inb s))).squeeze S_ squeezes_S1_S_).sem

end Cert.KernelIdealProof

end
-- ==== Proof.Spec.lean ====
/-
  The all-to-all as one function of the devices' argument blocks.

  Sixteen devices each hold a block `X s : 256 × 4096` (rows `256·s … 256·s+255` of a `4096 × 4096` array).
  Device `c` ends with the `4096 × 256` array whose row `r` is taken from device `r / 256`: that device's row
  `r % 256`, columns `256·c … 256·c+255`. This is column block `c` of the whole array.
-/
import proofs.«900406_g7700000000000407_dist_a2a_v7x_i16_i_m256_n256_bf16_1_alg».proof.KernelIdeal
import Idealize.ShloMosaic.Lib.ValueIdx
import Idealize.ShloMosaic.Lib.Layout

namespace Cert.A2A

open Idealize.ShloMosaic Idealize.ShloMosaic.ValueIdx

/-- Row `r` of a device's result comes from the device holding row block `r / 256`. -/
def srcDev (r : Fin 4096) : Fin 16 := ⟨r.val / 256, by have := r.isLt; omega⟩
/-- … from that device's row `r % 256`. -/
def srcRow (r : Fin 4096) : Fin 256 := ⟨r.val % 256, Nat.mod_lt _ (by decide)⟩
/-- Column `l` of device `c`'s result is column `256·c + l` of a block. -/
def srcCol (c : Fin 16) (l : Fin 256) : Fin 4096 := ⟨256 * c.val + l.val, by have := c.isLt; have := l.isLt; omega⟩

/-- What device `c` ends with, from every device's argument block. -/
def gathered {α : Type} (X : Fin 16 → ((⟨2, ![256, 4096]⟩ : Shape).Idx → α)) (c : Fin 16) : (⟨2, ![4096, 256]⟩ : Shape).Idx → α :=
  fun i => X (srcDev (i 0)) (ix2 (srcRow (i 0)) (srcCol c (i 1)))

/-- When the blocks are the row blocks of one whole array, device `c`'s result is its column block `c`. -/
theorem gathered_block {α : Type} (v : (⟨2, ![4096, 4096]⟩ : Shape).Idx → α) (c : Fin 16) :
    gathered (fun s => Layout.block ⟨2, ![256, 4096]⟩ ⟨2, ![4096, 4096]⟩ 0 16 s v) c
      = Layout.block ⟨2, ![4096, 256]⟩ ⟨2, ![4096, 4096]⟩ 1 16 c v := by
  funext i
  show v _ = v _
  congr 1
  funext b
  apply Fin.ext
  match b with
  | ⟨0, _⟩ =>
    show (srcDev (i 0)).val * 256 + (srcRow (i 0)).val = (i 0).val
    show (i 0).val / 256 * 256 + (i 0).val % 256 = (i 0).val
    exact Nat.div_add_mod' _ _
  | ⟨1, _⟩ =>
    show 256 * c.val + (i 1).val = c.val * 256 + (i 1).val
    omega

end Cert.A2A
-- ==== Proof.LibSlots.lean ====
/-
  The big buffers of the all-to-all, held piece by piece.

  A buffer of shape 16 × 256 × 256 is the disjoint union of its sixteen slots (first coordinate fixed); the
  4096 × 256 result array is the disjoint union of its sixteen blocks of 256 rows. Holding such a buffer whole is
  therefore the same as holding every piece, at the same contents; and pieces held at contents of their own join
  to the buffer whole, at contents that agree with each piece's on that piece. The facts about the index sets are
  stated once for the rectangles, then carried to any memref of the shape along its placement.
-/
import proofs.«900406_g7700000000000407_dist_a2a_v7x_i16_i_m256_n256_bf16_1_alg».proof.Proof.Slots
import proofs.«900406_g7700000000000407_dist_a2a_v7x_i16_i_m256_n256_bf16_1_alg».proof.Proof.Spec
import Idealize.ShloMosaic.Lib.Ring

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The rectangles -/

/-- The rectangle of slot `s` in the 16 × 256 × 256 shape: first coordinate `s`, the other two whole. -/
abbrev slotRect (s : Fin 16) : Rect S16x256x256 := Rect.unit (s := S16x256x256) ![s.val, 0, 0] S1x256x256.size (slot_inb s)
/-- The rectangle of row block `s` in the 4096 × 256 shape: rows `256·s … 256·s + 255`, every column. -/
abbrev rowsRect (s : Fin 16) : Rect S4096x256 := Rect.unit (s := S4096x256) ![256 * s.val, 0] S256x256.size (rows_inb s)

/-- An index lies in slot `s` exactly when its first coordinate is `s`. -/
theorem mem_slotRect {s : Fin 16} {i : S16x256x256.Idx} : i ∈ (slotRect s).set ↔ (i 0).val = s.val := by
  rw [Rect.mem_set_unit]
  constructor
  · intro h
    have := h 0
    simp [Shape.size] at this
    omega
  · intro h a
    have ha := (i a).isLt
    fin_cases a <;> simp [Shape.size] at ha ⊢ <;> omega

/-- An index lies in row block `s` exactly when its row, divided by 256, is `s`. -/
theorem mem_rowsRect {s : Fin 16} {i : S4096x256.Idx} : i ∈ (rowsRect s).set ↔ (i 0).val / 256 = s.val := by
  rw [Rect.mem_set_unit]
  constructor
  · intro h
    have := h 0
    simp [Shape.size] at this
    omega
  · intro h a
    have ha := (i a).isLt
    fin_cases a <;> simp [Shape.size] at ha ⊢ <;> omega

theorem slotRect_disjoint (s s' : Fin 16) (h : s ≠ s') : Disjoint (slotRect s).set (slotRect s').set :=
  Ring.lead_disjoint (s := S16x256x256) (NB := 16) 0 1 (fun s : Fin 16 => ![s.val, 0, 0]) S1x256x256.size (fun s => slot_inb s)
    (fun b => by simp) rfl s s' h

theorem slotRect_cover : Finset.univ.biUnion (fun s : Fin 16 => (slotRect s).set) = Finset.univ :=
  Ring.lead_cover (s := S16x256x256) (NB := 16) 0 1 (fun s : Fin 16 => ![s.val, 0, 0]) S1x256x256.size (fun s => slot_inb s)
    (fun b => by simp) (fun b a ha => by fin_cases a <;> simp at ha ⊢) rfl (fun a ha => by fin_cases a <;> simp [Shape.size] at ha ⊢) (by decide)

theorem rowsRect_disjoint (s s' : Fin 16) (h : s ≠ s') : Disjoint (rowsRect s).set (rowsRect s').set :=
  Ring.lead_disjoint (s := S4096x256) (NB := 16) 0 256 (fun s : Fin 16 => ![256 * s.val, 0]) S256x256.size (fun s => rows_inb s)
    (fun b => by simp) rfl s s' h

theorem rowsRect_cover : Finset.univ.biUnion (fun s : Fin 16 => (rowsRect s).set) = Finset.univ :=
  Ring.lead_cover (s := S4096x256) (NB := 16) 0 256 (fun s : Fin 16 => ![256 * s.val, 0]) S256x256.size (fun s => rows_inb s)
    (fun b => by simp) (fun b a ha => by fin_cases a <;> simp at ha ⊢) rfl (fun a ha => by fin_cases a <;> simp [Shape.size] at ha ⊢) (by decide)

/-! ## The element sets of the pieces of a memref -/

/-- The buffer elements under slot `s` of a memref: the slot's rectangle, placed by the memref. -/
theorem slot_set {e : EltTy} (b : Memref sig .tc .vmem S16x256x256 e) (s : Fin 16) :
    (slotM b s).view.set = (slotRect s).set.map b.view.emb := by
  show ((b.view.slice (slotRect s)).reshape S256x256 _).set = _
  rw [View.set_reshape, View.set_slice]

/-- The buffer elements under row block `s` of a memref. -/
theorem rows_set (b : Memref sig .tc .hbm S4096x256 .f32) (s : Fin 16) :
    (rowsM b s).view.set = (rowsRect s).set.map b.view.emb := by
  show (b.view.slice (rowsRect s)).set = _
  rw [View.set_slice]

/-- The slots' element sets, as one family of subsets of the memref's buffer. -/
def slotSet {e : EltTy} (b : Memref sig .tc .vmem S16x256x256 e) (s : Fin 16) : Finset b.view.ty.Idx := (slotM b s).view.set
/-- The row blocks' element sets, likewise. -/
def rowsSet (b : Memref sig .tc .hbm S4096x256 .f32) (s : Fin 16) : Finset b.view.ty.Idx := (rowsM b s).view.set

theorem slotSet_eq {e : EltTy} (b : Memref sig .tc .vmem S16x256x256 e) (s : Fin 16) :
    slotSet b s = (slotRect s).set.map b.view.emb := slot_set b s
theorem rowsSet_eq (b : Memref sig .tc .hbm S4096x256 .f32) (s : Fin 16) :
    rowsSet b s = (rowsRect s).set.map b.view.emb := rows_set b s

/-- Different slots share no element. -/
theorem slotSet_disjoint {e : EltTy} (b : Memref sig .tc .vmem S16x256x256 e) (s s' : Fin 16) (h : s ≠ s') :
    Disjoint (slotSet b s) (slotSet b s') := by
  rw [slotSet_eq, slotSet_eq]
  exact (Finset.disjoint_map _).mpr (slotRect_disjoint s s' h)

/-- The sixteen slots are the whole memref. -/
theorem slotSet_cover {e : EltTy} (b : Memref sig .tc .vmem S16x256x256 e) :
    Finset.univ.biUnion (slotSet b) = b.view.set := by
  ext i
  constructor
  · intro hi
    obtain ⟨s, -, hs⟩ := Finset.mem_biUnion.mp hi
    rw [slotSet_eq] at hs
    obtain ⟨x, -, rfl⟩ := Finset.mem_map.mp hs
    exact View.emb_mem_set _ x
  · intro hi
    obtain ⟨x, -, rfl⟩ := Finset.mem_map.mp (show i ∈ Finset.univ.map b.view.emb from hi)
    have hx : x ∈ Finset.univ.biUnion (fun s : Fin 16 => (slotRect s).set) := by rw [slotRect_cover]; exact Finset.mem_univ _
    obtain ⟨s, -, hs⟩ := Finset.mem_biUnion.mp hx
    exact Finset.mem_biUnion.mpr ⟨s, Finset.mem_univ _, by rw [slotSet_eq]; exact Finset.mem_map_of_mem _ hs⟩

/-- Different row blocks share no element. -/
theorem rowsSet_disjoint (b : Memref sig .tc .hbm S4096x256 .f32) (s s' : Fin 16) (h : s ≠ s') :
    Disjoint (rowsSet b s) (rowsSet b s') := by
  rw [rowsSet_eq, rowsSet_eq]
  exact (Finset.disjoint_map _).mpr (rowsRect_disjoint s s' h)

/-- The sixteen row blocks are the whole memref. -/
theorem rowsSet_cover (b : Memref sig .tc .hbm S4096x256 .f32) :
    Finset.univ.biUnion (rowsSet b) = b.view.set := by
  ext i
  constructor
  · intro hi
    obtain ⟨s, -, hs⟩ := Finset.mem_biUnion.mp hi
    rw [rowsSet_eq] at hs
    obtain ⟨x, -, rfl⟩ := Finset.mem_map.mp hs
    exact View.emb_mem_set _ x
  · intro hi
    obtain ⟨x, -, rfl⟩ := Finset.mem_map.mp (show i ∈ Finset.univ.map b.view.emb from hi)
    have hx : x ∈ Finset.univ.biUnion (fun s : Fin 16 => (rowsRect s).set) := by rw [rowsRect_cover]; exact Finset.mem_univ _
    obtain ⟨s, -, hs⟩ := Finset.mem_biUnion.mp hx
    exact Finset.mem_biUnion.mpr ⟨s, Finset.mem_univ _, by rw [rowsSet_eq]; exact Finset.mem_map_of_mem _ hs⟩

section BI

variable {Ix : Type} [DecidableEq Ix] {Val : EltTy → Type} {Name : Type} [DecidableEq Name] {UU : Type} [URA UU] {Lvl : Type}

local notation "𝕄" => MT nD τ sig Ix Val Name UU Lvl

/-- Pieces of one buffer, pairwise disjoint, each held at contents of its own, join to their union held at some
    contents (`f₀` names contents for the case of no piece at all). -/
theorem blocks_join_ex₀ {ℓ : Loc nD τ sig} {B : Type} [Fintype B] [DecidableEq B] (K : B → Finset (Idx ℓ))
    (hd : ∀ b b', b ≠ b' → Disjoint (K b) (K b')) (q : PosShare TreeShare) (f₀ : Buf Val ℓ) :
    bigSep Finset.univ (fun b => iprop(∃ f, ℓ ↦[K b]{q} f)) ⊢ (iprop(∃ g, ℓ ↦[Finset.univ.biUnion K]{q} g) : sProp 𝕄) := by
  have : Nonempty (Buf Val ℓ) := ⟨f₀⟩
  refine (Idealize.SL.BI.bigSep_exists_pi Finset.univ (fun b (f : Buf Val ℓ) => (ℓ ↦[K b]{q} f : sProp 𝕄))).trans ?_
  iintro ⟨%fs, H⟩
  ihave H' := (pointsTo_biUnion_join Finset.univ K fs f₀ (fun b _ b' _ h => hd b b' h)) $$ H
  icases H' with ⟨%g, -, H'⟩
  iexists g; iexact H'

/-- The same with no contents named in advance: one piece's contents serve. -/
theorem blocks_join_ex {ℓ : Loc nD τ sig} {B : Type} [Fintype B] [DecidableEq B] (K : B → Finset (Idx ℓ))
    (hd : ∀ b b', b ≠ b' → Disjoint (K b) (K b')) (q : PosShare TreeShare) (b₀ : B) :
    bigSep Finset.univ (fun b => iprop(∃ f, ℓ ↦[K b]{q} f)) ⊢ (iprop(∃ g, ℓ ↦[Finset.univ.biUnion K]{q} g) : sProp 𝕄) := by
  have e : bigSep Finset.univ (fun b => iprop(∃ f, ℓ ↦[K b]{q} f))
      = (iprop((∃ f, ℓ ↦[K b₀]{q} f) ∗ bigSep (Finset.univ.erase b₀) fun b => iprop(∃ f, ℓ ↦[K b]{q} f)) : sProp 𝕄) :=
    bigSep_univ_split b₀
  rw [e]
  iintro ⟨⟨%f0, H0⟩, Hr⟩
  iapply (blocks_join_ex₀ K hd q f0)
  rw [e]
  isplitl [H0]
  · iexists f0; iexact H0
  · iexact Hr

/-! ## A memref held whole is held piece by piece -/

/-- A 16 × 256 × 256 memref's elements, held at `f`, are its sixteen slots, each held at `f`. -/
theorem slots_eq {e : EltTy} (b : Memref sig .tc .vmem S16x256x256 e) (c : Dev nD) (q : PosShare TreeShare)
    (f : Buf Val (b.view.loc (c : Thread nD τ))) :
    (b.view.loc (c : Thread nD τ) ↦[b.view.set]{q} f : sProp 𝕄)
      = bigSep Finset.univ fun s : Fin 16 => ((slotM b s).view.loc (c : Thread nD τ) ↦[(slotM b s).view.set]{q} f) := by
  have h1 : (b.view.loc (c : Thread nD τ) ↦[b.view.set]{q} f : sProp 𝕄)
      = (b.view.loc (c : Thread nD τ) ↦[Finset.univ.biUnion (slotSet b)]{q} f) := by rw [slotSet_cover b]
  have h2 := pointsTo_biUnion (Ix := Ix) (Name := Name) (U := UU) (Lvl := Lvl) (q := q) (f := f) Finset.univ (slotSet b)
    (fun s _ s' _ h => slotSet_disjoint b s s' h)
  refine h1.trans (h2.trans ?_)
  refine bigSep_congr fun s _ => ?_
  rfl

/-- A 4096 × 256 memref's elements, held at `f`, are its sixteen row blocks, each held at `f`. -/
theorem rows_eq (b : Memref sig .tc .hbm S4096x256 .f32) (c : Dev nD) (q : PosShare TreeShare)
    (f : Buf Val (b.view.loc (c : Thread nD τ))) :
    (b.view.loc (c : Thread nD τ) ↦[b.view.set]{q} f : sProp 𝕄)
      = bigSep Finset.univ fun s : Fin 16 => ((rowsM b s).view.loc (c : Thread nD τ) ↦[(rowsM b s).view.set]{q} f) := by
  have h1 : (b.view.loc (c : Thread nD τ) ↦[b.view.set]{q} f : sProp 𝕄)
      = (b.view.loc (c : Thread nD τ) ↦[Finset.univ.biUnion (rowsSet b)]{q} f) := by rw [rowsSet_cover b]
  have h2 := pointsTo_biUnion (Ix := Ix) (Name := Name) (U := UU) (Lvl := Lvl) (q := q) (f := f) Finset.univ (rowsSet b)
    (fun s _ s' _ h => rowsSet_disjoint b s s' h)
  refine h1.trans (h2.trans ?_)
  refine bigSep_congr fun s _ => ?_
  rfl

/-- The slots, each held at contents of its own, join to the memref's elements held at some contents. -/
theorem slots_join_ex {e : EltTy} (b : Memref sig .tc .vmem S16x256x256 e) (c : Dev nD) (q : PosShare TreeShare) :
    bigSep Finset.univ (fun s : Fin 16 => iprop(∃ f, (slotM b s).view.loc (c : Thread nD τ) ↦[(slotM b s).view.set]{q} f))
      ⊢ (iprop(∃ f, b.view.loc (c : Thread nD τ) ↦[b.view.set]{q} f) : sProp 𝕄) := by
  have h := blocks_join_ex (Ix := Ix) (Val := Val) (Name := Name) (UU := UU) (Lvl := Lvl)
    (ℓ := b.view.loc (c : Thread nD τ)) (slotSet b) (slotSet_disjoint b) q (0 : Fin 16)
  rw [slotSet_cover b] at h
  exact (Entails.of_eq (bigSep_congr fun s _ => rfl)).trans h

/-- The row blocks, each held at contents of its own, join to the memref's elements held at some contents. -/
theorem rows_join_ex (b : Memref sig .tc .hbm S4096x256 .f32) (c : Dev nD) (q : PosShare TreeShare) :
    bigSep Finset.univ (fun s : Fin 16 => iprop(∃ f, (rowsM b s).view.loc (c : Thread nD τ) ↦[(rowsM b s).view.set]{q} f))
      ⊢ (iprop(∃ f, b.view.loc (c : Thread nD τ) ↦[b.view.set]{q} f) : sProp 𝕄) := by
  have h := blocks_join_ex (Ix := Ix) (Val := Val) (Name := Name) (UU := UU) (Lvl := Lvl)
    (ℓ := b.view.loc (c : Thread nD τ)) (rowsSet b) (rowsSet_disjoint b) q (0 : Fin 16)
  rw [rowsSet_cover b] at h
  exact (Entails.of_eq (bigSep_congr fun s _ => rfl)).trans h

/-- The row blocks, block `s` held at `Fs s`, are the memref's elements held at any contents that agree with
    `Fs s` on block `s`, for every `s`. -/
theorem rows_join_named (b : Memref sig .tc .hbm S4096x256 .f32) (c : Dev nD) (q : PosShare TreeShare)
    (Fs : Fin 16 → Buf Val (b.view.loc (c : Thread nD τ))) (G : Buf Val (b.view.loc (c : Thread nD τ)))
    (hG : ∀ s, ∀ i ∈ (rowsM b s).view.set, G i = Fs s i) :
    (bigSep Finset.univ (fun s : Fin 16 => ((rowsM b s).view.loc (c : Thread nD τ) ↦[(rowsM b s).view.set]{q} Fs s)) : sProp 𝕄)
      = (b.view.loc (c : Thread nD τ) ↦[b.view.set]{q} G) := by
  rw [rows_eq b c q G]
  exact bigSep_congr fun s _ => (pointsTo_congr (hG s)).symm

/-- The slots likewise. -/
theorem slots_join_named {e : EltTy} (b : Memref sig .tc .vmem S16x256x256 e) (c : Dev nD) (q : PosShare TreeShare)
    (Fs : Fin 16 → Buf Val (b.view.loc (c : Thread nD τ))) (G : Buf Val (b.view.loc (c : Thread nD τ)))
    (hG : ∀ s, ∀ i ∈ (slotM b s).view.set, G i = Fs s i) :
    (bigSep Finset.univ (fun s : Fin 16 => ((slotM b s).view.loc (c : Thread nD τ) ↦[(slotM b s).view.set]{q} Fs s)) : sProp 𝕄)
      = (b.view.loc (c : Thread nD τ) ↦[b.view.set]{q} G) := by
  rw [slots_eq b c q G]
  exact bigSep_congr fun s _ => (pointsTo_congr (hG s)).symm

/-! ## The same for a memref that is a whole buffer

`hb` says the memref covers its buffer (for `Memref.whole r` it is `View.set_whole r`); the buffer whole is then
the pieces, and back. -/

/-- A buffer held whole is held slot by slot, at the same contents. -/
theorem slots_split {e : EltTy} (b : Memref sig .tc .vmem S16x256x256 e) (hb : b.view.set = Finset.univ) (c : Dev nD)
    (q : PosShare TreeShare) (f : Buf Val (b.view.loc (c : Thread nD τ))) :
    (b.view.loc (c : Thread nD τ) ↦{q} f : sProp 𝕄)
      ⊢ bigSep Finset.univ fun s : Fin 16 => ((slotM b s).view.loc (c : Thread nD τ) ↦[(slotM b s).view.set]{q} f) := by
  have h := slots_eq (Ix := Ix) (Name := Name) (UU := UU) (Lvl := Lvl) b c q f
  rw [hb] at h
  exact Entails.of_eq h

/-- The slots, each at contents of its own, join to the buffer held whole at some contents. -/
theorem slots_join {e : EltTy} (b : Memref sig .tc .vmem S16x256x256 e) (hb : b.view.set = Finset.univ) (c : Dev nD)
    (q : PosShare TreeShare) :
    bigSep Finset.univ (fun s : Fin 16 => iprop(∃ f, (slotM b s).view.loc (c : Thread nD τ) ↦[(slotM b s).view.set]{q} f))
      ⊢ (iprop(∃ f, b.view.loc (c : Thread nD τ) ↦{q} f) : sProp 𝕄) := by
  have h := slots_join_ex (Ix := Ix) (Val := Val) (Name := Name) (UU := UU) (Lvl := Lvl) b c q
  rw [hb] at h
  exact h

/-- The slots, slot `s` at `Fs s`, join to the buffer held whole at contents that agree with `Fs s` on slot `s`. -/
theorem slots_join_at {e : EltTy} (b : Memref sig .tc .vmem S16x256x256 e) (hb : b.view.set = Finset.univ) (c : Dev nD)
    (q : PosShare TreeShare) (Fs : Fin 16 → Buf Val (b.view.loc (c : Thread nD τ))) (G : Buf Val (b.view.loc (c : Thread nD τ)))
    (hG : ∀ s, ∀ i ∈ (slotM b s).view.set, G i = Fs s i) :
    (bigSep Finset.univ (fun s : Fin 16 => ((slotM b s).view.loc (c : Thread nD τ) ↦[(slotM b s).view.set]{q} Fs s)) : sProp 𝕄)
      ⊢ (b.view.loc (c : Thread nD τ) ↦{q} G) := by
  have h := slots_join_named (Ix := Ix) (Name := Name) (UU := UU) (Lvl := Lvl) b c q Fs G hG
  rw [hb] at h
  exact Entails.of_eq h

/-- A buffer held whole is held row block by row block, at the same contents. -/
theorem rows_split (b : Memref sig .tc .hbm S4096x256 .f32) (hb : b.view.set = Finset.univ) (c : Dev nD)
    (q : PosShare TreeShare) (f : Buf Val (b.view.loc (c : Thread nD τ))) :
    (b.view.loc (c : Thread nD τ) ↦{q} f : sProp 𝕄)
      ⊢ bigSep Finset.univ fun s : Fin 16 => ((rowsM b s).view.loc (c : Thread nD τ) ↦[(rowsM b s).view.set]{q} f) := by
  have h := rows_eq (Ix := Ix) (Name := Name) (UU := UU) (Lvl := Lvl) b c q f
  rw [hb] at h
  exact Entails.of_eq h

/-- The row blocks, each at contents of its own, join to the buffer held whole at some contents. -/
theorem rows_join (b : Memref sig .tc .hbm S4096x256 .f32) (hb : b.view.set = Finset.univ) (c : Dev nD)
    (q : PosShare TreeShare) :
    bigSep Finset.univ (fun s : Fin 16 => iprop(∃ f, (rowsM b s).view.loc (c : Thread nD τ) ↦[(rowsM b s).view.set]{q} f))
      ⊢ (iprop(∃ f, b.view.loc (c : Thread nD τ) ↦{q} f) : sProp 𝕄) := by
  have h := rows_join_ex (Ix := Ix) (Val := Val) (Name := Name) (UU := UU) (Lvl := Lvl) b c q
  rw [hb] at h
  exact h

/-- The row blocks, block `s` at `Fs s`, join to the buffer held whole at contents that agree with `Fs s` on block `s`. -/
theorem rows_join_at (b : Memref sig .tc .hbm S4096x256 .f32) (hb : b.view.set = Finset.univ) (c : Dev nD)
    (q : PosShare TreeShare) (Fs : Fin 16 → Buf Val (b.view.loc (c : Thread nD τ))) (G : Buf Val (b.view.loc (c : Thread nD τ)))
    (hG : ∀ s, ∀ i ∈ (rowsM b s).view.set, G i = Fs s i) :
    (bigSep Finset.univ (fun s : Fin 16 => ((rowsM b s).view.loc (c : Thread nD τ) ↦[(rowsM b s).view.set]{q} Fs s)) : sProp 𝕄)
      ⊢ (b.view.loc (c : Thread nD τ) ↦{q} G) := by
  have h := rows_join_named (Ix := Ix) (Name := Name) (UU := UU) (Lvl := Lvl) b c q Fs G hG
  rw [hb] at h
  exact Entails.of_eq h

end BI

/-! ## Membership, for the kernel's own buffers -/

theorem mem_slot1 {s : Fin 16} {i : S16x256x256.Idx} :
    i ∈ (slotM (Memref.whole cc0_scratch1) s).view.set ↔ (i 0).val = s.val := by
  rw [slot_set]; show i ∈ Finset.map (Function.Embedding.refl _) (slotRect s).set ↔ _; rw [Finset.map_refl]; exact mem_slotRect
theorem mem_slot2 {s : Fin 16} {i : S16x256x256.Idx} :
    i ∈ (slotM (Memref.whole cc0_scratch2) s).view.set ↔ (i 0).val = s.val := by
  rw [slot_set]; show i ∈ Finset.map (Function.Embedding.refl _) (slotRect s).set ↔ _; rw [Finset.map_refl]; exact mem_slotRect
theorem mem_slot3 {s : Fin 16} {i : S16x256x256.Idx} :
    i ∈ (slotM (Memref.whole cc0_scratch3) s).view.set ↔ (i 0).val = s.val := by
  rw [slot_set]; show i ∈ Finset.map (Function.Embedding.refl _) (slotRect s).set ↔ _; rw [Finset.map_refl]; exact mem_slotRect
theorem mem_rows_v1 {s : Fin 16} {i : S4096x256.Idx} :
    i ∈ (rowsM (Memref.whole main_v1) s).view.set ↔ (i 0).val / 256 = s.val := by
  rw [rows_set]; show i ∈ Finset.map (Function.Embedding.refl _) (rowsRect s).set ↔ _; rw [Finset.map_refl]; exact mem_rowsRect

/-- Different slots of one memref share no element. -/
theorem slot_disjoint {e : EltTy} (b : Memref sig .tc .vmem S16x256x256 e) (s s' : Fin 16) (h : s ≠ s') :
    Disjoint (slotM b s).view.set (slotM b s').view.set := slotSet_disjoint b s s' h
/-- Different row blocks of one memref share no element. -/
theorem rows_disjoint (b : Memref sig .tc .hbm S4096x256 .f32) (s s' : Fin 16) (h : s ≠ s') :
    Disjoint (rowsM b s).view.set (rowsM b s').view.set := rowsSet_disjoint b s s' h

section BIown

variable {Ix : Type} [DecidableEq Ix] {Val : EltTy → Type} {Name : Type} [DecidableEq Name] {UU : Type} [URA UU] {Lvl : Type}

local notation "𝕄" => MT nD τ sig Ix Val Name UU Lvl

/-! ## The kernel's own buffers -/

/-- Scratch buffer 1 held whole is held slot by slot. -/
theorem slots_split_s1 (c : Dev nD) (q : PosShare TreeShare) (f : Buf Val ((c : Thread nD τ).loc cc0_scratch1)) :
    ((c : Thread nD τ).loc cc0_scratch1 ↦{q} f : sProp 𝕄)
      ⊢ bigSep Finset.univ fun s : Fin 16 => ((slotM (Memref.whole cc0_scratch1) s).view.loc (c : Thread nD τ)
          ↦[(slotM (Memref.whole cc0_scratch1) s).view.set]{q} f) :=
  slots_split (Memref.whole cc0_scratch1) (View.set_whole _) c q f

/-- Its slots, each at contents of its own, join to scratch buffer 1 held whole at some contents. -/
theorem slots_join_s1 (c : Dev nD) (q : PosShare TreeShare) :
    bigSep Finset.univ (fun s : Fin 16 => iprop(∃ f, (slotM (Memref.whole cc0_scratch1) s).view.loc (c : Thread nD τ)
        ↦[(slotM (Memref.whole cc0_scratch1) s).view.set]{q} f))
      ⊢ (iprop(∃ f, (c : Thread nD τ).loc cc0_scratch1 ↦{q} f) : sProp 𝕄) :=
  slots_join (Memref.whole cc0_scratch1) (View.set_whole _) c q

/-- Scratch buffer 2 held whole is held slot by slot. -/
theorem slots_split_s2 (c : Dev nD) (q : PosShare TreeShare) (f : Buf Val ((c : Thread nD τ).loc cc0_scratch2)) :
    ((c : Thread nD τ).loc cc0_scratch2 ↦{q} f : sProp 𝕄)
      ⊢ bigSep Finset.univ fun s : Fin 16 => ((slotM (Memref.whole cc0_scratch2) s).view.loc (c : Thread nD τ)
          ↦[(slotM (Memref.whole cc0_scratch2) s).view.set]{q} f) :=
  slots_split (Memref.whole cc0_scratch2) (View.set_whole _) c q f

/-- Its slots, each at contents of its own, join to scratch buffer 2 held whole at some contents. -/
theorem slots_join_s2 (c : Dev nD) (q : PosShare TreeShare) :
    bigSep Finset.univ (fun s : Fin 16 => iprop(∃ f, (slotM (Memref.whole cc0_scratch2) s).view.loc (c : Thread nD τ)
        ↦[(slotM (Memref.whole cc0_scratch2) s).view.set]{q} f))
      ⊢ (iprop(∃ f, (c : Thread nD τ).loc cc0_scratch2 ↦{q} f) : sProp 𝕄) :=
  slots_join (Memref.whole cc0_scratch2) (View.set_whole _) c q

/-- Scratch buffer 3 held whole is held slot by slot. -/
theorem slots_split_s3 (c : Dev nD) (q : PosShare TreeShare) (f : Buf Val ((c : Thread nD τ).loc cc0_scratch3)) :
    ((c : Thread nD τ).loc cc0_scratch3 ↦{q} f : sProp 𝕄)
      ⊢ bigSep Finset.univ fun s : Fin 16 => ((slotM (Memref.whole cc0_scratch3) s).view.loc (c : Thread nD τ)
          ↦[(slotM (Memref.whole cc0_scratch3) s).view.set]{q} f) :=
  slots_split (Memref.whole cc0_scratch3) (View.set_whole _) c q f

/-- Its slots, each at contents of its own, join to scratch buffer 3 held whole at some contents. -/
theorem slots_join_s3 (c : Dev nD) (q : PosShare TreeShare) :
    bigSep Finset.univ (fun s : Fin 16 => iprop(∃ f, (slotM (Memref.whole cc0_scratch3) s).view.loc (c : Thread nD τ)
        ↦[(slotM (Memref.whole cc0_scratch3) s).view.set]{q} f))
      ⊢ (iprop(∃ f, (c : Thread nD τ).loc cc0_scratch3 ↦{q} f) : sProp 𝕄) :=
  slots_join (Memref.whole cc0_scratch3) (View.set_whole _) c q

/-- The result array held whole is held row block by row block. -/
theorem rows_split_v1 (c : Dev nD) (q : PosShare TreeShare) (f : Buf Val ((c : Thread nD τ).loc main_v1)) :
    ((c : Thread nD τ).loc main_v1 ↦{q} f : sProp 𝕄)
      ⊢ bigSep Finset.univ fun s : Fin 16 => ((rowsM (Memref.whole main_v1) s).view.loc (c : Thread nD τ)
          ↦[(rowsM (Memref.whole main_v1) s).view.set]{q} f) :=
  rows_split (Memref.whole main_v1) (View.set_whole _) c q f

/-- Its row blocks, each at contents of its own, join to the result array held whole at some contents. -/
theorem rows_join_ex_v1 (c : Dev nD) (q : PosShare TreeShare) :
    bigSep Finset.univ (fun s : Fin 16 => iprop(∃ f, (rowsM (Memref.whole main_v1) s).view.loc (c : Thread nD τ)
        ↦[(rowsM (Memref.whole main_v1) s).view.set]{q} f))
      ⊢ (iprop(∃ f, (c : Thread nD τ).loc main_v1 ↦{q} f) : sProp 𝕄) :=
  rows_join (Memref.whole main_v1) (View.set_whole _) c q

/-- The result array's row blocks, block `s` at `Fs s`, are the result array whole at the contents that take row `r`
    from `Fs (r / 256)`. -/
theorem rows_join_v1 (c : Dev nD) (q : PosShare TreeShare) (Fs : Fin 16 → Buf Val ((c : Thread nD τ).loc main_v1)) :
    (bigSep Finset.univ (fun s : Fin 16 => ((rowsM (Memref.whole main_v1) s).view.loc (c : Thread nD τ)
        ↦[(rowsM (Memref.whole main_v1) s).view.set]{q} Fs s)) : sProp 𝕄)
      ⊢ ((c : Thread nD τ).loc main_v1 ↦{q} fun (i : S4096x256.Idx) => Fs (Cert.A2A.srcDev (i 0)) i) :=
  rows_join_at (Memref.whole main_v1) (View.set_whole _) c q Fs _ fun s (i : S4096x256.Idx) hi => by
    have h := mem_rows_v1.mp hi
    have : Cert.A2A.srcDev (i 0) = s := Fin.ext h
    rw [this]

end BIown

/-- info: 'Cert.KernelIdealProof.slots_split' depends on axioms: [propext, Classical.choice, Quot.sound] -/
#guard_msgs in #print axioms slots_split

/-- info: 'Cert.KernelIdealProof.slots_join' depends on axioms: [propext, Classical.choice, Quot.sound] -/
#guard_msgs in #print axioms slots_join

/-- info: 'Cert.KernelIdealProof.slots_join_at' depends on axioms: [propext, Classical.choice, Quot.sound] -/
#guard_msgs in #print axioms slots_join_at

/-- info: 'Cert.KernelIdealProof.rows_split' depends on axioms: [propext, Classical.choice, Quot.sound] -/
#guard_msgs in #print axioms rows_split

/-- info: 'Cert.KernelIdealProof.rows_join' depends on axioms: [propext, Classical.choice, Quot.sound] -/
#guard_msgs in #print axioms rows_join

/-- info: 'Cert.KernelIdealProof.rows_join_v1' depends on axioms: [propext, Classical.choice, Quot.sound] -/
#guard_msgs in #print axioms rows_join_v1

/-- info: 'Cert.KernelIdealProof.slots_split_s1' depends on axioms: [propext, Classical.choice, Quot.sound] -/
#guard_msgs in #print axioms slots_split_s1

/-- info: 'Cert.KernelIdealProof.slots_join_s3' depends on axioms: [propext, Classical.choice, Quot.sound] -/
#guard_msgs in #print axioms slots_join_s3

/-- info: 'Cert.KernelIdealProof.mem_slot1' depends on axioms: [propext, Classical.choice, Quot.sound] -/
#guard_msgs in #print axioms mem_slot1

/-- info: 'Cert.KernelIdealProof.mem_rows_v1' depends on axioms: [propext, Classical.choice, Quot.sound] -/
#guard_msgs in #print axioms mem_rows_v1

end Cert.KernelIdealProof

end
-- ==== Proof.Cells.lean ====
/-
  The all-to-all's protocol: who signals and copies onto which semaphore, how much, and what each landing hands
  its waiter.

  Device `c` sends, for `r = 0 … 14`, slot `peer c r` of its send buffer to device `peer c r = c + r + 1 (mod 16)`,
  into slot `c` of that device's receive buffer; it receives, in the order `r = 0 … 14`, from `src c r = c + 15 - r
  (mod 16)` into slot `src c r` of its own receive buffer. Before any transfer every device signals every other
  device's barrier semaphore once and waits for fifteen units on its own: a unit from device `j` says that `j` is
  inside the kernel and carries slot `c` of `j`'s receive buffer, the destination of `c`'s transfer to `j`.
-/
import proofs.«900406_g7700000000000407_dist_a2a_v7x_i16_i_m256_n256_bf16_1_alg».proof.Proof.Slots
import proofs.«900406_g7700000000000407_dist_a2a_v7x_i16_i_m256_n256_bf16_1_alg».proof.Proof.LibSlots
import proofs.«900406_g7700000000000407_dist_a2a_v7x_i16_i_m256_n256_bf16_1_alg».proof.Proof.Spec
import proofs.«900406_g7700000000000407_dist_a2a_v7x_i16_i_m256_n256_bf16_1_alg».proof.Proof.Gen.KernelIdeal.Skeleton
import proofs.«900406_g7700000000000407_dist_a2a_v7x_i16_i_m256_n256_bf16_1_alg».proof.Proof.Gen.KernelIdeal.Launch
import Idealize.ShloMosaic.Lib.Pipeline.Launch
import Idealize.ShloMosaic.Lib.Pipeline.Kit
import Idealize.ShloMosaic.Lib.Tactic
import Mathlib.Tactic.DeriveFintype

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the launch's cells, one for the protocol's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- The destination of device `c`'s `r`-th transfer. -/
def peer (c : Dev nD) (r : Fin 15) : Dev nD := ⟨(c.val + r.val + 1) % 16, Nat.mod_lt _ (by decide)⟩
/-- The source of the `r`-th block device `c` waits for. -/
def src (c : Dev nD) (r : Fin 15) : Dev nD := ⟨((c.val + 15) - r.val) % 16, Nat.mod_lt _ (by decide)⟩

theorem peer_ne (c : Dev nD) (r : Fin 15) : peer c r ≠ c := by revert c r; decide
theorem src_ne (c : Dev nD) (r : Fin 15) : src c r ≠ c := by revert c r; decide
theorem peer_inj (c : Dev nD) : Function.Injective (peer c) := by revert c; decide
theorem src_inj (c : Dev nD) : Function.Injective (src c) := by revert c; decide
/-- The transfer `c` waits for at step `r` is its source's transfer with the same number. -/
theorem peer_src (c : Dev nD) (r : Fin 15) : peer (src c r) r = c := by revert c r; decide
theorem src_peer (c : Dev nD) (r : Fin 15) : src (peer c r) r = c := by revert c r; decide
/-- Every other device is a peer. -/
theorem exists_peer (c d : Dev nD) (h : d ≠ c) : ∃ r, peer c r = d := by revert c d; decide
theorem exists_src (c d : Dev nD) (h : d ≠ c) : ∃ r, src c r = d := by revert c d; decide

/-! ## Memrefs, semaphores, cells -/

abbrev xH : Memref sig .tc .hbm S256x4096 .f32 := Memref.whole main_arg0
abbrev oH : Memref sig .tc .hbm S4096x256 .f32 := Memref.whole main_v1
abbrev xV : Memref sig .tc .vmem S256x4096 .f32 := Memref.whole cc0_scratch0
abbrev sB : Memref sig .tc .vmem S16x256x256 .bf16 := Memref.whole cc0_scratch1
abbrev rB : Memref sig .tc .vmem S16x256x256 .bf16 := Memref.whole cc0_scratch2
abbrev gB : Memref sig .tc .vmem S16x256x256 .f32 := Memref.whole cc0_scratch3

abbrev barS : Sem sig := (SemArray.scalar (sig.barrier 0 rfl) : Sems sig S_).sem
abbrev inS : DmaSem sig := (cc0_scratch4 : DmaSems sig S_).sem
abbrev outS (s : Fin 16) : DmaSem sig := semAt cc0_scratch5 s
abbrev sendS (s : Fin 16) : DmaSem sig := semAt cc0_scratch6 s
abbrev recvS (s : Fin 16) : DmaSem sig := semAt cc0_scratch7 s

/-- The kinds of cell a device has: its barrier, the semaphore of the fetch into vector memory, and one each per slot
    for the copies into the result, the departures and the arrivals. -/
inductive CK where
  | bar | inn | out (s : Fin 16) | send (s : Fin 16) | recv (s : Fin 16)
  deriving DecidableEq, Fintype

def csem : CK → SemLoc sig
  | .bar => .reg barS | .inn => .dma inS | .out s => .dma (outS s) | .send s => .dma (sendS s) | .recv s => .dma (recvS s)

abbrev kcell (ck : Dev nD × CK) : GSem nD τ sig := ((ck.1 : Thread nD τ), csem ck.2)
abbrev barCell (c : Dev nD) : GSem nD τ sig := ((c : Thread nD τ), SemLoc.reg barS)
abbrev inCell (c : Dev nD) : GSem nD τ sig := ((c : Thread nD τ), SemLoc.dma inS)
abbrev outCell (c : Dev nD) (s : Fin 16) : GSem nD τ sig := ((c : Thread nD τ), SemLoc.dma (outS s))
abbrev sendCell (c : Dev nD) (s : Fin 16) : GSem nD τ sig := ((c : Thread nD τ), SemLoc.dma (sendS s))
abbrev recvCell (c : Dev nD) (s : Fin 16) : GSem nD τ sig := ((c : Thread nD τ), SemLoc.dma (recvS s))
theorem kcell_bar (c : Dev nD) : kcell (c, .bar) = barCell c := rfl
theorem kcell_in (c : Dev nD) : kcell (c, .inn) = inCell c := rfl
theorem kcell_out (c : Dev nD) (s : Fin 16) : kcell (c, .out s) = outCell c s := rfl
theorem kcell_send (c : Dev nD) (s : Fin 16) : kcell (c, .send s) = sendCell c s := rfl
theorem kcell_recv (c : Dev nD) (s : Fin 16) : kcell (c, .recv s) = recvCell c s := rfl

theorem outS_val (s : Fin 16) : (outS s).val = 1 + s.val := by revert s; decide
theorem sendS_val (s : Fin 16) : (sendS s).val = 17 + s.val := by revert s; decide
theorem recvS_val (s : Fin 16) : (recvS s).val = 33 + s.val := by revert s; decide
theorem inS_val : (inS : DmaSem sig).val = 0 := by decide

theorem csem_injective : Function.Injective csem := by
  intro a b h
  cases a <;> cases b <;> simp only [csem, SemLoc.dma.injEq, reduceCtorEq] at h <;> try rfl
  all_goals first
    | (have h' := congrArg Fin.val h; simp only [outS_val, sendS_val, recvS_val, inS_val] at h'; first | omega | (congr 1; exact Fin.ext (by omega)))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## Credits -/

abbrev Nx : ℕ := (xV : Memref sig .tc .vmem S256x4096 .f32).view.dmaCredit
abbrev No : ℕ := (rowsM oH 0).view.dmaCredit
abbrev Nb : ℕ := (slotM rB 0).view.dmaCredit
theorem Nx_pos : 0 < Nx := View.dmaCredit_pos _ (by decide)
theorem No_pos : 0 < No := View.dmaCredit_pos _ (by decide)
theorem Nb_pos : 0 < Nb := View.dmaCredit_pos _ (by decide)

/-! ## Regions -/

abbrev colsRect (s : Fin 16) : Rect S256x4096 := Rect.unit (s := S256x4096) ![0, 256 * s.val] S256x256.size (cols_inb s)

variable (m : (ℓ : Loc nD τ sig) → Buf (Elt F) ℓ)

/-! ## Contents

Every function below is the contents of a whole buffer after the step that overwrites one slot of it; only its
values on the slot it names matter. The leading arguments (`fx`, `f0`, `fd`, `g0`, `fo`) are what the buffers held before. -/

/-- Device `c`'s argument block. -/
abbrev X (c : Dev nD) : Buf (Elt F) ((c : Thread nD τ).loc main_arg0) := m ((c : Thread nD τ).loc main_arg0)

/-- The vector-memory copy of the argument block after the fetch. -/
def xvF (c : Dev nD) (fx : Buf (Elt F) ((c : Thread nD τ).loc cc0_scratch0)) : Buf (Elt F) ((c : Thread nD τ).loc cc0_scratch0) :=
  (xV : Memref sig .tc .vmem S256x4096 .f32).view.write (Elt F) fx ((xH : Memref sig .tc .hbm S256x4096 .f32).view.read (Elt F) (X m c)) Finset.univ

/-- The send buffer after column block `d` of the copy, narrowed, is stored into slot `d`. -/
def sendF (c : Dev nD) (d : Fin 16) (fx : Buf (Elt F) ((c : Thread nD τ).loc cc0_scratch0)) (f0 : Buf (Elt F) ((c : Thread nD τ).loc cc0_scratch1)) :
    Buf (Elt F) ((c : Thread nD τ).loc cc0_scratch1) :=
  ((sB : Memref sig .tc .vmem S16x256x256 .bf16).access (slotRect d) : View sig .tc _ _ _).write (Elt F) f0
    (k0_pay1 (((xV : Memref sig .tc .vmem S256x4096 .f32).access (colsRect d) : View sig .tc _ _ _).read (Elt F) (xvF m c fx))) Finset.univ

/-- The receive buffer of device `c` after device `s`'s slot `c` has landed in its slot `s`. -/
def recvF (c : Dev nD) (s : Fin 16) (fd : Buf (Elt F) ((c : Thread nD τ).loc cc0_scratch2)) (fx : Buf (Elt F) ((s : Thread nD τ).loc cc0_scratch0))
    (f0 : Buf (Elt F) ((s : Thread nD τ).loc cc0_scratch1)) : Buf (Elt F) ((c : Thread nD τ).loc cc0_scratch2) :=
  (slotM rB s).view.write (Elt F) fd ((slotM sB c).view.read (Elt F) (sendF m s c fx f0)) Finset.univ

/-- The staging buffer after the landed slot `s`, widened, is stored into its slot `s`. -/
def stageF (c : Dev nD) (s : Fin 16) (g0 : Buf (Elt F) ((c : Thread nD τ).loc cc0_scratch3)) (fd : Buf (Elt F) ((c : Thread nD τ).loc cc0_scratch2))
    (fx : Buf (Elt F) ((s : Thread nD τ).loc cc0_scratch0)) (f0 : Buf (Elt F) ((s : Thread nD τ).loc cc0_scratch1)) :
    Buf (Elt F) ((c : Thread nD τ).loc cc0_scratch3) :=
  ((gB : Memref sig .tc .vmem S16x256x256 .f32).access (slotRect s) : View sig .tc _ _ _).write (Elt F) g0
    (k0_pay20 (((rB : Memref sig .tc .vmem S16x256x256 .bf16).access (slotRect s) : View sig .tc _ _ _).read (Elt F) (recvF m c s fd fx f0))) Finset.univ

/-- The result array after slot `s` of the staging buffer is copied to its row block `s`. -/
def outF (c : Dev nD) (s : Fin 16) (fo : Buf (Elt F) ((c : Thread nD τ).loc main_v1)) (g0 : Buf (Elt F) ((c : Thread nD τ).loc cc0_scratch3))
    (fd : Buf (Elt F) ((c : Thread nD τ).loc cc0_scratch2)) (fx : Buf (Elt F) ((s : Thread nD τ).loc cc0_scratch0))
    (f0 : Buf (Elt F) ((s : Thread nD τ).loc cc0_scratch1)) : Buf (Elt F) ((c : Thread nD τ).loc main_v1) :=
  (rowsM oH s).view.write (Elt F) fo ((slotM gB s).view.read (Elt F) (stageF m c s g0 fd fx f0)) Finset.univ

/-- The result array after the device's own column block `c` of its argument is copied to row block `c`. -/
def ownF (c : Dev nD) (fo : Buf (Elt F) ((c : Thread nD τ).loc main_v1)) : Buf (Elt F) ((c : Thread nD τ).loc main_v1) :=
  (rowsM oH c).view.write (Elt F) fo ((colsM xH c).view.read (Elt F) (X m c)) Finset.univ

/-! ## Points-to by region -/

def sPts (c : Dev nD) (s : Fin 16) (f : Buf (Elt F) ((c : Thread nD τ).loc cc0_scratch1)) : sProp 𝕄 :=
  (slotM sB s).view.loc (c : Thread nD τ) ↦[(slotM sB s).view.set]{fullShare} f
def rPts (c : Dev nD) (s : Fin 16) (f : Buf (Elt F) ((c : Thread nD τ).loc cc0_scratch2)) : sProp 𝕄 :=
  (slotM rB s).view.loc (c : Thread nD τ) ↦[(slotM rB s).view.set]{fullShare} f
def gPts (c : Dev nD) (s : Fin 16) (f : Buf (Elt F) ((c : Thread nD τ).loc cc0_scratch3)) : sProp 𝕄 :=
  (slotM gB s).view.loc (c : Thread nD τ) ↦[(slotM gB s).view.set]{fullShare} f
def oPts (c : Dev nD) (s : Fin 16) (f : Buf (Elt F) ((c : Thread nD τ).loc main_v1)) : sProp 𝕄 :=
  (rowsM oH s).view.loc (c : Thread nD τ) ↦[(rowsM oH s).view.set]{fullShare} f
/-- A share of column block `s` of the argument array. -/
def xcPts (c : Dev nD) (s : Fin 16) (q : PosShare TreeShare) (f : Buf (Elt F) ((c : Thread nD τ).loc main_arg0)) : sProp 𝕄 :=
  (colsM xH s).view.loc (c : Thread nD τ) ↦[(colsM xH s).view.set]{q} f

/-! ## The schedule -/

/-- A unit from device `j` on device `c`'s barrier: slot `c` of `j`'s receive buffer, and that `j`'s cell for arrivals
    from `c` is at its first round. -/
def barPay (c j : Dev nD) : sProp 𝕄 := iprop((∃ f, rPts j c f) ∗ reached ER (recvCell j c) 0)
/-- The fetch landed: the copy in vector memory, and the lent half of the argument array back. -/
def inPay (c : Dev nD) : sProp 𝕄 :=
  iprop(∃ fx, (((c : Thread nD τ).loc cc0_scratch0) ↦[(xV : Memref sig .tc .vmem S256x4096 .f32).view.set]{fullShare} xvF m c fx)
    ∗ (((c : Thread nD τ).loc main_arg0) ↦[(xH : Memref sig .tc .hbm S256x4096 .f32).view.set]{fullShare.left} X m c))
/-- A departure is read out: the slot of the send buffer back. -/
def sendPay (c : Dev nD) (d : Fin 16) : sProp 𝕄 := iprop(∃ f, sPts c d f)
/-- An arrival landed: slot `s` of the receive buffer holding slot `c` of `s`'s send buffer. -/
def recvPay (c : Dev nD) (s : Fin 16) : sProp 𝕄 := iprop(∃ fd fx f0, rPts c s (recvF m c s fd fx f0))
/-- A copy into the result landed: the row block written, the source back. -/
def outPay (c : Dev nD) (s : Fin 16) : sProp 𝕄 :=
  if s = c then iprop((∃ fo, oPts c s (ownF m c fo)) ∗ xcPts c c fullShare.right (X m c))
  else iprop(∃ fo g0 fd fx f0, oPts c s (outF m c s fo g0 fd fx f0) ∗ gPts c s (stageF m c s g0 fd fx f0))

/-- Which kind of cell a semaphore is. -/
def ckOf (sm : SemLoc sig) : Option CK := if h : ∃ k, csem k = sm then some h.choose else none
theorem ckOf_csem (k : CK) : ckOf (csem k) = some k := by
  unfold ckOf
  have h : ∃ k', csem k' = csem k := ⟨k, rfl⟩
  rw [dif_pos h]; exact congrArg some (csem_injective h.choose_spec)

def dutiesOf (c : Dev nD) : Option CK → Finset (Dev nD)
  | some .bar => Finset.univ.erase c
  | some .inn => {c}
  | some (.out _) => {c}
  | some (.send s) => if s = c then ∅ else {c}
  | some (.recv s) => if s = c then ∅ else {c}
  | none => ∅
def amountOf : Option CK → ℕ
  | some .bar => 1 | some .inn => Nx | some (.out _) => No | some (.send _) => Nb | some (.recv _) => Nb | none => 1
def payloadOf (c : Dev nD) (d : Dev nD) : Option CK → sProp 𝕄
  | some .bar => barPay c d | some .inn => inPay m c | some (.out s) => outPay m c s
  | some (.send s) => sendPay c s | some (.recv s) => recvPay m c s | none => iprop(emp)

/-- One round. A barrier cell has one duty per other device (named by it), one unit each; a used send, receive or
    copy cell has one duty (named by its own device) of the block's credit. -/
def a2a : Rounds.Schedule (GSem nD τ sig) (Dev nD) 𝕄 where
  duties g r := if r = 0 ∧ g.1.2 = .tc then dutiesOf g.1.1 (ckOf g.2) else ∅
  unitless _ := False
  amount g _ _ := amountOf (ckOf g.2)
  payload g _ d := payloadOf m g.1.1 d (ckOf g.2)
  amount_pos g _ _ _ := by
    generalize ckOf g.2 = o
    rcases o with _ | k
    · exact Nat.one_pos
    · cases k <;> first | exact Nat.one_pos | exact Nx_pos | exact No_pos | exact Nb_pos

instance a2a_payload_storable (g : GSem nD τ sig) (r : ℕ) (d : Dev nD) :
    BI.Storable (upEmb : UEmb _ 𝕄) ((a2a (F := F) m).payload g r d) := by
  show BI.Storable upEmb (payloadOf m g.1.1 d (ckOf g.2))
  generalize ckOf g.2 = o
  match o with
  | none => show BI.Storable upEmb (iprop(emp) : sProp 𝕄); infer_instance
  | some .bar => show BI.Storable upEmb (barPay g.1.1 d); unfold barPay rPts; infer_instance
  | some .inn => show BI.Storable upEmb (inPay m g.1.1); unfold inPay; infer_instance
  | some (.out s) => show BI.Storable upEmb (outPay m g.1.1 s); unfold outPay oPts gPts xcPts; split <;> infer_instance
  | some (.send s) => show BI.Storable upEmb (sendPay g.1.1 s); unfold sendPay sPts; infer_instance
  | some (.recv s) => show BI.Storable upEmb (recvPay m g.1.1 s); unfold recvPay rPts; infer_instance

section Tables
variable (c : Dev nD)

theorem duties_k (k : CK) : (a2a (F := F) m).duties (kcell (c, k)) 0 = dutiesOf c (some k) := by
  show (if (0 : ℕ) = 0 ∧ (Proc.tc : Proc τ) = .tc then dutiesOf c (ckOf (csem k)) else ∅) = _
  rw [if_pos ⟨rfl, rfl⟩, ckOf_csem]
theorem duties_later (g : GSem nD τ sig) : ∀ r, 1 ≤ r → (a2a (F := F) m).duties g r = ∅ :=
  fun r hr => by dsimp only [a2a]; rw [if_neg fun h => by omega]
theorem amount_k (k : CK) (r : ℕ) (d : Dev nD) : (a2a (F := F) m).amount (kcell (c, k)) r d = amountOf (some k) := by
  show amountOf (ckOf (csem k)) = _; rw [ckOf_csem]
theorem payload_k (k : CK) (r : ℕ) (d : Dev nD) : (a2a (F := F) m).payload (kcell (c, k)) r d = payloadOf m c d (some k) := by
  show payloadOf m c d (ckOf (csem k)) = _; rw [ckOf_csem]

theorem duties_bar : (a2a (F := F) m).duties (barCell c) 0 = Finset.univ.erase c := duties_k m c .bar
theorem duties_in : (a2a (F := F) m).duties (inCell c) 0 = {c} := duties_k m c .inn
theorem duties_out (s : Fin 16) : (a2a (F := F) m).duties (outCell c s) 0 = {c} := duties_k m c (.out s)
theorem duties_send (s : Fin 16) (h : s ≠ c) : (a2a (F := F) m).duties (sendCell c s) 0 = {c} := (duties_k m c (.send s)).trans (if_neg h)
theorem duties_recv (s : Fin 16) (h : s ≠ c) : (a2a (F := F) m).duties (recvCell c s) 0 = {c} := (duties_k m c (.recv s)).trans (if_neg h)
theorem duties_send_self : (a2a (F := F) m).duties (sendCell c c) 0 = ∅ := (duties_k m c (.send c)).trans (if_pos rfl)
theorem duties_recv_self : (a2a (F := F) m).duties (recvCell c c) 0 = ∅ := (duties_k m c (.recv c)).trans (if_pos rfl)

theorem expect_single (k : CK) (h : dutiesOf c (some k) = {c}) : (a2a (F := F) m).expect (kcell (c, k)) 0 = amountOf (some k) := by
  unfold Schedule.expect Schedule.amountOf; rw [duties_k, h, Finset.sum_singleton, amount_k]
theorem expect_bar : (a2a (F := F) m).expect (barCell c) 0 = 15 := by
  unfold Schedule.expect Schedule.amountOf
  rw [duties_bar, Finset.sum_congr rfl fun d _ => (show (a2a (F := F) m).amount (barCell c) 0 d = 1 from amount_k m c .bar 0 d)]
  show ∑ _d ∈ Finset.univ.erase c, 1 = 15
  rw [Finset.sum_const, Finset.card_erase_of_mem (Finset.mem_univ _), Finset.card_univ, Fintype.card_fin]
  rfl
theorem expect_in : (a2a (F := F) m).expect (inCell c) 0 = Nx := expect_single m c .inn rfl
theorem expect_out (s : Fin 16) : (a2a (F := F) m).expect (outCell c s) 0 = No := expect_single m c (.out s) rfl
theorem expect_send (s : Fin 16) (h : s ≠ c) : (a2a (F := F) m).expect (sendCell c s) 0 = Nb := expect_single m c (.send s) (if_neg h)
theorem expect_recv (s : Fin 16) (h : s ≠ c) : (a2a (F := F) m).expect (recvCell c s) 0 = Nb := expect_single m c (.recv s) (if_neg h)

/-- The whole round of a cell with one duty: its payload. -/
theorem rest_single (k : CK) (h : dutiesOf c (some k) = {c}) :
    bigSep ((a2a (F := F) m).duties (kcell (c, k)) 0 \ ∅) (fun d => (a2a (F := F) m).payload (kcell (c, k)) 0 d) = payloadOf m c c (some k) := by
  rw [Finset.sdiff_empty, duties_k, h, bigSep_singleton, payload_k]
/-- The whole round of a barrier cell: every other device's unit. -/
theorem rest_bar :
    bigSep ((a2a (F := F) m).duties (barCell c) 0 \ ∅) (fun d => (a2a (F := F) m).payload (barCell c) 0 d) = bigSep (Finset.univ.erase c) (fun j => barPay c j) := by
  rw [Finset.sdiff_empty, duties_bar]
  exact bigSep_congr fun j _ => payload_k m c .bar 0 j

theorem rest_recv (s : Fin 16) (h : s ≠ c) :
    bigSep ((a2a (F := F) m).duties (recvCell c s) 0 \ ∅) (fun d => (a2a (F := F) m).payload (recvCell c s) 0 d) = recvPay m c s :=
  rest_single m c (.recv s) (if_neg h)
theorem rest_send (s : Fin 16) (h : s ≠ c) :
    bigSep ((a2a (F := F) m).duties (sendCell c s) 0 \ ∅) (fun d => (a2a (F := F) m).payload (sendCell c s) 0 d) = sendPay c s :=
  rest_single m c (.send s) (if_neg h)
theorem rest_out (s : Fin 16) :
    bigSep ((a2a (F := F) m).duties (outCell c s) 0 \ ∅) (fun d => (a2a (F := F) m).payload (outCell c s) 0 d) = outPay m c s :=
  rest_single m c (.out s) rfl
theorem rest_in :
    bigSep ((a2a (F := F) m).duties (inCell c) 0 \ ∅) (fun d => (a2a (F := F) m).payload (inCell c) 0 d) = inPay m c :=
  rest_single m c .inn rfl
theorem amount_bar (r : ℕ) (d : Dev nD) : (a2a (F := F) m).amount (barCell c) r d = 1 := amount_k m c .bar r d
theorem amount_in (r : ℕ) (d : Dev nD) : (a2a (F := F) m).amount (inCell c) r d = Nx := amount_k m c .inn r d
theorem amount_out (s : Fin 16) (r : ℕ) (d : Dev nD) : (a2a (F := F) m).amount (outCell c s) r d = No := amount_k m c (.out s) r d
theorem amount_send (s : Fin 16) (r : ℕ) (d : Dev nD) : (a2a (F := F) m).amount (sendCell c s) r d = Nb := amount_k m c (.send s) r d
theorem amount_recv (s : Fin 16) (r : ℕ) (d : Dev nD) : (a2a (F := F) m).amount (recvCell c s) r d = Nb := amount_k m c (.recv s) r d
theorem payload_bar (r : ℕ) (d : Dev nD) : (a2a (F := F) m).payload (barCell c) r d = barPay c d := payload_k m c .bar r d
theorem payload_in (r : ℕ) (d : Dev nD) : (a2a (F := F) m).payload (inCell c) r d = inPay m c := payload_k m c .inn r d
theorem payload_out (s : Fin 16) (r : ℕ) (d : Dev nD) : (a2a (F := F) m).payload (outCell c s) r d = outPay m c s := payload_k m c (.out s) r d
theorem payload_send (s : Fin 16) (r : ℕ) (d : Dev nD) : (a2a (F := F) m).payload (sendCell c s) r d = sendPay c s := payload_k m c (.send s) r d
theorem payload_recv (s : Fin 16) (r : ℕ) (d : Dev nD) : (a2a (F := F) m).payload (recvCell c s) r d = recvPay m c s := payload_k m c (.recv s) r d

end Tables

/-! ## What each device owes at launch; the levels -/

/-- The devices other than `c` numbered `n` or more: those whose barrier `c` has not yet signalled after the first `n`
    conditional signals. -/
def pend (c : Dev nD) (n : ℕ) : Finset (Dev nD) := Finset.univ.filter fun j => n ≤ j.val ∧ j ≠ c
/-- The transfers numbered `n` or more. -/
def rpend (n : ℕ) : Finset (Fin 15) := Finset.univ.filter fun r => n ≤ r.val

theorem pend_zero (c : Dev nD) : pend c 0 = Finset.univ.erase c := by
  ext j; simp [pend, Finset.mem_erase]
theorem pend_end (c : Dev nD) : pend c 16 = ∅ := by
  ext j; have := j.isLt; simp [pend]
theorem pend_step (c j : Dev nD) (h : j ≠ c) : pend c j.val = insert j (pend c (j.val + 1)) := by
  ext i; simp only [pend, Finset.mem_filter, Finset.mem_univ, true_and, Finset.mem_insert]
  constructor
  · rintro ⟨h1, h2⟩
    by_cases e : i = j
    · exact Or.inl e
    · exact Or.inr ⟨by have : i.val ≠ j.val := fun h' => e (Fin.ext h'); omega, h2⟩
  · rintro (rfl | ⟨h1, h2⟩)
    · exact ⟨le_rfl, h⟩
    · exact ⟨by omega, h2⟩
theorem not_mem_pend_succ (c j : Dev nD) : j ∉ pend c (j.val + 1) := by
  simp [pend]
theorem pend_skip (c : Dev nD) : pend c c.val = pend c (c.val + 1) := by
  ext i; simp only [pend, Finset.mem_filter, Finset.mem_univ, true_and]
  constructor
  · rintro ⟨h1, h2⟩; exact ⟨by have : i.val ≠ c.val := fun h' => h2 (Fin.ext h'); omega, h2⟩
  · rintro ⟨h1, h2⟩; exact ⟨by omega, h2⟩
theorem rpend_end : rpend 15 = ∅ := by
  ext r; have := r.isLt; simp [rpend]
theorem rpend_zero : rpend 0 = Finset.univ := by ext r; simp [rpend]
theorem rpend_step (r : Fin 15) : rpend r.val = insert r (rpend (r.val + 1)) := by
  ext i; simp only [rpend, Finset.mem_filter, Finset.mem_univ, true_and, Finset.mem_insert]
  constructor
  · intro h1
    by_cases e : i = r
    · exact Or.inl e
    · exact Or.inr (by have : i.val ≠ r.val := fun h' => e (Fin.ext h'); omega)
  · rintro (rfl | h1)
    · exact le_rfl
    · omega
theorem not_mem_rpend_succ (r : Fin 15) : r ∉ rpend (r.val + 1) := by simp [rpend]

/-- The barrier units still owed after the first `n` conditional signals: one to every other device numbered `n` or more. -/
def Obar (c : Dev nD) (n : ℕ) : CellTallies nD τ sig Unit := ∑ j ∈ pend c n, tallyAt (barCell j) () 1
/-- The arrival credits still owed after the first `n` transfers. -/
def Orecv (c : Dev nD) (n : ℕ) : CellTallies nD τ sig Unit := ∑ r ∈ rpend n, tallyAt (recvCell (peer c r) c) () Nb
/-- At launch a device owes every other device one barrier unit and one arrival's credit. -/
def O₀ (c : Dev nD) : CellTallies nD τ sig Unit := Orecv c 0 + Obar c 0

theorem Obar_step (c j : Dev nD) (h : j ≠ c) : Obar c j.val = Obar c (j.val + 1) + tallyAt (barCell j) () 1 := by
  unfold Obar; rw [pend_step c j h, Finset.sum_insert (not_mem_pend_succ c j), add_comm]
theorem Obar_skip (c : Dev nD) : Obar c c.val = Obar c (c.val + 1) := by unfold Obar; rw [pend_skip]
theorem Obar_end (c : Dev nD) : Obar c 16 = 0 := by unfold Obar; rw [pend_end, Finset.sum_empty]
theorem Orecv_step (c : Dev nD) (r : Fin 15) : Orecv c r.val = Orecv c (r.val + 1) + tallyAt (recvCell (peer c r) c) () Nb := by
  unfold Orecv; rw [rpend_step r, Finset.sum_insert (not_mem_rpend_succ r), add_comm]
theorem Orecv_end (c : Dev nD) : Orecv c 15 = 0 := by unfold Orecv; rw [rpend_end, Finset.sum_empty]

def L (g : GSem nD τ sig) : Finset Unit := if g.1.2 = .tc then {()} else ∅
def lvOf : Option CK → ℕ
  | some .bar => 1 | some (.recv _) => 2 | _ => 0
/-- Barrier cells at 1, arrival cells at 2, everything else at 0: a device waits on its barrier owing only
    arrivals, and on an arrival owing nothing. -/
def lv (g : GSem nD τ sig) (_ : Unit) : ℕ := lvOf (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = lvOf (some k) := by
  show lvOf (ckOf (csem k)) = _; rw [ckOf_csem]

/-! ## The ghost state a device's body starts from -/

/-- Every cell's invariant under the names `K`, and that every cell is at its first round. -/
def records (K : Dev nD × CK → ℕ) : sProp 𝕄 :=
  iprop((bigSep Finset.univ fun ck : Dev nD × CK => cellInv ER (a2a m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays: a unit on every other barrier; per transfer the arrival duty of the
    peer's cell and the departure duty of its own; the fetch's; the sixteen copies' into the result. -/
def payToks (c : Dev nD) : sProp 𝕄 :=
  iprop((bigSep (Finset.univ.erase c) fun j : Dev nD => dutyTok ER (barCell j) 0 c)
    ∗ (bigSep Finset.univ fun r : Fin 15 => iprop(dutyTok ER (recvCell (peer c r) c) 0 (peer c r) ∗ dutyTok ER (sendCell c (peer c r)) 0 c))
    ∗ dutyTok ER (inCell c) 0 c
    ∗ bigSep Finset.univ fun s : Fin 16 => dutyTok ER (outCell c s) 0 c)
/-- Its position at the first round of each of its own cells, and those tokens. -/
def linear (c : Dev nD) : sProp 𝕄 :=
  iprop((bigSep Finset.univ fun k : CK => atPos ER (kcell (c, k)) 0 ∅ 0) ∗ payToks c)
def ghost (K : Dev nD × CK → ℕ) (c : Dev nD) : sProp 𝕄 := iprop(records m K ∗ linear c)

/-- The credit its waits on cells others pay consume: fifteen barrier units, fifteen arrivals. -/
def launchCreds (c : Dev nD) : sProp 𝕄 :=
  iprop(cred (tallyAt (barCell c) () 15) ∗ bigSep Finset.univ fun r : Fin 15 => cred (tallyAt (recvCell c (src c r)) () Nb))

/-- What a device's body starts from, the scratch buffers aside: the ghost state at some names, the credit, the
    levels, its argument block and its result array at what they held at launch. -/
def start (c : Dev nD) : sProp 𝕄 :=
  iprop((∃ K, ghost m K c) ∗ launchCreds c ∗ levAts L lv
    ∗ (((c : Thread nD τ).loc main_arg0) ↦{fullShare} X m c)
    ∗ ∃ f : Buf (Elt F) ((c : Thread nD τ).loc main_v1), (((c : Thread nD τ).loc main_v1) ↦{fullShare} f))

/-- The four scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What the buffers held before each step that overwrites them, per row block of the result. -/
structure Seeds (c : Dev nD) where
  fo : Fin 16 → Buf (Elt F) ((c : Thread nD τ).loc main_v1)
  g0 : Fin 16 → Buf (Elt F) ((c : Thread nD τ).loc cc0_scratch3)
  fd : Fin 16 → Buf (Elt F) ((c : Thread nD τ).loc cc0_scratch2)
  fx : (s : Fin 16) → Buf (Elt F) ((s : Thread nD τ).loc cc0_scratch0)
  f0 : (s : Fin 16) → Buf (Elt F) ((s : Thread nD τ).loc cc0_scratch1)

/-- The contents of the result array whose values on row block `s` are what the copy into that block left. -/
def rowF (c : Dev nD) (σ : Seeds (F := F) c) (s : Fin 16) : Buf (Elt F) ((c : Thread nD τ).loc main_v1) :=
  if s = c then ownF m c (σ.fo s) else outF m c s (σ.fo s) (σ.g0 s) (σ.fd s) (σ.fx s) (σ.f0 s)

/-- The result array at the end: row `i 0` lies in row block `i 0 / 256`. -/
def joinedF (c : Dev nD) (σ : Seeds (F := F) c) : Buf (Elt F) ((c : Thread nD τ).loc main_v1) :=
  fun i => rowF m c σ (Cert.A2A.srcDev (i 0)) i

def Φ₀ (c : Dev nD) : sProp 𝕄 := iprop(start m c ∗ scratch c)
/-- After the body: the result array joined, the argument block as it was, the scratch buffers whole again, and the
    counters of the forty-nine copy semaphores at zero. -/
def Φ₁ (c : Dev nD) : sProp 𝕄 :=
  iprop((∃ σ : Seeds (F := F) c, ((c : Thread nD τ).loc main_v1) ↦{fullShare} joinedF m c σ)
    ∗ (((c : Thread nD τ).loc main_arg0) ↦{fullShare} X m c)
    ∗ scratch c
    ∗ bigSep (Finset.univ.erase CK.bar) fun k : CK => semVal (kcell (c, k)) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof

end
-- ==== Proof.States.lean ====
/-
  The state of a device's body between two consecutive parts of its program, transfer by transfer.

  Each of the fifteen transfers a device sends goes through the phases: slot free (0), block stored (1), the
  peer's landing slot in hand after the barrier (2), sent (3), departure waited for (4). Each of the fifteen
  blocks it receives goes through: expected (0), landed and read (1, the landed contents' origins named), widened,
  staged and on its way to the result array (2), written to the result array (3).
-/
import proofs.«900406_g7700000000000407_dist_a2a_v7x_i16_i_m256_n256_bf16_1_alg».proof.Proof.Cells

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- The tokens of the two duties the `r`-th transfer pays. -/
def xferToks (c : Dev nD) (r : Fin 15) : sProp 𝕄 :=
  iprop(dutyTok ER (sendCell c (peer c r)) 0 c ∗ dutyTok ER (recvCell (peer c r) c) 0 (peer c r))

/-- Column block `peer c r` of the vector-memory copy, as the vector load reads it. -/
def xblk (c : Dev nD) (fx : Buf (Elt F) ((c : Thread nD τ).loc cc0_scratch0)) (r : Fin 15) : Vec F S256x256 .f32 :=
  ((xV : Memref sig .tc .vmem S256x4096 .f32).access (colsRect (peer c r)) : View sig .tc _ _ _).read (Elt F) (xvF m c fx)

/-- The `r`-th transfer on the sending side, by phase. -/
def sendSt (c : Dev nD) (fx : Buf (Elt F) ((c : Thread nD τ).loc cc0_scratch0)) (r : Fin 15) : ℕ → sProp 𝕄
  | 0 => iprop((∃ f, sPts c (peer c r) f) ∗ xferToks c r ∗ atPos ER (sendCell c (peer c r)) 0 ∅ 0)
  | 1 => iprop((∃ f0, sPts c (peer c r) (sendF m c (peer c r) fx f0)) ∗ xferToks c r ∗ atPos ER (sendCell c (peer c r)) 0 ∅ 0)
  | 2 => iprop((∃ f0, sPts c (peer c r) (sendF m c (peer c r) fx f0)) ∗ (∃ fd, rPts (peer c r) c fd) ∗ xferToks c r
      ∗ atPos ER (sendCell c (peer c r)) 0 ∅ 0)
  | 3 => iprop(cred (tallyAt (sendCell c (peer c r)) () Nb) ∗ atPos ER (sendCell c (peer c r)) 0 ∅ 0)
  | _ => iprop((∃ f, sPts c (peer c r) f) ∗ atPos ER (sendCell c (peer c r)) 1 ∅ 0)

/-- The `r`-th block received, by phase (phase 1 is `recvSt1`). -/
def recvSt (c : Dev nD) (r : Fin 15) : ℕ → sProp 𝕄
  | 0 => iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0)
  | 2 => iprop((∃ f, rPts c (src c r) f) ∗ atPos ER (recvCell c (src c r)) 1 ∅ 0
      ∗ cred (tallyAt (outCell c (src c r)) () No) ∗ atPos ER (outCell c (src c r)) 0 ∅ 0)
  | _ => iprop((∃ f, rPts c (src c r) f) ∗ atPos ER (recvCell c (src c r)) 1 ∅ 0
      ∗ outPay m c (src c r) ∗ atPos ER (outCell c (src c r)) 1 ∅ 0)

/-- Landed and read, not yet staged: the landed slot at its named contents. -/
def recvSt1 (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : sProp 𝕄 :=
  iprop(rPts c (src c r) (recvF m c (src c r) fd fx' f0) ∗ atPos ER (recvCell c (src c r)) 1 ∅ 0
    ∗ (∃ g, gPts c (src c r) g) ∗ (∃ f, oPts c (src c r) f) ∗ dutyTok ER (outCell c (src c r)) 0 c ∗ atPos ER (outCell c (src c r)) 0 ∅ 0)

/-- What the vector load of the landed slot `src c r` reads. -/
def rblk (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : Vec F S1x256x256 .bf16 :=
  ((rB : Memref sig .tc .vmem S16x256x256 .bf16).access (slotRect (src c r)) : View sig .tc _ _ _).read (Elt F) (recvF m c (src c r) fd fx' f0)

/-- The copy of the device's own block into the result array: pending (0), landed (1). -/
def ownSt (c : Dev nD) : ℕ → sProp 𝕄
  | 0 => iprop(cred (tallyAt (outCell c c) () No) ∗ atPos ER (outCell c c) 0 ∅ 0)
  | _ => iprop(outPay m c c ∗ atPos ER (outCell c c) 1 ∅ 0)

/-- What does not change from the fetch's wait to the end: the vector-memory copy, the parts of the argument
    array not lent to the pending copy, the three slots numbered `c` that no transfer touches, the positions
    of the cells without duties and of the fetch's and the barrier's cell. -/
def globSt (c : Dev nD) (fx : Buf (Elt F) ((c : Thread nD τ).loc cc0_scratch0)) (bar : ℕ) : sProp 𝕄 :=
  iprop(((xV : Memref sig .tc .vmem S256x4096 .f32).view.loc (c : Thread nD τ) ↦[(xV : Memref sig .tc .vmem S256x4096 .f32).view.set]{fullShare} xvF m c fx)
    ∗ ((xH : Memref sig .tc .hbm S256x4096 .f32).view.loc (c : Thread nD τ) ↦[(xH : Memref sig .tc .hbm S256x4096 .f32).view.set]{fullShare.left} X m c)
    ∗ ((xH : Memref sig .tc .hbm S256x4096 .f32).view.loc (c : Thread nD τ) ↦[(xH : Memref sig .tc .hbm S256x4096 .f32).view.set \ (colsM xH c).view.set]{fullShare.right} X m c)
    ∗ (∃ f, sPts c c f) ∗ (∃ f, rPts c c f) ∗ (∃ f, gPts c c f)
    ∗ atPos ER (sendCell c c) 0 ∅ 0 ∗ atPos ER (recvCell c c) 0 ∅ 0 ∗ atPos ER (inCell c) 1 ∅ 0 ∗ atPos ER (barCell c) bar ∅ 0)

end Cert.KernelIdealProof

end
-- ==== Proof.Steps.lean ====
/-
  One lemma per kind of step of a device's body: what the step consumes and what the program continues with.
-/
import proofs.«900406_g7700000000000407_dist_a2a_v7x_i16_i_m256_n256_bf16_1_alg».proof.Proof.Cells

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : Dev nD × CK → ℕ)

/-! ## The program's spellings of semaphores and slots are the named ones -/

theorem outSem_src (c : Dev nD) (r : Fin 15) :
    ((SemArray.slice cc0_scratch5 (Rect.unit (s := S16) (k0_off9 c (BitVec.ofNat 32 (1 + r.val))) S1.size (k0_off9_inb c r))).squeeze S_ squeezes_S1_S_).sem = outS (src c r) := by
  exact congrArg (fun a => (SemArray.squeeze a S_ squeezes_S1_S_).sem) (SemArray.slice_unit_congr _ (k0_off9_eq c r) _ _)
theorem recvSem_src (c : Dev nD) (r : Fin 15) :
    ((SemArray.slice cc0_scratch7 (Rect.unit (s := S16) (k0_off9 c (BitVec.ofNat 32 (1 + r.val))) S1.size (k0_off9_inb c r))).squeeze S_ squeezes_S1_S_).sem = recvS (src c r) := by
  exact congrArg (fun a => (SemArray.squeeze a S_ squeezes_S1_S_).sem) (SemArray.slice_unit_congr _ (k0_off9_eq c r) _ _)
theorem sendSem_src (c : Dev nD) (r : Fin 15) :
    ((SemArray.slice cc0_scratch6 (Rect.unit (s := S16) (k0_off9 c (BitVec.ofNat 32 (1 + r.val))) S1.size (k0_off9_inb c r))).squeeze S_ squeezes_S1_S_).sem = sendS (src c r) := by
  exact congrArg (fun a => (SemArray.squeeze a S_ squeezes_S1_S_).sem) (SemArray.slice_unit_congr _ (k0_off9_eq c r) _ _)
theorem sendSem_peer (c : Dev nD) (r : Fin 15) :
    ((SemArray.slice cc0_scratch6 (Rect.unit (s := S16) (k0_off6 c (BitVec.ofNat 32 (1 + r.val))) S1.size (k0_off6_inb c r))).squeeze S_ squeezes_S1_S_).sem = sendS (peer c r) := by
  exact congrArg (fun a => (SemArray.squeeze a S_ squeezes_S1_S_).sem) (SemArray.slice_unit_congr _ (k0_off6_eq c r) _ _)
theorem recvSem_self (c : Dev nD) :
    ((SemArray.slice cc0_scratch7 (Rect.unit (s := S16) (k0_off1 c) S1.size (k0_off1_inb c))).squeeze S_ squeezes_S1_S_).sem = recvS c := by
  exact congrArg (fun a => (SemArray.squeeze a S_ squeezes_S1_S_).sem) (SemArray.slice_unit_congr _ (k0_off1_eq c) _ _)
theorem outSem_self (c : Dev nD) :
    ((SemArray.slice cc0_scratch5 (Rect.unit (s := S16) (k0_off1 c) S1.size (k0_off1_inb c))).squeeze S_ squeezes_S1_S_).sem = outS c := by
  exact congrArg (fun a => (SemArray.squeeze a S_ squeezes_S1_S_).sem) (SemArray.slice_unit_congr _ (k0_off1_eq c) _ _)

/-! ## The program's spellings of the slots -/

theorem slot_peer {e : EltTy} (b : Memref sig .tc .vmem S16x256x256 e) (c : Dev nD) (r : Fin 15) (hs) :
    ((b.slice (Rect.unit (s := S16x256x256) (k0_off8 c (BitVec.ofNat 32 (1 + r.val))) S1x256x256.size (k0_off8_inb c r)) hs).squeeze S256x256 squeezes_S1x256x256_S256x256) = slotM b (peer c r) :=
  congrArg (fun a => Memref.squeeze a S256x256 squeezes_S1x256x256_S256x256) (Memref.slice_unit_congr b (k0_off8_eq c r) _ _ _ _)
theorem slot_src {e : EltTy} (b : Memref sig .tc .vmem S16x256x256 e) (c : Dev nD) (r : Fin 15) (hs) :
    ((b.slice (Rect.unit (s := S16x256x256) (k0_off10 c (BitVec.ofNat 32 (1 + r.val))) S1x256x256.size (k0_off10_inb c r)) hs).squeeze S256x256 squeezes_S1x256x256_S256x256) = slotM b (src c r) :=
  congrArg (fun a => Memref.squeeze a S256x256 squeezes_S1x256x256_S256x256) (Memref.slice_unit_congr b (k0_off10_eq c r) _ _ _ _)
theorem slot_self {e : EltTy} (b : Memref sig .tc .vmem S16x256x256 e) (c : Dev nD) (hs) :
    ((b.slice (Rect.unit (s := S16x256x256) (k0_off7 c) S1x256x256.size (k0_off7_inb c)) hs).squeeze S256x256 squeezes_S1x256x256_S256x256) = slotM b c :=
  congrArg (fun a => Memref.squeeze a S256x256 squeezes_S1x256x256_S256x256) (Memref.slice_unit_congr b (k0_off7_eq c) _ _ _ _)
theorem rows_src (c : Dev nD) (r : Fin 15) (hs) :
    (oH.slice (Rect.unit (s := S4096x256) (k0_off12 c (BitVec.ofNat 32 (1 + r.val))) S256x256.size (k0_off12_inb c r)) hs) = rowsM oH (src c r) :=
  Memref.slice_unit_congr oH (k0_off12_eq c r) _ _ _ _
theorem rows_self (c : Dev nD) (hs) :
    (oH.slice (Rect.unit (s := S4096x256) (k0_off2 c) S256x256.size (k0_off2_inb c)) hs) = rowsM oH c :=
  Memref.slice_unit_congr oH (k0_off2_eq c) _ _ _ _
theorem cols_self (c : Dev nD) (hs) :
    (xH.slice (Rect.unit (s := S256x4096) (k0_off3 c) S256x256.size (k0_off3_inb c)) hs) = colsM xH c :=
  Memref.slice_unit_congr xH (k0_off3_eq c) _ _ _ _
theorem rect_cols_peer (c : Dev nD) (r : Fin 15) :
    Rect.unit (s := S256x4096) (k0_off4 c (BitVec.ofNat 32 (1 + r.val))) S256x256.size (k0_off4_inb c r) = colsRect (peer c r) :=
  Rect.unit_congr (k0_off4_eq c r) _ _
theorem rect_slot_peer (c : Dev nD) (r : Fin 15) :
    Rect.unit (s := S16x256x256) (k0_off5 c (BitVec.ofNat 32 (1 + r.val))) S1x256x256.size (k0_off5_inb c r) = slotRect (peer c r) :=
  Rect.unit_congr (k0_off5_eq c r) _ _
theorem rect_slot_src (c : Dev nD) (r : Fin 15) :
    Rect.unit (s := S16x256x256) (k0_off11 c (BitVec.ofNat 32 (1 + r.val))) S1x256x256.size (k0_off11_inb c r) = slotRect (src c r) :=
  Rect.unit_congr (k0_off11_eq c r) _ _

/-! ## The device chains -/

theorem dev_peer (c : Dev nD) (r : Fin 15) (n : ℕ) (hn : n < nD) (h : n = (c.val + (r.val + 1)) % 16) : (⟨n, hn⟩ : Dev nD) = peer c r :=
  Fin.ext (by show n = (c.val + r.val + 1) % 16; omega)

/-! ## The records -/

theorem inv_k (c : Dev nD) (k : CK) : records m K ⊢ cellInv ER (a2a m) (K (c, k)) (kcell (c, k)) := by
  unfold records; exact (BI.sep_and.trans BI.and_elimL).trans (bigSep_elim (Φ := fun ck : Dev nD × CK => cellInv ER (a2a m) (K ck) (kcell ck)) (Finset.mem_univ ((c, k) : Dev nD × CK)))
theorem inv_bar (c : Dev nD) : records m K ⊢ cellInv ER (a2a m) (K (c, .bar)) (barCell c) := inv_k m K c .bar
theorem inv_in (c : Dev nD) : records m K ⊢ cellInv ER (a2a m) (K (c, .inn)) (inCell c) := inv_k m K c .inn
theorem inv_out (c : Dev nD) (s : Fin 16) : records m K ⊢ cellInv ER (a2a m) (K (c, .out s)) (outCell c s) := inv_k m K c (.out s)
theorem inv_send (c : Dev nD) (s : Fin 16) : records m K ⊢ cellInv ER (a2a m) (K (c, .send s)) (sendCell c s) := inv_k m K c (.send s)
theorem inv_recv (c : Dev nD) (s : Fin 16) : records m K ⊢ cellInv ER (a2a m) (K (c, .recv s)) (recvCell c s) := inv_k m K c (.recv s)
theorem reached_k (c : Dev nD) (k : CK) : records m K ⊢ reached ER (kcell (c, k)) 0 := by
  unfold records; exact (BI.sep_and.trans BI.and_elimR).trans (bigSep_elim (Φ := fun ck : Dev nD × CK => reached ER (kcell ck) 0) (Finset.mem_univ ((c, k) : Dev nD × CK)))
theorem reached_bar (c : Dev nD) : records m K ⊢ reached ER (barCell c) 0 := reached_k m K c .bar
theorem reached_in (c : Dev nD) : records m K ⊢ reached ER (inCell c) 0 := reached_k m K c .inn
theorem reached_out (c : Dev nD) (s : Fin 16) : records m K ⊢ reached ER (outCell c s) 0 := reached_k m K c (.out s)
theorem reached_send (c : Dev nD) (s : Fin 16) : records m K ⊢ reached ER (sendCell c s) 0 := reached_k m K c (.send s)
theorem reached_recv (c : Dev nD) (s : Fin 16) : records m K ⊢ reached ER (recvCell c s) 0 := reached_k m K c (.recv s)

theorem bigSep_insert' {I : Type} [DecidableEq I] {s : Finset I} {i : I} (hi : i ∉ s) (Φ : I → sProp 𝕄) :
    bigSep (insert i s) Φ = iprop(Φ i ∗ bigSep s Φ) := bigSep_insert hi

/-! ## The conditional signals -/

/-- After the first `n` conditional signals: what is still owed, and for every device still to be signalled the
    token of its barrier's unit with the slot of the receive buffer the unit carries. -/
def SigSt (c : Dev nD) (n : ℕ) (W : Waits sig Unit) : sProp 𝕄 :=
  iprop(owes (c : Thread nD τ) (Orecv c 0 + Obar c n) W ∗ bigSep (pend c n) fun j => iprop(dutyTok ER (barCell j) 0 c ∗ ∃ f, rPts c j f))

theorem step_cond_signal (c j : Dev nD) (cond : BitVec 1) (hc : cond = 1#1 ↔ j ≠ c) (dev : ℕ) (hd : dev = j.val) (hlt : cond = 1#1 → dev < nD)
    {α : Type} {Q : α → sProp 𝕄} (R : Prog (TpuEff nD τ sig (Elt F) Λ₀ .tc) α) (W : Waits sig Unit) :
    iprop(records m K ∗ SigSt c j.val W)
      ⊢ iprop((SigSt c (j.val + 1) W -∗ wp frame (wpE (defs₀ (F := F)) 𝒱₀ c none) Set.univ R Q)
          -∗ wp frame (wpE (defs₀ (F := F)) 𝒱₀ c none) Set.univ
              (if h : cond = 1#1 then Prog.op (TpuEff.semSignal ((⟨dev, hlt h⟩ : Dev nD), Proc.tc) barS (1#32 : BitVec 32).toNat) (fun _ => R) else R) Q) := by
  iintro ⟨#HR, HS⟩ Hk
  by_cases h : cond = 1#1
  · rw [dif_pos h]
    have hj : j ≠ c := hc.mp h
    have hdev : (⟨dev, hlt h⟩ : Dev nD) = j := Fin.ext hd
    rw [hdev]
    unfold SigSt
    rw [pend_step c j hj, bigSep_insert' (not_mem_pend_succ c j)]
    icases HS with ⟨HO, ⟨Htok, %f, Hslot⟩, Hrest⟩
    iapply (Rounds.wp_signal 𝒱₀ ER (a2a m) (c : Thread nD τ) none (dst := (j : Thread nD τ)) (κ := K (j, .bar)) (d := c) (O₀ := Orecv c 0 + Obar c j.val)
        (by rw [duties_bar]; exact Finset.mem_erase.mpr ⟨hj.symm, Finset.mem_univ _⟩)
        ((amount_bar m j 0 c).trans (by decide : 1 = (1#32 : BitVec 32).toNat)) () (Orecv c 0 + Obar c (j.val + 1))
        (by rw [Obar_step c j hj, add_assoc]; rfl)) $$ [HO Htok Hslot]
    · isplitr; · iapply (inv_bar m K j); iexact HR
      isplitl [HO]; · iexact HO
      isplitl [Htok]; · iexact Htok
      isplitl [Hslot]
      · rw [payload_bar]; unfold barPay
        isplitl [Hslot]; · iexists f; iexact Hslot
        iapply (reached_recv m K c j); iexact HR
      · iapply (reached_bar m K j); iexact HR
    iintro HO
    iapply Hk
    isplitl [HO]; · iexact HO
    iexact Hrest
  · rw [dif_neg h]
    have hj : j = c := by by_contra hne; exact h (hc.mpr hne)
    subst hj
    iapply Hk
    unfold SigSt; rw [← Obar_skip, ← pend_skip]; iexact HS

/-! ## Waiting while arrivals are still owed -/

/-- A cell below the arrival cells may be waited on while only arrival credits are owed. -/
theorem mayWait_Orecv (c : Dev nD) (n : ℕ) (sm : SemLoc sig) (h : lv ((c : Thread nD τ), sm) () < 2) :
    (levAts L lv : sProp 𝕄) ⊢ MayWait (c : Thread nD τ) sm () (Orecv c n) :=
  Pipeline.mayWait_of_levAts (by rw [L_tc]; exact Finset.mem_singleton_self _) (fun g i hg => by
    unfold Orecv at hg
    obtain ⟨r, _, hr⟩ := Pipeline.sum_pos_exists hg
    obtain ⟨rfl, rfl⟩ := Pipeline.tallyAt_pos hr
    refine ⟨by rw [L_tc]; exact Finset.mem_singleton_self _, ?_⟩
    rw [show lv (recvCell (peer c r) c) () = 2 from lv_k (peer c r) (.recv c) ()]
    exact h)

/-! ## The fetch and the device's own block -/

/-- A transfer's credit depends on the shape and element type of its destination only. -/
theorem amount_rows (s : Fin 16) (sm : DmaSem sig) : (rowsM oH s).view.amount (.dma sm) = No := rfl
theorem amount_slot_r (s : Fin 16) (sm : DmaSem sig) : (slotM rB s).view.amount (.dma sm) = Nb := rfl

theorem step_fetch (c : Dev nD) {α : Type} {Q : α → sProp 𝕄} {k : PUnit → Prog (TpuEff nD τ sig (Elt F) Λ₀ .tc) α}
    (fx : Buf (Elt F) ((c : Thread nD τ).loc cc0_scratch0)) {h1 : (xH : Memref sig .tc .hbm S256x4096 .f32).view.WordExact}
    {h2 : (xV : Memref sig .tc .vmem S256x4096 .f32).view.WordExact}
    {h3 : (DmaTarget.here xV : DmaTarget nD τ sig Proc.tc .vmem S256x4096 .f32).Typed .hbm (.dma inS)} :
    iprop(records m K ∗ ((xH : Memref sig .tc .hbm S256x4096 .f32).view.loc (c : Thread nD τ) ↦[(xH : Memref sig .tc .hbm S256x4096 .f32).view.set]{fullShare.left} X m c)
        ∗ ((xV : Memref sig .tc .vmem S256x4096 .f32).view.loc (c : Thread nD τ) ↦[(xV : Memref sig .tc .vmem S256x4096 .f32).view.set]{fullShare} fx)
        ∗ dutyTok ER (inCell c) 0 c)
      ⊢ iprop((cred (tallyAt (inCell c) () Nx) -∗ wp frame (wpE (defs₀ (F := F)) 𝒱₀ c none) Set.univ (k ⟨⟩) Q)
          -∗ wp frame (wpE (defs₀ (F := F)) 𝒱₀ c none) Set.univ (.op (.enqueueDma xH (.here xV) (.dma inS) h1 h2 h3) k) Q) := by
  iintro ⟨#HR, Hs, Hd, Htok⟩ Hk
  iapply (Rounds.wp_copy_pointsTo 𝒱₀ ER (a2a m) (c : Thread nD τ) none (src := xH) (dst := xV) (sem := .dma inS)
      (κ := K (c, .inn)) (r := 0) (d := c) (q := fullShare.left) (fs := X m c) (fd := fx)
      (by rw [duties_in]; exact Finset.mem_singleton_self _) () Nx rfl (amount_in m c 0 c)
      (by rw [payload_in]; unfold inPay; iintro ⟨Hd, Hs⟩; iexists fx; isplitl [Hd]; · iexact Hd
          iexact Hs)) $$ [Hs Hd Htok]
  · isplitr; · iapply (inv_in m K c); iexact HR
    isplitl [Hs]; · iexact Hs
    isplitl [Hd]; · iexact Hd
    isplitl [Htok]; · iexact Htok
    iapply (reached_in m K c); iexact HR
  iexact Hk

theorem step_own (c : Dev nD) {α : Type} {Q : α → sProp 𝕄} {k : PUnit → Prog (TpuEff nD τ sig (Elt F) Λ₀ .tc) α}
    (fo : Buf (Elt F) ((c : Thread nD τ).loc main_v1))
    {srcM : Memref sig .tc .hbm S256x256 .f32} {dstM : Memref sig .tc .hbm S256x256 .f32} {sem : DmaSem sig}
    (hs : srcM = colsM xH c) (hd : dstM = rowsM oH c) (hsem : sem = outS c)
    {h1 : srcM.view.WordExact} {h2 : dstM.view.WordExact}
    {h3 : (DmaTarget.here dstM : DmaTarget nD τ sig Proc.tc .hbm S256x256 .f32).Typed .hbm (.dma sem)} :
    iprop(records m K ∗ xcPts c c fullShare.right (X m c) ∗ oPts c c fo ∗ dutyTok ER (outCell c c) 0 c)
      ⊢ iprop((cred (tallyAt (outCell c c) () No) -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  subst hs hd hsem
  unfold xcPts oPts
  iintro ⟨#HR, Hs, Hd, Htok⟩ Hk
  iapply (Rounds.wp_copy_pointsTo 𝒱₀ ER (a2a m) (c : Thread nD τ) none (src := colsM xH c) (dst := rowsM oH c) (sem := .dma (outS c))
      (κ := K (c, .out c)) (r := 0) (d := c) (q := fullShare.right) (fs := X m c) (fd := fo)
      (by rw [duties_out]; exact Finset.mem_singleton_self _) () No (amount_rows c (outS c)) (amount_out m c c 0 c)
      (by rw [payload_out]; unfold outPay; rw [if_pos rfl]; unfold oPts xcPts ownF; iintro ⟨Hd, Hs⟩; isplitl [Hd]; · iexists fo; iexact Hd
          iexact Hs)) $$ [Hs Hd Htok]
  · isplitr; · iapply (inv_out m K c c); iexact HR
    isplitl [Hs]; · iexact Hs
    isplitl [Hd]; · iexact Hd
    isplitl [Htok]; · iexact Htok
    iapply (reached_out m K c c); iexact HR
  iexact Hk

theorem step_wait_in (c : Dev nD) {α : Type} {Q : α → sProp 𝕄} {k : PUnit → Prog (TpuEff nD τ sig (Elt F) Λ₀ .tc) α}
    (W : Waits sig Unit) {h1 : (xH : Memref sig .tc .hbm S256x4096 .f32).view.WordExact} {h2 : (xV : Memref sig .tc .vmem S256x4096 .f32).view.WordExact} :
    iprop(records m K ∗ levAts L lv ∗ cred (tallyAt (inCell c) () Nx) ∗ owes (c : Thread nD τ) (Orecv c 0) W ∗ atPos ER (inCell c) 0 ∅ 0)
      ⊢ iprop(((owes (c : Thread nD τ) (Orecv c 0) (insert (SemLoc.dma inS, ()) W) ∗ atPos ER (inCell c) 1 ∅ 0 ∗ inPay m c)
            -∗ wp frame (wpE (defs₀ (F := F)) 𝒱₀ c none) Set.univ (k ⟨⟩) Q)
          -∗ wp frame (wpE (defs₀ (F := F)) 𝒱₀ c none) Set.univ (.op (.waitDma2 inS xH xV h1 h2) k) Q) := by
  iintro ⟨#HR, #Hlev, Hc, HO, Hat⟩ Hk
  iapply (Rounds.wp_wait_rest_token 𝒱₀ ER (a2a m) (c : Thread nD τ) none (κ := K (c, .inn))
      (wpE_waitDma2_eq 𝒱₀ (c : Thread nD τ) none Set.univ) (Set.mem_univ _) () (O := Orecv c 0) (W := W) (R := 0) (m := 0) (T := ∅)
      ((Nat.zero_add _).trans (expect_in m c).symm)) $$ [Hc HO Hat]
  · isplitr; · iapply (inv_in m K c); iexact HR
    isplitl [Hc]; · iexact Hc
    isplitl [HO]; · iexact HO
    isplitr; · iapply (mayWait_Orecv c 0 (.dma inS) (by rw [show lv (inCell c) () = 0 from lv_k c .inn ()]; decide)); iexact Hlev
    iexact Hat
  iintro ⟨HO, Hat, -, Hpay⟩
  iapply Hk
  isplitl [HO]; · iexact HO
  isplitl [Hat]; · iexact Hat
  iapply (Entails.of_eq (rest_in m c)) $$ Hpay

/-! ## The barrier -/

theorem step_wait_bar (c : Dev nD) {α : Type} {Q : α → sProp 𝕄} {k : PUnit → Prog (TpuEff nD τ sig (Elt F) Λ₀ .tc) α} (W : Waits sig Unit) :
    iprop(records m K ∗ levAts L lv ∗ cred (tallyAt (barCell c) () 15) ∗ owes (c : Thread nD τ) (Orecv c 0) W ∗ atPos ER (barCell c) 0 ∅ 0)
      ⊢ iprop(((owes (c : Thread nD τ) (Orecv c 0) (insert (SemLoc.reg barS, ()) W) ∗ atPos ER (barCell c) 1 ∅ 0 ∗ bigSep (Finset.univ.erase c) (fun j => barPay c j))
            -∗ wp frame (wpE (defs₀ (F := F)) 𝒱₀ c none) Set.univ (k ⟨⟩) Q)
          -∗ wp frame (wpE (defs₀ (F := F)) 𝒱₀ c none) Set.univ (.op (.semWait barS (15#32 : BitVec 32).toNat) k) Q) := by
  iintro ⟨#HR, #Hlev, Hc, HO, Hat⟩ Hk
  iapply (Rounds.wp_wait_rest_token 𝒱₀ ER (a2a m) (c : Thread nD τ) none (κ := K (c, .bar))
      (wpE_semWait_eq 𝒱₀ (c : Thread nD τ) none Set.univ) (Set.mem_univ _) () (O := Orecv c 0) (W := W) (R := 0) (m := 0) (T := ∅)
      ((Nat.zero_add _).trans ((by decide : (15#32 : BitVec 32).toNat = 15).trans (expect_bar m c).symm))) $$ [Hc HO Hat]
  · isplitr; · iapply (inv_bar m K c); iexact HR
    isplitl [Hc]; · iexact Hc
    isplitl [HO]; · iexact HO
    isplitr; · iapply (mayWait_Orecv c 0 (.reg barS) (by rw [show lv (barCell c) () = 1 from lv_k c .bar ()]; decide)); iexact Hlev
    iexact Hat
  iintro ⟨HO, Hat, -, Hpay⟩
  iapply Hk
  isplitl [HO]; · iexact HO
  isplitl [Hat]; · iexact Hat
  iapply (Entails.of_eq (rest_bar m c)) $$ Hpay

/-! ## A departure -/

/-- The `r`-th transfer, to `d = peer c r`: slot `d` of the send buffer, slot `c` of `d`'s receive buffer, the two tokens and
    the arrival's credit go in; the departure's credit comes out. -/
theorem step_send (c : Dev nD) (r : Fin 15) {α : Type} {Q : α → sProp 𝕄} {k : PUnit → Prog (TpuEff nD τ sig (Elt F) Λ₀ .tc) α}
    (W : Waits sig Unit) (fx : Buf (Elt F) ((c : Thread nD τ).loc cc0_scratch0)) (f0 : Buf (Elt F) ((c : Thread nD τ).loc cc0_scratch1))
    (fd : Buf (Elt F) ((peer c r : Thread nD τ).loc cc0_scratch2))
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ sPts c (peer c r) (sendF m c (peer c r) fx f0) ∗ rPts (peer c r) c fd
        ∗ owes (c : Thread nD τ) (Orecv c r.val) W
        ∗ dutyTok ER (sendCell c (peer c r)) 0 c ∗ dutyTok ER (recvCell (peer c r) c) 0 (peer c r))
      ⊢ iprop(((cred (tallyAt (sendCell c (peer c r)) () Nb) ∗ owes (c : Thread nD τ) (Orecv c (r.val + 1)) W)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  subst hn hs hd hsS hsem
  unfold sPts rPts
  iintro ⟨#HR, Hs, Hd, HO, HtS, HtR⟩ Hk
  iapply (Rounds.wp_send_pointsTo 𝒱₀ ER (a2a m) (c : Thread nD τ) none (c' := (peer c r : Thread nD τ))
      (src := slotM sB (peer c r)) (dst := slotM rB c) (sS := .dma (sendS (peer c r))) (sem := .dma (recvS c)) (q := fullShare)
      (κ₁ := K (c, .send (peer c r))) (κ₂ := K (peer c r, .recv c))
      (r₁ := 0) (r₂ := 0) (d₁ := c) (d₂ := peer c r) (fs := sendF m c (peer c r) fx f0) (fd := fd) (O₀ := Orecv c r.val)
      (by rw [duties_send m c (peer c r) (peer_ne c r)]; exact Finset.mem_singleton_self _)
      (by rw [duties_recv m (peer c r) c (peer_ne c r).symm]; exact Finset.mem_singleton_self _)
      () () Nb (amount_slot_r c (recvS c)) (amount_send m c (peer c r) 0 c) (amount_recv m (peer c r) c 0 (peer c r)) (Orecv c (r.val + 1)) (Orecv_step c r) (W := W)
      (by rw [payload_send]; unfold sendPay sPts; iintro H; iexists _; iexact H)
      (by rw [payload_recv]; unfold recvPay rPts recvF; iintro H; iexists fd, fx, f0; iexact H)) $$ [Hs Hd HO HtS HtR]
  · isplitr; · iapply (inv_send m K c (peer c r)); iexact HR
    isplitr; · iapply (inv_recv m K (peer c r) c); iexact HR
    isplitl [Hs]; · iexact Hs
    isplitl [Hd]; · iexact Hd
    isplitl [HO]; · iexact HO
    isplitl [HtS]; · iexact HtS
    isplitr; · iapply (reached_send m K c (peer c r)); iexact HR
    isplitl [HtR]; · iexact HtR
    iapply (reached_recv m K (peer c r) c); iexact HR
  iexact Hk

/-! ## An arrival -/

/-- The wait on the arrival cell of slot `s`: the arrival's credit and the position go in; the landed slot comes out. -/
theorem step_recv_wait_at (c : Dev nD) (s : Fin 16) (hs : s ≠ c) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB s) (hsem : sem = recvS s) {h1 : srcM.view.WordExact} {h2 : dstM.view.WordExact} :
    iprop(records m K ∗ cred (tallyAt (recvCell c s) () Nb) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0 ∗ recvPay m c s)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .recv s))
      (w := .waitDma2 (recvS s) srcM (slotM rB s) h1 h2) (sm := .dma (recvS s)) (k' := (slotM rB s).view.dmaCredit) (k := k)
      (wpE_waitDma2_eq 𝒱₀ (c : Thread nD τ) none Set.univ) (Set.mem_univ _) () (O := 0) (W := W) (R := 0) (m := 0) (T := ∅)
      ((Nat.zero_add _).trans (expect_recv m c s hs).symm)) $$ [Hc HO Hat]
  · isplitr; · iapply (inv_recv m K c s); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c s hs)) $$ Hpay

/-- The wait for the block from `s = src c r`: the arrival's credit and the position go in; the landed slot comes out. -/
theorem step_recv_wait (c : Dev nD) (r : Fin 15) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ cred (tallyAt (recvCell c (src c r)) () Nb) ∗ owes (c : Thread nD τ) 0 W ∗ atPos ER (recvCell c (src c r)) 0 ∅ 0)
      ⊢ iprop(((owes (c : Thread nD τ) 0 (insert (SemLoc.dma (recvS (src c r)), ()) W) ∗ atPos ER (recvCell c (src c r)) 1 ∅ 0 ∗ recvPay m c (src c r))
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) :=
  step_recv_wait_at m K c (src c r) (src_ne c r) W hd hsem

/-- The copy of the widened slot `s` of the staging buffer into row block `s` of the result. -/
theorem step_out_copy (c : Dev nD) (s : Fin 16) (hsc : s ≠ c) {α : Type} {Q : α → sProp 𝕄} {k : PUnit → Prog (TpuEff nD τ sig (Elt F) Λ₀ .tc) α}
    (fo : Buf (Elt F) ((c : Thread nD τ).loc main_v1)) (g0 : Buf (Elt F) ((c : Thread nD τ).loc cc0_scratch3))
    (fd : Buf (Elt F) ((c : Thread nD τ).loc cc0_scratch2)) (fx : Buf (Elt F) ((s : Thread nD τ).loc cc0_scratch0))
    (f0 : Buf (Elt F) ((s : Thread nD τ).loc cc0_scratch1))
    {srcM : Memref sig .tc .vmem S256x256 .f32} {dstM : Memref sig .tc .hbm S256x256 .f32} {sem : DmaSem sig}
    (hs : srcM = slotM gB s) (hd : dstM = rowsM oH s) (hsem : sem = outS s)
    {h1 : srcM.view.WordExact} {h2 : dstM.view.WordExact}
    {h3 : (DmaTarget.here dstM : DmaTarget nD τ sig Proc.tc .hbm S256x256 .f32).Typed .vmem (.dma sem)} :
    iprop(records m K ∗ gPts c s (stageF m c s g0 fd fx f0) ∗ oPts c s fo ∗ dutyTok ER (outCell c s) 0 c)
      ⊢ iprop((cred (tallyAt (outCell c s) () No) -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  subst hs hd hsem
  unfold gPts oPts
  iintro ⟨#HR, Hs, Hd, Htok⟩ Hk
  iapply (Rounds.wp_copy_pointsTo 𝒱₀ ER (a2a m) (c : Thread nD τ) none (src := slotM gB s) (dst := rowsM oH s) (sem := .dma (outS s))
      (κ := K (c, .out s)) (r := 0) (d := c) (q := fullShare) (fs := stageF m c s g0 fd fx f0) (fd := fo)
      (by rw [duties_out]; exact Finset.mem_singleton_self _) () No (amount_rows s (outS s)) (amount_out m c s 0 c)
      (by rw [payload_out]; unfold outPay; rw [if_neg hsc]; unfold oPts gPts outF; iintro ⟨Hd, Hs⟩; iexists fo, g0, fd, fx, f0
          isplitl [Hd]; · iexact Hd
          iexact Hs)) $$ [Hs Hd Htok]
  · isplitr; · iapply (inv_out m K c s); iexact HR
    isplitl [Hs]; · iexact Hs
    isplitl [Hd]; · iexact Hd
    isplitl [Htok]; · iexact Htok
    iapply (reached_out m K c s); iexact HR
  iexact Hk

/-! ## The closing waits -/

theorem step_wait_send (c : Dev nD) (d : Fin 16) (hdc : d ≠ c) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB d) (hsem : sem = sendS d) {h1 : srcM.view.WordExact} {h2 : dstM.view.WordExact} :
    iprop(records m K ∗ cred (tallyAt (sendCell c d) () Nb) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0 ∗ sendPay c d)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .send d))
      (w := .waitDma2 (sendS d) srcM (slotM sB d) h1 h2) (sm := .dma (sendS d)) (k' := (slotM sB d).view.dmaCredit) (k := k)
      (wpE_waitDma2_eq 𝒱₀ (c : Thread nD τ) none Set.univ) (Set.mem_univ _) () (O := 0) (W := W) (R := 0) (m := 0) (T := ∅)
      ((Nat.zero_add _).trans (expect_send m c d hdc).symm)) $$ [Hc HO Hat]
  · isplitr; · iapply (inv_send m K c d); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d hdc)) $$ Hpay

theorem step_wait_out (c : Dev nD) (s : Fin 16) {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH s) (hsem : sem = outS s) {h1 : srcM.view.WordExact} {h2 : dstM.view.WordExact} :
    iprop(records m K ∗ cred (tallyAt (outCell c s) () No) ∗ owes (c : Thread nD τ) 0 W ∗ atPos ER (outCell c s) 0 ∅ 0)
      ⊢ iprop(((owes (c : Thread nD τ) 0 (insert (SemLoc.dma (outS s), ()) W) ∗ atPos ER (outCell c s) 1 ∅ 0 ∗ outPay m c s)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .out s))
      (w := .waitDma2 (outS s) srcM (rowsM oH s) h1 h2) (sm := .dma (outS s)) (k' := (rowsM oH s).view.dmaCredit) (k := k)
      (wpE_waitDma2_eq 𝒱₀ (c : Thread nD τ) none Set.univ) (Set.mem_univ _) () (O := 0) (W := W) (R := 0) (m := 0) (T := ∅)
      ((Nat.zero_add _).trans (expect_out m c s).symm)) $$ [Hc HO Hat]
  · isplitr; · iapply (inv_out m K c s); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_out m c s)) $$ Hpay

/-! ## Vector loads and stores -/

/-- The load of column block `d` of the vector-memory copy, the buffer held whole at any contents. -/
theorem step_load_x (c : Dev nD) (d : Fin 16) {α : Type} {Q : α → sProp 𝕄}
    {off : Fin 2 → ℕ} {hin : ∀ a, off a + S256x256.size a ≤ S256x4096.size a} (hoff : off = ![0, 256 * d.val])
    {hl : (xV : Memref sig .tc .vmem S256x4096 .f32).view.LoadsAt (Rect.unit (s := S256x4096) off S256x256.size hin).toLoadRect}
    {k : ((Rect.unit (s := S256x4096) off S256x256.size hin).shape.Idx → Elt F .f32) → Prog (TpuEff nD τ sig (Elt F) Λ₀ .tc) α}
    (q : PosShare TreeShare) (f : Buf (Elt F) ((c : Thread nD τ).loc cc0_scratch0)) :
    ((((c : Thread nD τ).loc cc0_scratch0) ↦{q} f) : sProp 𝕄)
      ⊢ iprop(((((c : Thread nD τ).loc cc0_scratch0) ↦{q} f)
            -∗ wp frame (wpE (defs₀ (F := F)) 𝒱₀ c none) Set.univ (k (((xV : Memref sig .tc .vmem S256x4096 .f32).access (colsRect d)).read (Elt F) f)) Q)
          -∗ wp frame (wpE (defs₀ (F := F)) 𝒱₀ c none) Set.univ
              (.op (.load (xV : Memref sig .tc .vmem S256x4096 .f32) (Rect.unit (s := S256x4096) off S256x256.size hin).toLoadRect hl) k) Q) := by
  subst hoff
  exact wp_load_rect 𝒱₀ (c : Thread nD τ) none Set.univ (m := (xV : Memref sig .tc .vmem S256x4096 .f32)) (r := colsRect d) (Finset.subset_univ _)

/-- A load of slot `s` of a 16 × 256 × 256 buffer held by that slot. -/
theorem step_load_slot {e : EltTy} (b : Memref sig .tc .vmem S16x256x256 e) (c : Dev nD) (s : Fin 16) {α : Type} {Q : α → sProp 𝕄}
    {off : Fin 3 → ℕ} {hin : ∀ a, off a + S1x256x256.size a ≤ S16x256x256.size a} (hoff : off = ![s.val, 0, 0])
    {hl : b.view.LoadsAt (Rect.unit (s := S16x256x256) off S1x256x256.size hin).toLoadRect}
    {k : ((Rect.unit (s := S16x256x256) off S1x256x256.size hin).shape.Idx → Elt F e) → Prog (TpuEff nD τ sig (Elt F) Λ₀ .tc) α}
    (q : PosShare TreeShare) (f : Buf (Elt F) ((slotM b s).view.loc (c : Thread nD τ))) :
    (((slotM b s).view.loc (c : Thread nD τ) ↦[(slotM b s).view.set]{q} f) : sProp 𝕄)
      ⊢ iprop((((slotM b s).view.loc (c : Thread nD τ) ↦[(slotM b s).view.set]{q} f)
            -∗ wp frame (wpE (defs₀ (F := F)) 𝒱₀ c none) Set.univ (k ((b.access (slotRect s)).read (Elt F) f)) Q)
          -∗ wp frame (wpE (defs₀ (F := F)) 𝒱₀ c none) Set.univ
              (.op (.load b (Rect.unit (s := S16x256x256) off S1x256x256.size hin).toLoadRect hl) k) Q) := by
  subst hoff
  exact wp_load_rect 𝒱₀ (c : Thread nD τ) none Set.univ (m := b) (r := slotRect s)
    ((View.set_reshape (b.view.slice (slotRect s)) _).symm.subset)

/-- A store of `w` into slot `s` of a 16 × 256 × 256 buffer held by that slot. -/
theorem step_store_slot {e : EltTy} (b : Memref sig .tc .vmem S16x256x256 e) (c : Dev nD) (s : Fin 16) {α : Type} {Q : α → sProp 𝕄}
    {off : Fin 3 → ℕ} {hin : ∀ a, off a + S1x256x256.size a ≤ S16x256x256.size a} (hoff : off = ![s.val, 0, 0])
    {w : (Rect.unit (s := S16x256x256) off S1x256x256.size hin).shape.Idx → Elt F e}
    {hx : (b.access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (f : Buf (Elt F) ((slotM b s).view.loc (c : Thread nD τ))) :
    (((slotM b s).view.loc (c : Thread nD τ) ↦[(slotM b s).view.set]{fullShare} f) : sProp 𝕄)
      ⊢ iprop((((slotM b s).view.loc (c : Thread nD τ) ↦[(slotM b s).view.set]{fullShare} ((b.access (slotRect s)).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size hin) w Finset.univ hx hm) k) Q) := by
  subst hoff
  exact wp_store 𝒱₀ (c : Thread nD τ) none Set.univ (m := b) (r := slotRect s) (w := w) (Mk := Finset.univ)
    ((View.set_reshape (b.view.slice (slotRect s)) _).symm.subset)

/-- The store of the narrowed column block into slot `d` of the send buffer. -/
theorem step_store_send (c : Dev nD) (d : Fin 16) {α : Type} {Q : α → sProp 𝕄}
    {off : Fin 3 → ℕ} {hin : ∀ a, off a + S1x256x256.size a ≤ S16x256x256.size a} (hoff : off = ![d.val, 0, 0])
    {w : (Rect.unit (s := S16x256x256) off S1x256x256.size hin).shape.Idx → Elt F .bf16}
    {hx : ((sB : Memref sig .tc .vmem S16x256x256 .bf16).access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (f0 : Buf (Elt F) ((c : Thread nD τ).loc cc0_scratch1)) :
    (sPts c d f0 : sProp 𝕄)
      ⊢ iprop((sPts c d (((sB : Memref sig .tc .vmem S16x256x256 .bf16).access (slotRect d)).write (Elt F) f0 w Finset.univ)
            -∗ wp frame (wpE (defs₀ (F := F)) 𝒱₀ c none) Set.univ (k ⟨⟩) Q)
          -∗ wp frame (wpE (defs₀ (F := F)) 𝒱₀ c none) Set.univ
              (.op (.store (sB : Memref sig .tc .vmem S16x256x256 .bf16) (Rect.unit (s := S16x256x256) off S1x256x256.size hin) w Finset.univ hx hm) k) Q) := by
  unfold sPts
  exact step_store_slot sB c d hoff f0

/-- The store of the widened landed slot into slot `s` of the staging buffer. -/
theorem step_store_stage (c : Dev nD) (s : Fin 16) {α : Type} {Q : α → sProp 𝕄}
    {off : Fin 3 → ℕ} {hin : ∀ a, off a + S1x256x256.size a ≤ S16x256x256.size a} (hoff : off = ![s.val, 0, 0])
    {w : (Rect.unit (s := S16x256x256) off S1x256x256.size hin).shape.Idx → Elt F .f32}
    {hx : ((gB : Memref sig .tc .vmem S16x256x256 .f32).access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (g0 : Buf (Elt F) ((c : Thread nD τ).loc cc0_scratch3)) :
    (gPts c s g0 : sProp 𝕄)
      ⊢ iprop((gPts c s (((gB : Memref sig .tc .vmem S16x256x256 .f32).access (slotRect s)).write (Elt F) g0 w Finset.univ)
            -∗ wp frame (wpE (defs₀ (F := F)) 𝒱₀ c none) Set.univ (k ⟨⟩) Q)
          -∗ wp frame (wpE (defs₀ (F := F)) 𝒱₀ c none) Set.univ
              (.op (.store (gB : Memref sig .tc .vmem S16x256x256 .f32) (Rect.unit (s := S16x256x256) off S1x256x256.size hin) w Finset.univ hx hm) k) Q) := by
  unfold gPts
  exact step_store_slot gB c s hoff g0

/-- The load of slot `d` of the send buffer, the slot held. -/
theorem step_load_send (c : Dev nD) (d : Fin 16) {α : Type} {Q : α → sProp 𝕄}
    {off : Fin 3 → ℕ} {hin : ∀ a, off a + S1x256x256.size a ≤ S16x256x256.size a} (hoff : off = ![d.val, 0, 0])
    {hl : (sB : Memref sig .tc .vmem S16x256x256 .bf16).view.LoadsAt (Rect.unit (s := S16x256x256) off S1x256x256.size hin).toLoadRect}
    {k : ((Rect.unit (s := S16x256x256) off S1x256x256.size hin).shape.Idx → Elt F .bf16) → Prog (TpuEff nD τ sig (Elt F) Λ₀ .tc) α}
    (f : Buf (Elt F) ((c : Thread nD τ).loc cc0_scratch1)) :
    (sPts c d f : sProp 𝕄)
      ⊢ iprop((sPts c d f -∗ wp frame (wpE (defs₀ (F := F)) 𝒱₀ c none) Set.univ (k (((sB : Memref sig .tc .vmem S16x256x256 .bf16).access (slotRect d)).read (Elt F) f)) Q)
          -∗ wp frame (wpE (defs₀ (F := F)) 𝒱₀ c none) Set.univ
              (.op (.load (sB : Memref sig .tc .vmem S16x256x256 .bf16) (Rect.unit (s := S16x256x256) off S1x256x256.size hin).toLoadRect hl) k) Q) := by
  unfold sPts
  exact step_load_slot sB c d hoff fullShare f

/-- The load of the landed slot `s` of the receive buffer, the slot held. -/
theorem step_load_recv (c : Dev nD) (s : Fin 16) {α : Type} {Q : α → sProp 𝕄}
    {off : Fin 3 → ℕ} {hin : ∀ a, off a + S1x256x256.size a ≤ S16x256x256.size a} (hoff : off = ![s.val, 0, 0])
    {hl : (rB : Memref sig .tc .vmem S16x256x256 .bf16).view.LoadsAt (Rect.unit (s := S16x256x256) off S1x256x256.size hin).toLoadRect}
    {k : ((Rect.unit (s := S16x256x256) off S1x256x256.size hin).shape.Idx → Elt F .bf16) → Prog (TpuEff nD τ sig (Elt F) Λ₀ .tc) α}
    (f : Buf (Elt F) ((c : Thread nD τ).loc cc0_scratch2)) :
    (rPts c s f : sProp 𝕄)
      ⊢ iprop((rPts c s f -∗ wp frame (wpE (defs₀ (F := F)) 𝒱₀ c none) Set.univ (k (((rB : Memref sig .tc .vmem S16x256x256 .bf16).access (slotRect s)).read (Elt F) f)) Q)
          -∗ wp frame (wpE (defs₀ (F := F)) 𝒱₀ c none) Set.univ
              (.op (.load (rB : Memref sig .tc .vmem S16x256x256 .bf16) (Rect.unit (s := S16x256x256) off S1x256x256.size hin).toLoadRect hl) k) Q) := by
  unfold rPts
  exact step_load_slot rB c s hoff fullShare f

/-- The load of slot `s` of the staging buffer, the slot held. -/
theorem step_load_stage (c : Dev nD) (s : Fin 16) {α : Type} {Q : α → sProp 𝕄}
    {off : Fin 3 → ℕ} {hin : ∀ a, off a + S1x256x256.size a ≤ S16x256x256.size a} (hoff : off = ![s.val, 0, 0])
    {hl : (gB : Memref sig .tc .vmem S16x256x256 .f32).view.LoadsAt (Rect.unit (s := S16x256x256) off S1x256x256.size hin).toLoadRect}
    {k : ((Rect.unit (s := S16x256x256) off S1x256x256.size hin).shape.Idx → Elt F .f32) → Prog (TpuEff nD τ sig (Elt F) Λ₀ .tc) α}
    (f : Buf (Elt F) ((c : Thread nD τ).loc cc0_scratch3)) :
    (gPts c s f : sProp 𝕄)
      ⊢ iprop((gPts c s f -∗ wp frame (wpE (defs₀ (F := F)) 𝒱₀ c none) Set.univ (k (((gB : Memref sig .tc .vmem S16x256x256 .f32).access (slotRect s)).read (Elt F) f)) Q)
          -∗ wp frame (wpE (defs₀ (F := F)) 𝒱₀ c none) Set.univ
              (.op (.load (gB : Memref sig .tc .vmem S16x256x256 .f32) (Rect.unit (s := S16x256x256) off S1x256x256.size hin).toLoadRect hl) k) Q) := by
  unfold gPts
  exact step_load_slot gB c s hoff fullShare f

end Cert.KernelIdealProof

end
-- ==== Proof.Open.lean ====
/-
  The beginning of a device's body.

  The launch hands a device its ghost state, its credit, its two arrays whole and its four scratch buffers whole.
  The body works cell by cell and piece by piece: the positions and tokens are dealt to the sixteen slots (the
  device's own, the fifteen destinations, the fifteen sources), the send, receive and staging buffers and the
  result array are cut into their sixteen pieces, each at what it happens to hold, and the argument array into its
  left half and the two pieces of its right half.
-/
import proofs.«900406_g7700000000000407_dist_a2a_v7x_i16_i_m256_n256_bf16_1_alg».proof.Proof.States
import proofs.«900406_g7700000000000407_dist_a2a_v7x_i16_i_m256_n256_bf16_1_alg».proof.Proof.Steps

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Transfer `r` on the sending side before anything is stored: phase 0 does not mention the vector-memory copy. -/
def sendSt0 (c : Dev nD) (r : Fin 15) : sProp 𝕄 :=
  iprop((∃ f, sPts c (peer c r) f) ∗ xferToks c r ∗ atPos ER (sendCell c (peer c r)) 0 ∅ 0)
theorem sendSt_zero (c : Dev nD) (fx : Buf (Elt F) ((c : Thread nD τ).loc cc0_scratch0)) (r : Fin 15) : sendSt m c fx r 0 = sendSt0 c r := rfl

/-- What part 2 needs beyond the signals' state, and everything the first two parts leave untouched. -/
def preRest (c : Dev nD) : sProp 𝕄 :=
  iprop(cred (tallyAt (barCell c) () 15)
    ∗ (∃ f, (xV : Memref sig .tc .vmem S256x4096 .f32).view.loc (c : Thread nD τ) ↦[(xV : Memref sig .tc .vmem S256x4096 .f32).view.set]{fullShare} f)
    ∗ ((xH : Memref sig .tc .hbm S256x4096 .f32).view.loc (c : Thread nD τ) ↦[(xH : Memref sig .tc .hbm S256x4096 .f32).view.set]{fullShare.left} X m c)
    ∗ ((xH : Memref sig .tc .hbm S256x4096 .f32).view.loc (c : Thread nD τ) ↦[(xH : Memref sig .tc .hbm S256x4096 .f32).view.set \ (colsM xH c).view.set]{fullShare.right} X m c)
    ∗ xcPts c c fullShare.right (X m c)
    ∗ (∃ fo, oPts c c fo)
    ∗ dutyTok ER (inCell c) 0 c ∗ dutyTok ER (outCell c c) 0 c
    ∗ atPos ER (inCell c) 0 ∅ 0 ∗ atPos ER (outCell c c) 0 ∅ 0
    ∗ (∃ f, sPts c c f) ∗ (∃ f, rPts c c f) ∗ (∃ f, gPts c c f)
    ∗ atPos ER (sendCell c c) 0 ∅ 0 ∗ atPos ER (recvCell c c) 0 ∅ 0 ∗ atPos ER (barCell c) 0 ∅ 0
    ∗ sendSt0 c 0 ∗ sendSt0 c 1 ∗ sendSt0 c 2 ∗ sendSt0 c 3 ∗ sendSt0 c 4 ∗ sendSt0 c 5 ∗ sendSt0 c 6 ∗ sendSt0 c 7 ∗ sendSt0 c 8 ∗ sendSt0 c 9 ∗ sendSt0 c 10 ∗ sendSt0 c 11 ∗ sendSt0 c 12 ∗ sendSt0 c 13 ∗ sendSt0 c 14
    ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0)

/-! ## Products over the kinds of cell and over the other devices -/

/-- The kinds of cell, listed: the barrier, the fetch, and three families of sixteen. -/
def opnCkEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem opn_bigSep_unit (Ψ : Unit → sProp 𝕄) : bigSep Finset.univ Ψ = Ψ () := by
  rw [show (Finset.univ : Finset Unit) = {()} from rfl, bigSep_singleton]

/-- A product over the kinds of cell, kind by kind. -/
theorem opn_bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv opnCkEquiv.symm Φ, bigSep_univ_sum, bigSep_univ_sum, bigSep_univ_sum, bigSep_univ_sum, opn_bigSep_unit, opn_bigSep_unit]
  rfl

/-- A product over the kinds of cell other than the barrier. -/
theorem opn_bigSep_CK_erase (Φ : CK → sProp 𝕄) :
    bigSep (Finset.univ.erase CK.bar) Φ = iprop(Φ .inn ∗ (bigSep Finset.univ fun s : Fin 16 => Φ (.out s)) ∗ (bigSep Finset.univ fun s : Fin 16 => Φ (.send s))
      ∗ bigSep Finset.univ fun s : Fin 16 => Φ (.recv s)) := by
  rw [← Finset.filter_ne' Finset.univ CK.bar, bigSep_filter, opn_bigSep_CK]
  simp only [ne_eq, not_true_eq_false, reduceCtorEq, not_false_eq_true, if_true, if_false]
  exact BI.equiv_iff.mp emp_sep

/-- The other devices are the fifteen destinations, -/
theorem opn_erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩
/-- and the fifteen sources. -/
theorem opn_erase_eq_src (c : Dev nD) : ((Finset.univ : Finset (Dev nD)).erase c) = Finset.univ.map ⟨src c, src_inj c⟩ := by
  ext d
  simp only [Finset.mem_erase, Finset.mem_univ, and_true, Finset.mem_map, Function.Embedding.coeFn_mk, true_and]
  exact ⟨fun h => exists_src c d h, fun ⟨r, hr⟩ => hr ▸ src_ne c r⟩

/-- A product over all sixteen devices: the device itself, then its fifteen destinations; -/
theorem opn_bigSep_self_peer (c : Dev nD) (Φ : Dev nD → sProp 𝕄) :
    bigSep Finset.univ Φ = iprop(Φ c ∗ bigSep Finset.univ fun r : Fin 15 => Φ (peer c r)) := by
  rw [bigSep_univ_at Φ c, opn_erase_eq_peer, bigSep_map]; rfl
/-- or the device itself, then its fifteen sources. -/
theorem opn_bigSep_self_src (c : Dev nD) (Φ : Dev nD → sProp 𝕄) :
    bigSep Finset.univ Φ = iprop(Φ c ∗ bigSep Finset.univ fun r : Fin 15 => Φ (src c r)) := by
  rw [bigSep_univ_at Φ c, opn_erase_eq_src, bigSep_map]; rfl

/-- The fifteen transfers, listed. -/
theorem opn15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-! ## The launch's ghost state, cell by cell -/

/-- The positions, kind by kind, the device's own slot first. -/
theorem pos_split (c : Dev nD) :
    (bigSep Finset.univ fun k : CK => atPos ER (kcell (c, k)) 0 ∅ 0 : sProp 𝕄)
      ⊢ iprop(atPos ER (barCell c) 0 ∅ 0 ∗ atPos ER (inCell c) 0 ∅ 0
        ∗ (atPos ER (outCell c c) 0 ∅ 0 ∗ bigSep Finset.univ fun r : Fin 15 => atPos ER (outCell c (src c r)) 0 ∅ 0)
        ∗ (atPos ER (sendCell c c) 0 ∅ 0 ∗ bigSep Finset.univ fun r : Fin 15 => atPos ER (sendCell c (peer c r)) 0 ∅ 0)
        ∗ (atPos ER (recvCell c c) 0 ∅ 0 ∗ bigSep Finset.univ fun r : Fin 15 => atPos ER (recvCell c (src c r)) 0 ∅ 0)) := by
  rw [opn_bigSep_CK,
    opn_bigSep_self_src c (fun s => (atPos ER (kcell (c, CK.out s)) 0 ∅ 0 : sProp 𝕄)),
    opn_bigSep_self_peer c (fun s => (atPos ER (kcell (c, CK.send s)) 0 ∅ 0 : sProp 𝕄)),
    opn_bigSep_self_src c (fun s => (atPos ER (kcell (c, CK.recv s)) 0 ∅ 0 : sProp 𝕄))]
  exact .rfl

/-- The tokens of the sixteen copies into the result array, the device's own first. -/
theorem outToks_split (c : Dev nD) :
    (bigSep Finset.univ fun s : Fin 16 => dutyTok ER (outCell c s) 0 c : sProp 𝕄)
      ⊢ iprop(dutyTok ER (outCell c c) 0 c ∗ bigSep Finset.univ fun r : Fin 15 => dutyTok ER (outCell c (src c r)) 0 c) := by
  rw [opn_bigSep_self_src c (fun s => (dutyTok ER (outCell c s) 0 c : sProp 𝕄))]

/-! ## The buffers, piece by piece, each at some contents -/

theorem sPts_ex (c : Dev nD) (s : Fin 16) (f : Buf (Elt F) ((c : Thread nD τ).loc cc0_scratch1)) :
    ((slotM (Memref.whole cc0_scratch1) s).view.loc (c : Thread nD τ) ↦[(slotM (Memref.whole cc0_scratch1) s).view.set]{fullShare} f : sProp 𝕄)
      ⊢ iprop(∃ f, sPts c s f) := by
  iintro H; iexists f; unfold sPts; iexact H
theorem rPts_ex (c : Dev nD) (s : Fin 16) (f : Buf (Elt F) ((c : Thread nD τ).loc cc0_scratch2)) :
    ((slotM (Memref.whole cc0_scratch2) s).view.loc (c : Thread nD τ) ↦[(slotM (Memref.whole cc0_scratch2) s).view.set]{fullShare} f : sProp 𝕄)
      ⊢ iprop(∃ f, rPts c s f) := by
  iintro H; iexists f; unfold rPts; iexact H
theorem gPts_ex (c : Dev nD) (s : Fin 16) (f : Buf (Elt F) ((c : Thread nD τ).loc cc0_scratch3)) :
    ((slotM (Memref.whole cc0_scratch3) s).view.loc (c : Thread nD τ) ↦[(slotM (Memref.whole cc0_scratch3) s).view.set]{fullShare} f : sProp 𝕄)
      ⊢ iprop(∃ f, gPts c s f) := by
  iintro H; iexists f; unfold gPts; iexact H
theorem oPts_ex (c : Dev nD) (s : Fin 16) (f : Buf (Elt F) ((c : Thread nD τ).loc main_v1)) :
    ((rowsM (Memref.whole main_v1) s).view.loc (c : Thread nD τ) ↦[(rowsM (Memref.whole main_v1) s).view.set]{fullShare} f : sProp 𝕄)
      ⊢ iprop(∃ f, oPts c s f) := by
  iintro H; iexists f; unfold oPts; iexact H

/-- The send buffer: its own slot, and the slots of the fifteen destinations. -/
theorem scr1_split (c : Dev nD) :
    (iprop(∃ f : Buf (Elt F) ((c : Thread nD τ).loc cc0_scratch1), ((c : Thread nD τ).loc cc0_scratch1) ↦{fullShare} f) : sProp 𝕄)
      ⊢ iprop((∃ f, sPts c c f) ∗ bigSep Finset.univ fun r : Fin 15 => iprop(∃ f, sPts c (peer c r) f)) := by
  iintro ⟨%f, H⟩
  iapply (show (bigSep Finset.univ fun s : Fin 16 => ((slotM (Memref.whole cc0_scratch1) s).view.loc (c : Thread nD τ)
        ↦[(slotM (Memref.whole cc0_scratch1) s).view.set]{fullShare} f) : sProp 𝕄)
      ⊢ iprop((∃ f, sPts c c f) ∗ bigSep Finset.univ fun r : Fin 15 => iprop(∃ f, sPts c (peer c r) f)) from by
    rw [opn_bigSep_self_peer c (fun s => (((slotM (Memref.whole cc0_scratch1) s).view.loc (c : Thread nD τ)
        ↦[(slotM (Memref.whole cc0_scratch1) s).view.set]{fullShare} f) : sProp 𝕄))]
    exact BIClass.sep_mono (sPts_ex c c f) (bigSep_mono fun r _ => sPts_ex c (peer c r) f))
  iapply (slots_split_s1 c fullShare f)
  iexact H

/-- The receive buffer: its own slot, and the slots of the fifteen other devices. -/
theorem scr2_split (c : Dev nD) :
    (iprop(∃ f : Buf (Elt F) ((c : Thread nD τ).loc cc0_scratch2), ((c : Thread nD τ).loc cc0_scratch2) ↦{fullShare} f) : sProp 𝕄)
      ⊢ iprop((∃ f, rPts c c f) ∗ bigSep (Finset.univ.erase c) fun j : Dev nD => iprop(∃ f, rPts c j f)) := by
  iintro ⟨%f, H⟩
  iapply (show (bigSep Finset.univ fun s : Fin 16 => ((slotM (Memref.whole cc0_scratch2) s).view.loc (c : Thread nD τ)
        ↦[(slotM (Memref.whole cc0_scratch2) s).view.set]{fullShare} f) : sProp 𝕄)
      ⊢ iprop((∃ f, rPts c c f) ∗ bigSep (Finset.univ.erase c) fun j : Dev nD => iprop(∃ f, rPts c j f)) from by
    rw [bigSep_univ_at (fun s : Fin 16 => (((slotM (Memref.whole cc0_scratch2) s).view.loc (c : Thread nD τ)
        ↦[(slotM (Memref.whole cc0_scratch2) s).view.set]{fullShare} f) : sProp 𝕄)) c]
    exact BIClass.sep_mono (rPts_ex c c f) (bigSep_mono fun j _ => rPts_ex c j f))
  iapply (slots_split_s2 c fullShare f)
  iexact H

/-- The staging buffer: its own slot, and the slots of the fifteen sources. -/
theorem scr3_split (c : Dev nD) :
    (iprop(∃ f : Buf (Elt F) ((c : Thread nD τ).loc cc0_scratch3), ((c : Thread nD τ).loc cc0_scratch3) ↦{fullShare} f) : sProp 𝕄)
      ⊢ iprop((∃ f, gPts c c f) ∗ bigSep Finset.univ fun r : Fin 15 => iprop(∃ f, gPts c (src c r) f)) := by
  iintro ⟨%f, H⟩
  iapply (show (bigSep Finset.univ fun s : Fin 16 => ((slotM (Memref.whole cc0_scratch3) s).view.loc (c : Thread nD τ)
        ↦[(slotM (Memref.whole cc0_scratch3) s).view.set]{fullShare} f) : sProp 𝕄)
      ⊢ iprop((∃ f, gPts c c f) ∗ bigSep Finset.univ fun r : Fin 15 => iprop(∃ f, gPts c (src c r) f)) from by
    rw [opn_bigSep_self_src c (fun s => (((slotM (Memref.whole cc0_scratch3) s).view.loc (c : Thread nD τ)
        ↦[(slotM (Memref.whole cc0_scratch3) s).view.set]{fullShare} f) : sProp 𝕄))]
    exact BIClass.sep_mono (gPts_ex c c f) (bigSep_mono fun r _ => gPts_ex c (src c r) f))
  iapply (slots_split_s3 c fullShare f)
  iexact H

/-- The result array: its own row block, and the row blocks of the fifteen sources. -/
theorem v1_split (c : Dev nD) :
    (iprop(∃ f : Buf (Elt F) ((c : Thread nD τ).loc main_v1), ((c : Thread nD τ).loc main_v1) ↦{fullShare} f) : sProp 𝕄)
      ⊢ iprop((∃ f, oPts c c f) ∗ bigSep Finset.univ fun r : Fin 15 => iprop(∃ f, oPts c (src c r) f)) := by
  iintro ⟨%f, H⟩
  iapply (show (bigSep Finset.univ fun s : Fin 16 => ((rowsM (Memref.whole main_v1) s).view.loc (c : Thread nD τ)
        ↦[(rowsM (Memref.whole main_v1) s).view.set]{fullShare} f) : sProp 𝕄)
      ⊢ iprop((∃ f, oPts c c f) ∗ bigSep Finset.univ fun r : Fin 15 => iprop(∃ f, oPts c (src c r) f)) from by
    rw [opn_bigSep_self_src c (fun s => (((rowsM (Memref.whole main_v1) s).view.loc (c : Thread nD τ)
        ↦[(rowsM (Memref.whole main_v1) s).view.set]{fullShare} f) : sProp 𝕄))]
    exact BIClass.sep_mono (oPts_ex c c f) (bigSep_mono fun r _ => oPts_ex c (src c r) f))
  iapply (rows_split_v1 c fullShare f)
  iexact H

/-- The argument array: its left half whole, its right half cut into column block `c` and the rest. -/
theorem arg_split (c : Dev nD) :
    ((((c : Thread nD τ).loc main_arg0) ↦{fullShare} X m c) : sProp 𝕄)
      ⊢ iprop(((xH : Memref sig .tc .hbm S256x4096 .f32).view.loc (c : Thread nD τ) ↦[(xH : Memref sig .tc .hbm S256x4096 .f32).view.set]{fullShare.left} X m c)
        ∗ ((xH : Memref sig .tc .hbm S256x4096 .f32).view.loc (c : Thread nD τ) ↦[(xH : Memref sig .tc .hbm S256x4096 .f32).view.set \ (colsM xH c).view.set]{fullShare.right} X m c)
        ∗ xcPts c c fullShare.right (X m c)) := by
  have hsub : (colsM (xH : Memref sig .tc .hbm S256x4096 .f32) c).view.set ⊆ (xH : Memref sig .tc .hbm S256x4096 .f32).view.set :=
    View.set_slice_subset _ _
  have hset : (xH : Memref sig .tc .hbm S256x4096 .f32).view.set = Finset.univ := View.set_whole _
  iintro H
  ihave H' : ((xH : Memref sig .tc .hbm S256x4096 .f32).view.loc (c : Thread nD τ) ↦[(xH : Memref sig .tc .hbm S256x4096 .f32).view.set]{fullShare} X m c) $$ [H]
  · rw [hset]; iexact H
  icases (pointsTo_share (ℓ := (xH : Memref sig .tc .hbm S256x4096 .f32).view.loc (c : Thread nD τ))
      (I := (xH : Memref sig .tc .hbm S256x4096 .f32).view.set) (f := X m c) (PosShare.mem_left_op_right fullShare)).1 $$ H' with ⟨Hl, Hr⟩
  icases (pointsTo_split_subset (ℓ := (xH : Memref sig .tc .hbm S256x4096 .f32).view.loc (c : Thread nD τ))
      (q := fullShare.right) (f := X m c) hsub).1 $$ Hr with ⟨Hc, Hrest⟩
  isplitl [Hl]; · iexact Hl
  isplitl [Hrest]; · iexact Hrest
  unfold xcPts
  iexact Hc

/-! ## The transfers' starting states -/

/-- Transfer `r` on the sending side: its slot, its two tokens, its position. -/
theorem send_piece0 (c : Dev nD) (r : Fin 15) :
    (iprop((∃ f, sPts c (peer c r) f)
        ∗ (dutyTok ER (recvCell (peer c r) c) 0 (peer c r) ∗ dutyTok ER (sendCell c (peer c r)) 0 c)
        ∗ atPos ER (sendCell c (peer c r)) 0 ∅ 0) : sProp 𝕄)
      ⊢ sendSt0 c r := by
  unfold sendSt0 xferToks
  iintro ⟨Hs, ⟨HtR, HtS⟩, Hat⟩
  isplitl [Hs]; · iexact Hs
  isplitl [HtS HtR]
  · isplitl [HtS]; · iexact HtS
    iexact HtR
  iexact Hat

/-- The fifteen transfers on the sending side, from the three families. -/
theorem send_family0 (c : Dev nD) :
    (iprop((bigSep Finset.univ fun r : Fin 15 => iprop(∃ f, sPts c (peer c r) f))
        ∗ (bigSep Finset.univ fun r : Fin 15 => iprop(dutyTok ER (recvCell (peer c r) c) 0 (peer c r) ∗ dutyTok ER (sendCell c (peer c r)) 0 c))
        ∗ bigSep Finset.univ fun r : Fin 15 => atPos ER (sendCell c (peer c r)) 0 ∅ 0) : sProp 𝕄)
      ⊢ bigSep Finset.univ fun r : Fin 15 => sendSt0 c r := by
  rw [← bigSep_sep', ← bigSep_sep']
  exact bigSep_mono fun r _ => send_piece0 c r

/-- The fifteen blocks on the receiving side, from the six families. -/
theorem recv_family0 (c : Dev nD) :
    (iprop((bigSep Finset.univ fun r : Fin 15 => cred (tallyAt (recvCell c (src c r)) () Nb))
        ∗ (bigSep Finset.univ fun r : Fin 15 => atPos ER (recvCell c (src c r)) 0 ∅ 0)
        ∗ (bigSep Finset.univ fun r : Fin 15 => iprop(∃ g, gPts c (src c r) g))
        ∗ (bigSep Finset.univ fun r : Fin 15 => iprop(∃ f, oPts c (src c r) f))
        ∗ (bigSep Finset.univ fun r : Fin 15 => dutyTok ER (outCell c (src c r)) 0 c)
        ∗ bigSep Finset.univ fun r : Fin 15 => atPos ER (outCell c (src c r)) 0 ∅ 0) : sProp 𝕄)
      ⊢ bigSep Finset.univ fun r : Fin 15 => recvSt m c r 0 := by
  rw [← bigSep_sep', ← bigSep_sep', ← bigSep_sep', ← bigSep_sep', ← bigSep_sep']
  exact bigSep_mono fun r _ => .refl _

/-- The barrier units still to send, each with the slot of the receive buffer it carries. -/
theorem sig_family (c : Dev nD) :
    (iprop((bigSep (Finset.univ.erase c) fun j : Dev nD => dutyTok ER (barCell j) 0 c)
        ∗ bigSep (Finset.univ.erase c) fun j : Dev nD => iprop(∃ f, rPts c j f)) : sProp 𝕄)
      ⊢ bigSep (pend c 0) fun j => iprop(dutyTok ER (barCell j) 0 c ∗ ∃ f, rPts c j f) := by
  rw [pend_zero, ← bigSep_sep']

/-- Two families of fifteen, as one chain. -/
theorem chain30 (Φ Ψ : Fin 15 → sProp 𝕄) :
    iprop(bigSep Finset.univ Φ ∗ bigSep Finset.univ Ψ)
      ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14
        ∗ Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14) := by
  rw [opn15 Φ, opn15 Ψ]
  iintro ⟨⟨a0, a1, a2, a3, a4, a5, a6, a7, a8, a9, a10, a11, a12, a13, a14⟩, b⟩
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [a8]; · iexact a8
  isplitl [a9]; · iexact a9
  isplitl [a10]; · iexact a10
  isplitl [a11]; · iexact a11
  isplitl [a12]; · iexact a12
  isplitl [a13]; · iexact a13
  isplitl [a14]; · iexact a14
  iexact b

/-- From what the launch hands a device (its ghost state, its credit, its two arrays and its four scratch buffers,
    what it owes) to the state the first conditional signal starts from. -/
theorem open0 (K : Dev nD × CK → ℕ) (c : Dev nD) (W : Waits sig Unit) :
    iprop(ghost m K c ∗ launchCreds c
        ∗ (((c : Thread nD τ).loc main_arg0) ↦{fullShare} X m c)
        ∗ (∃ f : Buf (Elt F) ((c : Thread nD τ).loc main_v1), (((c : Thread nD τ).loc main_v1) ↦{fullShare} f))
        ∗ scratch c ∗ owes (c : Thread nD τ) (O₀ c) W)
      ⊢ iprop(records m K ∗ SigSt c 0 W ∗ preRest m c) := by
  unfold ghost linear payToks launchCreds scratch
  iintro ⟨⟨#HR, Hpos, HtB, HtX, HtI, HtO⟩, ⟨HcB, HcR⟩, Harg, Hv1, ⟨H0, H1, H2, H3⟩, HO⟩
  icases (pos_split c) $$ Hpos with ⟨PB, PI, ⟨POc, POr⟩, ⟨PSc, PSr⟩, ⟨PRc, PRr⟩⟩
  icases (outToks_split c) $$ HtO with ⟨TOc, TOr⟩
  icases (scr1_split c) $$ H1 with ⟨S1c, S1r⟩
  icases (scr2_split c) $$ H2 with ⟨S2c, S2r⟩
  icases (scr3_split c) $$ H3 with ⟨S3c, S3r⟩
  icases (v1_split c) $$ Hv1 with ⟨Voc, Vor⟩
  icases (arg_split m c) $$ Harg with ⟨Al, Ar, Ac⟩
  isplitr; · iexact HR
  isplitl [HO HtB S2r]
  · unfold SigSt
    isplitl [HO]; · iexact HO
    iapply (sig_family c)
    isplitl [HtB]; · iexact HtB
    iexact S2r
  unfold preRest
  isplitl [HcB]; · iexact HcB
  isplitl [H0]
  · icases H0 with ⟨%f, H0⟩
    iexists f
    rw [show (xV : Memref sig .tc .vmem S256x4096 .f32).view.set = Finset.univ from View.set_whole _]
    iexact H0
  isplitl [Al]; · iexact Al
  isplitl [Ar]; · iexact Ar
  isplitl [Ac]; · iexact Ac
  isplitl [Voc]; · iexact Voc
  isplitl [HtI]; · iexact HtI
  isplitl [TOc]; · iexact TOc
  isplitl [PI]; · iexact PI
  isplitl [POc]; · iexact POc
  isplitl [S1c]; · iexact S1c
  isplitl [S2c]; · iexact S2c
  isplitl [S3c]; · iexact S3c
  isplitl [PSc]; · iexact PSc
  isplitl [PRc]; · iexact PRc
  isplitl [PB]; · iexact PB
  iapply (chain30 (fun r => sendSt0 c r) (fun r => recvSt m c r 0))
  isplitl [S1r HtX PSr]
  · iapply (send_family0 c)
    isplitl [S1r]; · iexact S1r
    isplitl [HtX]; · iexact HtX
    iexact PSr
  · iapply (recv_family0 m c)
    isplitl [HcR]; · iexact HcR
    isplitl [PRr]; · iexact PRr
    isplitl [S3r]; · iexact S3r
    isplitl [Vor]; · iexact Vor
    isplitl [TOr]; · iexact TOr
    iexact POr

/-- info: 'Cert.KernelIdealProof.open0' depends on axioms: [propext, Classical.choice, Quot.sound] -/
#guard_msgs in #print axioms open0

end Cert.KernelIdealProof

end
-- ==== Proof.Finish.lean ====
/-
  The end of a device's body.

  After the last wait every transfer is over: each cell of the forty-nine copy semaphores stands at a round from
  which it has no duty, so it can be closed and its counter read at zero; the send, receive and staging buffers
  are their sixteen slots again, the argument array its two halves, and the result array its sixteen row blocks,
  each at what the copy into it left.
-/
import proofs.«900406_g7700000000000407_dist_a2a_v7x_i16_i_m256_n256_bf16_1_alg».proof.Proof.States

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Products over the kinds of cell and over the other devices -/

/-- The kinds of cell, listed: the barrier, the fetch, and three families of sixteen. -/
def finCkEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem fin_bigSep_unit (Ψ : Unit → sProp 𝕄) : bigSep Finset.univ Ψ = Ψ () := by
  rw [show (Finset.univ : Finset Unit) = {()} from rfl, bigSep_singleton]

/-- A product over the kinds of cell, kind by kind. -/
theorem fin_bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv finCkEquiv.symm Φ, bigSep_univ_sum, bigSep_univ_sum, bigSep_univ_sum, bigSep_univ_sum, fin_bigSep_unit, fin_bigSep_unit]
  rfl

/-- A product over the kinds of cell other than the barrier. -/
theorem fin_bigSep_CK_erase (Φ : CK → sProp 𝕄) :
    bigSep (Finset.univ.erase CK.bar) Φ = iprop(Φ .inn ∗ (bigSep Finset.univ fun s : Fin 16 => Φ (.out s)) ∗ (bigSep Finset.univ fun s : Fin 16 => Φ (.send s))
      ∗ bigSep Finset.univ fun s : Fin 16 => Φ (.recv s)) := by
  rw [← Finset.filter_ne' Finset.univ CK.bar, bigSep_filter, fin_bigSep_CK]
  simp only [ne_eq, not_true_eq_false, reduceCtorEq, not_false_eq_true, if_true, if_false]
  exact BI.equiv_iff.mp emp_sep

/-- The other devices are the fifteen destinations, -/
theorem fin_erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩
/-- and the fifteen sources. -/
theorem fin_erase_eq_src (c : Dev nD) : ((Finset.univ : Finset (Dev nD)).erase c) = Finset.univ.map ⟨src c, src_inj c⟩ := by
  ext d
  simp only [Finset.mem_erase, Finset.mem_univ, and_true, Finset.mem_map, Function.Embedding.coeFn_mk, true_and]
  exact ⟨fun h => exists_src c d h, fun ⟨r, hr⟩ => hr ▸ src_ne c r⟩

/-- A product over all sixteen devices: the device itself, then its fifteen destinations; -/
theorem fin_bigSep_self_peer (c : Dev nD) (Φ : Dev nD → sProp 𝕄) :
    bigSep Finset.univ Φ = iprop(Φ c ∗ bigSep Finset.univ fun r : Fin 15 => Φ (peer c r)) := by
  rw [bigSep_univ_at Φ c, fin_erase_eq_peer, bigSep_map]; rfl
/-- or the device itself, then its fifteen sources. -/
theorem fin_bigSep_self_src (c : Dev nD) (Φ : Dev nD → sProp 𝕄) :
    bigSep Finset.univ Φ = iprop(Φ c ∗ bigSep Finset.univ fun r : Fin 15 => Φ (src c r)) := by
  rw [bigSep_univ_at Φ c, fin_erase_eq_src, bigSep_map]; rfl

/-! ## Closing the cells -/

/-- Every cell's invariant is among the records. -/
theorem fin_inv (K : Dev nD × CK → ℕ) (c : Dev nD) (k : CK) :
    records m K ⊢ cellInv ER (a2a m) (K (c, k)) (kcell (c, k)) := by
  unfold records
  exact (BI.sep_and.trans BI.and_elimL).trans
    (bigSep_elim (Φ := fun ck : Dev nD × CK => cellInv ER (a2a m) (K ck) (kcell ck)) (Finset.mem_univ ((c, k) : Dev nD × CK)))

/-- A cell standing at a round from which it has no duty closes, its counter at zero. -/
theorem close_cell (K : Dev nD × CK → ℕ) (c : Dev nD) (k : CK) (R : ℕ)
    (hR : ∀ r, R ≤ r → (a2a (F := F) m).duties (kcell (c, k)) r = ∅) :
    iprop(records m K ∗ atPos ER (kcell (c, k)) R ∅ 0) ⊢ iprop(|={Set.univ}=> semVal (kcell (c, k)) 0) := by
  iintro ⟨#HR, Hat⟩
  iapply (Rounds.cell_close ER (a2a m) (Set.mem_univ (K (c, k))) (fun h => h) hR)
  isplitr
  · iapply (fin_inv m K c k); iexact HR
  · iexact Hat

/-- A departure waited for: the slot of the send buffer, and the cell closed. -/
theorem close_send (K : Dev nD × CK → ℕ) (c : Dev nD) (fx : Buf (Elt F) ((c : Thread nD τ).loc cc0_scratch0)) (r : Fin 15) :
    iprop(records m K ∗ sendSt m c fx r 4)
      ⊢ iprop(|={Set.univ}=> ((∃ f, sPts c (peer c r) f) ∗ semVal (sendCell c (peer c r)) 0)) := by
  show iprop(records m K ∗ ((∃ f, sPts c (peer c r) f) ∗ atPos ER (sendCell c (peer c r)) 1 ∅ 0)) ⊢ _
  iintro ⟨#HR, Hs, Hat⟩
  imod (close_cell m K c (.send (peer c r)) 1 (fun r' h => duties_later m _ r' h)) $$ [Hat] with Hv
  · isplitr; · iexact HR
    iexact Hat
  imodintro
  isplitl [Hs]; · iexact Hs
  iexact Hv

/-- An arrival written to the result array: the slot of the receive buffer, what the copy left, and both cells closed. -/
theorem close_recv (K : Dev nD × CK → ℕ) (c : Dev nD) (r : Fin 15) :
    iprop(records m K ∗ recvSt m c r 3)
      ⊢ iprop(|={Set.univ}=> ((∃ f, rPts c (src c r) f) ∗ outPay m c (src c r)
          ∗ semVal (recvCell c (src c r)) 0 ∗ semVal (outCell c (src c r)) 0)) := by
  show iprop(records m K ∗ ((∃ f, rPts c (src c r) f) ∗ atPos ER (recvCell c (src c r)) 1 ∅ 0
      ∗ outPay m c (src c r) ∗ atPos ER (outCell c (src c r)) 1 ∅ 0)) ⊢ _
  iintro ⟨#HR, Hr, HatR, Hp, HatO⟩
  imod (close_cell m K c (.recv (src c r)) 1 (fun r' h => duties_later m _ r' h)) $$ [HatR] with HvR
  · isplitr; · iexact HR
    iexact HatR
  imod (close_cell m K c (.out (src c r)) 1 (fun r' h => duties_later m _ r' h)) $$ [HatO] with HvO
  · isplitr; · iexact HR
    iexact HatO
  imodintro
  isplitl [Hr]; · iexact Hr
  isplitl [Hp]; · iexact Hp
  isplitl [HvR]; · iexact HvR
  iexact HvO

/-! ## The buffers whole again -/

/-- The counters of the forty-nine copy semaphores, kind by kind, the device's own slot first. -/
theorem sems_join (c : Dev nD) :
    iprop(semVal (inCell c) 0
        ∗ (semVal (outCell c c) 0 ∗ bigSep Finset.univ fun r : Fin 15 => semVal (outCell c (src c r)) 0)
        ∗ (semVal (sendCell c c) 0 ∗ bigSep Finset.univ fun r : Fin 15 => semVal (sendCell c (peer c r)) 0)
        ∗ (semVal (recvCell c c) 0 ∗ bigSep Finset.univ fun r : Fin 15 => semVal (recvCell c (src c r)) 0))
      ⊢ (bigSep (Finset.univ.erase CK.bar) fun k : CK => semVal (kcell (c, k)) 0 : sProp 𝕄) := by
  rw [fin_bigSep_CK_erase,
    fin_bigSep_self_src c (fun s => (semVal (kcell (c, CK.out s)) 0 : sProp 𝕄)),
    fin_bigSep_self_peer c (fun s => (semVal (kcell (c, CK.send s)) 0 : sProp 𝕄)),
    fin_bigSep_self_src c (fun s => (semVal (kcell (c, CK.recv s)) 0 : sProp 𝕄))]
  exact .rfl

/-- The send buffer from its sixteen slots. -/
theorem scr1_join (c : Dev nD) :
    iprop((∃ f, sPts c c f) ∗ bigSep Finset.univ fun r : Fin 15 => iprop(∃ f, sPts c (peer c r) f))
      ⊢ (iprop(∃ f : Buf (Elt F) ((c : Thread nD τ).loc cc0_scratch1), ((c : Thread nD τ).loc cc0_scratch1) ↦{fullShare} f) : sProp 𝕄) := by
  refine Entails.trans (Entails.of_eq ?_) (slots_join_s1 c fullShare)
  rw [fin_bigSep_self_peer c (fun s => (iprop(∃ f, (slotM (Memref.whole cc0_scratch1) s).view.loc (c : Thread nD τ)
        ↦[(slotM (Memref.whole cc0_scratch1) s).view.set]{fullShare} f) : sProp 𝕄))]
  rfl

/-- The receive buffer from its sixteen slots. -/
theorem scr2_join (c : Dev nD) :
    iprop((∃ f, rPts c c f) ∗ bigSep Finset.univ fun r : Fin 15 => iprop(∃ f, rPts c (src c r) f))
      ⊢ (iprop(∃ f : Buf (Elt F) ((c : Thread nD τ).loc cc0_scratch2), ((c : Thread nD τ).loc cc0_scratch2) ↦{fullShare} f) : sProp 𝕄) := by
  refine Entails.trans (Entails.of_eq ?_) (slots_join_s2 c fullShare)
  rw [fin_bigSep_self_src c (fun s => (iprop(∃ f, (slotM (Memref.whole cc0_scratch2) s).view.loc (c : Thread nD τ)
        ↦[(slotM (Memref.whole cc0_scratch2) s).view.set]{fullShare} f) : sProp 𝕄))]
  rfl

/-- The staging buffer from its sixteen slots. -/
theorem scr3_join (c : Dev nD) :
    iprop((∃ f, gPts c c f) ∗ bigSep Finset.univ fun r : Fin 15 => iprop(∃ f, gPts c (src c r) f))
      ⊢ (iprop(∃ f : Buf (Elt F) ((c : Thread nD τ).loc cc0_scratch3), ((c : Thread nD τ).loc cc0_scratch3) ↦{fullShare} f) : sProp 𝕄) := by
  refine Entails.trans (Entails.of_eq ?_) (slots_join_s3 c fullShare)
  rw [fin_bigSep_self_src c (fun s => (iprop(∃ f, (slotM (Memref.whole cc0_scratch3) s).view.loc (c : Thread nD τ)
        ↦[(slotM (Memref.whole cc0_scratch3) s).view.set]{fullShare} f) : sProp 𝕄))]
  rfl

/-- The argument array from its left half and the two pieces of its right half. -/
theorem arg_join (c : Dev nD) :
    iprop(((xH : Memref sig .tc .hbm S256x4096 .f32).view.loc (c : Thread nD τ) ↦[(xH : Memref sig .tc .hbm S256x4096 .f32).view.set]{fullShare.left} X m c)
        ∗ ((xH : Memref sig .tc .hbm S256x4096 .f32).view.loc (c : Thread nD τ) ↦[(xH : Memref sig .tc .hbm S256x4096 .f32).view.set \ (colsM xH c).view.set]{fullShare.right} X m c)
        ∗ xcPts c c fullShare.right (X m c))
      ⊢ ((((c : Thread nD τ).loc main_arg0) ↦{fullShare} X m c) : sProp 𝕄) := by
  have hsub : (colsM (xH : Memref sig .tc .hbm S256x4096 .f32) c).view.set ⊆ (xH : Memref sig .tc .hbm S256x4096 .f32).view.set :=
    View.set_slice_subset _ _
  iintro ⟨Hl, Hrest, Hc⟩
  unfold xcPts
  ihave Hr := (pointsTo_split_subset (ℓ := (xH : Memref sig .tc .hbm S256x4096 .f32).view.loc (c : Thread nD τ))
      (q := fullShare.right) (f := X m c) hsub).2 $$ [Hc Hrest]
  · isplitl [Hc]; · iexact Hc
    iexact Hrest
  ihave H := (pointsTo_share (ℓ := (xH : Memref sig .tc .hbm S256x4096 .f32).view.loc (c : Thread nD τ))
      (I := (xH : Memref sig .tc .hbm S256x4096 .f32).view.set) (f := X m c) (PosShare.mem_left_op_right fullShare)).2 $$ [Hl Hr]
  · isplitl [Hl]; · iexact Hl
    iexact Hr
  rw [show (xH : Memref sig .tc .hbm S256x4096 .f32).view.set = Finset.univ from View.set_whole _] at *
  iexact H

/-! ## The result array from its sixteen row blocks -/

/-- What the buffers held before the steps that fill one row block. -/
structure Seed (c : Dev nD) where
  fo : Buf (Elt F) ((c : Thread nD τ).loc main_v1)
  g0 : Buf (Elt F) ((c : Thread nD τ).loc cc0_scratch3)
  fd : Buf (Elt F) ((c : Thread nD τ).loc cc0_scratch2)
  fx : Buf (Elt F) ((c : Thread nD τ).loc cc0_scratch0)
  f0 : Buf (Elt F) ((c : Thread nD τ).loc cc0_scratch1)

/-- The result array's contents after the copy into row block `s`, from that block's seeds. -/
def rowOf (c : Dev nD) (s : Fin 16) (t : Seed (F := F) c) : Buf (Elt F) ((c : Thread nD τ).loc main_v1) :=
  if s = c then ownF m c t.fo else outF m c s t.fo t.g0 t.fd t.fx t.f0

/-- Sixteen row blocks, each at what its copy left from seeds of its own, are the result array at the end. -/
theorem out_join (c : Dev nD) (t₀ : Seed (F := F) c) :
    (bigSep Finset.univ fun s : Fin 16 => iprop(∃ t : Seed (F := F) c, oPts c s (rowOf m c s t)))
      ⊢ (iprop(∃ σ : Seeds (F := F) c, ((c : Thread nD τ).loc main_v1) ↦{fullShare} joinedF m c σ) : sProp 𝕄) := by
  have : Nonempty (Seed (F := F) c) := ⟨t₀⟩
  refine (Idealize.SL.BI.bigSep_exists_pi Finset.univ (fun (s : Fin 16) (t : Seed (F := F) c) => (oPts c s (rowOf m c s t) : sProp 𝕄))).trans ?_
  iintro ⟨%T, H⟩
  iexists (⟨fun s => (T s).fo, fun s => (T s).g0, fun s => (T s).fd, fun s => (T s).fx, fun s => (T s).f0⟩ : Seeds (F := F) c)
  iapply (rows_join_v1 c fullShare (fun s => rowOf m c s (T s)))
  iexact H

/-- The device's own row block under its seeds. -/
theorem out_own (c : Dev nD) (t₀ : Seed (F := F) c) :
    (iprop(∃ fo, oPts c c (ownF m c fo)) : sProp 𝕄) ⊢ iprop(∃ t : Seed (F := F) c, oPts c c (rowOf m c c t)) := by
  iintro ⟨%fo, H⟩
  iexists (⟨fo, t₀.g0, t₀.fd, t₀.fx, t₀.f0⟩ : Seed (F := F) c)
  rw [show rowOf m c c ⟨fo, t₀.g0, t₀.fd, t₀.fx, t₀.f0⟩ = ownF m c fo from if_pos rfl]
  iexact H

/-- Another device's row block under its seeds. -/
theorem out_other (c : Dev nD) (r : Fin 15) :
    (iprop(∃ fo g0 fd fx f0, oPts c (src c r) (outF m c (src c r) fo g0 fd fx f0)) : sProp 𝕄)
      ⊢ iprop(∃ t : Seed (F := F) c, oPts c (src c r) (rowOf m c (src c r) t)) := by
  iintro ⟨%fo, %g0, %fd, %fx, %f0, H⟩
  iexists (⟨fo, g0, fd, fx, f0⟩ : Seed (F := F) c)
  rw [show rowOf m c (src c r) ⟨fo, g0, fd, fx, f0⟩ = outF m c (src c r) fo g0 fd fx f0 from if_neg (src_ne c r)]
  iexact H

/-- The device's own row block and the fifteen others, each under its own seeds, as one family. -/
theorem out_family (c : Dev nD) (t₀ : Seed (F := F) c) :
    iprop((∃ fo, oPts c c (ownF m c fo))
        ∗ bigSep Finset.univ fun r : Fin 15 => iprop(∃ fo g0 fd fx f0, oPts c (src c r) (outF m c (src c r) fo g0 fd fx f0)))
      ⊢ (bigSep Finset.univ fun s : Fin 16 => iprop(∃ t : Seed (F := F) c, oPts c s (rowOf m c s t)) : sProp 𝕄) := by
  rw [fin_bigSep_self_src c (fun s => (iprop(∃ t : Seed (F := F) c, oPts c s (rowOf m c s t)) : sProp 𝕄))]
  exact BIClass.sep_mono (out_own m c t₀) (bigSep_mono fun r _ => out_other m c r)

/-! ## Updates over a family -/

/-- A persistent assertion goes to every member of a family. -/
theorem bigSep_persistent_frame {I : Type} [DecidableEq I] (S : Finset I) (P : sProp 𝕄) [BI.Persistent P] (Φ : I → sProp 𝕄) :
    iprop(P ∗ bigSep S Φ) ⊢ bigSep S fun i => iprop(P ∗ Φ i) := by
  induction S using Finset.induction_on with
  | empty =>
    rw [bigSep_empty, bigSep_empty]
    iintro ⟨-, H⟩; iexact H
  | insert i S hi ih =>
    have e1 : bigSep (insert i S) Φ = (iprop(Φ i ∗ bigSep S Φ) : sProp 𝕄) := bigSep_insert hi
    have e2 : (bigSep (insert i S) fun i => iprop(P ∗ Φ i)) = (iprop((P ∗ Φ i) ∗ bigSep S fun i => iprop(P ∗ Φ i)) : sProp 𝕄) := bigSep_insert hi
    rw [e1, e2]
    iintro ⟨#HP, Hi, HS⟩
    isplitl [Hi]
    · isplitr; · iexact HP
      iexact Hi
    · iapply ih
      isplitr; · iexact HP
      iexact HS

/-- Every departure's cell closed. -/
theorem closes_send (K : Dev nD × CK → ℕ) (c : Dev nD) (fx : Buf (Elt F) ((c : Thread nD τ).loc cc0_scratch0)) :
    iprop(records m K ∗ bigSep Finset.univ fun r : Fin 15 => sendSt m c fx r 4)
      ⊢ iprop(|={Set.univ}=> bigSep Finset.univ fun r : Fin 15 => iprop((∃ f, sPts c (peer c r) f) ∗ semVal (sendCell c (peer c r)) 0)) :=
  (bigSep_persistent_frame Finset.univ (records m K) _).trans
    ((bigSep_mono fun r _ => close_send m K c fx r).trans (bigSep_fupd Finset.univ _))

/-- Every arrival's two cells closed. -/
theorem closes_recv (K : Dev nD × CK → ℕ) (c : Dev nD) :
    iprop(records m K ∗ bigSep Finset.univ fun r : Fin 15 => recvSt m c r 3)
      ⊢ iprop(|={Set.univ}=> bigSep Finset.univ fun r : Fin 15 => iprop((∃ f, rPts c (src c r) f) ∗ outPay m c (src c r)
          ∗ semVal (recvCell c (src c r)) 0 ∗ semVal (outCell c (src c r)) 0)) :=
  (bigSep_persistent_frame Finset.univ (records m K) _).trans
    ((bigSep_mono fun r _ => close_recv m K c r).trans (bigSep_fupd Finset.univ _))

/-! ## The pieces after the cells are closed -/

theorem ownSt_one (c : Dev nD) : ownSt m c 1 = (iprop(outPay m c c ∗ atPos ER (outCell c c) 1 ∅ 0) : sProp 𝕄) := rfl

/-- What the device's own copy left: its row block, and the column block lent to it. -/
theorem outPay_own (c : Dev nD) :
    outPay m c c ⊢ (iprop((∃ fo, oPts c c (ownF m c fo)) ∗ xcPts c c fullShare.right (X m c)) : sProp 𝕄) := by
  unfold outPay; rw [if_pos rfl]

/-- What another device's block left: its row block, and its slot of the staging buffer. -/
theorem outPay_other (c : Dev nD) (r : Fin 15) :
    outPay m c (src c r) ⊢ (iprop((∃ fo g0 fd fx f0, oPts c (src c r) (outF m c (src c r) fo g0 fd fx f0))
      ∗ (∃ g, gPts c (src c r) g)) : sProp 𝕄) := by
  unfold outPay; rw [if_neg (src_ne c r)]
  iintro ⟨%fo, %g0, %fd, %fx, %f0, Ho, Hg⟩
  isplitl [Ho]
  · iexists fo, g0, fd, fx, f0; iexact Ho
  · iexists _; iexact Hg

theorem recv_piece (c : Dev nD) (r : Fin 15) :
    (iprop((∃ f, rPts c (src c r) f) ∗ outPay m c (src c r)
        ∗ semVal (recvCell c (src c r)) 0 ∗ semVal (outCell c (src c r)) 0) : sProp 𝕄)
      ⊢ iprop((∃ f, rPts c (src c r) f)
        ∗ (∃ fo g0 fd fx f0, oPts c (src c r) (outF m c (src c r) fo g0 fd fx f0))
        ∗ (∃ g, gPts c (src c r) g)
        ∗ semVal (recvCell c (src c r)) 0 ∗ semVal (outCell c (src c r)) 0) := by
  iintro ⟨Hr, Hp, HvR, HvO⟩
  icases (outPay_other m c r) $$ Hp with ⟨Ho, Hg⟩
  isplitl [Hr]; · iexact Hr
  isplitl [Ho]; · iexact Ho
  isplitl [Hg]; · iexact Hg
  isplitl [HvR]; · iexact HvR
  iexact HvO

/-- The departures' slots and their counters, as two families. -/
theorem send_family (c : Dev nD) :
    (bigSep Finset.univ fun r : Fin 15 => iprop((∃ f, sPts c (peer c r) f) ∗ semVal (sendCell c (peer c r)) 0) : sProp 𝕄)
      ⊢ iprop((bigSep Finset.univ fun r : Fin 15 => iprop(∃ f, sPts c (peer c r) f))
        ∗ bigSep Finset.univ fun r : Fin 15 => semVal (sendCell c (peer c r)) 0) :=
  Entails.of_eq (bigSep_sep' _ _ _)

/-- The arrivals' slots, row blocks, staging slots and counters, as five families. -/
theorem recv_family (c : Dev nD) :
    (bigSep Finset.univ fun r : Fin 15 => iprop((∃ f, rPts c (src c r) f) ∗ outPay m c (src c r)
        ∗ semVal (recvCell c (src c r)) 0 ∗ semVal (outCell c (src c r)) 0) : sProp 𝕄)
      ⊢ iprop((bigSep Finset.univ fun r : Fin 15 => iprop(∃ f, rPts c (src c r) f))
        ∗ (bigSep Finset.univ fun r : Fin 15 => iprop(∃ fo g0 fd fx f0, oPts c (src c r) (outF m c (src c r) fo g0 fd fx f0)))
        ∗ (bigSep Finset.univ fun r : Fin 15 => iprop(∃ g, gPts c (src c r) g))
        ∗ (bigSep Finset.univ fun r : Fin 15 => semVal (recvCell c (src c r)) 0)
        ∗ bigSep Finset.univ fun r : Fin 15 => semVal (outCell c (src c r)) 0) :=
by
  refine (bigSep_mono fun r _ => recv_piece m c r).trans ?_
  rw [bigSep_sep', bigSep_sep', bigSep_sep', bigSep_sep']
  all_goals exact .refl _

/-! ## The end of the body -/

/-- From the state after the last wait: the cells closed, the buffers whole, the result array joined. -/
theorem finish_core (K : Dev nD × CK → ℕ) (c : Dev nD) (fx : Buf (Elt F) ((c : Thread nD τ).loc cc0_scratch0)) (W : Waits sig Unit) :
    iprop(records m K
        ∗ owes (c : Thread nD τ) 0 W
        ∗ globSt m c fx 1
        ∗ ownSt m c 1
        ∗ (bigSep Finset.univ fun r : Fin 15 => sendSt m c fx r 4)
        ∗ (bigSep Finset.univ fun r : Fin 15 => recvSt m c r 3))
      ⊢ iprop(|={Set.univ}=> iprop(Φ₁ m c ∗ owes (c : Thread nD τ) 0 W)) := by
  rw [ownSt_one]
  unfold globSt
  iintro ⟨#HR, HO, ⟨Hxv, Hxl, Hxr, Hsc, Hrc, Hgc, HatS, HatR, HatI, -⟩, ⟨Hpc, HatOc⟩, HS, HRv⟩
  imod (closes_send m K c fx) $$ [HS] with HS
  · isplitr; · iexact HR
    iexact HS
  imod (closes_recv m K c) $$ [HRv] with HRv
  · isplitr; · iexact HR
    iexact HRv
  imod (close_cell m K c (.send c) 0 (fun r' _ => by
      rcases Nat.eq_zero_or_pos r' with h | h
      · subst h; exact duties_send_self m c
      · exact duties_later m _ r' h)) $$ [HatS] with HvSc
  · isplitr; · iexact HR
    iexact HatS
  imod (close_cell m K c (.recv c) 0 (fun r' _ => by
      rcases Nat.eq_zero_or_pos r' with h | h
      · subst h; exact duties_recv_self m c
      · exact duties_later m _ r' h)) $$ [HatR] with HvRc
  · isplitr; · iexact HR
    iexact HatR
  imod (close_cell m K c .inn 1 (fun r' h => duties_later m _ r' h)) $$ [HatI] with HvI
  · isplitr; · iexact HR
    iexact HatI
  imod (close_cell m K c (.out c) 1 (fun r' h => duties_later m _ r' h)) $$ [HatOc] with HvOc
  · isplitr; · iexact HR
    iexact HatOc
  imodintro
  icases (outPay_own m c) $$ Hpc with ⟨Hoc, Hxc⟩
  icases (send_family c) $$ HS with ⟨HSs, HSv⟩
  icases (recv_family m c) $$ HRv with ⟨HRr, HRo, HRg, HRvR, HRvO⟩
  icases Hsc with ⟨%fs0, Hsc⟩
  icases Hrc with ⟨%fr0, Hrc⟩
  icases Hgc with ⟨%fg0, Hgc⟩
  icases Hoc with ⟨%fo0, Hoc⟩
  isplitr [HO]
  swap
  · iexact HO
  unfold Φ₁ scratch
  isplitl [Hoc HRo]
  · iapply (out_join m c ⟨fo0, fg0, fr0, fx, fs0⟩)
    iapply (out_family m c ⟨fo0, fg0, fr0, fx, fs0⟩)
    isplitl [Hoc]
    · iexists fo0; iexact Hoc
    · iexact HRo
  isplitl [Hxl Hxr Hxc]
  · iapply (arg_join m c)
    isplitl [Hxl]; · iexact Hxl
    isplitl [Hxr]; · iexact Hxr
    iexact Hxc
  isplitl [Hxv Hsc HSs Hrc HRr Hgc HRg]
  · isplitl [Hxv]
    · iexists xvF m c fx
      rw [show (xV : Memref sig .tc .vmem S256x4096 .f32).view.set = Finset.univ from View.set_whole _]
      iexact Hxv
    isplitl [Hsc HSs]
    · iapply (scr1_join c)
      isplitl [Hsc]
      · iexists fs0; iexact Hsc
      · iexact HSs
    isplitl [Hrc HRr]
    · iapply (scr2_join c)
      isplitl [Hrc]
      · iexists fr0; iexact Hrc
      · iexact HRr
    · iapply (scr3_join c)
      isplitl [Hgc]
      · iexists fg0; iexact Hgc
      · iexact HRg
  · iapply (sems_join c)
    isplitl [HvI]; · iexact HvI
    isplitl [HvOc HRvO]
    · isplitl [HvOc]; · iexact HvOc
      iexact HRvO
    isplitl [HvSc HSv]
    · isplitl [HvSc]; · iexact HvSc
      iexact HSv
    · isplitl [HvRc]; · iexact HvRc
      iexact HRvR

/-- The fifteen transfers, listed. -/
theorem fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem finish (K : Dev nD × CK → ℕ) (c : Dev nD) (fx : Buf (Elt F) ((c : Thread nD τ).loc cc0_scratch0)) (W : Waits sig Unit) :
    iprop(records m K
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 3
        ∗ recvSt m c 8 3
        ∗ recvSt m c 9 3
        ∗ recvSt m c 10 3
        ∗ recvSt m c 11 3
        ∗ recvSt m c 12 3
        ∗ recvSt m c 13 3
        ∗ recvSt m c 14 3)
      ⊢ iprop(|={Set.univ}=> iprop(Φ₁ m c ∗ owes (c : Thread nD τ) 0 W)) := by
  iintro ⟨HR, HO, Hg, Hown, S0, S1, S2, S3, S4, S5, S6, S7, S8, S9, S10, S11, S12, S13, S14,
    R0, R1, R2, R3, R4, R5, R6, R7, R8, R9, R10, R11, R12, R13, R14⟩
  iapply (finish_core m K c fx W)
  rw [fin15 (fun r => sendSt m c fx r 4), fin15 (fun r => recvSt m c r 3)]
  isplitl [HR]; · iexact HR
  isplitl [HO]; · iexact HO
  isplitl [Hg]; · iexact Hg
  isplitl [Hown]; · iexact Hown
  isplitl [S0 S1 S2 S3 S4 S5 S6 S7 S8 S9 S10 S11 S12 S13 S14]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14

/-- info: 'Cert.KernelIdealProof.finish' depends on axioms: [propext, Classical.choice, Quot.sound] -/
#guard_msgs in #print axioms finish

end Cert.KernelIdealProof

end
-- ==== Proof.Part01.lean ====
/-
  The first part of a device's body: it reads its index and signals the barriers of the devices 0 … 7 other than itself.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem cond1_iff : ∀ c : Dev nD, k0_cond1 c = 1#1 ↔ (⟨0, by decide⟩ : Dev nD) ≠ c := by decide +kernel
theorem cond2_iff : ∀ c : Dev nD, k0_cond2 c = 1#1 ↔ (⟨1, by decide⟩ : Dev nD) ≠ c := by decide +kernel
theorem cond3_iff : ∀ c : Dev nD, k0_cond3 c = 1#1 ↔ (⟨2, by decide⟩ : Dev nD) ≠ c := by decide +kernel
theorem cond4_iff : ∀ c : Dev nD, k0_cond4 c = 1#1 ↔ (⟨3, by decide⟩ : Dev nD) ≠ c := by decide +kernel
theorem cond5_iff : ∀ c : Dev nD, k0_cond5 c = 1#1 ↔ (⟨4, by decide⟩ : Dev nD) ≠ c := by decide +kernel
theorem cond6_iff : ∀ c : Dev nD, k0_cond6 c = 1#1 ↔ (⟨5, by decide⟩ : Dev nD) ≠ c := by decide +kernel
theorem cond7_iff : ∀ c : Dev nD, k0_cond7 c = 1#1 ↔ (⟨6, by decide⟩ : Dev nD) ≠ c := by decide +kernel
theorem cond8_iff : ∀ c : Dev nD, k0_cond8 c = 1#1 ↔ (⟨7, by decide⟩ : Dev nD) ≠ c := by decide +kernel

set_option maxHeartbeats 1600000 in
theorem part1_spec (c : Dev nD) (W : Waits sig Unit) :
    iprop(records m K ∗ SigSt c 0 W)
      ⊢ wp frame (wpE (defs₀ (F := F)) 𝒱₀ c none) Set.univ (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
          (fun ret => iprop(⌜ret.1 = c ∧ ret.2.2 = (SemArray.scalar (sig.barrier 0 rfl) : Sems sig S_)⌝ ∗ SigSt c 8 W)) := by
  iintro ⟨#HR, HS⟩
  simp only [k0_part1_eq_skeleton]; unfold k0_part1_skel
  simp only [semSignalWord, Prog.lift, Prog.bind_op, Prog.bind_ret, Prog.pure_eq_ret, wp_deviceId]
  -- the unit for device 0
  iapply (step_cond_signal m K c ⟨0, by decide⟩ (k0_cond1 c) (cond1_iff c) k0_dev1 k0_dev1_eq (fun h => k0_dev1_lt c h) _ W) $$ [HS]
  · isplitr; · iexact HR
    iexact HS
  iintro HS
  -- the unit for device 1
  iapply (step_cond_signal m K c ⟨1, by decide⟩ (k0_cond2 c) (cond2_iff c) k0_dev2 k0_dev2_eq (fun h => k0_dev2_lt c h) _ W) $$ [HS]
  · isplitr; · iexact HR
    iexact HS
  iintro HS
  -- the unit for device 2
  iapply (step_cond_signal m K c ⟨2, by decide⟩ (k0_cond3 c) (cond3_iff c) k0_dev3 k0_dev3_eq (fun h => k0_dev3_lt c h) _ W) $$ [HS]
  · isplitr; · iexact HR
    iexact HS
  iintro HS
  -- the unit for device 3
  iapply (step_cond_signal m K c ⟨3, by decide⟩ (k0_cond4 c) (cond4_iff c) k0_dev4 k0_dev4_eq (fun h => k0_dev4_lt c h) _ W) $$ [HS]
  · isplitr; · iexact HR
    iexact HS
  iintro HS
  -- the unit for device 4
  iapply (step_cond_signal m K c ⟨4, by decide⟩ (k0_cond5 c) (cond5_iff c) k0_dev5 k0_dev5_eq (fun h => k0_dev5_lt c h) _ W) $$ [HS]
  · isplitr; · iexact HR
    iexact HS
  iintro HS
  -- the unit for device 5
  iapply (step_cond_signal m K c ⟨5, by decide⟩ (k0_cond6 c) (cond6_iff c) k0_dev6 k0_dev6_eq (fun h => k0_dev6_lt c h) _ W) $$ [HS]
  · isplitr; · iexact HR
    iexact HS
  iintro HS
  -- the unit for device 6
  iapply (step_cond_signal m K c ⟨6, by decide⟩ (k0_cond7 c) (cond7_iff c) k0_dev7 k0_dev7_eq (fun h => k0_dev7_lt c h) _ W) $$ [HS]
  · isplitr; · iexact HR
    iexact HS
  iintro HS
  -- the unit for device 7
  iapply (step_cond_signal m K c ⟨7, by decide⟩ (k0_cond8 c) (cond8_iff c) k0_dev8 k0_dev8_eq (fun h => k0_dev8_lt c h) _ W) $$ [HS]
  · isplitr; · iexact HR
    iexact HS
  iintro HS
  rw [wp_ret]; imodintro
  isplitr; · ipureintro; exact ⟨rfl, rfl⟩
  iexact HS

/-- info: 'Cert.KernelIdealProof.part1_spec' depends on axioms: [propext, Classical.choice, Quot.sound] -/
#guard_msgs in #print axioms part1_spec

end Cert.KernelIdealProof

end
-- ==== Proof.Part02.lean ====
/-
  The second part of a device's body: the units for the devices 8 … 15 other than itself; the fetch of the
  argument block into vector memory; the copy of the device's own column block into the result array; the
  wait for the fetch.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Open
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem cond9_iff : ∀ c : Dev nD, k0_cond9 c = 1#1 ↔ (⟨8, by decide⟩ : Dev nD) ≠ c := by decide +kernel
theorem cond10_iff : ∀ c : Dev nD, k0_cond10 c = 1#1 ↔ (⟨9, by decide⟩ : Dev nD) ≠ c := by decide +kernel
theorem cond11_iff : ∀ c : Dev nD, k0_cond11 c = 1#1 ↔ (⟨10, by decide⟩ : Dev nD) ≠ c := by decide +kernel
theorem cond12_iff : ∀ c : Dev nD, k0_cond12 c = 1#1 ↔ (⟨11, by decide⟩ : Dev nD) ≠ c := by decide +kernel
theorem cond13_iff : ∀ c : Dev nD, k0_cond13 c = 1#1 ↔ (⟨12, by decide⟩ : Dev nD) ≠ c := by decide +kernel
theorem cond14_iff : ∀ c : Dev nD, k0_cond14 c = 1#1 ↔ (⟨13, by decide⟩ : Dev nD) ≠ c := by decide +kernel
theorem cond15_iff : ∀ c : Dev nD, k0_cond15 c = 1#1 ↔ (⟨14, by decide⟩ : Dev nD) ≠ c := by decide +kernel
theorem cond16_iff : ∀ c : Dev nD, k0_cond16 c = 1#1 ↔ (⟨15, by decide⟩ : Dev nD) ≠ c := by decide +kernel

theorem SigSt_end (c : Dev nD) (W : Waits sig Unit) :
    (SigSt c 16 W : sProp 𝕄) = iprop(owes (c : Thread nD τ) (Orecv c 0) W ∗ emp) := by
  unfold SigSt; rw [Obar_end, add_zero, pend_end]; simp only [BI.bigSep_empty]; rfl

theorem ownSt_zero (c : Dev nD) : ownSt m c 0 = iprop(cred (tallyAt (outCell c c) () No) ∗ atPos ER (outCell c c) 0 ∅ 0) := rfl

theorem fresh_chain (c : Dev nD) (fx : Buf (Elt F) ((c : Thread nD τ).loc cc0_scratch0)) :
    (iprop(sendSt0 c 0 ∗ sendSt0 c 1 ∗ sendSt0 c 2 ∗ sendSt0 c 3 ∗ sendSt0 c 4 ∗ sendSt0 c 5 ∗ sendSt0 c 6 ∗ sendSt0 c 7 ∗ sendSt0 c 8 ∗ sendSt0 c 9 ∗ sendSt0 c 10 ∗ sendSt0 c 11 ∗ sendSt0 c 12 ∗ sendSt0 c 13 ∗ sendSt0 c 14 ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0) : sProp 𝕄)
      = iprop(sendSt m c fx 0 0 ∗ sendSt m c fx 1 0 ∗ sendSt m c fx 2 0 ∗ sendSt m c fx 3 0 ∗ sendSt m c fx 4 0 ∗ sendSt m c fx 5 0 ∗ sendSt m c fx 6 0 ∗ sendSt m c fx 7 0 ∗ sendSt m c fx 8 0 ∗ sendSt m c fx 9 0 ∗ sendSt m c fx 10 0 ∗ sendSt m c fx 11 0 ∗ sendSt m c fx 12 0 ∗ sendSt m c fx 13 0 ∗ sendSt m c fx 14 0 ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0) := rfl

/-- After the sixteenth conditional signal only the arrival credits are owed. -/
theorem SigSt_last (c : Dev nD) (W : Waits sig Unit) :
    (SigSt c ((⟨15, by decide⟩ : Dev nD).val + 1) W : sProp 𝕄) ⊢ owes (c : Thread nD τ) (Orecv c 0) W := by
  show (SigSt c 16 W : sProp 𝕄) ⊢ _
  rw [SigSt_end]; iintro ⟨H, -⟩; iexact H

set_option maxHeartbeats 1600000 in
theorem part2_spec (c : Dev nD) (W : Waits sig Unit) (v2 : BitVec 32) :
    iprop(records m K ∗ levAts L lv ∗ SigSt c 8 W ∗ preRest m c)
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_))
          (fun ret => iprop(∃ fx W', owes (c : Thread nD τ) (Orecv c 0) W'
        ∗ cred (tallyAt (barCell c) () 15)
        ∗ globSt m c fx 0
        ∗ ownSt m c 0
        ∗ sendSt m c fx 0 0
        ∗ sendSt m c fx 1 0
        ∗ sendSt m c fx 2 0
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HS, Hrest⟩
  simp only [k0_part2_eq_skeleton]; unfold k0_part2_skel
  simp only [semSignalWord, Prog.lift, Prog.bind_op, Prog.bind_ret, Prog.pure_eq_ret]
  -- the unit for device 8
  iapply (step_cond_signal m K c ⟨8, by decide⟩ (k0_cond9 c) (cond9_iff c) k0_dev9 k0_dev9_eq (fun h => k0_dev9_lt c h) _ W) $$ [HS]
  · isplitr; · iexact HR
    iexact HS
  iintro HS
  -- the unit for device 9
  iapply (step_cond_signal m K c ⟨9, by decide⟩ (k0_cond10 c) (cond10_iff c) k0_dev10 k0_dev10_eq (fun h => k0_dev10_lt c h) _ W) $$ [HS]
  · isplitr; · iexact HR
    iexact HS
  iintro HS
  -- the unit for device 10
  iapply (step_cond_signal m K c ⟨10, by decide⟩ (k0_cond11 c) (cond11_iff c) k0_dev11 k0_dev11_eq (fun h => k0_dev11_lt c h) _ W) $$ [HS]
  · isplitr; · iexact HR
    iexact HS
  iintro HS
  -- the unit for device 11
  iapply (step_cond_signal m K c ⟨11, by decide⟩ (k0_cond12 c) (cond12_iff c) k0_dev12 k0_dev12_eq (fun h => k0_dev12_lt c h) _ W) $$ [HS]
  · isplitr; · iexact HR
    iexact HS
  iintro HS
  -- the unit for device 12
  iapply (step_cond_signal m K c ⟨12, by decide⟩ (k0_cond13 c) (cond13_iff c) k0_dev13 k0_dev13_eq (fun h => k0_dev13_lt c h) _ W) $$ [HS]
  · isplitr; · iexact HR
    iexact HS
  iintro HS
  -- the unit for device 13
  iapply (step_cond_signal m K c ⟨13, by decide⟩ (k0_cond14 c) (cond14_iff c) k0_dev14 k0_dev14_eq (fun h => k0_dev14_lt c h) _ W) $$ [HS]
  · isplitr; · iexact HR
    iexact HS
  iintro HS
  -- the unit for device 14
  iapply (step_cond_signal m K c ⟨14, by decide⟩ (k0_cond15 c) (cond15_iff c) k0_dev15 k0_dev15_eq (fun h => k0_dev15_lt c h) _ W) $$ [HS]
  · isplitr; · iexact HR
    iexact HS
  iintro HS
  -- the unit for device 15
  iapply (step_cond_signal m K c ⟨15, by decide⟩ (k0_cond16 c) (cond16_iff c) k0_dev16 k0_dev16_eq (fun h => k0_dev16_lt c h) _ W) $$ [HS]
  · isplitr; · iexact HR
    iexact HS
  iintro HS
  ihave HO := (SigSt_last c W) $$ HS
  unfold preRest
  icases Hrest with ⟨Hbar, ⟨%fv, HxV⟩, HxL, HxR, Hxc, ⟨%fo, Hoc⟩, HtIn, HtOut, HatIn, HatOut, Hsc, Hrc, Hgc, HatSc, HatRc, HatBar, Hsr⟩
  -- the fetch
  iapply (step_fetch m K c fv) $$ [HxL HxV HtIn]
  · isplitr; · iexact HR
    isplitl [HxL]; · iexact HxL
    isplitl [HxV]; · iexact HxV
    iexact HtIn
  iintro HcIn
  -- the device's own block
  iapply (step_own m K c fo (cols_self c _) (rows_self c _) (outSem_self c)) $$ [Hxc Hoc HtOut]
  · isplitr; · iexact HR
    isplitl [Hxc]; · iexact Hxc
    isplitl [Hoc]; · iexact Hoc
    iexact HtOut
  iintro HcOut
  -- the wait for the fetch
  iapply (step_wait_in m K c W) $$ [HcIn HO HatIn]
  · isplitr; · iexact HR
    isplitr; · iexact Hlev
    isplitl [HcIn]; · iexact HcIn
    isplitl [HO]; · iexact HO
    iexact HatIn
  iintro ⟨HO, HatIn, Hpay⟩
  unfold inPay
  icases Hpay with ⟨%fx, HxV, HxL⟩
  rw [wp_ret]; imodintro
  iexists fx, (insert (SemLoc.dma inS, ()) W)
  isplitl [HO]; · iexact HO
  isplitl [Hbar]; · iexact Hbar
  isplitl [HxV HxL HxR Hsc Hrc Hgc HatSc HatRc HatIn HatBar]
  · unfold globSt
    isplitl [HxV]; · iexact HxV
    isplitl [HxL]; · iexact HxL
    isplitl [HxR]; · iexact HxR
    isplitl [Hsc]; · iexact Hsc
    isplitl [Hrc]; · iexact Hrc
    isplitl [Hgc]; · iexact Hgc
    isplitl [HatSc]; · iexact HatSc
    isplitl [HatRc]; · iexact HatRc
    isplitl [HatIn]; · iexact HatIn
    iexact HatBar
  isplitl [HcOut HatOut]
  · iapply (Entails.of_eq (ownSt_zero m c).symm)
    isplitl [HcOut]; · iexact HcOut
    iexact HatOut
  iapply (Entails.of_eq (fresh_chain m c fx))
  iexact Hsr

/-- info: 'Cert.KernelIdealProof.part2_spec' depends on axioms: [propext, Classical.choice, Quot.sound] -/
#guard_msgs in #print axioms part2_spec

end Cert.KernelIdealProof

end
-- ==== Proof.Launch.lean ====
/-
  The launch of the all-to-all: the protocol's ghost state dealt to the sixteen devices, every cell's invariant
  allocated under one update, the duty tokens dealt to the devices that pay them, the credit each device waits
  with, and the run of @main from one device's body.
-/
import proofs.«900406_g7700000000000407_dist_a2a_v7x_i16_i_m256_n256_bf16_1_alg».proof.Proof.Cells

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the kinds of cell and over the other devices -/

/-- The kinds of cell, listed: the barrier, the fetch, and three families of sixteen. -/
def ckEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem bigSep_unit (Ψ : Unit → sProp 𝕄) : bigSep Finset.univ Ψ = Ψ () := by
  rw [show (Finset.univ : Finset Unit) = {()} from rfl, bigSep_singleton]

/-- A product over the kinds of cell, kind by kind. -/
theorem bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv ckEquiv.symm Φ, bigSep_univ_sum, bigSep_univ_sum, bigSep_univ_sum, bigSep_univ_sum, bigSep_unit, bigSep_unit]
  rfl

/-- The other devices are the fifteen peers. -/
theorem erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩

theorem bigSep_peer (c : Dev nD) (Φ : Dev nD → sProp 𝕄) :
    bigSep ((Finset.univ : Finset (Dev nD)).erase c) Φ = bigSep Finset.univ fun r : Fin 15 => Φ (peer c r) := by
  rw [erase_eq_peer, bigSep_map]; rfl

/-- A product over the ordered pairs of distinct devices, read by its first or by its second member. -/
theorem bigSep_erase_comm (T : Dev nD → Dev nD → sProp 𝕄) :
    (bigSep Finset.univ fun a : Dev nD => bigSep ((Finset.univ : Finset (Dev nD)).erase a) fun b => T a b)
      = bigSep Finset.univ fun b : Dev nD => bigSep ((Finset.univ : Finset (Dev nD)).erase b) fun a => T a b := by
  have h1 (a : Dev nD) : (bigSep ((Finset.univ : Finset (Dev nD)).erase a) fun b => T a b) = bigSep Finset.univ fun b : Dev nD => if b ≠ a then T a b else (BI.emp : sProp 𝕄) := by
    rw [← Finset.filter_ne' Finset.univ a, bigSep_filter]
  have h2 (b : Dev nD) : (bigSep ((Finset.univ : Finset (Dev nD)).erase b) fun a => T a b) = bigSep Finset.univ fun a : Dev nD => if a ≠ b then T a b else (BI.emp : sProp 𝕄) := by
    rw [← Finset.filter_ne' Finset.univ b, bigSep_filter]
  calc (bigSep Finset.univ fun a : Dev nD => bigSep ((Finset.univ : Finset (Dev nD)).erase a) fun b => T a b)
      = bigSep Finset.univ fun a : Dev nD => bigSep Finset.univ fun b : Dev nD => if b ≠ a then T a b else (BI.emp : sProp 𝕄) := bigSep_congr fun a _ => h1 a
    _ = bigSep Finset.univ fun b : Dev nD => bigSep Finset.univ fun a : Dev nD => if b ≠ a then T a b else (BI.emp : sProp 𝕄) := bigSep_univ_comm _
    _ = bigSep Finset.univ fun b : Dev nD => bigSep Finset.univ fun a : Dev nD => if a ≠ b then T a b else (BI.emp : sProp 𝕄) :=
        bigSep_congr fun b _ => bigSep_congr fun a _ => by
          by_cases h : a = b
          · subst h; rfl
          · rw [if_pos (Ne.symm h), if_pos h]
    _ = _ := (bigSep_congr fun b _ => h2 b).symm

/-- A cell used for every slot but the device's own: its one duty, slot by slot. -/
theorem bigSep_offdiag (c : Dev nD) (Ψ : Fin 16 → Dev nD → sProp 𝕄) :
    (bigSep Finset.univ fun s : Fin 16 => bigSep (if s = c then (∅ : Finset (Dev nD)) else {c}) (Ψ s))
      = bigSep ((Finset.univ : Finset (Fin 16)).erase c) fun s => Ψ s c := by
  rw [← Finset.filter_ne' Finset.univ c, bigSep_filter]
  refine bigSep_congr fun s _ => ?_
  by_cases h : s = c
  · rw [if_pos h, if_neg (not_not.mpr h), bigSep_empty]
  · rw [if_neg h, if_pos h, bigSep_singleton]

/-! ## The kernel's own semaphores -/

/-- Every kind of cell but the barrier: the forty-nine copy semaphores, scoped to the kernel. -/
abbrev OwnK : Type := {k : CK // k ≠ CK.bar}
abbrev osem : OwnK → SemLoc sig := fun k => csem k.1

theorem csem_scoped (k : CK) (hk : k ≠ CK.bar) : (csem k).isScoped .tc = true := by
  cases k with
  | bar => exact absurd rfl hk
  | inn => decide
  | out s => clear hk; revert s; decide
  | send s => clear hk; revert s; decide
  | recv s => clear hk; revert s; decide

theorem ownSemFacts : Pipeline.OwnSemFacts cfg0.spec osem :=
  ⟨fun k => csem_scoped k.1 k.2, fun a b h => Subtype.ext (csem_injective h), fun k w s => w.elim0⟩

/-! ## The launch element -/

/-- Every device's fifty cells. -/
def cells : Finset (GSem nD τ sig) := Finset.univ.map ⟨kcell, kcell_injective⟩

/-- A duty of the schedule: its cell (device, kind) and its name. -/
abbrev TokIx : Type := (Dev nD × CK) × Dev nD
def tokOf (x : TokIx) : GSem nD τ sig × ℕ × Dev nD := (kcell x.1, 0, x.2)
theorem tokOf_injective : Function.Injective tokOf := by
  rintro ⟨ck, d⟩ ⟨ck', d'⟩ h
  have h1 : kcell ck = kcell ck' := congrArg Prod.fst h
  have h2 : d = d' := congrArg (fun x : GSem nD τ sig × ℕ × Dev nD => x.2.2) h
  rw [kcell_injective h1, h2]
/-- The duties the schedule has. -/
def toks : Finset (GSem nD τ sig × ℕ × Dev nD) :=
  (Finset.univ.filter fun x : TokIx => x.2 ∈ dutiesOf x.1.1 (some x.1.2)).map ⟨tokOf, tokOf_injective⟩

def u₀ : UU := (initOf (Pipeline.cells cfgs cellOf_inj) (Pipeline.launchToks cfgs cellOf_inj), initOf cells toks)

/-- The tokens of the duties of device `c`'s own cells. -/
def ownToks (c : Dev nD) : sProp 𝕄 :=
  bigSep Finset.univ fun k : CK => bigSep (dutiesOf c (some k)) fun d => dutyTok ER (kcell (c, k)) 0 d

/-- What the launch element deals device `c`: its cells' round states, its positions, the reached marks, its cells' tokens. -/
def G (c : Dev nD) : sProp 𝕄 :=
  iprop((bigSep Finset.univ fun k : CK => roundState ER (a2a m) (kcell (c, k)) 0)
    ∗ (bigSep Finset.univ fun k : CK => iprop(atPos ER (kcell (c, k)) 0 ∅ 0 ∗ reached ER (kcell (c, k)) 0)) ∗ ownToks c)

/-- What the global step makes of it. -/
def G' (c : Dev nD) : sProp 𝕄 := iprop(∃ K, ghost m K c)

theorem fund_a2a : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toks (fun x => (dutyTok ER x.1 x.2.1 x.2.2 : sProp 𝕄)) = bigSep Finset.univ fun c : Dev nD => ownToks c := by
    unfold toks ownToks
    rw [bigSep_map, bigSep_filter, bigSep_univ_prod, bigSep_univ_prod]
    refine bigSep_congr fun c _ => bigSep_congr fun k _ => ?_
    have hS : dutiesOf c (some k) = Finset.univ.filter (fun d => d ∈ dutiesOf c (some k)) := by
      rw [Finset.filter_mem_eq_inter, Finset.univ_inter]
    conv_rhs => rw [hS, bigSep_filter]
    rfl
  iintro HX
  imod (Rounds.fund ER (a2a m) cells toks) $$ HX with ⟨Hst, Hr, Hat, Htok⟩
  imodintro
  ihave Hst' := (Entails.of_eq (hX fun g => roundState ER (a2a m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, and the tokens dealt -/

/-- The copy semaphores are the kernel's own; -/
theorem ownSems0_eq (c : Dev nD) : (Pipeline.ownSems0 (Ix := Unit) (Name := ℕ) (U := UU) (Lvl := ℕ) (Val := Elt F) (τ := τ) osem c : sProp 𝕄)
    = bigSep (Finset.univ.erase CK.bar) fun k : CK => semVal (kcell (c, k)) 0 := by
  unfold Pipeline.ownSems0
  rw [← Finset.filter_ne' Finset.univ CK.bar, ← Finset.univ_map_subtype, bigSep_map]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_at (fun k : CK => (semVal (kcell (c, k)) 0 : sProp 𝕄)) CK.bar]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2a m) κ (kcell (c, k))))
          ∗ (bigSep Finset.univ fun k : CK => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (a2a m) (kcell (c, k)) 0)
      ⊢ (|={Set.univ}=> bigSep Finset.univ fun k : CK => iprop(∃ κ : ℕ, cellInv ER (a2a m) κ (kcell (c, k))) : sProp 𝕄) from by
        rw [← bigSep_sep']
        exact (bigSep_mono fun k _ => (Rounds.body_intro ER (a2a m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ linear c) ⊢ G' m c := by
  unfold G' ghost
  iintro H
  iexists K
  iexact H

/-- A device's own cells' tokens, kind by kind. -/
theorem ownToks_eq (c : Dev nD) : (ownToks c : sProp 𝕄) = iprop((bigSep ((Finset.univ : Finset (Dev nD)).erase c) fun j => dutyTok ER (barCell c) 0 j)
    ∗ dutyTok ER (inCell c) 0 c ∗ (bigSep Finset.univ fun s : Fin 16 => dutyTok ER (outCell c s) 0 c)
    ∗ (bigSep ((Finset.univ : Finset (Fin 16)).erase c) fun s => dutyTok ER (sendCell c s) 0 c)
    ∗ bigSep ((Finset.univ : Finset (Fin 16)).erase c) fun s => dutyTok ER (recvCell c s) 0 c) := by
  unfold ownToks
  rw [bigSep_CK]
  simp only [dutiesOf, bigSep_singleton]
  rw [bigSep_offdiag c fun s d => dutyTok ER (kcell (c, CK.send s)) 0 d, bigSep_offdiag c fun s d => dutyTok ER (kcell (c, CK.recv s)) 0 d]
  rfl

/-- The tokens a device pays with, regrouped: the other barriers' duties it names, the other devices' arrival duties into
    its slot, its own departures', the fetch's, the sixteen copies'. -/
theorem payToks_eq (c : Dev nD) : (payToks c : sProp 𝕄) = iprop((bigSep ((Finset.univ : Finset (Dev nD)).erase c) fun j => dutyTok ER (barCell j) 0 c)
    ∗ ((bigSep ((Finset.univ : Finset (Dev nD)).erase c) fun d => dutyTok ER (recvCell d c) 0 d)
      ∗ bigSep ((Finset.univ : Finset (Dev nD)).erase c) fun s => dutyTok ER (sendCell c s) 0 c)
    ∗ dutyTok ER (inCell c) 0 c ∗ bigSep Finset.univ fun s : Fin 16 => dutyTok ER (outCell c s) 0 c) := by
  unfold payToks
  rw [bigSep_sep', bigSep_peer c (fun d => dutyTok ER (recvCell d c) 0 d), bigSep_peer c (fun s => dutyTok ER (sendCell c s) 0 c)]

/-- The tokens dealt: a barrier duty goes to the device it names, an arrival duty to the device that sends into that slot. -/
theorem toks_deal : (bigSep Finset.univ fun c : Dev nD => (ownToks c : sProp 𝕄)) ⊢ bigSep Finset.univ fun c : Dev nD => payToks c := by
  rw [bigSep_congr fun c _ => ownToks_eq c, bigSep_congr fun c _ => payToks_eq c]
  simp only [bigSep_sep']
  rw [bigSep_erase_comm (fun c j => dutyTok ER (barCell c) 0 j), bigSep_erase_comm (fun d s => dutyTok ER (recvCell d s) 0 d)]
  iintro ⟨HB, HI, HO, HS, HR⟩
  isplitl [HB]; · iexact HB
  isplitl [HR HS]
  · isplitl [HR] <;> iassumption
  isplitl [HI] <;> iassumption

theorem regroup :
    (bigSep Finset.univ fun c : Dev nD => iprop((bigSep Finset.univ fun k : CK => iprop(∃ κ : ℕ, cellInv ER (a2a m) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CK => iprop(∃ κ : ℕ, cellInv ER (a2a m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (a2a m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Device `d`'s due for its transfer number `r`; -/
def Dr (r : Fin 15) (d : Dev nD) : CellTallies nD τ sig Unit := tallyAt (recvCell (peer d r) d) () Nb
/-- its due on device `j`'s barrier. -/
def Db (j : Dev nD) (d : Dev nD) : CellTallies nD τ sig Unit := if j ≠ d then tallyAt (barCell j) () 1 else 0

theorem O₀_eq : (O₀ : Dev nD → CellTallies nD τ sig Unit) = fun d => (∑ r : Fin 15, Dr r d) + ∑ j : Dev nD, Db j d := by
  funext d
  unfold O₀ Orecv Obar
  rw [rpend_zero, pend_zero, ← Finset.filter_ne' Finset.univ d, Finset.sum_filter]
  rfl

/-- The one device that owes slot `src c r` of device `c`'s arrivals is `src c r`, with its transfer number `r`. -/
theorem cred_recv (c : Dev nD) (r : Fin 15) :
    (Pipeline.launchCred (Dr r) c : sProp 𝕄) ⊢ cred (tallyAt (recvCell c (src c r)) () Nb) := by
  refine (Pipeline.launchCred_elim _ c (SemLoc.dma (recvS (src c r)))).trans (Entails.of_eq (congrArg cred ?_))
  rw [Pipeline.tallyOn_launchCredit_owing]
  unfold Dr tallyAt
  refine congrArg _ ?_
  rw [Finset.sum_apply]
  have h0 : ∀ d ∈ (Finset.univ : Finset (Dev nD)), d ≠ src c r →
      tallyOn (nD := nD) (sig := sig) (recvCell (peer d r) d) (Finsupp.single () Nb) (recvCell c (src c r)) = 0 := fun d _ hd => by
    unfold tallyOn
    refine Pi.single_eq_of_ne (fun h => hd ?_) _
    have h3 : ((c, CK.recv (src c r)) : Dev nD × CK) = (peer d r, CK.recv d) := kcell_injective h
    exact (CK.recv.inj (congrArg Prod.snd h3)).symm
  rw [Finset.sum_eq_single (src c r) h0 (fun h => absurd (Finset.mem_univ _) h)]
  unfold tallyOn
  rw [peer_src, Pi.single_eq_same]

theorem others_card : ∀ c : Dev nD, (∑ d : Dev nD, if c ≠ d then 1 else 0) = 15 := by decide

/-- Every other device owes a device's barrier one unit. -/
theorem cred_bar (c : Dev nD) : (Pipeline.launchCred (Db c) c : sProp 𝕄) ⊢ cred (tallyAt (barCell c) () 15) := by
  refine (Pipeline.launchCred_elim _ c (SemLoc.reg barS)).trans (Entails.of_eq (congrArg cred ?_))
  unfold tallyAt; refine congrArg _ (Finsupp.ext fun u => ?_); cases u
  rw [Pipeline.launchCredit_owing, Finsupp.single_eq_same, ← others_card c]
  refine Finset.sum_congr rfl fun d _ => ?_
  unfold Db
  by_cases hd : c ≠ d
  · rw [if_pos hd, if_pos hd, tallyAt_apply, if_pos ⟨rfl, rfl⟩]
  · rw [if_neg hd, if_neg hd]; rfl

theorem creds (c : Dev nD) : (Pipeline.launchCred O₀ c : sProp 𝕄) ⊢ launchCreds c := by
  rw [O₀_eq, Pipeline.launchCred_add (fun d => ∑ r : Fin 15, Dr r d) (fun d => ∑ j : Dev nD, Db j d),
    Pipeline.launchCred_sum Finset.univ Dr, Pipeline.launchCred_sum Finset.univ Db]
  unfold launchCreds
  iintro ⟨HR, HB⟩
  isplitl [HB]
  · ihave HB' := (show (bigSep Finset.univ fun j : Dev nD => (Pipeline.launchCred (Db j) c : sProp 𝕄)) ⊢ Pipeline.launchCred (Db c) c from
      bigSep_elim (Finset.mem_univ c)) $$ HB
    iapply (cred_bar (F := F) c); iexact HB'
  · iapply (show (bigSep Finset.univ fun r : Fin 15 => (Pipeline.launchCred (Dr r) c : sProp 𝕄))
        ⊢ bigSep Finset.univ fun r : Fin 15 => cred (tallyAt (recvCell c (src c r)) () Nb) from bigSep_mono fun r _ => cred_recv c r)
    iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device holds of the two arrays after its body: the result array joined, the argument block as launched. -/
def Yc (c : Dev nD) : sProp 𝕄 :=
  iprop((∃ σ : Seeds (F := F) c, ((c : Thread nD τ).loc main_v1) ↦{fullShare} joinedF m c σ) ∗ (((c : Thread nD τ).loc main_arg0) ↦{fullShare} X m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc scratch
  iintro ⟨Ho, Hx, Hs, Hz⟩
  isplitl [Ho Hx]
  · isplitl [Ho] <;> iassumption
  isplitl [Hz]; · iexact Hz
  iexact Hs

/-- No staging window: the pipeline itself waits on nothing. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters: if each device's
    body meets its obligation, every weakly fair execution of @main terminates, and in every final state each device's
    result array is the joined contents at some seeds and its argument block is what it held. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      (∃ σ : Seeds (F := F) c, r.2.mem ((c : Thread nD τ).loc main_v1) = joinedF m c σ)
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => (∃ σ : Seeds (F := F) c, s.mem ((c : Thread nD τ).loc main_v1) = joinedF m c σ)
      ∧ s.mem ((c : Thread nD τ).loc main_arg0) = m ((c : Thread nD τ).loc main_arg0))
    (hY := fun c s' => by
      unfold Yc
      iintro ⟨⟨⟨%σ, Ho⟩, Hx⟩, -, HSI⟩
      icombine HSI Ho gives %ho
      icombine HSI Hx gives %hx
      imodintro
      isplitr; · ipureintro; exact ⟨⟨σ, Buf.eq_of_forall_mem_univ ho⟩, Buf.eq_of_forall_mem_univ hx⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.SendBlock.lean ====
/-
  One transfer sent by a device's body, step by step.

  Each of the fifteen transfers a device sends is prepared by a vector load of a column block of the vector-memory
  copy of its argument, a vector load of the old contents of a slot of the send buffer, and a vector store of the
  narrowed block into that slot; after the barrier wait, which hands every transfer the landing slot on its peer,
  the slot is sent. Each lemma here steps one of these operations on the state of that transfer (`sendSt`).
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Launch

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-- A product over the fifteen transfers, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The vector load of column block `peer c r` of the vector-memory copy reads the block the transfer carries. -/
theorem send_load_x (c : Dev nD) (fx : Buf (Elt F) ((c : Thread nD τ).loc cc0_scratch0)) (r : Fin 15) (bar : ℕ)
    {α : Type} {Q : α → sProp 𝕄} {off : Fin S256x4096.rank → ℕ} (ho : off = ![0, 256 * (peer c r).val])
    {inb : ∀ a, off a + S256x256.size a ≤ S256x4096.size a}
    {hl : (xV : Memref sig .tc .vmem S256x4096 .f32).view.LoadsAt (Rect.unit (s := S256x4096) off S256x256.size inb).toLoadRect}
    {k : Vec F S256x256 .f32 → Prog (TpuEff nD τ sig (Elt F) Λ₀ .tc) α} :
    globSt m c fx bar
      ⊢ iprop((globSt m c fx bar -∗ wp frame (wpE (defs₀ (F := F)) 𝒱₀ c none) Set.univ (k (xblk m c fx r)) Q)
          -∗ wp frame (wpE (defs₀ (F := F)) 𝒱₀ c none) Set.univ (.op (.load xV (Rect.unit (s := S256x4096) off S256x256.size inb).toLoadRect hl) k) Q) := by
  subst ho
  unfold globSt
  iintro ⟨Hx, Hrest⟩ Hk
  iapply (wp_load_rect 𝒱₀ (c : Thread nD τ) none Set.univ (m := (xV : Memref sig .tc .vmem S256x4096 .f32)) (r := colsRect (peer c r))
      (q := fullShare) (f := xvF m c fx) (S := (xV : Memref sig .tc .vmem S256x4096 .f32).view.set)
      (View.set_slice_subset _ _)) $$ Hx
  iintro Hx
  iapply Hk
  isplitl [Hx]; · iexact Hx
  iexact Hrest

/-- The vector load of the old contents of the transfer's slot of the send buffer changes nothing. -/
theorem send_load_old (c : Dev nD) (fx : Buf (Elt F) ((c : Thread nD τ).loc cc0_scratch0)) (r : Fin 15)
    {α : Type} {Q : α → sProp 𝕄} {off : Fin S16x256x256.rank → ℕ} (ho : off = ![(peer c r).val, 0, 0])
    {inb : ∀ a, off a + S1x256x256.size a ≤ S16x256x256.size a}
    {hl : (sB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    sendSt m c fx r 0
      ⊢ iprop((∀ v, sendSt m c fx r 0 -∗ wp frame (wpE (defs₀ (F := F)) 𝒱₀ c none) Set.univ (k v) Q)
          -∗ wp frame (wpE (defs₀ (F := F)) 𝒱₀ c none) Set.univ (.op (.load sB (Rect.unit (s := S16x256x256) off S1x256x256.size inb).toLoadRect hl) k) Q) := by
  simp only [sendSt]
  iintro ⟨⟨%f, Hs⟩, Hrest⟩ Hk
  iapply (step_load_send c (peer c r) ho f) $$ Hs
  iintro Hs
  iapply Hk
  isplitl [Hs]; · iexists f; iexact Hs
  iexact Hrest

/-- The vector store of the narrowed block into the transfer's slot of the send buffer. -/
theorem send_store (c : Dev nD) (fx : Buf (Elt F) ((c : Thread nD τ).loc cc0_scratch0)) (r : Fin 15)
    {α : Type} {Q : α → sProp 𝕄} {off : Fin S16x256x256.rank → ℕ} (ho : off = ![(peer c r).val, 0, 0])
    {inb : ∀ a, off a + S1x256x256.size a ≤ S16x256x256.size a}
    {w : Vec F S1x256x256 .bf16}
    {hx : ((sB : Memref sig .tc .vmem S16x256x256 .bf16).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (hw : w = k0_pay1 (xblk m c fx r)) :
    sendSt m c fx r 0
      ⊢ iprop((sendSt m c fx r 1 -∗ wp frame (wpE (defs₀ (F := F)) 𝒱₀ c none) Set.univ (k ⟨⟩) Q)
          -∗ wp frame (wpE (defs₀ (F := F)) 𝒱₀ c none) Set.univ (.op (.store sB (Rect.unit (s := S16x256x256) off S1x256x256.size inb) w Finset.univ hx hm) k) Q) := by
  subst hw
  simp only [sendSt]
  iintro ⟨⟨%f, Hs⟩, Hrest⟩ Hk
  iapply (step_store_send c (peer c r) ho f) $$ Hs
  iintro Hs
  iapply Hk
  isplitl [Hs]
  · iexists f
    iexact Hs
  iexact Hrest

/-- A barrier unit from the transfer's peer hands the transfer its landing slot there. -/
theorem send_deal (c : Dev nD) (fx : Buf (Elt F) ((c : Thread nD τ).loc cc0_scratch0)) (r : Fin 15) :
    iprop(sendSt m c fx r 1 ∗ barPay c (peer c r)) ⊢ sendSt m c fx r 2 := by
  simp only [sendSt]
  unfold barPay
  iintro ⟨⟨Hs, Ht, Hat⟩, Hd, -⟩
  isplitl [Hs]; · iexact Hs
  isplitl [Hd]; · iexact Hd
  isplitl [Ht] <;> iassumption

/-- The barrier wait: fifteen units, one per other device; each hands its transfer the landing slot on that device. -/
theorem bar_wait (c : Dev nD) (fx : Buf (Elt F) ((c : Thread nD τ).loc cc0_scratch0)) (W : Waits sig Unit)
    {α : Type} {Q : α → sProp 𝕄} {k : PUnit → Prog (TpuEff nD τ sig (Elt F) Λ₀ .tc) α} :
    iprop(records m K ∗ levAts L lv ∗ cred (tallyAt (barCell c) () 15) ∗ owes (c : Thread nD τ) (Orecv c 0) W ∗ globSt m c fx 0
        ∗ bigSep Finset.univ fun r : Fin 15 => sendSt m c fx r 1)
      ⊢ iprop(((owes (c : Thread nD τ) (Orecv c 0) (insert (SemLoc.reg barS, ()) W) ∗ globSt m c fx 1
              ∗ bigSep Finset.univ fun r : Fin 15 => sendSt m c fx r 2)
            -∗ wp frame (wpE (defs₀ (F := F)) 𝒱₀ c none) Set.univ (k ⟨⟩) Q)
          -∗ wp frame (wpE (defs₀ (F := F)) 𝒱₀ c none) Set.univ (.op (.semWait barS (15#32 : BitVec 32).toNat) k) Q) := by
  unfold globSt
  iintro ⟨#HR, #Hlev, Hc, HO, ⟨G1, G2, G3, G4, G5, G6, G7, G8, G9, Hat⟩, HS⟩ Hk
  iapply (step_wait_bar m K c W) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexact HO
  isplitl [G1 G2 G3 G4 G5 G6 G7 G8 G9 Hat]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact Hat
  · ihave Hp := (Entails.of_eq (bigSep_peer c (fun j => (barPay c j : sProp 𝕄)))) $$ Hpay
    iapply (show iprop((bigSep Finset.univ fun r : Fin 15 => sendSt m c fx r 1) ∗ bigSep Finset.univ fun r : Fin 15 => (barPay c (peer c r) : sProp 𝕄))
        ⊢ bigSep Finset.univ fun r : Fin 15 => sendSt m c fx r 2 from by
      rw [← bigSep_sep']; exact bigSep_mono fun r _ => send_deal m c fx r)
    isplitl [HS]; · iexact HS
    iexact Hp

/-- The transfer: its slot, the landing slot, the two tokens and the arrival's due go in; the departure's credit comes out. -/
theorem send_xfer (c : Dev nD) (fx : Buf (Elt F) ((c : Thread nD τ).loc cc0_scratch0)) (r : Fin 15) (W : Waits sig Unit)
    {α : Type} {Q : α → sProp 𝕄} {k : PUnit → Prog (TpuEff nD τ sig (Elt F) Λ₀ .tc) α}
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c r.val) W ∗ sendSt m c fx r 2)
      ⊢ iprop(((owes (c : Thread nD τ) (Orecv c (r.val + 1)) W ∗ sendSt m c fx r 3) -∗ wp frame (wpE (defs₀ (F := F)) 𝒱₀ c none) Set.univ (k ⟨⟩) Q)
          -∗ wp frame (wpE (defs₀ (F := F)) 𝒱₀ c none) Set.univ (.op (.enqueueDma srcM (.remote (Dev.tc n : Thread nD τ) dstM (.dma sS) hsc) (.dma sem) h1 h2 h3) k) Q) := by
  simp only [sendSt, xferToks]
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS] <;> iassumption
  iintro ⟨Hc, HO⟩
  iapply Hk
  isplitl [HO]; · iexact HO
  isplitl [Hc] <;> iassumption

end Cert.KernelIdealProof

end
-- ==== Proof.Part03.lean ====
/-
  Part 3 of a device's body: the first three blocks narrowed and stored into the send buffer, and the fourth read.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.SendBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part3_spec (K : Dev nD × CK → ℕ) (c : Dev nD) (fx : Buf (Elt F) ((c : Thread nD τ).loc cc0_scratch0)) (W : Waits sig Unit) (v2 : BitVec 32) (v59 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 0
        ∗ sendSt m c fx 1 0
        ∗ sendSt m c fx 2 0
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v59)
          (fun ret => iprop(∃ W', ⌜ret = k0_pay4 (xblk m c fx 3)⌝ ∗ owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part3_eq_skeleton]
  unfold k0_part3_skel
  simp only [Prog.lift, Prog.bind_op, Prog.bind_ret, Prog.pure_eq_ret]
  iapply (send_load_x m c fx (0 : Fin 15) 0 (k0_off4_eq c (0 : Fin 15))) $$ HG
  iintro HG
  iapply (send_load_old m c fx (0 : Fin 15) (k0_off5_eq c (0 : Fin 15))) $$ S0
  iintro %old0 S0
  iapply (send_store m c fx (0 : Fin 15) (k0_off5_eq c (0 : Fin 15)) rfl) $$ S0
  iintro S0
  iapply (send_load_x m c fx (1 : Fin 15) 0 (k0_off4_eq c (1 : Fin 15))) $$ HG
  iintro HG
  iapply (send_load_old m c fx (1 : Fin 15) (k0_off5_eq c (1 : Fin 15))) $$ S1
  iintro %old1 S1
  iapply (send_store m c fx (1 : Fin 15) (k0_off5_eq c (1 : Fin 15)) rfl) $$ S1
  iintro S1
  iapply (send_load_x m c fx (2 : Fin 15) 0 (k0_off4_eq c (2 : Fin 15))) $$ HG
  iintro HG
  iapply (send_load_old m c fx (2 : Fin 15) (k0_off5_eq c (2 : Fin 15))) $$ S2
  iintro %old2 S2
  iapply (send_store m c fx (2 : Fin 15) (k0_off5_eq c (2 : Fin 15)) rfl) $$ S2
  iintro S2
  iapply (send_load_x m c fx (3 : Fin 15) 0 (k0_off4_eq c (3 : Fin 15))) $$ HG
  iintro HG
  rw [wp_ret]; imodintro
  iexists W
  isplitr; · ipureintro; rfl
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelIdealProof.part3_spec' depends on axioms: [propext, Classical.choice, Quot.sound] -/
#guard_msgs in #print axioms part3_spec

end Cert.KernelIdealProof

end
-- ==== Proof.Part04.lean ====
/-
  The stores of the narrowed column blocks of transfers 3 to 6 into their slots of the send buffer; the block of
  transfer 3 was read, and narrowed, by the part before.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.SendBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part4_spec (K : Dev nD × CK → ℕ) (c : Dev nD) (fx : Buf (Elt F) ((c : Thread nD τ).loc cc0_scratch0)) (W : Waits sig Unit) (v2 : BitVec 32) (v93 : FVec F S256x256 .bf16) (hv : v93 = k0_pay4 (xblk m c fx 3)) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v93)
          (fun ret => iprop(∃ W', owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  iintro ⟨#HR, #Hlev, HO, Hc, HG, Hown, S0, S1, S2, S3, S4, S5, S6, Htail⟩
  simp only [k0_part4_eq_skeleton]
  unfold k0_part4_skel
  simp only [Prog.lift, Prog.bind_op, Prog.bind_ret, Prog.pure_eq_ret]
  -- transfer 3: the old slot is read, the block narrowed before is stored
  iapply (send_load_old m c fx (3 : Fin 15) (k0_off5_eq c (3 : Fin 15))) $$ S3
  iintro %old3 S3
  iapply (send_store m c fx (3 : Fin 15) (k0_off5_eq c (3 : Fin 15)) (show k0_pay5 (k0_pay4 (xblk m c fx 3)) = k0_pay1 (xblk m c fx 3) from rfl)) $$ S3
  iintro S3
  -- transfer 4: the column block is read, the old slot is read, the narrowed block is stored
  iapply (send_load_x m c fx (4 : Fin 15) 0 (k0_off4_eq c (4 : Fin 15))) $$ HG
  iintro HG
  iapply (send_load_old m c fx (4 : Fin 15) (k0_off5_eq c (4 : Fin 15))) $$ S4
  iintro %old4 S4
  iapply (send_store m c fx (4 : Fin 15) (k0_off5_eq c (4 : Fin 15)) rfl) $$ S4
  iintro S4
  -- transfer 5: the column block is read, the old slot is read, the narrowed block is stored
  iapply (send_load_x m c fx (5 : Fin 15) 0 (k0_off4_eq c (5 : Fin 15))) $$ HG
  iintro HG
  iapply (send_load_old m c fx (5 : Fin 15) (k0_off5_eq c (5 : Fin 15))) $$ S5
  iintro %old5 S5
  iapply (send_store m c fx (5 : Fin 15) (k0_off5_eq c (5 : Fin 15)) rfl) $$ S5
  iintro S5
  -- transfer 6: the column block is read, the old slot is read, the narrowed block is stored
  iapply (send_load_x m c fx (6 : Fin 15) 0 (k0_off4_eq c (6 : Fin 15))) $$ HG
  iintro HG
  iapply (send_load_old m c fx (6 : Fin 15) (k0_off5_eq c (6 : Fin 15))) $$ S6
  iintro %old6 S6
  iapply (send_store m c fx (6 : Fin 15) (k0_off5_eq c (6 : Fin 15)) rfl) $$ S6
  iintro S6
  rw [wp_ret]; imodintro
  iexists W
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Htail

/-- info: 'Cert.KernelIdealProof.part4_spec' depends on axioms: [propext, Classical.choice, Quot.sound] -/
#guard_msgs in #print axioms part4_spec

end Cert.KernelIdealProof

end
-- ==== Proof.Part05.lean ====
/-
  Part 5 of a device's body: the eighth to tenth blocks stored into the send buffer, the eleventh read.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.SendBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part5_spec (K : Dev nD × CK → ℕ) (c : Dev nD) (fx : Buf (Elt F) ((c : Thread nD τ).loc cc0_scratch0)) (W : Waits sig Unit) (v2 : BitVec 32) (v129 : BitVec 32) (c256_i32_63 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v129 c256_i32_63)
          (fun ret => iprop(∃ W', ⌜ret.1 = k0_pay12 (xblk m c fx 10)⌝ ∗ owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part5_eq_skeleton]
  unfold k0_part5_skel
  simp only [Prog.lift, Prog.bind_op, Prog.bind_ret, Prog.pure_eq_ret]
  iapply (send_load_x m c fx (7 : Fin 15) 0 (k0_off4_eq c (7 : Fin 15))) $$ HG
  iintro HG
  iapply (send_load_old m c fx (7 : Fin 15) (k0_off5_eq c (7 : Fin 15))) $$ S7
  iintro %old7 S7
  iapply (send_store m c fx (7 : Fin 15) (k0_off5_eq c (7 : Fin 15)) rfl) $$ S7
  iintro S7
  iapply (send_load_x m c fx (8 : Fin 15) 0 (k0_off4_eq c (8 : Fin 15))) $$ HG
  iintro HG
  iapply (send_load_old m c fx (8 : Fin 15) (k0_off5_eq c (8 : Fin 15))) $$ S8
  iintro %old8 S8
  iapply (send_store m c fx (8 : Fin 15) (k0_off5_eq c (8 : Fin 15)) rfl) $$ S8
  iintro S8
  iapply (send_load_x m c fx (9 : Fin 15) 0 (k0_off4_eq c (9 : Fin 15))) $$ HG
  iintro HG
  iapply (send_load_old m c fx (9 : Fin 15) (k0_off5_eq c (9 : Fin 15))) $$ S9
  iintro %old9 S9
  iapply (send_store m c fx (9 : Fin 15) (k0_off5_eq c (9 : Fin 15)) rfl) $$ S9
  iintro S9
  iapply (send_load_x m c fx (10 : Fin 15) 0 (k0_off4_eq c (10 : Fin 15))) $$ HG
  iintro HG
  iapply (send_load_old m c fx (10 : Fin 15) (k0_off5_eq c (10 : Fin 15))) $$ S10
  iintro %old10 S10
  rw [wp_ret]; imodintro
  iexists W
  isplitr; · ipureintro; rfl
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelIdealProof.part5_spec' depends on axioms: [propext, Classical.choice, Quot.sound] -/
#guard_msgs in #print axioms part5_spec

end Cert.KernelIdealProof

end
-- ==== Proof.Part06.lean ====
/-
  The stores of the narrowed column blocks of transfers 10 to 13 into their slots of the send buffer; the block of
  transfer 10 and the old contents of its slot were read by the part before.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.SendBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part6_spec (K : Dev nD × CK → ℕ) (c : Dev nD) (fx : Buf (Elt F) ((c : Thread nD τ).loc cc0_scratch0)) (W : Waits sig Unit) (v2 : BitVec 32) (v163 : FVec F S256x256 .bf16) (v165 : Vec F S1x256x256 .bf16) (hv : v163 = k0_pay12 (xblk m c fx 10)) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v163 v165)
          (fun ret => iprop(∃ W', owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 1
        ∗ sendSt m c fx 11 1
        ∗ sendSt m c fx 12 1
        ∗ sendSt m c fx 13 1
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  iintro ⟨#HR, #Hlev, HO, Hc, HG, Hown, S0, S1, S2, S3, S4, S5, S6, S7, S8, S9, S10, S11, S12, S13, Htail⟩
  simp only [k0_part6_eq_skeleton]
  unfold k0_part6_skel
  simp only [Prog.lift, Prog.bind_op, Prog.bind_ret, Prog.pure_eq_ret]
  -- transfer 10: the block narrowed before is stored
  iapply (send_store m c fx (10 : Fin 15) (k0_off5_eq c (10 : Fin 15)) (show k0_pay13 (k0_pay12 (xblk m c fx 10)) = k0_pay1 (xblk m c fx 10) from rfl)) $$ S10
  iintro S10
  -- transfer 11: the column block is read, the old slot is read, the narrowed block is stored
  iapply (send_load_x m c fx (11 : Fin 15) 0 (k0_off4_eq c (11 : Fin 15))) $$ HG
  iintro HG
  iapply (send_load_old m c fx (11 : Fin 15) (k0_off5_eq c (11 : Fin 15))) $$ S11
  iintro %old11 S11
  iapply (send_store m c fx (11 : Fin 15) (k0_off5_eq c (11 : Fin 15)) rfl) $$ S11
  iintro S11
  -- transfer 12: the column block is read, the old slot is read, the narrowed block is stored
  iapply (send_load_x m c fx (12 : Fin 15) 0 (k0_off4_eq c (12 : Fin 15))) $$ HG
  iintro HG
  iapply (send_load_old m c fx (12 : Fin 15) (k0_off5_eq c (12 : Fin 15))) $$ S12
  iintro %old12 S12
  iapply (send_store m c fx (12 : Fin 15) (k0_off5_eq c (12 : Fin 15)) rfl) $$ S12
  iintro S12
  -- transfer 13: the column block is read, the old slot is read, the narrowed block is stored
  iapply (send_load_x m c fx (13 : Fin 15) 0 (k0_off4_eq c (13 : Fin 15))) $$ HG
  iintro HG
  iapply (send_load_old m c fx (13 : Fin 15) (k0_off5_eq c (13 : Fin 15))) $$ S13
  iintro %old13 S13
  iapply (send_store m c fx (13 : Fin 15) (k0_off5_eq c (13 : Fin 15)) rfl) $$ S13
  iintro S13
  rw [wp_ret]; imodintro
  iexists W
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  iexact Htail

/-- info: 'Cert.KernelIdealProof.part6_spec' depends on axioms: [propext, Classical.choice, Quot.sound] -/
#guard_msgs in #print axioms part6_spec

end Cert.KernelIdealProof

end
-- ==== Proof.Part07.lean ====
/-
  Part 7 of a device's body: the last block stored, the barrier wait, and the first two transfers.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.SendBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part7_spec (K : Dev nD × CK → ℕ) (c : Dev nD) (fx : Buf (Elt F) ((c : Thread nD τ).loc cc0_scratch0)) (W : Waits sig Unit) (v2 : BitVec 32)  (v199 : BitVec 32) (v200 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 1
        ∗ sendSt m c fx 11 1
        ∗ sendSt m c fx 12 1
        ∗ sendSt m c fx 13 1
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_) v199 v200)
          (fun ret => iprop(∃ W', owes (c : Thread nD τ) (Orecv c 2) W'
        ∗ globSt m c fx 1
        ∗ ownSt m c 0
        ∗ sendSt m c fx 0 3
        ∗ sendSt m c fx 1 3
        ∗ sendSt m c fx 2 2
        ∗ sendSt m c fx 3 2
        ∗ sendSt m c fx 4 2
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part7_eq_skeleton]
  unfold k0_part7_skel
  simp only [Prog.lift, Prog.bind_op, Prog.bind_ret, Prog.pure_eq_ret, semWaitWord]
  iapply (send_load_x m c fx (14 : Fin 15) 0 (k0_off4_eq c (14 : Fin 15))) $$ HG
  iintro HG
  iapply (send_load_old m c fx (14 : Fin 15) (k0_off5_eq c (14 : Fin 15))) $$ S14
  iintro %old14 S14
  iapply (send_store m c fx (14 : Fin 15) (k0_off5_eq c (14 : Fin 15)) rfl) $$ S14
  iintro S14
  ihave HS := (Entails.of_eq (bigSep_fin15 (fun r : Fin 15 => sendSt m c fx r 1)).symm) $$ [S0 S1 S2 S3 S4 S5 S6 S7 S8 S9 S10 S11 S12 S13 S14]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  iapply (bar_wait m K c fx W) $$ [Hc HO HG HS]
  · isplitr; · iexact HR
    isplitr; · iexact Hlev
    isplitl [Hc]; · iexact Hc
    isplitl [HO]; · iexact HO
    isplitl [HG]; · iexact HG
    iexact HS
  iintro ⟨HO, HG, HS⟩
  ihave HS' := (Entails.of_eq (bigSep_fin15 (fun r : Fin 15 => sendSt m c fx r 2))) $$ HS
  icases HS' with ⟨S0, S1, S2, S3, S4, S5, S6, S7, S8, S9, S10, S11, S12, S13, S14⟩
  iapply (send_xfer m K c fx (0 : Fin 15) (insert (SemLoc.reg barS, ()) W) (dev_peer c (0 : Fin 15) _ _ (k0_dev17_eq c)) (slot_peer sB c (0 : Fin 15) _) (slot_self rB c _) (sendSem_peer c (0 : Fin 15)) (recvSem_self c)) $$ [HO S0]
  · isplitr; · iexact HR
    isplitl [HO]; · iexact HO
    iexact S0
  iintro ⟨HO, S0⟩
  iapply (send_xfer m K c fx (1 : Fin 15) (insert (SemLoc.reg barS, ()) W) (dev_peer c (1 : Fin 15) _ _ (k0_dev18_eq c)) (slot_peer sB c (1 : Fin 15) _) (slot_self rB c _) (sendSem_peer c (1 : Fin 15)) (recvSem_self c)) $$ [HO S1]
  · isplitr; · iexact HR
    isplitl [HO]; · iexact HO
    iexact S1
  iintro ⟨HO, S1⟩
  rw [wp_ret]; imodintro
  iexists (insert (SemLoc.reg barS, ()) W)
  isplitl [HO]; · iexact HO
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelIdealProof.part7_spec' depends on axioms: [propext, Classical.choice, Quot.sound] -/
#guard_msgs in #print axioms part7_spec

end Cert.KernelIdealProof

end
-- ==== Proof.XferBlock.lean ====
/-
  One transfer sent, on its state.

  Each of the fifteen transfers a device sends is one remote copy of a slot of its send buffer into slot `c` of the
  peer's receive buffer. The lemma here steps that copy on the state of the transfer (`sendSt`, phase 2 to phase 3),
  and lowers what the device still owes by that transfer's arrival credit.
-/
import proofs.«900406_g7700000000000407_dist_a2a_v7x_i16_i_m256_n256_bf16_1_alg».proof.Proof.States
import proofs.«900406_g7700000000000407_dist_a2a_v7x_i16_i_m256_n256_bf16_1_alg».proof.Proof.Steps

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-- The `r`-th transfer is sent: the stored slot of the send buffer, the peer's landing slot, the two tokens and one
    arrival's credit of what is owed go in; the transfer is then pending, its departure's credit in hand. -/
theorem xfer_send (c : Dev nD) (r : Fin 15) (fx : Buf (Elt F) ((c : Thread nD τ).loc cc0_scratch0))
    {α : Type} {Q : α → sProp 𝕄} {k : PUnit → Prog (TpuEff nD τ sig (Elt F) Λ₀ .tc) α} (W : Waits sig Unit)
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c r.val) W ∗ sendSt m c fx r 2)
      ⊢ iprop(((owes (c : Thread nD τ) (Orecv c (r.val + 1)) W ∗ sendSt m c fx r 3)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  simp only [sendSt, xferToks]
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS]; · iexact HtS
    iexact HtR
  iintro ⟨Hc, HO⟩
  iapply Hk
  isplitl [HO]; · iexact HO
  isplitl [Hc]; · iexact Hc
  iexact Hat

/-- The last transfer sent: nothing is owed any more. -/
theorem xfer_send_last (c : Dev nD) (fx : Buf (Elt F) ((c : Thread nD τ).loc cc0_scratch0))
    {α : Type} {Q : α → sProp 𝕄} {k : PUnit → Prog (TpuEff nD τ sig (Elt F) Λ₀ .tc) α} (W : Waits sig Unit)
    {n : Dev nD} (hn : n = peer c 14)
    {srcM : Memref sig .tc .vmem S256x256 .bf16} {dstM : Memref sig .tc .vmem S256x256 .bf16} {sS sem : DmaSem sig}
    (hs : srcM = slotM sB (peer c 14)) (hd : dstM = slotM rB c) (hsS : sS = sendS (peer c 14)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c 14) W ∗ sendSt m c fx 14 2)
      ⊢ iprop(((owes (c : Thread nD τ) 0 W ∗ sendSt m c fx 14 3)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  have h := xfer_send m K c 14 fx (Q := Q) (k := k) W hn hs hd hsS hsem (hsc := hsc) (h1 := h1) (h2 := h2) (h3 := h3)
  rw [show ((14 : Fin 15).val + 1) = 15 from rfl, Orecv_end] at h
  exact h

/-- info: 'Cert.KernelIdealProof.xfer_send' depends on axioms: [propext, Classical.choice, Quot.sound] -/
#guard_msgs in #print axioms xfer_send

/-- info: 'Cert.KernelIdealProof.xfer_send_last' depends on axioms: [propext, Classical.choice, Quot.sound] -/
#guard_msgs in #print axioms xfer_send_last

end Cert.KernelIdealProof

end
-- ==== Proof.Part08.lean ====
/-
  Part 8 of a device's body. Transfers 2, 3 and 4 are sent.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.XferBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part8_spec (K : Dev nD × CK → ℕ) (c : Dev nD) (fx : Buf (Elt F) ((c : Thread nD τ).loc cc0_scratch0)) (W : Waits sig Unit) (v2 : BitVec 32) (v233 : BitVec 32) :
    iprop(records m K ∗ levAts L lv
        ∗ owes (c : Thread nD τ) (Orecv c 2) W
        ∗ globSt m c fx 1
        ∗ ownSt m c 0
        ∗ sendSt m c fx 0 3
        ∗ sendSt m c fx 1 3
        ∗ sendSt m c fx 2 2
        ∗ sendSt m c fx 3 2
        ∗ sendSt m c fx 4 2
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v233)
          (fun ret => iprop(∃ W', owes (c : Thread nD τ) (Orecv c 5) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, St⟩
  simp only [k0_part8_eq_skeleton]; unfold k0_part8_skel
  simp only [Prog.lift, Prog.bind_op, Prog.bind_ret, Prog.pure_eq_ret]
  -- transfer 2, to `peer c 2`
  iapply (xfer_send m K c 2 fx _ (dev_peer c 2 _ _ (k0_dev19_eq c)) (slot_peer sB c 2 _) (slot_self rB c _) (sendSem_peer c 2) (recvSem_self c)) $$ [HO S2]
  · isplitr; · iexact HR
    isplitl [HO]; · iexact HO
    iexact S2
  iintro ⟨HO, S2⟩
  -- transfer 3, to `peer c 3`
  iapply (xfer_send m K c 3 fx _ (dev_peer c 3 _ _ (k0_dev20_eq c)) (slot_peer sB c 3 _) (slot_self rB c _) (sendSem_peer c 3) (recvSem_self c)) $$ [HO S3]
  · isplitr; · iexact HR
    isplitl [HO]; · iexact HO
    iexact S3
  iintro ⟨HO, S3⟩
  -- transfer 4, to `peer c 4`
  iapply (xfer_send m K c 4 fx _ (dev_peer c 4 _ _ (k0_dev21_eq c)) (slot_peer sB c 4 _) (slot_self rB c _) (sendSem_peer c 4) (recvSem_self c)) $$ [HO S4]
  · isplitr; · iexact HR
    isplitl [HO]; · iexact HO
    iexact S4
  iintro ⟨HO, S4⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  iexact St

/-- info: 'Cert.KernelIdealProof.part8_spec' depends on axioms: [propext, Classical.choice, Quot.sound] -/
#guard_msgs in #print axioms part8_spec

end Cert.KernelIdealProof

end
-- ==== Proof.Part09.lean ====
/-
  Part 9 of a device's body. Transfers 5 and 6 are sent.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.XferBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part9_spec (K : Dev nD × CK → ℕ) (c : Dev nD) (fx : Buf (Elt F) ((c : Thread nD τ).loc cc0_scratch0)) (W : Waits sig Unit) (v2 : BitVec 32) (c6_i32_150 : BitVec 32) :
    iprop(records m K ∗ levAts L lv
        ∗ owes (c : Thread nD τ) (Orecv c 5) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c6_i32_150)
          (fun ret => iprop(∃ W', owes (c : Thread nD τ) (Orecv c 7) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, St⟩
  simp only [k0_part9_eq_skeleton]; unfold k0_part9_skel
  simp only [Prog.lift, Prog.bind_op, Prog.bind_ret, Prog.pure_eq_ret]
  -- transfer 5, to `peer c 5`
  iapply (xfer_send m K c 5 fx _ (dev_peer c 5 _ _ (k0_dev22_eq c)) (slot_peer sB c 5 _) (slot_self rB c _) (sendSem_peer c 5) (recvSem_self c)) $$ [HO S5]
  · isplitr; · iexact HR
    isplitl [HO]; · iexact HO
    iexact S5
  iintro ⟨HO, S5⟩
  -- transfer 6, to `peer c 6`
  iapply (xfer_send m K c 6 fx _ (dev_peer c 6 _ _ (k0_dev23_eq c)) (slot_peer sB c 6 _) (slot_self rB c _) (sendSem_peer c 6) (recvSem_self c)) $$ [HO S6]
  · isplitr; · iexact HR
    isplitl [HO]; · iexact HO
    iexact S6
  iintro ⟨HO, S6⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  iexact St

/-- info: 'Cert.KernelIdealProof.part9_spec' depends on axioms: [propext, Classical.choice, Quot.sound] -/
#guard_msgs in #print axioms part9_spec

end Cert.KernelIdealProof

end
-- ==== Proof.Part10.lean ====
/-
  Part 10 of a device's body. Transfers 7, 8 and 9 are sent.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.XferBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part10_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 7) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W', owes (c : Thread nD τ) (Orecv c 10) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, St⟩
  simp only [k0_part10_eq_skeleton]; unfold k0_part10_skel
  simp only [Prog.lift, Prog.bind_op, Prog.bind_ret, Prog.pure_eq_ret]
  -- transfer 7, to `peer c 7`
  iapply (xfer_send m K c 7 fx _ (dev_peer c 7 _ _ (k0_dev24_eq c)) (slot_peer sB c 7 _) (slot_self rB c _) (sendSem_peer c 7) (recvSem_self c)) $$ [HO S7]
  · isplitr; · iexact HR
    isplitl [HO]; · iexact HO
    iexact S7
  iintro ⟨HO, S7⟩
  -- transfer 8, to `peer c 8`
  iapply (xfer_send m K c 8 fx _ (dev_peer c 8 _ _ (k0_dev25_eq c)) (slot_peer sB c 8 _) (slot_self rB c _) (sendSem_peer c 8) (recvSem_self c)) $$ [HO S8]
  · isplitr; · iexact HR
    isplitl [HO]; · iexact HO
    iexact S8
  iintro ⟨HO, S8⟩
  -- transfer 9, to `peer c 9`
  iapply (xfer_send m K c 9 fx _ (dev_peer c 9 _ _ (k0_dev26_eq c)) (slot_peer sB c 9 _) (slot_self rB c _) (sendSem_peer c 9) (recvSem_self c)) $$ [HO S9]
  · isplitr; · iexact HR
    isplitl [HO]; · iexact HO
    iexact S9
  iintro ⟨HO, S9⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact St

/-- info: 'Cert.KernelIdealProof.part10_spec' depends on axioms: [propext, Classical.choice, Quot.sound] -/
#guard_msgs in #print axioms part10_spec

end Cert.KernelIdealProof

end
-- ==== Proof.Part11.lean ====
/-
  Part 11 of a device's body. Transfers 10, 11 and 12 are sent.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.XferBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part11_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 10) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W', owes (c : Thread nD τ) (Orecv c 13) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, St⟩
  simp only [k0_part11_eq_skeleton]; unfold k0_part11_skel
  simp only [Prog.lift, Prog.bind_op, Prog.bind_ret, Prog.pure_eq_ret]
  -- transfer 10, to `peer c 10`
  iapply (xfer_send m K c 10 fx _ (dev_peer c 10 _ _ (k0_dev27_eq c)) (slot_peer sB c 10 _) (slot_self rB c _) (sendSem_peer c 10) (recvSem_self c)) $$ [HO S10]
  · isplitr; · iexact HR
    isplitl [HO]; · iexact HO
    iexact S10
  iintro ⟨HO, S10⟩
  -- transfer 11, to `peer c 11`
  iapply (xfer_send m K c 11 fx _ (dev_peer c 11 _ _ (k0_dev28_eq c)) (slot_peer sB c 11 _) (slot_self rB c _) (sendSem_peer c 11) (recvSem_self c)) $$ [HO S11]
  · isplitr; · iexact HR
    isplitl [HO]; · iexact HO
    iexact S11
  iintro ⟨HO, S11⟩
  -- transfer 12, to `peer c 12`
  iapply (xfer_send m K c 12 fx _ (dev_peer c 12 _ _ (k0_dev29_eq c)) (slot_peer sB c 12 _) (slot_self rB c _) (sendSem_peer c 12) (recvSem_self c)) $$ [HO S12]
  · isplitr; · iexact HR
    isplitl [HO]; · iexact HO
    iexact S12
  iintro ⟨HO, S12⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexact St

/-- info: 'Cert.KernelIdealProof.part11_spec' depends on axioms: [propext, Classical.choice, Quot.sound] -/
#guard_msgs in #print axioms part11_spec

end Cert.KernelIdealProof

end
-- ==== Proof.Part12.lean ====
/-
  The last two departures, the first arrival, and the reads of the landed slot and of its staging slot.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part12_sendSt_two (c : Dev nD) (fx : Buf (Elt F) ((c : Thread nD τ).loc cc0_scratch0)) (r : Fin 15) :
    sendSt m c fx r 2 = iprop((∃ f0, sPts c (peer c r) (sendF m c (peer c r) fx f0)) ∗ (∃ fd, rPts (peer c r) c fd) ∗ xferToks c r
      ∗ atPos ER (sendCell c (peer c r)) 0 ∅ 0) := rfl
theorem part12_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl

theorem part12_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part12_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part12_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part12_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part12_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## A departure -/

/-- The `r`-th transfer leaves: its stored slot, the peer's landing slot and its two tokens go, the departure's
    credit comes, and one arrival's credit less is owed. -/
theorem part12_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α} (W : Waits sig Unit)
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc)} :
    iprop(records m K ∗ owes (c : Thread nD τ) (Orecv c r.val) W ∗ sendSt m c fx r 2)
      ⊢ iprop(((owes (c : Thread nD τ) (Orecv c (r.val + 1)) W ∗ sendSt m c fx r 3) -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  rw [part12_sendSt_two, part12_sendSt_three]; unfold xferToks
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS]; · iexact HtS
    iexact HtR
  iintro ⟨Hc, HO⟩
  iapply Hk
  isplitl [HO]; · iexact HO
  isplitl [Hc]; · iexact Hc
  iexact Hat

/-! ## An arrival -/

/-- The wait for the `r`-th block: its credit goes, the landed slot comes at named contents. -/
theorem part12_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part12_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part12_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part12_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part12_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part12_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part12_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part12_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part12_stagedSt gPts
  iintro ⟨Hr, Hat, ⟨%g0, Hg⟩, Hrest⟩ Hk
  iapply (part12_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part12_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part12_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part12_recvSt_two]; unfold part12_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part12_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 13) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W' fd fx' f0, ⌜ret.2.1 = k0_pay18 (rblk m c 0 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt1 m c 0 fd fx' f0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part12_eq_skeleton]; unfold k0_part12_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, Rt⟩
  -- transfer 13 leaves
  iapply (part12_send m K c fx 13 W (dev_peer c 13 _ _ (k0_dev30_eq c)) (slot_peer sB c 13 _) (slot_self rB c _) (sendSem_peer c 13) (recvSem_self c)) $$ [HO S13]
  · isplitr; · iexact HR
    isplitl [HO]; · iexact HO
    iexact S13
  iintro ⟨HO, S13⟩
  -- transfer 14 leaves
  iapply (part12_send m K c fx 14 W (dev_peer c 14 _ _ (k0_dev31_eq c)) (slot_peer sB c 14 _) (slot_self rB c _) (sendSem_peer c 14) (recvSem_self c)) $$ [HO S14]
  · isplitr; · iexact HR
    isplitl [HO]; · iexact HO
    iexact S14
  iintro ⟨HO, S14⟩
  -- block 0 arrives
  iapply (part12_arrive m K c 0 _ (Orecv_end c) (slot_src rB c 0 _) (recvSem_src c 0)) $$ [HO R0]
  · isplitr; · iexact HR
    isplitl [HO]; · iexact HO
    iexact R0
  iintro ⟨%fd0, %fx0, %f00, HO, R0⟩
  -- the landed slot is read, then the staging slot as it stands
  iapply (part12_load_landed m c 0 fd0 fx0 f00 (k0_off11_eq c 0)) $$ [R0]
  · iexact R0
  iintro R0
  iapply (part12_load_stage m c 0 fd0 fx0 f00 (k0_off11_eq c 0)) $$ [R0]
  · iexact R0
  iintro %v0 R0
  rw [wp_ret]; imodintro
  iexists _, fd0, fx0, f00
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  iexact Rt

/-- info: 'Cert.KernelIdealProof.part12_spec' depends on axioms: [propext, Classical.choice, Quot.sound] -/
#guard_msgs in #print axioms part12_spec

end Cert.KernelIdealProof

end
-- ==== Proof.Part13.lean ====
/-
  The first block received is staged and sent on to the result array; the second arrives, is read, staged and sent on.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part13_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part13_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part13_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part13_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part13_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part13_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part13_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part13_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part13_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part13_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part13_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part13_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part13_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part13_stagedSt gPts
  iintro ⟨Hr, Hat, ⟨%g0, Hg⟩, Hrest⟩ Hk
  iapply (part13_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part13_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part13_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part13_recvSt_two]; unfold part13_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part13_spec (K : Dev nD × CK → ℕ) (c : Dev nD) (fx : Buf (Elt F) ((c : Thread nD τ).loc cc0_scratch0)) (W : Waits sig Unit) (v2 : BitVec 32) (v390 : BitVec 32) (v402 : FVec F S256x256 .f32) (v404 : Vec F S1x256x256 .f32) (fd : Buf (Elt F) ((c : Thread nD τ).loc cc0_scratch2)) (fx' : Buf (Elt F) ((src c 0 : Thread nD τ).loc cc0_scratch0)) (f0 : Buf (Elt F) ((src c 0 : Thread nD τ).loc cc0_scratch1)) (hv : v402 = k0_pay18 (rblk m c 0 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt1 m c 0 fd fx' f0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part13 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v390 v402 v404)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  simp only [k0_part13_eq_skeleton]; unfold k0_part13_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, Rt⟩
  -- the widened block is stored into its staging slot and its copy into the result array starts
  iapply (part13_stage_store m c 0 fd fx' f0 (k0_off11_eq c 0) rfl) $$ [R0]
  · iexact R0
  iintro R0
  iapply (part13_stage_copy m K c 0 (slot_src gB c 0 _) (rows_src c 0 _) (outSem_src c 0)) $$ [R0]
  · isplitr; · iexact HR
    iexact R0
  iintro R0
  -- block 1 arrives
  iapply (part13_arrive m K c 1 _ rfl (slot_src rB c 1 _) (recvSem_src c 1)) $$ [HO R1]
  · isplitr; · iexact HR
    isplitl [HO]; · iexact HO
    iexact R1
  iintro ⟨%fd1, %fx1, %f01, HO, R1⟩
  -- the landed slot is read, then the staging slot as it stands
  iapply (part13_load_landed m c 1 fd1 fx1 f01 (k0_off11_eq c 1)) $$ [R1]
  · iexact R1
  iintro R1
  iapply (part13_load_stage m c 1 fd1 fx1 f01 (k0_off11_eq c 1)) $$ [R1]
  · iexact R1
  iintro %v1 R1
  -- the widened block is stored into its staging slot and its copy into the result array starts
  iapply (part13_stage_store m c 1 fd1 fx1 f01 (k0_off11_eq c 1) rfl) $$ [R1]
  · iexact R1
  iintro R1
  iapply (part13_stage_copy m K c 1 (slot_src gB c 1 _) (rows_src c 1 _) (outSem_src c 1)) $$ [R1]
  · isplitr; · iexact HR
    iexact R1
  iintro R1
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  iexact Rt

/-- info: 'Cert.KernelIdealProof.part13_spec' depends on axioms: [propext, Classical.choice, Quot.sound] -/
#guard_msgs in #print axioms part13_spec

end Cert.KernelIdealProof

end
-- ==== Proof.Part14.lean ====
/-
  The third block received: arrival, reads, staging, and the start of its copy into the result array.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part14_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part14_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part14_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part14_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part14_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part14_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part14_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part14_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part14_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part14_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part14_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part14_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part14_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part14_stagedSt gPts
  iintro ⟨Hr, Hat, ⟨%g0, Hg⟩, Hrest⟩ Hk
  iapply (part14_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part14_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part14_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part14_recvSt_two]; unfold part14_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part14_spec (K : Dev nD × CK → ℕ) (c : Dev nD) (fx : Buf (Elt F) ((c : Thread nD τ).loc cc0_scratch0)) (W : Waits sig Unit) (v2 : BitVec 32) (c3_i32_264 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part14 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c3_i32_264)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part14_eq_skeleton]; unfold k0_part14_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, Rt⟩
  -- block 2 arrives
  iapply (part14_arrive m K c 2 _ rfl (slot_src rB c 2 _) (recvSem_src c 2)) $$ [HO R2]
  · isplitr; · iexact HR
    isplitl [HO]; · iexact HO
    iexact R2
  iintro ⟨%fd2, %fx2, %f02, HO, R2⟩
  -- the landed slot is read, then the staging slot as it stands
  iapply (part14_load_landed m c 2 fd2 fx2 f02 (k0_off11_eq c 2)) $$ [R2]
  · iexact R2
  iintro R2
  iapply (part14_load_stage m c 2 fd2 fx2 f02 (k0_off11_eq c 2)) $$ [R2]
  · iexact R2
  iintro %v2 R2
  -- the widened block is stored into its staging slot and its copy into the result array starts
  iapply (part14_stage_store m c 2 fd2 fx2 f02 (k0_off11_eq c 2) rfl) $$ [R2]
  · iexact R2
  iintro R2
  iapply (part14_stage_copy m K c 2 (slot_src gB c 2 _) (rows_src c 2 _) (outSem_src c 2)) $$ [R2]
  · isplitr; · iexact HR
    iexact R2
  iintro R2
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  iexact Rt

/-- info: 'Cert.KernelIdealProof.part14_spec' depends on axioms: [propext, Classical.choice, Quot.sound] -/
#guard_msgs in #print axioms part14_spec

end Cert.KernelIdealProof

end
-- ==== Proof.Part15.lean ====
/-
  The fourth block received goes all the way to the result array; the fifth arrives and is read.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part15_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part15_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part15_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part15_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part15_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part15_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part15_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part15_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part15_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part15_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part15_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part15_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part15_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part15_stagedSt gPts
  iintro ⟨Hr, Hat, ⟨%g0, Hg⟩, Hrest⟩ Hk
  iapply (part15_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part15_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part15_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part15_recvSt_two]; unfold part15_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part15_spec (K : Dev nD × CK → ℕ) (c : Dev nD) (fx : Buf (Elt F) ((c : Thread nD τ).loc cc0_scratch0)) (W : Waits sig Unit) (v2 : BitVec 32) (v465 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part15 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v465)
          (fun ret => iprop(∃ W' fd fx' f0, ⌜ret.2.1 = k0_pay23 (rblk m c 4 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt1 m c 4 fd fx' f0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part15_eq_skeleton]; unfold k0_part15_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, Rt⟩
  -- block 3 arrives
  iapply (part15_arrive m K c 3 _ rfl (slot_src rB c 3 _) (recvSem_src c 3)) $$ [HO R3]
  · isplitr; · iexact HR
    isplitl [HO]; · iexact HO
    iexact R3
  iintro ⟨%fd3, %fx3, %f03, HO, R3⟩
  -- the landed slot is read, then the staging slot as it stands
  iapply (part15_load_landed m c 3 fd3 fx3 f03 (k0_off11_eq c 3)) $$ [R3]
  · iexact R3
  iintro R3
  iapply (part15_load_stage m c 3 fd3 fx3 f03 (k0_off11_eq c 3)) $$ [R3]
  · iexact R3
  iintro %v3 R3
  -- the widened block is stored into its staging slot and its copy into the result array starts
  iapply (part15_stage_store m c 3 fd3 fx3 f03 (k0_off11_eq c 3) rfl) $$ [R3]
  · iexact R3
  iintro R3
  iapply (part15_stage_copy m K c 3 (slot_src gB c 3 _) (rows_src c 3 _) (outSem_src c 3)) $$ [R3]
  · isplitr; · iexact HR
    iexact R3
  iintro R3
  -- block 4 arrives
  iapply (part15_arrive m K c 4 _ rfl (slot_src rB c 4 _) (recvSem_src c 4)) $$ [HO R4]
  · isplitr; · iexact HR
    isplitl [HO]; · iexact HO
    iexact R4
  iintro ⟨%fd4, %fx4, %f04, HO, R4⟩
  -- the landed slot is read, then the staging slot as it stands
  iapply (part15_load_landed m c 4 fd4 fx4 f04 (k0_off11_eq c 4)) $$ [R4]
  · iexact R4
  iintro R4
  iapply (part15_load_stage m c 4 fd4 fx4 f04 (k0_off11_eq c 4)) $$ [R4]
  · iexact R4
  iintro %v4 R4
  rw [wp_ret]; imodintro
  iexists _, fd4, fx4, f04
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  iexact Rt

/-- info: 'Cert.KernelIdealProof.part15_spec' depends on axioms: [propext, Classical.choice, Quot.sound] -/
#guard_msgs in #print axioms part15_spec

end Cert.KernelIdealProof

end
-- ==== Proof.Part16.lean ====
/-
  The fifth block received is staged and sent on to the result array; the sixth arrives, is read, staged and sent on.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part16_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part16_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part16_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part16_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part16_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part16_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part16_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part16_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part16_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part16_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part16_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part16_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part16_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part16_stagedSt gPts
  iintro ⟨Hr, Hat, ⟨%g0, Hg⟩, Hrest⟩ Hk
  iapply (part16_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part16_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part16_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part16_recvSt_two]; unfold part16_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part16_spec (K : Dev nD × CK → ℕ) (c : Dev nD) (fx : Buf (Elt F) ((c : Thread nD τ).loc cc0_scratch0)) (W : Waits sig Unit) (v2 : BitVec 32) (v490 : BitVec 32) (v502 : FVec F S256x256 .f32) (v504 : Vec F S1x256x256 .f32) (fd : Buf (Elt F) ((c : Thread nD τ).loc cc0_scratch2)) (fx' : Buf (Elt F) ((src c 4 : Thread nD τ).loc cc0_scratch0)) (f0 : Buf (Elt F) ((src c 4 : Thread nD τ).loc cc0_scratch1)) (hv : v502 = k0_pay23 (rblk m c 4 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt1 m c 4 fd fx' f0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part16 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v490 v502 v504)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  simp only [k0_part16_eq_skeleton]; unfold k0_part16_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, R5, Rt⟩
  -- the widened block is stored into its staging slot and its copy into the result array starts
  iapply (part16_stage_store m c 4 fd fx' f0 (k0_off11_eq c 4) rfl) $$ [R4]
  · iexact R4
  iintro R4
  iapply (part16_stage_copy m K c 4 (slot_src gB c 4 _) (rows_src c 4 _) (outSem_src c 4)) $$ [R4]
  · isplitr; · iexact HR
    iexact R4
  iintro R4
  -- block 5 arrives
  iapply (part16_arrive m K c 5 _ rfl (slot_src rB c 5 _) (recvSem_src c 5)) $$ [HO R5]
  · isplitr; · iexact HR
    isplitl [HO]; · iexact HO
    iexact R5
  iintro ⟨%fd5, %fx5, %f05, HO, R5⟩
  -- the landed slot is read, then the staging slot as it stands
  iapply (part16_load_landed m c 5 fd5 fx5 f05 (k0_off11_eq c 5)) $$ [R5]
  · iexact R5
  iintro R5
  iapply (part16_load_stage m c 5 fd5 fx5 f05 (k0_off11_eq c 5)) $$ [R5]
  · iexact R5
  iintro %v5 R5
  -- the widened block is stored into its staging slot and its copy into the result array starts
  iapply (part16_stage_store m c 5 fd5 fx5 f05 (k0_off11_eq c 5) rfl) $$ [R5]
  · iexact R5
  iintro R5
  iapply (part16_stage_copy m K c 5 (slot_src gB c 5 _) (rows_src c 5 _) (outSem_src c 5)) $$ [R5]
  · isplitr; · iexact HR
    iexact R5
  iintro R5
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  iexact Rt

/-- info: 'Cert.KernelIdealProof.part16_spec' depends on axioms: [propext, Classical.choice, Quot.sound] -/
#guard_msgs in #print axioms part16_spec

end Cert.KernelIdealProof

end
-- ==== Proof.Part17.lean ====
/-
  The seventh block received: arrival, reads, staging, and the start of its copy into the result array.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part17_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part17_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part17_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part17_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part17_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part17_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part17_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part17_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part17_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part17_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part17_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part17_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part17_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part17_stagedSt gPts
  iintro ⟨Hr, Hat, ⟨%g0, Hg⟩, Hrest⟩ Hk
  iapply (part17_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part17_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part17_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part17_recvSt_two]; unfold part17_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part17_spec (K : Dev nD × CK → ℕ) (c : Dev nD) (fx : Buf (Elt F) ((c : Thread nD τ).loc cc0_scratch0)) (W : Waits sig Unit) (v2 : BitVec 32) (c7_i32_332 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part17 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c7_i32_332)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part17_eq_skeleton]; unfold k0_part17_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, R5, R6, Rt⟩
  -- block 6 arrives
  iapply (part17_arrive m K c 6 _ rfl (slot_src rB c 6 _) (recvSem_src c 6)) $$ [HO R6]
  · isplitr; · iexact HR
    isplitl [HO]; · iexact HO
    iexact R6
  iintro ⟨%fd6, %fx6, %f06, HO, R6⟩
  -- the landed slot is read, then the staging slot as it stands
  iapply (part17_load_landed m c 6 fd6 fx6 f06 (k0_off11_eq c 6)) $$ [R6]
  · iexact R6
  iintro R6
  iapply (part17_load_stage m c 6 fd6 fx6 f06 (k0_off11_eq c 6)) $$ [R6]
  · iexact R6
  iintro %v6 R6
  -- the widened block is stored into its staging slot and its copy into the result array starts
  iapply (part17_stage_store m c 6 fd6 fx6 f06 (k0_off11_eq c 6) rfl) $$ [R6]
  · iexact R6
  iintro R6
  iapply (part17_stage_copy m K c 6 (slot_src gB c 6 _) (rows_src c 6 _) (outSem_src c 6)) $$ [R6]
  · isplitr; · iexact HR
    iexact R6
  iintro R6
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  iexact Rt

/-- info: 'Cert.KernelIdealProof.part17_spec' depends on axioms: [propext, Classical.choice, Quot.sound] -/
#guard_msgs in #print axioms part17_spec

end Cert.KernelIdealProof

end
-- ==== Proof.RecvBlock.lean ====
/-
  One received block of a device's body, step by step.

  Each of the fifteen blocks a device receives is waited for, read out of its slot of the receive buffer by a vector
  load, widened, stored into the same slot of the staging buffer by a vector store, and copied from there into its
  row block of the result array. Each lemma here steps one of these operations on the state of that block
  (`recvSt`, `recvSt1`). The last lemma is the wait for a
  departure, on the state of a transfer sent.
-/
import proofs.«900406_g7700000000000407_dist_a2a_v7x_i16_i_m256_n256_bf16_1_alg».proof.Proof.States
import proofs.«900406_g7700000000000407_dist_a2a_v7x_i16_i_m256_n256_bf16_1_alg».proof.Proof.Steps

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-! ## Vector loads and stores of one slot -/

/-- A vector load of slot `s` of a 16 × 256 × 256 scratch buffer, holding a share of that slot: the slot comes back, and
    the program continues at what the slot's rectangle reads. -/
theorem load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (q : PosShare TreeShare) (f : Buf (Elt F) ((slotM b s).view.loc (c : Thread nD τ))) :
    ((slotM b s).view.loc (c : Thread nD τ) ↦[(slotM b s).view.set]{q} f)
      ⊢ iprop((((slotM b s).view.loc (c : Thread nD τ) ↦[(slotM b s).view.set]{q} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape])

/-- A vector store of `w` over slot `s` of a 16 × 256 × 256 scratch buffer, holding that slot. -/
theorem store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s)
    (by rw [View.set_reshape]; exact View.setOn_subset_set _ _)

/-! ## One received block, step by step, on its state -/

/-- Landed, read, widened and stored into the staging slot; the copy into the result not yet started. -/
def recvSt1s (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : sProp 𝕄 :=
  iprop(rPts c (src c r) (recvF m c (src c r) fd fx' f0) ∗ atPos ER (recvCell c (src c r)) 1 ∅ 0
    ∗ (∃ g, gPts c (src c r) (stageF m c (src c r) g fd fx' f0)) ∗ (∃ f, oPts c (src c r) f) ∗ dutyTok ER (outCell c (src c r)) 0 c ∗ atPos ER (outCell c (src c r)) 0 ∅ 0)

/-- The vector load of the landed slot reads the block named by the state. -/
theorem recv_load (c : Dev nD) (r : Fin 15) {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1)) :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rPts
  iintro ⟨Hr, Hrest⟩ Hk
  iapply (load_slot rB c (src c r) ho fullShare (recvF m c (src c r) fd fx' f0)) $$ Hr
  iintro Hr
  iapply Hk
  isplitl [Hr]; · iexact Hr
  iexact Hrest

/-- The vector load of the staging slot's old contents changes nothing. -/
theorem recv_load_g (c : Dev nD) (r : Fin 15) {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1)) :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (load_slot gB c (src c r) ho fullShare g) $$ Hg
  iintro Hg
  iapply Hk
  isplitl [Hr]; · iexact Hr
  isplitl [Hat]; · iexact Hat
  isplitl [Hg]; · iexists g; iexact Hg
  iexact Hrest

/-- The vector store of the widened block into the staging slot. -/
theorem recv_store (c : Dev nD) (r : Fin 15) {α : Type} {Q : α → sProp 𝕄} {off : Fin S16x256x256.rank → ℕ} (ho : off = ![(src c r).val, 0, 0])
    {inb : ∀ a, off a + S1x256x256.size a ≤ S16x256x256.size a}
    {w : Vec F S1x256x256 .f32}
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1))
    (hw : w = k0_pay20 (rblk m c r fd fx' f0)) :
    recvSt1 m c r fd fx' f0
      ⊢ iprop((recvSt1s m c r fd fx' f0 -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 recvSt1s gPts
  iintro ⟨Hr, Hat, ⟨%g, Hg⟩, Hrest⟩ Hk
  iapply (store_slot gB c (src c r) ho g) $$ Hg
  iintro Hg
  iapply Hk
  isplitl [Hr]; · iexact Hr
  isplitl [Hat]; · iexact Hat
  isplitl [Hg]; · iexists g; iexact Hg
  iexact Hrest

/-- The wait for the block from `src c r`: the state goes from expected to landed, the landed contents' origins named. -/
theorem recv_wait (c : Dev nD) (r : Fin 15) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) 0 W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  simp only [recvSt]
  iintro ⟨#HR, HO, Hc, Hat, Hg, Ho, Htok, HatO⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  unfold recvSt1
  isplitl [Hr]; · iexact Hr
  isplitl [Hat]; · iexact Hat
  isplitl [Hg]; · iexact Hg
  isplitl [Ho]; · iexact Ho
  isplitl [Htok]; · iexact Htok
  iexact HatO

/-- The copy of the staged block into its row block of the result is started: the state is then "on its way". -/
theorem recv_copy (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)}
    (fd : Buf (Elt F) ((c : Thread nD τ).loc cc0_scratch2))
    (fx' : Buf (Elt F) ((src c r : Thread nD τ).loc cc0_scratch0)) (f0 : Buf (Elt F) ((src c r : Thread nD τ).loc cc0_scratch1)) :
    iprop(records m K ∗ recvSt1s m c r fd fx' f0)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  unfold recvSt1s
  iintro ⟨#HR, Hr, Hat, ⟨%g, Hg⟩, ⟨%fo, Ho⟩, Htok, HatO⟩ Hk
  iapply (step_out_copy m K c (src c r) (src_ne c r) fo g fd fx' f0 hs hd hsem) $$ [Hg Ho Htok]
  · isplitr; · iexact HR
    isplitl [Hg]; · iexact Hg
    isplitl [Ho]; · iexact Ho
    iexact Htok
  iintro Hc
  iapply Hk
  simp only [recvSt]
  isplitl [Hr]; · iexists _; iexact Hr
  isplitl [Hat]; · iexact Hat
  isplitl [Hc]; · iexact Hc
  iexact HatO

/-- The wait for the departure of the `r`-th transfer: its slot of the send buffer is back. -/
theorem send_wait (c : Dev nD) (r : Fin 15) (fx : Buf (Elt F) ((c : Thread nD τ).loc cc0_scratch0))
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  simp only [sendSt]
  iintro ⟨#HR, HO, Hc, Hat⟩ Hk
  iapply (step_wait_send m K c (peer c r) (peer_ne c r) W hd hsem) $$ [Hc HO Hat]
  · isplitr; · iexact HR
    isplitl [Hc]; · iexact Hc
    isplitl [HO]; · iexact HO
    iexact Hat
  iintro ⟨HO, Hat, Hpay⟩
  iapply Hk
  isplitl [HO]; · iexact HO
  unfold sendPay
  isplitl [Hpay]; · iexact Hpay
  iexact Hat

/-- info: 'Cert.KernelIdealProof.recv_wait' depends on axioms: [propext, Classical.choice, Quot.sound] -/
#guard_msgs in #print axioms recv_wait

/-- info: 'Cert.KernelIdealProof.recv_load' depends on axioms: [propext, Classical.choice, Quot.sound] -/
#guard_msgs in #print axioms recv_load

/-- info: 'Cert.KernelIdealProof.recv_load_g' depends on axioms: [propext, Classical.choice, Quot.sound] -/
#guard_msgs in #print axioms recv_load_g

/-- info: 'Cert.KernelIdealProof.recv_store' depends on axioms: [propext, Classical.choice, Quot.sound] -/
#guard_msgs in #print axioms recv_store

/-- info: 'Cert.KernelIdealProof.recv_copy' depends on axioms: [propext, Classical.choice, Quot.sound] -/
#guard_msgs in #print axioms recv_copy

/-- info: 'Cert.KernelIdealProof.send_wait' depends on axioms: [propext, Classical.choice, Quot.sound] -/
#guard_msgs in #print axioms send_wait

end Cert.KernelIdealProof

end
-- ==== Proof.Part18.lean ====
/-
  Part 18 of a device's body. The eighth block received is landed, widened, staged and on its way to the result; the ninth is landed and read.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part18_spec (K : Dev nD × CK → ℕ) (c : Dev nD) (fx : Buf (Elt F) ((c : Thread nD τ).loc cc0_scratch0)) (W : Waits sig Unit) (v2 : BitVec 32) (v565 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part18 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v565)
          (fun ret => iprop(∃ W' fd fx' f0, ⌜ret.2.1 = k0_pay28 (rblk m c 8 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt1 m c 8 fd fx' f0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, Rt⟩
  simp only [k0_part18_eq_skeleton]; unfold k0_part18_skel
  simp only [Prog.lift, Prog.bind_op, Prog.bind_ret, Prog.pure_eq_ret]
  -- the block from `src c 7`: its arrival, then the two vector loads
  iapply (recv_wait m K c 7 _ (slot_src rB c 7 _) (recvSem_src c 7)) $$ [HO R7]
  · isplitr; · iexact HR
    isplitl [HO]; · iexact HO
    iexact R7
  iintro ⟨%fd7, %fx7, %f07, HO, R7⟩
  iapply (recv_load m c 7 (k0_off11_eq c 7) fd7 fx7 f07) $$ R7
  iintro R7
  iapply (recv_load_g m c 7 (k0_off11_eq c 7) fd7 fx7 f07) $$ R7
  iintro %vg7 R7
  -- the widened block from `src c 7` is stored into the staging slot and its copy into the result started
  iapply (recv_store m c 7 (k0_off11_eq c 7) fd7 fx7 f07 rfl) $$ R7
  iintro R7
  iapply (recv_copy m K c 7 (slot_src gB c 7 _) (rows_src c 7 _) (outSem_src c 7) fd7 fx7 f07) $$ [R7]
  · isplitr; · iexact HR
    iexact R7
  iintro R7
  -- the block from `src c 8`: its arrival, then the two vector loads
  iapply (recv_wait m K c 8 _ (slot_src rB c 8 _) (recvSem_src c 8)) $$ [HO R8]
  · isplitr; · iexact HR
    isplitl [HO]; · iexact HO
    iexact R8
  iintro ⟨%fd8, %fx8, %f08, HO, R8⟩
  iapply (recv_load m c 8 (k0_off11_eq c 8) fd8 fx8 f08) $$ R8
  iintro R8
  iapply (recv_load_g m c 8 (k0_off11_eq c 8) fd8 fx8 f08) $$ R8
  iintro %vg8 R8
  rw [wp_ret]; imodintro
  iexists _, fd8, fx8, f08
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact Rt

/-- info: 'Cert.KernelIdealProof.part18_spec' depends on axioms: [propext, Classical.choice, Quot.sound] -/
#guard_msgs in #print axioms part18_spec

end Cert.KernelIdealProof

end
-- ==== Proof.Part19.lean ====
/-
  Part 19 of a device's body. The ninth block received is staged and on its way to the result; the tenth is landed, widened, staged and on its way.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part19_spec (K : Dev nD × CK → ℕ) (c : Dev nD) (fx : Buf (Elt F) ((c : Thread nD τ).loc cc0_scratch0)) (W : Waits sig Unit) (v2 : BitVec 32) (v590 : BitVec 32) (v602 : FVec F S256x256 .f32) (v604 : Vec F S1x256x256 .f32) (fd : Buf (Elt F) ((c : Thread nD τ).loc cc0_scratch2)) (fx' : Buf (Elt F) ((src c 8 : Thread nD τ).loc cc0_scratch0)) (f0 : Buf (Elt F) ((src c 8 : Thread nD τ).loc cc0_scratch1)) (hv : v602 = k0_pay28 (rblk m c 8 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt1 m c 8 fd fx' f0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v590 v602 v604)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 0
        ∗ recvSt m c 11 0
        ∗ recvSt m c 12 0
        ∗ recvSt m c 13 0
        ∗ recvSt m c 14 0)) := by
  subst hv
  iintro ⟨#HR, #Hlev, HO, Hglob, Hown, S0, S1, S2, S3, S4, S5, S6, S7, S8, S9, S10, S11, S12, S13, S14, R0, R1, R2, R3, R4, R5, R6, R7, R8, R9, Rt⟩
  simp only [k0_part19_eq_skeleton]; unfold k0_part19_skel
  simp only [Prog.lift, Prog.bind_op, Prog.bind_ret, Prog.pure_eq_ret]
  -- the widened block from `src c 8` is stored into the staging slot and its copy into the result started
  iapply (recv_store m c 8 (k0_off11_eq c 8) fd fx' f0 rfl) $$ R8
  iintro R8
  iapply (recv_copy m K c 8 (slot_src gB c 8 _) (rows_src c 8 _) (outSem_src c 8) fd fx' f0) $$ [R8]
  · isplitr; · iexact HR
    iexact R8
  iintro R8
  -- the block from `src c 9`: its arrival, then the two vector loads
  iapply (recv_wait m K c 9 _ (slot_src rB c 9 _) (recvSem_src c 9)) $$ [HO R9]
  · isplitr; · iexact HR
    isplitl [HO]; · iexact HO
    iexact R9
  iintro ⟨%fd9, %fx9, %f09, HO, R9⟩
  iapply (recv_load m c 9 (k0_off11_eq c 9) fd9 fx9 f09) $$ R9
  iintro R9
  iapply (recv_load_g m c 9 (k0_off11_eq c 9) fd9 fx9 f09) $$ R9
  iintro %vg9 R9
  -- the widened block from `src c 9` is stored into the staging slot and its copy into the result started
  iapply (recv_store m c 9 (k0_off11_eq c 9) fd9 fx9 f09 rfl) $$ R9
  iintro R9
  iapply (recv_copy m K c 9 (slot_src gB c 9 _) (rows_src c 9 _) (outSem_src c 9) fd9 fx9 f09) $$ [R9]
  · isplitr; · iexact HR
    iexact R9
  iintro R9
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Rt

/-- info: 'Cert.KernelIdealProof.part19_spec' depends on axioms: [propext, Classical.choice, Quot.sound] -/
#guard_msgs in #print axioms part19_spec

end Cert.KernelIdealProof

end
-- ==== Proof.Part20.lean ====
/-
  Part 20 of a device's body. The eleventh block received is landed, widened, staged and on its way to the result.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part20_spec (K : Dev nD × CK → ℕ) (c : Dev nD) (fx : Buf (Elt F) ((c : Thread nD τ).loc cc0_scratch0)) (W : Waits sig Unit) (v2 : BitVec 32) (c11_i32_400 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c11_i32_400)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, R9, R10, Rt⟩
  simp only [k0_part20_eq_skeleton]; unfold k0_part20_skel
  simp only [Prog.lift, Prog.bind_op, Prog.bind_ret, Prog.pure_eq_ret]
  -- the block from `src c 10`: its arrival, then the two vector loads
  iapply (recv_wait m K c 10 _ (slot_src rB c 10 _) (recvSem_src c 10)) $$ [HO R10]
  · isplitr; · iexact HR
    isplitl [HO]; · iexact HO
    iexact R10
  iintro ⟨%fd10, %fx10, %f010, HO, R10⟩
  iapply (recv_load m c 10 (k0_off11_eq c 10) fd10 fx10 f010) $$ R10
  iintro R10
  iapply (recv_load_g m c 10 (k0_off11_eq c 10) fd10 fx10 f010) $$ R10
  iintro %vg10 R10
  -- the widened block from `src c 10` is stored into the staging slot and its copy into the result started
  iapply (recv_store m c 10 (k0_off11_eq c 10) fd10 fx10 f010 rfl) $$ R10
  iintro R10
  iapply (recv_copy m K c 10 (slot_src gB c 10 _) (rows_src c 10 _) (outSem_src c 10) fd10 fx10 f010) $$ [R10]
  · isplitr; · iexact HR
    iexact R10
  iintro R10
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact Rt

/-- info: 'Cert.KernelIdealProof.part20_spec' depends on axioms: [propext, Classical.choice, Quot.sound] -/
#guard_msgs in #print axioms part20_spec

end Cert.KernelIdealProof

end
-- ==== Proof.Part21.lean ====
/-
  Part 21 of a device's body. The twelfth block received is landed, widened, staged and on its way to the result; the thirteenth is landed and read.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part21_spec (K : Dev nD × CK → ℕ) (c : Dev nD) (fx : Buf (Elt F) ((c : Thread nD τ).loc cc0_scratch0)) (W : Waits sig Unit) (v2 : BitVec 32) (v665 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 0
        ∗ recvSt m c 12 0
        ∗ recvSt m c 13 0
        ∗ recvSt m c 14 0)
      ⊢ wp frame (wpE (defs₀ (F := F)) 𝒱₀ c none) Set.univ (k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v665)
          (fun ret => iprop(∃ W' fd fx' f0, ⌜ret.2.1 = k0_pay33 (rblk m c 12 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt1 m c 12 fd fx' f0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, R9, R10, R11, R12, Rt⟩
  simp only [k0_part21_eq_skeleton]; unfold k0_part21_skel
  simp only [Prog.lift, Prog.bind_op, Prog.bind_ret, Prog.pure_eq_ret]
  -- the block from `src c 11`: its arrival, then the two vector loads
  iapply (recv_wait m K c 11 _ (slot_src rB c 11 _) (recvSem_src c 11)) $$ [HO R11]
  · isplitr; · iexact HR
    isplitl [HO]; · iexact HO
    iexact R11
  iintro ⟨%fd11, %fx11, %f011, HO, R11⟩
  iapply (recv_load m c 11 (k0_off11_eq c 11) fd11 fx11 f011) $$ R11
  iintro R11
  iapply (recv_load_g m c 11 (k0_off11_eq c 11) fd11 fx11 f011) $$ R11
  iintro %vg11 R11
  -- the widened block from `src c 11` is stored into the staging slot and its copy into the result started
  iapply (recv_store m c 11 (k0_off11_eq c 11) fd11 fx11 f011 rfl) $$ R11
  iintro R11
  iapply (recv_copy m K c 11 (slot_src gB c 11 _) (rows_src c 11 _) (outSem_src c 11) fd11 fx11 f011) $$ [R11]
  · isplitr; · iexact HR
    iexact R11
  iintro R11
  -- the block from `src c 12`: its arrival, then the two vector loads
  iapply (recv_wait m K c 12 _ (slot_src rB c 12 _) (recvSem_src c 12)) $$ [HO R12]
  · isplitr; · iexact HR
    isplitl [HO]; · iexact HO
    iexact R12
  iintro ⟨%fd12, %fx12, %f012, HO, R12⟩
  iapply (recv_load m c 12 (k0_off11_eq c 12) fd12 fx12 f012) $$ R12
  iintro R12
  iapply (recv_load_g m c 12 (k0_off11_eq c 12) fd12 fx12 f012) $$ R12
  iintro %vg12 R12
  rw [wp_ret]; imodintro
  iexists _, fd12, fx12, f012
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact Rt

/-- info: 'Cert.KernelIdealProof.part21_spec' depends on axioms: [propext, Classical.choice, Quot.sound] -/
#guard_msgs in #print axioms part21_spec

end Cert.KernelIdealProof

end
-- ==== Proof.Part22.lean ====
/-
  Part 22 of a device's body. The thirteenth block received is staged and on its way to the result; the fourteenth is landed, widened, staged and on its way.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part22_spec (K : Dev nD × CK → ℕ) (c : Dev nD) (fx : Buf (Elt F) ((c : Thread nD τ).loc cc0_scratch0)) (W : Waits sig Unit) (v2 : BitVec 32) (v690 : BitVec 32) (v702 : FVec F S256x256 .f32) (v704 : Vec F S1x256x256 .f32) (fd : Buf (Elt F) ((c : Thread nD τ).loc cc0_scratch2)) (fx' : Buf (Elt F) ((src c 12 : Thread nD τ).loc cc0_scratch0)) (f0 : Buf (Elt F) ((src c 12 : Thread nD τ).loc cc0_scratch1)) (hv : v702 = k0_pay33 (rblk m c 12 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt1 m c 12 fd fx' f0
        ∗ recvSt m c 13 0
        ∗ recvSt m c 14 0)
      ⊢ wp frame (wpE (defs₀ (F := F)) 𝒱₀ c none) Set.univ (k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v690 v702 v704)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 0)) := by
  subst hv
  iintro ⟨#HR, #Hlev, HO, Hglob, Hown, S0, S1, S2, S3, S4, S5, S6, S7, S8, S9, S10, S11, S12, S13, S14, R0, R1, R2, R3, R4, R5, R6, R7, R8, R9, R10, R11, R12, R13, Rt⟩
  simp only [k0_part22_eq_skeleton]; unfold k0_part22_skel
  simp only [Prog.lift, Prog.bind_op, Prog.bind_ret, Prog.pure_eq_ret]
  -- the widened block from `src c 12` is stored into the staging slot and its copy into the result started
  iapply (recv_store m c 12 (k0_off11_eq c 12) fd fx' f0 rfl) $$ R12
  iintro R12
  iapply (recv_copy m K c 12 (slot_src gB c 12 _) (rows_src c 12 _) (outSem_src c 12) fd fx' f0) $$ [R12]
  · isplitr; · iexact HR
    iexact R12
  iintro R12
  -- the block from `src c 13`: its arrival, then the two vector loads
  iapply (recv_wait m K c 13 _ (slot_src rB c 13 _) (recvSem_src c 13)) $$ [HO R13]
  · isplitr; · iexact HR
    isplitl [HO]; · iexact HO
    iexact R13
  iintro ⟨%fd13, %fx13, %f013, HO, R13⟩
  iapply (recv_load m c 13 (k0_off11_eq c 13) fd13 fx13 f013) $$ R13
  iintro R13
  iapply (recv_load_g m c 13 (k0_off11_eq c 13) fd13 fx13 f013) $$ R13
  iintro %vg13 R13
  -- the widened block from `src c 13` is stored into the staging slot and its copy into the result started
  iapply (recv_store m c 13 (k0_off11_eq c 13) fd13 fx13 f013 rfl) $$ R13
  iintro R13
  iapply (recv_copy m K c 13 (slot_src gB c 13 _) (rows_src c 13 _) (outSem_src c 13) fd13 fx13 f013) $$ [R13]
  · isplitr; · iexact HR
    iexact R13
  iintro R13
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact Rt

/-- info: 'Cert.KernelIdealProof.part22_spec' depends on axioms: [propext, Classical.choice, Quot.sound] -/
#guard_msgs in #print axioms part22_spec

end Cert.KernelIdealProof

end
-- ==== Proof.Part23.lean ====
/-
  Part 23 of a device's body. The last block received is landed, widened, staged and on its way to the result; then the departure of the first transfer is waited for.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.RecvBlock
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part23_spec (K : Dev nD × CK → ℕ) (c : Dev nD) (fx : Buf (Elt F) ((c : Thread nD τ).loc cc0_scratch0)) (W : Waits sig Unit) (v2 : BitVec 32) (c15_i32_468 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 0)
      ⊢ wp frame (wpE (defs₀ (F := F)) 𝒱₀ c none) Set.univ (k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c15_i32_468)
          (fun ret => iprop(∃ W', owes (c : Thread nD τ) 0 W'
        ∗ globSt m c fx 1
        ∗ ownSt m c 0
        ∗ sendSt m c fx 0 4
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  iintro ⟨#HR, #Hlev, HO, Hglob, Hown, S0, S1, S2, S3, S4, S5, S6, S7, S8, S9, S10, S11, S12, S13, S14, R0, R1, R2, R3, R4, R5, R6, R7, R8, R9, R10, R11, R12, R13, R14⟩
  simp only [k0_part23_eq_skeleton]; unfold k0_part23_skel
  simp only [Prog.lift, Prog.bind_op, Prog.bind_ret, Prog.pure_eq_ret]
  -- the block from `src c 14`: its arrival, then the two vector loads
  iapply (recv_wait m K c 14 _ (slot_src rB c 14 _) (recvSem_src c 14)) $$ [HO R14]
  · isplitr; · iexact HR
    isplitl [HO]; · iexact HO
    iexact R14
  iintro ⟨%fd14, %fx14, %f014, HO, R14⟩
  iapply (recv_load m c 14 (k0_off11_eq c 14) fd14 fx14 f014) $$ R14
  iintro R14
  iapply (recv_load_g m c 14 (k0_off11_eq c 14) fd14 fx14 f014) $$ R14
  iintro %vg14 R14
  -- the widened block from `src c 14` is stored into the staging slot and its copy into the result started
  iapply (recv_store m c 14 (k0_off11_eq c 14) fd14 fx14 f014 rfl) $$ R14
  iintro R14
  iapply (recv_copy m K c 14 (slot_src gB c 14 _) (rows_src c 14 _) (outSem_src c 14) fd14 fx14 f014) $$ [R14]
  · isplitr; · iexact HR
    iexact R14
  iintro R14
  -- the departure of transfer 0 is waited for: its slot of the send buffer is back
  iapply (send_wait m K c 0 fx _ (slot_peer sB c 0 _) (sendSem_peer c 0)) $$ [HO S0]
  · isplitr; · iexact HR
    isplitl [HO]; · iexact HO
    iexact S0
  iintro ⟨HO, S0⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-- info: 'Cert.KernelIdealProof.part23_spec' depends on axioms: [propext, Classical.choice, Quot.sound] -/
#guard_msgs in #print axioms part23_spec

end Cert.KernelIdealProof

end
-- ==== Proof.Part24.lean ====
/-
  The closing waits for the departures of transfers 1 to 5.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part24_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part24_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part24_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part24_sendSt_three, part24_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The part -/

theorem part24_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part24_eq_skeleton]; unfold k0_part24_skel
  simp only [Prog.lift, Prog.bind_op, Prog.bind_ret, Prog.pure_eq_ret]
  iintro ⟨#HR, #Hlev, HO, Hglob, Hown, Hs0, Hs1, Hs2, Hs3, Hs4, Hs5, Htail⟩
  -- the departure of transfer 1
  iapply (part24_close_send m K c fx 1 _ (slot_peer sB c 1 _) (sendSem_peer c 1)) $$ [HO Hs1]
  · isplitr; · iexact HR
    isplitl [HO]; · iexact HO
    iexact Hs1
  iintro ⟨HO, Hs1⟩
  -- the departure of transfer 2
  iapply (part24_close_send m K c fx 2 _ (slot_peer sB c 2 _) (sendSem_peer c 2)) $$ [HO Hs2]
  · isplitr; · iexact HR
    isplitl [HO]; · iexact HO
    iexact Hs2
  iintro ⟨HO, Hs2⟩
  -- the departure of transfer 3
  iapply (part24_close_send m K c fx 3 _ (slot_peer sB c 3 _) (sendSem_peer c 3)) $$ [HO Hs3]
  · isplitr; · iexact HR
    isplitl [HO]; · iexact HO
    iexact Hs3
  iintro ⟨HO, Hs3⟩
  -- the departure of transfer 4
  iapply (part24_close_send m K c fx 4 _ (slot_peer sB c 4 _) (sendSem_peer c 4)) $$ [HO Hs4]
  · isplitr; · iexact HR
    isplitl [HO]; · iexact HO
    iexact Hs4
  iintro ⟨HO, Hs4⟩
  -- the departure of transfer 5
  iapply (part24_close_send m K c fx 5 _ (slot_peer sB c 5 _) (sendSem_peer c 5)) $$ [HO Hs5]
  · isplitr; · iexact HR
    isplitl [HO]; · iexact HO
    iexact Hs5
  iintro ⟨HO, Hs5⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexact Htail

/-- info: 'Cert.KernelIdealProof.part24_spec' depends on axioms: [propext, Classical.choice, Quot.sound] -/
#guard_msgs in #print axioms part24_spec

end Cert.KernelIdealProof

end
-- ==== Proof.Part25.lean ====
/-
  The closing waits for the departures of transfers 6 to 10.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part25_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part25_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part25_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part25_sendSt_three, part25_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The part -/

theorem part25_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part25_eq_skeleton]; unfold k0_part25_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Htail⟩
  -- the departure of transfer 6
  iapply (part25_close_send m K c fx 6 _ (slot_peer sB c 6 _) (sendSem_peer c 6)) $$ [HO Hs6]
  · isplitr; · iexact HR
    isplitl [HO]; · iexact HO
    iexact Hs6
  iintro ⟨HO, Hs6⟩
  -- the departure of transfer 7
  iapply (part25_close_send m K c fx 7 _ (slot_peer sB c 7 _) (sendSem_peer c 7)) $$ [HO Hs7]
  · isplitr; · iexact HR
    isplitl [HO]; · iexact HO
    iexact Hs7
  iintro ⟨HO, Hs7⟩
  -- the departure of transfer 8
  iapply (part25_close_send m K c fx 8 _ (slot_peer sB c 8 _) (sendSem_peer c 8)) $$ [HO Hs8]
  · isplitr; · iexact HR
    isplitl [HO]; · iexact HO
    iexact Hs8
  iintro ⟨HO, Hs8⟩
  -- the departure of transfer 9
  iapply (part25_close_send m K c fx 9 _ (slot_peer sB c 9 _) (sendSem_peer c 9)) $$ [HO Hs9]
  · isplitr; · iexact HR
    isplitl [HO]; · iexact HO
    iexact Hs9
  iintro ⟨HO, Hs9⟩
  -- the departure of transfer 10
  iapply (part25_close_send m K c fx 10 _ (slot_peer sB c 10 _) (sendSem_peer c 10)) $$ [HO Hs10]
  · isplitr; · iexact HR
    isplitl [HO]; · iexact HO
    iexact Hs10
  iintro ⟨HO, Hs10⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexact Htail

/-- info: 'Cert.KernelIdealProof.part25_spec' depends on axioms: [propext, Classical.choice, Quot.sound] -/
#guard_msgs in #print axioms part25_spec

end Cert.KernelIdealProof

end
-- ==== Proof.Part26.lean ====
/-
  The closing waits for the departures of transfers 11 to 14, for the copy of the device's own block and for the
  copy of the first block received into the result.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part26_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part26_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part26_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_sendSt_three, part26_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The waits for the copies into the result -/

private theorem part26_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part26_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
private theorem part26_ownSt_zero (c : Dev nD) :
    ownSt m c 0 = iprop(cred (tallyAt (outCell c c) () No) ∗ atPos ER (outCell c c) 0 ∅ 0) := rfl
private theorem part26_ownSt_one (c : Dev nD) :
    ownSt m c 1 = iprop(outPay m c c ∗ atPos ER (outCell c c) 1 ∅ 0) := rfl

/-- The wait for the copy of the device's own block: its credit is consumed, the cell moves to its next round and
    the written row block comes back with the lent share of the argument's column block. -/
private theorem part26_close_own (K : Dev nD × CK → ℕ) (c : Dev nD)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH c) (hsem : sem = outS c) {h1 : srcM.view.WordExact} {h2 : dstM.view.WordExact} :
    iprop(records m K ∗ owes (c : Thread nD τ) 0 W ∗ ownSt m c 0)
      ⊢ iprop(((owes (c : Thread nD τ) 0 (insert (SemLoc.dma (outS c), ()) W) ∗ ownSt m c 1)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_ownSt_zero, part26_ownSt_one]
  iintro ⟨#HR, HO, Hc, Hat⟩ Hk
  iapply (step_wait_out m K c c W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · iexact Hpay
  iexact Hat

/-- The wait for the copy of the `r`-th block received into the result: its credit is consumed, the cell moves to
    its next round and the written row block comes back with the staging slot. -/
private theorem part26_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_recvSt_two, part26_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part26_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part26_eq_skeleton]; unfold k0_part26_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Htail⟩
  -- the departure of transfer 11
  iapply (part26_close_send m K c fx 11 _ (slot_peer sB c 11 _) (sendSem_peer c 11)) $$ [HO Hs11]
  · isplitr; · iexact HR
    isplitl [HO]; · iexact HO
    iexact Hs11
  iintro ⟨HO, Hs11⟩
  -- the departure of transfer 12
  iapply (part26_close_send m K c fx 12 _ (slot_peer sB c 12 _) (sendSem_peer c 12)) $$ [HO Hs12]
  · isplitr; · iexact HR
    isplitl [HO]; · iexact HO
    iexact Hs12
  iintro ⟨HO, Hs12⟩
  -- the departure of transfer 13
  iapply (part26_close_send m K c fx 13 _ (slot_peer sB c 13 _) (sendSem_peer c 13)) $$ [HO Hs13]
  · isplitr; · iexact HR
    isplitl [HO]; · iexact HO
    iexact Hs13
  iintro ⟨HO, Hs13⟩
  -- the departure of transfer 14
  iapply (part26_close_send m K c fx 14 _ (slot_peer sB c 14 _) (sendSem_peer c 14)) $$ [HO Hs14]
  · isplitr; · iexact HR
    isplitl [HO]; · iexact HO
    iexact Hs14
  iintro ⟨HO, Hs14⟩
  -- the copy of the device's own block into the result
  iapply (part26_close_own m K c _ (rows_self c _) (outSem_self c)) $$ [HO Hown]
  · isplitr; · iexact HR
    isplitl [HO]; · iexact HO
    iexact Hown
  iintro ⟨HO, Hown⟩
  -- the copy of block 0 into the result
  iapply (part26_close_out m K c 0 _ (rows_src c 0 _) (outSem_src c 0)) $$ [HO Hr0]
  · isplitr; · iexact HR
    isplitl [HO]; · iexact HO
    iexact Hr0
  iintro ⟨HO, Hr0⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  iexact Htail

/-- info: 'Cert.KernelIdealProof.part26_spec' depends on axioms: [propext, Classical.choice, Quot.sound] -/
#guard_msgs in #print axioms part26_spec

end Cert.KernelIdealProof

end
-- ==== Proof.Part27.lean ====
/-
  The closing waits for the copies of the second to the seventh block received into the result.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The waits for the copies into the result -/

private theorem part27_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part27_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
/-- The wait for the copy of the `r`-th block received into the result: its credit is consumed, the cell moves to
    its next round and the written row block comes back with the staging slot. -/
private theorem part27_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part27_recvSt_two, part27_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part27_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part27_eq_skeleton]; unfold k0_part27_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Hr1, Hr2, Hr3, Hr4, Hr5, Hr6, Htail⟩
  -- the copy of block 1 into the result
  iapply (part27_close_out m K c 1 _ (rows_src c 1 _) (outSem_src c 1)) $$ [HO Hr1]
  · isplitr; · iexact HR
    isplitl [HO]; · iexact HO
    iexact Hr1
  iintro ⟨HO, Hr1⟩
  -- the copy of block 2 into the result
  iapply (part27_close_out m K c 2 _ (rows_src c 2 _) (outSem_src c 2)) $$ [HO Hr2]
  · isplitr; · iexact HR
    isplitl [HO]; · iexact HO
    iexact Hr2
  iintro ⟨HO, Hr2⟩
  -- the copy of block 3 into the result
  iapply (part27_close_out m K c 3 _ (rows_src c 3 _) (outSem_src c 3)) $$ [HO Hr3]
  · isplitr; · iexact HR
    isplitl [HO]; · iexact HO
    iexact Hr3
  iintro ⟨HO, Hr3⟩
  -- the copy of block 4 into the result
  iapply (part27_close_out m K c 4 _ (rows_src c 4 _) (outSem_src c 4)) $$ [HO Hr4]
  · isplitr; · iexact HR
    isplitl [HO]; · iexact HO
    iexact Hr4
  iintro ⟨HO, Hr4⟩
  -- the copy of block 5 into the result
  iapply (part27_close_out m K c 5 _ (rows_src c 5 _) (outSem_src c 5)) $$ [HO Hr5]
  · isplitr; · iexact HR
    isplitl [HO]; · iexact HO
    iexact Hr5
  iintro ⟨HO, Hr5⟩
  -- the copy of block 6 into the result
  iapply (part27_close_out m K c 6 _ (rows_src c 6 _) (outSem_src c 6)) $$ [HO Hr6]
  · isplitr; · iexact HR
    isplitl [HO]; · iexact HO
    iexact Hr6
  iintro ⟨HO, Hr6⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Htail

/-- info: 'Cert.KernelIdealProof.part27_spec' depends on axioms: [propext, Classical.choice, Quot.sound] -/
#guard_msgs in #print axioms part27_spec

end Cert.KernelIdealProof

end
-- ==== Proof.Part28.lean ====
/-
  The closing waits for the copies of the eighth to the fourteenth block received into the result.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Gen.KernelIdeal.Skeleton

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The waits for the copies into the result -/

private theorem part28_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part28_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
/-- The wait for the copy of the `r`-th block received into the result: its credit is consumed, the cell moves to
    its next round and the written row block comes back with the staging slot. -/
private theorem part28_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part28_recvSt_two, part28_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part28_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 3
        ∗ recvSt m c 8 3
        ∗ recvSt m c 9 3
        ∗ recvSt m c 10 3
        ∗ recvSt m c 11 3
        ∗ recvSt m c 12 3
        ∗ recvSt m c 13 3
        ∗ recvSt m c 14 2)) := by
  simp only [k0_part28_eq_skeleton]; unfold k0_part28_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Hr1, Hr2, Hr3, Hr4, Hr5, Hr6, Hr7, Hr8, Hr9, Hr10, Hr11, Hr12, Hr13, Htail⟩
  -- the copy of block 7 into the result
  iapply (part28_close_out m K c 7 _ (rows_src c 7 _) (outSem_src c 7)) $$ [HO Hr7]
  · isplitr; · iexact HR
    isplitl [HO]; · iexact HO
    iexact Hr7
  iintro ⟨HO, Hr7⟩
  -- the copy of block 8 into the result
  iapply (part28_close_out m K c 8 _ (rows_src c 8 _) (outSem_src c 8)) $$ [HO Hr8]
  · isplitr; · iexact HR
    isplitl [HO]; · iexact HO
    iexact Hr8
  iintro ⟨HO, Hr8⟩
  -- the copy of block 9 into the result
  iapply (part28_close_out m K c 9 _ (rows_src c 9 _) (outSem_src c 9)) $$ [HO Hr9]
  · isplitr; · iexact HR
    isplitl [HO]; · iexact HO
    iexact Hr9
  iintro ⟨HO, Hr9⟩
  -- the copy of block 10 into the result
  iapply (part28_close_out m K c 10 _ (rows_src c 10 _) (outSem_src c 10)) $$ [HO Hr10]
  · isplitr; · iexact HR
    isplitl [HO]; · iexact HO
    iexact Hr10
  iintro ⟨HO, Hr10⟩
  -- the copy of block 11 into the result
  iapply (part28_close_out m K c 11 _ (rows_src c 11 _) (outSem_src c 11)) $$ [HO Hr11]
  · isplitr; · iexact HR
    isplitl [HO]; · iexact HO
    iexact Hr11
  iintro ⟨HO, Hr11⟩
  -- the copy of block 12 into the result
  iapply (part28_close_out m K c 12 _ (rows_src c 12 _) (outSem_src c 12)) $$ [HO Hr12]
  · isplitr; · iexact HR
    isplitl [HO]; · iexact HO
    iexact Hr12
  iintro ⟨HO, Hr12⟩
  -- the copy of block 13 into the result
  iapply (part28_close_out m K c 13 _ (rows_src c 13 _) (outSem_src c 13)) $$ [HO Hr13]
  · isplitr; · iexact HR
    isplitl [HO]; · iexact HO
    iexact Hr13
  iintro ⟨HO, Hr13⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  iexact Htail

/-- info: 'Cert.KernelIdealProof.part28_spec' depends on axioms: [propext, Classical.choice, Quot.sound] -/
#guard_msgs in #print axioms part28_spec

end Cert.KernelIdealProof

end
-- ==== Proof.Body.lean ====
/-
  A device's body from what the launch hands it to what it hands back: the parts composed in program order.
-/
import proofs.«900406_g7700000000000407_dist_a2a_v7x_i16_i_m256_n256_bf16_1_alg».proof.Proof.States
import proofs.«900406_g7700000000000407_dist_a2a_v7x_i16_i_m256_n256_bf16_1_alg».proof.Proof.Steps
import proofs.«900406_g7700000000000407_dist_a2a_v7x_i16_i_m256_n256_bf16_1_alg».proof.Proof.Open
import proofs.«900406_g7700000000000407_dist_a2a_v7x_i16_i_m256_n256_bf16_1_alg».proof.Proof.Finish
import proofs.«900406_g7700000000000407_dist_a2a_v7x_i16_i_m256_n256_bf16_1_alg».proof.Proof.Part01
import proofs.«900406_g7700000000000407_dist_a2a_v7x_i16_i_m256_n256_bf16_1_alg».proof.Proof.Part02
import proofs.«900406_g7700000000000407_dist_a2a_v7x_i16_i_m256_n256_bf16_1_alg».proof.Proof.Part03
import proofs.«900406_g7700000000000407_dist_a2a_v7x_i16_i_m256_n256_bf16_1_alg».proof.Proof.Part04
import proofs.«900406_g7700000000000407_dist_a2a_v7x_i16_i_m256_n256_bf16_1_alg».proof.Proof.Part05
import proofs.«900406_g7700000000000407_dist_a2a_v7x_i16_i_m256_n256_bf16_1_alg».proof.Proof.Part06
import proofs.«900406_g7700000000000407_dist_a2a_v7x_i16_i_m256_n256_bf16_1_alg».proof.Proof.Part07
import proofs.«900406_g7700000000000407_dist_a2a_v7x_i16_i_m256_n256_bf16_1_alg».proof.Proof.Part08
import proofs.«900406_g7700000000000407_dist_a2a_v7x_i16_i_m256_n256_bf16_1_alg».proof.Proof.Part09
import proofs.«900406_g7700000000000407_dist_a2a_v7x_i16_i_m256_n256_bf16_1_alg».proof.Proof.Part10
import proofs.«900406_g7700000000000407_dist_a2a_v7x_i16_i_m256_n256_bf16_1_alg».proof.Proof.Part11
import proofs.«900406_g7700000000000407_dist_a2a_v7x_i16_i_m256_n256_bf16_1_alg».proof.Proof.Part12
import proofs.«900406_g7700000000000407_dist_a2a_v7x_i16_i_m256_n256_bf16_1_alg».proof.Proof.Part13
import proofs.«900406_g7700000000000407_dist_a2a_v7x_i16_i_m256_n256_bf16_1_alg».proof.Proof.Part14
import proofs.«900406_g7700000000000407_dist_a2a_v7x_i16_i_m256_n256_bf16_1_alg».proof.Proof.Part15
import proofs.«900406_g7700000000000407_dist_a2a_v7x_i16_i_m256_n256_bf16_1_alg».proof.Proof.Part16
import proofs.«900406_g7700000000000407_dist_a2a_v7x_i16_i_m256_n256_bf16_1_alg».proof.Proof.Part17
import proofs.«900406_g7700000000000407_dist_a2a_v7x_i16_i_m256_n256_bf16_1_alg».proof.Proof.Part18
import proofs.«900406_g7700000000000407_dist_a2a_v7x_i16_i_m256_n256_bf16_1_alg».proof.Proof.Part19
import proofs.«900406_g7700000000000407_dist_a2a_v7x_i16_i_m256_n256_bf16_1_alg».proof.Proof.Part20
import proofs.«900406_g7700000000000407_dist_a2a_v7x_i16_i_m256_n256_bf16_1_alg».proof.Proof.Part21
import proofs.«900406_g7700000000000407_dist_a2a_v7x_i16_i_m256_n256_bf16_1_alg».proof.Proof.Part22
import proofs.«900406_g7700000000000407_dist_a2a_v7x_i16_i_m256_n256_bf16_1_alg».proof.Proof.Part23
import proofs.«900406_g7700000000000407_dist_a2a_v7x_i16_i_m256_n256_bf16_1_alg».proof.Proof.Part24
import proofs.«900406_g7700000000000407_dist_a2a_v7x_i16_i_m256_n256_bf16_1_alg».proof.Proof.Part25
import proofs.«900406_g7700000000000407_dist_a2a_v7x_i16_i_m256_n256_bf16_1_alg».proof.Proof.Part26
import proofs.«900406_g7700000000000407_dist_a2a_v7x_i16_i_m256_n256_bf16_1_alg».proof.Proof.Part27
import proofs.«900406_g7700000000000407_dist_a2a_v7x_i16_i_m256_n256_bf16_1_alg».proof.Proof.Part28
import proofs.«900406_g7700000000000407_dist_a2a_v7x_i16_i_m256_n256_bf16_1_alg».proof.Proof.Gen.KernelIdeal.Skeleton
import proofs.«900406_g7700000000000407_dist_a2a_v7x_i16_i_m256_n256_bf16_1_alg».proof.Proof.Gen.KernelIdeal.Points

noncomputable section

namespace Cert.KernelIdealProof

open Cert.KernelIdeal Cert.KernelIdeal.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem recv14_two (c : Dev nD) : recvSt m c 14 2 = iprop((∃ f, rPts c (src c 14) f) ∗ atPos ER (recvCell c (src c 14)) 1 ∅ 0
    ∗ cred (tallyAt (outCell c (src c 14)) () No) ∗ atPos ER (outCell c (src c 14)) 0 ∅ 0) := rfl
theorem recv14_three (c : Dev nD) : recvSt m c 14 3 = iprop((∃ f, rPts c (src c 14) f) ∗ atPos ER (recvCell c (src c 14)) 1 ∅ 0
    ∗ outPay m c (src c 14) ∗ atPos ER (outCell c (src c 14)) 1 ∅ 0) := rfl

set_option maxHeartbeats 4000000 in
set_option maxRecDepth 65536 in
theorem sound_body (c : Dev nD) (W : Waits sig Unit) (Kt : PUnit → sProp 𝕄) :
    iprop(ghost m K c ∗ launchCreds c ∗ levAts L lv
        ∗ (((c : Thread nD τ).loc main_arg0) ↦{fullShare} X m c)
        ∗ (∃ f : Buf (Elt F) ((c : Thread nD τ).loc main_v1), (((c : Thread nD τ).loc main_v1) ↦{fullShare} f))
        ∗ scratch c ∗ owes (c : Thread nD τ) (O₀ c) W
        ∗ (∀ W', iprop(Φ₁ m c ∗ owes (c : Thread nD τ) 0 W') -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  iintro ⟨Hg, Hcr, #Hlev, Harg, Hv1, Hscr, HO, Hk⟩
  ihave H := (open0 m K c W) $$ [Hg Hcr Harg Hv1 Hscr HO]
  · isplitl [Hg]; · iexact Hg
    isplitl [Hcr]; · iexact Hcr
    isplitl [Harg]; · iexact Harg
    isplitl [Hv1]; · iexact Hv1
    isplitl [Hscr]; · iexact Hscr
    iexact HO
  icases H with ⟨#HR, HS, Hrest⟩
  simp only [cc0_body_eq_skeleton]; unfold cc0_body_skel
  simp only [wp_bind]
  -- part 1
  iapply (wp_wand_r frame (wpE (defs₀ (F := F)) 𝒱₀ (c : Thread nD τ) none) Set.univ)
  isplitl [HS]
  · iapply (part1_spec m K c W)
    isplitr; · iexact HR
    iexact HS
  iintro %r1 ⟨%h1, HS⟩
  obtain ⟨d0, v2, v3⟩ := r1
  obtain ⟨hd, hv3⟩ := h1
  dsimp only at hd hv3 ⊢
  subst d0
  subst v3
  -- part 2
  iapply (wp_wand_r frame (wpE (defs₀ (F := F)) 𝒱₀ (c : Thread nD τ) none) Set.univ)
  isplitl [HS Hrest]
  · iapply (part2_spec m K c W v2)
    isplitr; · iexact HR
    isplitr; · iexact Hlev
    isplitl [HS]; · iexact HS
    iexact Hrest
  iintro %v59 ⟨%fx, %W2, HSt⟩
  -- part 3
  iapply (wp_wand_r frame (wpE (defs₀ (F := F)) 𝒱₀ (c : Thread nD τ) none) Set.univ)
  isplitl [HSt]
  · iapply (part3_spec m K c fx W2 v2 v59)
    isplitr; · iexact HR
    isplitr; · iexact Hlev
    iexact HSt
  iintro %r3 ⟨%W3, %hv, HSt⟩
  -- part 4
  iapply (wp_wand_r frame (wpE (defs₀ (F := F)) 𝒱₀ (c : Thread nD τ) none) Set.univ)
  isplitl [HSt]
  · iapply (part4_spec m K c fx W3 v2 r3 hv)
    isplitr; · iexact HR
    isplitr; · iexact Hlev
    iexact HSt
  iintro %r4 ⟨%W4, HSt⟩
  -- part 5
  iapply (wp_wand_r frame (wpE (defs₀ (F := F)) 𝒱₀ (c : Thread nD τ) none) Set.univ)
  isplitl [HSt]
  · iapply (part5_spec m K c fx W4 v2 r4.1 r4.2)
    isplitr; · iexact HR
    isplitr; · iexact Hlev
    iexact HSt
  iintro %r5 ⟨%W5, %hv, HSt⟩
  -- part 6
  iapply (wp_wand_r frame (wpE (defs₀ (F := F)) 𝒱₀ (c : Thread nD τ) none) Set.univ)
  isplitl [HSt]
  · iapply (part6_spec m K c fx W5 v2 r5.1 r5.2 hv)
    isplitr; · iexact HR
    isplitr; · iexact Hlev
    iexact HSt
  iintro %r6 ⟨%W6, HSt⟩
  -- part 7
  iapply (wp_wand_r frame (wpE (defs₀ (F := F)) 𝒱₀ (c : Thread nD τ) none) Set.univ)
  isplitl [HSt]
  · iapply (part7_spec m K c fx W6 v2 r6.1 r6.2)
    isplitr; · iexact HR
    isplitr; · iexact Hlev
    iexact HSt
  iintro %r7 ⟨%W7, HSt⟩
  -- part 8
  iapply (wp_wand_r frame (wpE (defs₀ (F := F)) 𝒱₀ (c : Thread nD τ) none) Set.univ)
  isplitl [HSt]
  · iapply (part8_spec m K c fx W7 v2 r7)
    isplitr; · iexact HR
    isplitr; · iexact Hlev
    iexact HSt
  iintro %r8 ⟨%W8, HSt⟩
  -- part 9
  iapply (wp_wand_r frame (wpE (defs₀ (F := F)) 𝒱₀ (c : Thread nD τ) none) Set.univ)
  isplitl [HSt]
  · iapply (part9_spec m K c fx W8 v2 r8)
    isplitr; · iexact HR
    isplitr; · iexact Hlev
    iexact HSt
  iintro %r9 ⟨%W9, HSt⟩
  -- part 10
  iapply (wp_wand_r frame (wpE (defs₀ (F := F)) 𝒱₀ (c : Thread nD τ) none) Set.univ)
  isplitl [HSt]
  · iapply (part10_spec m K c fx W9 v2)
    isplitr; · iexact HR
    isplitr; · iexact Hlev
    iexact HSt
  iintro %r10 ⟨%W10, HSt⟩
  -- part 11
  iapply (wp_wand_r frame (wpE (defs₀ (F := F)) 𝒱₀ (c : Thread nD τ) none) Set.univ)
  isplitl [HSt]
  · iapply (part11_spec m K c fx W10 v2)
    isplitr; · iexact HR
    isplitr; · iexact Hlev
    iexact HSt
  iintro %r11 ⟨%W11, HSt⟩
  -- part 12
  iapply (wp_wand_r frame (wpE (defs₀ (F := F)) 𝒱₀ (c : Thread nD τ) none) Set.univ)
  isplitl [HSt]
  · iapply (part12_spec m K c fx W11 v2)
    isplitr; · iexact HR
    isplitr; · iexact Hlev
    iexact HSt
  iintro %r12 ⟨%W12, %fd, %fx', %f0, %hv, HSt⟩
  -- part 13
  iapply (wp_wand_r frame (wpE (defs₀ (F := F)) 𝒱₀ (c : Thread nD τ) none) Set.univ)
  isplitl [HSt]
  · iapply (part13_spec m K c fx W12 v2 r12.1 r12.2.1 r12.2.2 fd fx' f0 hv)
    isplitr; · iexact HR
    isplitr; · iexact Hlev
    iexact HSt
  iintro %r13 ⟨%W13, HSt⟩
  -- part 14
  iapply (wp_wand_r frame (wpE (defs₀ (F := F)) 𝒱₀ (c : Thread nD τ) none) Set.univ)
  isplitl [HSt]
  · iapply (part14_spec m K c fx W13 v2 r13)
    isplitr; · iexact HR
    isplitr; · iexact Hlev
    iexact HSt
  iintro %r14 ⟨%W14, HSt⟩
  -- part 15
  iapply (wp_wand_r frame (wpE (defs₀ (F := F)) 𝒱₀ (c : Thread nD τ) none) Set.univ)
  isplitl [HSt]
  · iapply (part15_spec m K c fx W14 v2 r14)
    isplitr; · iexact HR
    isplitr; · iexact Hlev
    iexact HSt
  iintro %r15 ⟨%W15, %fd, %fx', %f0, %hv, HSt⟩
  -- part 16
  iapply (wp_wand_r frame (wpE (defs₀ (F := F)) 𝒱₀ (c : Thread nD τ) none) Set.univ)
  isplitl [HSt]
  · iapply (part16_spec m K c fx W15 v2 r15.1 r15.2.1 r15.2.2 fd fx' f0 hv)
    isplitr; · iexact HR
    isplitr; · iexact Hlev
    iexact HSt
  iintro %r16 ⟨%W16, HSt⟩
  -- part 17
  iapply (wp_wand_r frame (wpE (defs₀ (F := F)) 𝒱₀ (c : Thread nD τ) none) Set.univ)
  isplitl [HSt]
  · iapply (part17_spec m K c fx W16 v2 r16)
    isplitr; · iexact HR
    isplitr; · iexact Hlev
    iexact HSt
  iintro %r17 ⟨%W17, HSt⟩
  -- part 18
  iapply (wp_wand_r frame (wpE (defs₀ (F := F)) 𝒱₀ (c : Thread nD τ) none) Set.univ)
  isplitl [HSt]
  · iapply (part18_spec m K c fx W17 v2 r17)
    isplitr; · iexact HR
    isplitr; · iexact Hlev
    iexact HSt
  iintro %r18 ⟨%W18, %fd, %fx', %f0, %hv, HSt⟩
  -- part 19
  iapply (wp_wand_r frame (wpE (defs₀ (F := F)) 𝒱₀ (c : Thread nD τ) none) Set.univ)
  isplitl [HSt]
  · iapply (part19_spec m K c fx W18 v2 r18.1 r18.2.1 r18.2.2 fd fx' f0 hv)
    isplitr; · iexact HR
    isplitr; · iexact Hlev
    iexact HSt
  iintro %r19 ⟨%W19, HSt⟩
  -- part 20
  iapply (wp_wand_r frame (wpE (defs₀ (F := F)) 𝒱₀ (c : Thread nD τ) none) Set.univ)
  isplitl [HSt]
  · iapply (part20_spec m K c fx W19 v2 r19)
    isplitr; · iexact HR
    isplitr; · iexact Hlev
    iexact HSt
  iintro %r20 ⟨%W20, HSt⟩
  -- part 21
  iapply (wp_wand_r frame (wpE (defs₀ (F := F)) 𝒱₀ (c : Thread nD τ) none) Set.univ)
  isplitl [HSt]
  · iapply (part21_spec m K c fx W20 v2 r20)
    isplitr; · iexact HR
    isplitr; · iexact Hlev
    iexact HSt
  iintro %r21 ⟨%W21, %fd, %fx', %f0, %hv, HSt⟩
  -- part 22
  iapply (wp_wand_r frame (wpE (defs₀ (F := F)) 𝒱₀ (c : Thread nD τ) none) Set.univ)
  isplitl [HSt]
  · iapply (part22_spec m K c fx W21 v2 r21.1 r21.2.1 r21.2.2 fd fx' f0 hv)
    isplitr; · iexact HR
    isplitr; · iexact Hlev
    iexact HSt
  iintro %r22 ⟨%W22, HSt⟩
  -- part 23
  iapply (wp_wand_r frame (wpE (defs₀ (F := F)) 𝒱₀ (c : Thread nD τ) none) Set.univ)
  isplitl [HSt]
  · iapply (part23_spec m K c fx W22 v2 r22)
    isplitr; · iexact HR
    isplitr; · iexact Hlev
    iexact HSt
  iintro %r23 ⟨%W23, HSt⟩
  -- part 24
  iapply (wp_wand_r frame (wpE (defs₀ (F := F)) 𝒱₀ (c : Thread nD τ) none) Set.univ)
  isplitl [HSt]
  · iapply (part24_spec m K c fx W23 )
    isplitr; · iexact HR
    isplitr; · iexact Hlev
    iexact HSt
  iintro %r24 ⟨%W24, HSt⟩
  -- part 25
  iapply (wp_wand_r frame (wpE (defs₀ (F := F)) 𝒱₀ (c : Thread nD τ) none) Set.univ)
  isplitl [HSt]
  · iapply (part25_spec m K c fx W24 )
    isplitr; · iexact HR
    isplitr; · iexact Hlev
    iexact HSt
  iintro %r25 ⟨%W25, HSt⟩
  -- part 26
  iapply (wp_wand_r frame (wpE (defs₀ (F := F)) 𝒱₀ (c : Thread nD τ) none) Set.univ)
  isplitl [HSt]
  · iapply (part26_spec m K c fx W25 )
    isplitr; · iexact HR
    isplitr; · iexact Hlev
    iexact HSt
  iintro %r26 ⟨%W26, HSt⟩
  -- part 27
  iapply (wp_wand_r frame (wpE (defs₀ (F := F)) 𝒱₀ (c : Thread nD τ) none) Set.univ)
  isplitl [HSt]
  · iapply (part27_spec m K c fx W26 )
    isplitr; · iexact HR
    isplitr; · iexact Hlev
    iexact HSt
  iintro %r27 ⟨%W27, HSt⟩
  -- part 28
  iapply (wp_wand_r frame (wpE (defs₀ (F := F)) 𝒱₀ (c : Thread nD τ) none) Set.univ)
  isplitl [HSt]
  · iapply (part28_spec m K c fx W27 )
    isplitr; · iexact HR
    isplitr; · iexact Hlev
    iexact HSt
  iintro %r28 ⟨%W28, HSt⟩
  -- the last wait: the copy of the block from `src c 14` into the result array
  simp only [Prog.lift, Prog.pure_eq_ret]
  icases HSt with ⟨HO, HG, Hown, S0, S1, S2, S3, S4, S5, S6, S7, S8, S9, S10, S11, S12, S13, S14, R0, R1, R2, R3, R4, R5, R6, R7, R8, R9, R10, R11, R12, R13, R14⟩
  ihave R14' := (Entails.of_eq (recv14_two m c)) $$ R14
  icases R14' with ⟨Hr, HatR, Hcred, HatO⟩
  iapply (step_wait_out m K c (src c 14) W28 (rows_src c 14 _) (outSem_src c 14)) $$ [Hcred HO HatO]
  · isplitr; · iexact HR
    isplitl [Hcred]; · iexact Hcred
    isplitl [HO]; · iexact HO
    iexact HatO
  iintro ⟨HO, HatO, Hpay⟩
  rw [wp_ret, wp_ret]
  imod (finish m K c fx (insert (SemLoc.dma (outS (src c 14)), ()) W28)) $$ [HO HG Hown S0 S1 S2 S3 S4 S5 S6 S7 S8 S9 S10 S11 S12 S13 S14 R0 R1 R2 R3 R4 R5 R6 R7 R8 R9 R10 R11 R12 R13 Hr HatR Hpay HatO] with ⟨HΦ, HO⟩
  · isplitr; · iexact HR
    isplitl [HO]; · iexact HO
    isplitl [HG]; · iexact HG
    isplitl [Hown]; · iexact Hown
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iapply (Entails.of_eq (recv14_three m c).symm)
    isplitl [Hr]; · iexact Hr
    isplitl [HatR]; · iexact HatR
    isplitl [Hpay]; · iexact Hpay
    iexact HatO
  imodintro; imodintro
  iapply Hk
  isplitl [HΦ]; · iexact HΦ
  iexact HO

/-- info: 'Cert.KernelIdealProof.sound_body' depends on axioms: [propext, Classical.choice, Quot.sound] -/
#guard_msgs in #print axioms sound_body

/-- The launch theorem's body obligation, on device `c`. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ bigSep Finset.univ fun w : Fin 0 => _)
    ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ =>
        iprop(Φ₁ m c ∗ (dats m 0 c).owesAt () t0_0.succ ∗ bigSep Finset.univ fun w : Fin 0 => _))
  unfold Φ₀ start Dat.owesAt Pipeline.owesWithin
  rw [show (dats m 0 c).owed t0_0.castSucc = O₀ c from rfl, show (dats m 0 c).owed t0_0.succ = 0 from rfl]
  iintro ⟨⟨⟨⟨%K, Hg⟩, Hcr, #Hlev, Harg, Hv1⟩, Hscr⟩, ⟨%W, %hW, HO⟩, -⟩
  iapply (sound_body m K c W)
  isplitl [Hg]; · iexact Hg
  isplitl [Hcr]; · iexact Hcr
  isplitr; · iexact Hlev
  isplitl [Harg]; · iexact Harg
  isplitl [Hv1]; · iexact Hv1
  isplitl [Hscr]; · iexact Hscr
  isplitl [HO]; · iexact HO
  iintro %W' ⟨HΦ, HO⟩
  isplitl [HΦ]; · iexact HΦ
  isplitl [HO]
  · iexists W'
    isplitr; · ipureintro; exact fun _ _ => Or.inl trivial
    iexact HO
  rw [show (Finset.univ : Finset (Fin 0)) = ∅ from rfl, bigSep_empty]; iempintro

end Cert.KernelIdealProof

end
-- ==== Proof.LibSlotVals.lean ====
/-
  What the all-to-all's copies leave, entry by entry.

  A copy writes, through the destination piece, what it read through the source piece; both pieces are 256 × 256
  matrices placed in a larger buffer. Entry `(p, q)` of slot `s` of a 16 × 256 × 256 buffer is the buffer's entry
  `(s, p, q)`; of row block `s` of the 4096 × 256 array, its entry `(256·s + p, q)`; of column block `s` of a
  256 × 4096 array, its entry `(p, 256·s + q)`. Each copy's value is the composition of two such placements.
-/
import proofs.«900406_g7700000000000407_dist_a2a_v7x_i16_i_m256_n256_bf16_1_alg».proof.Proof.LibSlots
import Idealize.ShloMosaic.Lib.ValueIdx

noncomputable section

namespace Cert.KernelIdealProof

open Cert.KernelIdeal Cert.KernelIdeal.Gen
open Idealize.ShloMosaic
open Idealize.ShloMosaic.TcCoe
open Idealize.ShloMosaic.ValueIdx

/-! ## Where a piece's entry sits in its buffer -/

/-- Entry `(p, q)` of slot `s` is the buffer's entry `(s, p, q)`: dropping the leading unit axis keeps the row-major
    position, and the slot's rectangle starts at `(s, 0, 0)`. -/
theorem slot_emb {e : EltTy} (b : Memref sig .tc .vmem S16x256x256 e) (s : Fin 16) (p q : Fin 256) :
    (slotM b s).view.emb (ix2 p q) = b.view.emb (ix3 s p q) := by
  show b.view.emb ((slotRect s).emb (Shape.reshapeEquiv (s := S1x256x256) (s' := S256x256) _ (ix2 p q))) = _
  congr 1
  have h1 : Shape.reshapeEquiv (s := S1x256x256) (s' := S256x256) squeezes_S1x256x256_S256x256.numel_eq (ix2 p q) = ix3 (0 : Fin 1) p q :=
    Shape.reshapeEquiv_eq_of_rowMajor _ (by rw [Shape.rowMajor_val_three, Shape.rowMajor_val_two]; simp)
  rw [h1]
  funext a; apply Fin.ext; rw [Rect.emb_apply]
  fin_cases a <;> simp

/-- Entry `(p, q)` of row block `s` is the array's entry `(256·s + p, q)`. -/
theorem rows_emb (b : Memref sig .tc .hbm S4096x256 .f32) (s : Fin 16) (p q : Fin 256) :
    (rowsM b s).view.emb (ix2 p q)
      = b.view.emb (ix2 (⟨256 * s.val + p.val, by have := s.isLt; have := p.isLt; omega⟩ : Fin 4096) q) := by
  show b.view.emb ((rowsRect s).emb (ix2 p q)) = _
  congr 1
  funext a; apply Fin.ext; rw [Rect.emb_apply]
  fin_cases a <;> simp

/-- Entry `(p, q)` of column block `s` is the array's entry `(p, 256·s + q)`. -/
theorem cols_emb {sp : Space} (b : Memref sig .tc sp S256x4096 .f32) (s : Fin 16) (p q : Fin 256) :
    (colsM b s).view.emb (ix2 p q)
      = b.view.emb (ix2 p (⟨256 * s.val + q.val, by have := s.isLt; have := q.isLt; omega⟩ : Fin 4096)) := by
  show b.view.emb ((Rect.unit (s := S256x4096) ![0, 256 * s.val] S256x256.size (cols_inb s)).emb (ix2 p q)) = _
  congr 1
  funext a; apply Fin.ext; rw [Rect.emb_apply]
  fin_cases a <;> simp

/-! ## The copies -/

section Values
variable {Val : EltTy → Type}

/-- Slot `s` of the staging buffer copied onto row block `s` of the result: the result's entry `(256·s + p, q)`
    takes the staging buffer's entry `(s, p, q)`. -/
theorem rows_write_slot3 (s : Fin 16) (p q : Fin 256)
    (fd : (rowsM (Memref.whole main_v1) s).view.ty.Contents Val) (fs : (slotM (Memref.whole cc0_scratch3) s).view.ty.Contents Val) :
    ((rowsM (Memref.whole main_v1) s).view.write Val fd ((slotM (Memref.whole cc0_scratch3) s).view.read Val fs) Finset.univ)
        (ix2 (⟨256 * s.val + p.val, by have := s.isLt; have := p.isLt; omega⟩ : Fin 4096) q)
      = fs (ix3 s p q) := by
  have h := View.write_emb_of_mem (v := (rowsM (Memref.whole main_v1) s).view) (Val := Val) fd
    ((slotM (Memref.whole cc0_scratch3) s).view.read Val fs) (M := Finset.univ) (x := ix2 p q) (Finset.mem_univ _)
  rw [rows_emb] at h
  rw [View.read_apply, slot_emb] at h
  exact h.trans (by rw [cast_cast]; exact cast_eq _ _)

/-- Column block `s'` of the argument copied onto row block `s` of the result: the result's entry `(256·s + p, q)`
    takes the argument's entry `(p, 256·s' + q)`. -/
theorem rows_write_cols (s s' : Fin 16) (p q : Fin 256)
    (fd : (rowsM (Memref.whole main_v1) s).view.ty.Contents Val) (fs : (colsM (Memref.whole main_arg0) s').view.ty.Contents Val) :
    ((rowsM (Memref.whole main_v1) s).view.write Val fd ((colsM (Memref.whole main_arg0) s').view.read Val fs) Finset.univ)
        (ix2 (⟨256 * s.val + p.val, by have := s.isLt; have := p.isLt; omega⟩ : Fin 4096) q)
      = fs (ix2 p (⟨256 * s'.val + q.val, by have := s'.isLt; have := q.isLt; omega⟩ : Fin 4096)) := by
  have h := View.write_emb_of_mem (v := (rowsM (Memref.whole main_v1) s).view) (Val := Val) fd
    ((colsM (Memref.whole main_arg0) s').view.read Val fs) (M := Finset.univ) (x := ix2 p q) (Finset.mem_univ _)
  rw [rows_emb] at h
  rw [View.read_apply, cols_emb] at h
  exact h.trans (by rw [cast_cast]; exact cast_eq _ _)

/-- Slot `s'` of a send buffer copied onto slot `s` of a receive buffer (the two may be on different devices: the
    statement is about contents only): entry `(s, p, q)` takes the source's entry `(s', p, q)`. -/
theorem slot2_write_slot1 (s s' : Fin 16) (p q : Fin 256)
    (fd : (slotM (Memref.whole cc0_scratch2) s).view.ty.Contents Val) (fs : (slotM (Memref.whole cc0_scratch1) s').view.ty.Contents Val) :
    ((slotM (Memref.whole cc0_scratch2) s).view.write Val fd ((slotM (Memref.whole cc0_scratch1) s').view.read Val fs) Finset.univ)
        (ix3 s p q)
      = fs (ix3 s' p q) := by
  have h := View.write_emb_of_mem (v := (slotM (Memref.whole cc0_scratch2) s).view) (Val := Val) fd
    ((slotM (Memref.whole cc0_scratch1) s').view.read Val fs) (M := Finset.univ) (x := ix2 p q) (Finset.mem_univ _)
  rw [slot_emb] at h
  rw [View.read_apply, slot_emb] at h
  exact h.trans (by rw [cast_cast]; exact cast_eq _ _)

/-- The argument copied whole into its on-chip copy: the copy holds the argument's contents. -/
theorem scratch0_write_arg0 (fd : (Memref.whole cc0_scratch0).view.ty.Contents Val) (fs : (Memref.whole main_arg0).view.ty.Contents Val) :
    (Memref.whole cc0_scratch0).view.write Val fd ((Memref.whole main_arg0).view.read Val fs) Finset.univ = fs :=
  View.write_whole_univ cc0_scratch0 fd fs

end Values

/-- info: 'Cert.KernelIdealProof.rows_write_slot3' depends on axioms: [propext, Classical.choice, Quot.sound] -/
#guard_msgs in #print axioms rows_write_slot3

/-- info: 'Cert.KernelIdealProof.rows_write_cols' depends on axioms: [propext, Classical.choice, Quot.sound] -/
#guard_msgs in #print axioms rows_write_cols

/-- info: 'Cert.KernelIdealProof.slot2_write_slot1' depends on axioms: [propext, Classical.choice, Quot.sound] -/
#guard_msgs in #print axioms slot2_write_slot1

/-- info: 'Cert.KernelIdealProof.scratch0_write_arg0' depends on axioms: [propext, Classical.choice, Quot.sound] -/
#guard_msgs in #print axioms scratch0_write_arg0

end Cert.KernelIdealProof

end
-- ==== Proof.Value.lean ====
/-
  What the all-to-all computes.

  Row `256·s + p` of device `c`'s result is filled from device `s`: when `s = c`, straight from column block `c` of the
  device's own argument; otherwise through four hops — column block `c` of device `s`'s argument, narrowed, into slot
  `c` of `s`'s send buffer; that slot into slot `s` of `c`'s receive buffer; widened into slot `s` of `c`'s staging
  buffer; and from there onto row block `s` of the result. Over the extended reals narrowing and widening change
  nothing and a reshape only renames indices, so either way the entry `(256·s + p, q)` ends as entry
  `(p, 256·c + q)` of device `s`'s argument block: the gather of the specification, which for row blocks of one
  array is that array's column block `c`.
-/
import proofs.«900406_g7700000000000407_dist_a2a_v7x_i16_i_m256_n256_bf16_1_alg».proof.Proof.Cells
import proofs.«900406_g7700000000000407_dist_a2a_v7x_i16_i_m256_n256_bf16_1_alg».proof.Proof.LibSlotVals
import Idealize.ShloMosaic.Lib.Pipeline.Value
import Idealize.ShloMosaic.Lib.ValueIdx

noncomputable section

namespace Cert.KernelIdealProof

open Cert.KernelIdeal Cert.KernelIdeal.Gen
open Idealize.ShloMosaic
open Idealize.ShloMosaic.TcCoe
open Idealize.ShloMosaic.ValueIdx

/-! ## Where an entry of a slot, read or written through the whole buffer's memref, sits -/

/-- Entry `(0, p, q)` of the slot's 1 × 256 × 256 rectangle is the buffer's entry `(s, p, q)`. -/
theorem access_slot_emb {e : EltTy} (b : Memref sig .tc .vmem S16x256x256 e) (s : Fin 16) (p q : Fin 256) :
    (b.access (slotRect s) : View sig .tc _ _ _).emb (ix3 (0 : Fin 1) p q) = b.view.emb (ix3 s p q) := by
  show b.view.emb ((slotRect s).emb (ix3 (0 : Fin 1) p q)) = _
  congr 1
  funext a; apply Fin.ext; rw [Rect.emb_apply]
  fin_cases a <;> simp

section Values
variable {Val : EltTy → Type}

/-- A store of `w` on slot `s` of the staging buffer leaves `w (0, p, q)` at entry `(s, p, q)`. -/
theorem gB_store_apply (s : Fin 16) (p q : Fin 256) (f : (gB.access (slotRect s) : View sig .tc _ _ _).ty.Contents Val)
    (w : S1x256x256.Idx → Val .f32) :
    ((gB.access (slotRect s) : View sig .tc _ _ _).write Val f w Finset.univ) (ix3 s p q) = w (ix3 (0 : Fin 1) p q) := by
  have h := View.write_emb_of_mem (v := (gB.access (slotRect s) : View sig .tc _ _ _)) (Val := Val) f w
    (M := Finset.univ) (x := ix3 (0 : Fin 1) p q) (Finset.mem_univ _)
  rw [access_slot_emb] at h
  exact h.trans (cast_eq _ _)

/-- A store of `w` on slot `s` of the send buffer leaves `w (0, p, q)` at entry `(s, p, q)`. -/
theorem sB_store_apply (s : Fin 16) (p q : Fin 256) (f : (sB.access (slotRect s) : View sig .tc _ _ _).ty.Contents Val)
    (w : S1x256x256.Idx → Val .bf16) :
    ((sB.access (slotRect s) : View sig .tc _ _ _).write Val f w Finset.univ) (ix3 s p q) = w (ix3 (0 : Fin 1) p q) := by
  have h := View.write_emb_of_mem (v := (sB.access (slotRect s) : View sig .tc _ _ _)) (Val := Val) f w
    (M := Finset.univ) (x := ix3 (0 : Fin 1) p q) (Finset.mem_univ _)
  rw [access_slot_emb] at h
  exact h.trans (cast_eq _ _)

/-- A load of slot `s` of the receive buffer reads entry `(s, p, q)` at `(0, p, q)`. -/
theorem rB_load_apply (s : Fin 16) (p q : Fin 256) (f : (rB.access (slotRect s) : View sig .tc _ _ _).ty.Contents Val) :
    ((rB.access (slotRect s) : View sig .tc _ _ _).read Val f) (ix3 (0 : Fin 1) p q) = f (ix3 s p q) := by
  rw [View.read_apply, access_slot_emb]
  exact cast_eq _ _

/-- A load of column block `d` of the on-chip copy reads entry `(p, 256·d + q)` at `(p, q)`. -/
theorem xV_load_apply (d : Fin 16) (p q : Fin 256) (f : (xV.access (colsRect d) : View sig .tc _ _ _).ty.Contents Val) :
    ((xV.access (colsRect d) : View sig .tc _ _ _).read Val f) (ix2 p q)
      = f (ix2 p (⟨256 * d.val + q.val, by have := d.isLt; have := q.isLt; omega⟩ : Fin 4096)) := by
  rw [View.read_apply]
  have h := cols_emb (xV : Memref sig .tc .vmem S256x4096 .f32) d p q
  rw [show (xV.access (colsRect d) : View sig .tc _ _ _).emb (ix2 p q) = _ from h]
  exact cast_eq _ _

end Values

/-! ## The narrowing and the widening, at an entry, over the extended reals -/

/-- The narrowed block, stored as a 1 × 256 × 256 slab: entry `(0, p, q)` is the block's entry `(p, q)`. -/
theorem pay1_apply (v : Vec Ideal S256x256 .f32) (p q : Fin 256) :
    k0_pay1 (F := Ideal) v (ix3 (0 : Fin 1) p q) = v (ix2 p q) := by
  unfold k0_pay1
  exact shapeCast_apply _ _ _ (ix2 p q) (by rw [Shape.rowMajor_val_two, Shape.rowMajor_val_three]; simp)

/-- The widened slab: entry `(0, p, q)` is the slab's own entry `(0, p, q)`. -/
theorem pay20_apply (v : Vec Ideal S1x256x256 .bf16) (p q : Fin 256) :
    k0_pay20 (F := Ideal) v (ix3 (0 : Fin 1) p q) = v (ix3 (0 : Fin 1) p q) := by
  unfold k0_pay20
  refine (shapeCast_apply _ _ _ (ix2 p q) (by rw [Shape.rowMajor_val_two, Shape.rowMajor_val_three]; simp)).trans ?_
  exact shapeCast_apply _ _ _ (ix3 (0 : Fin 1) p q) (by rw [Shape.rowMajor_val_two, Shape.rowMajor_val_three]; simp)

/-! ## The result, entry by entry -/

/-- Entry `(256·s + p, q)` of device `c`'s result, as the copy into row block `s` left it, is entry
    `(p, 256·c + q)` of device `s`'s argument block. -/
theorem row_apply (m : (ℓ : Loc nD τ sig) → Buf (Elt Ideal) ℓ) (c : Dev nD) (σ : Seeds (F := Ideal) c) (s : Fin 16) (p q : Fin 256) :
    rowF (F := Ideal) m c σ s (ix2 (⟨256 * s.val + p.val, by have := s.isLt; have := p.isLt; omega⟩ : Fin 4096) q)
      = m ((s : Thread nD τ).loc main_arg0) (ix2 p (⟨256 * c.val + q.val, by have : c.val < 16 := c.isLt; have := q.isLt; omega⟩ : Fin 4096)) := by
  unfold rowF
  split
  · next h =>
    subst h
    unfold ownF
    exact rows_write_cols s s p q _ _
  · unfold outF
    refine (rows_write_slot3 s p q _ _).trans ?_
    unfold stageF
    refine (gB_store_apply s p q _ _).trans ?_
    refine (pay20_apply _ p q).trans ?_
    refine (rB_load_apply s p q _).trans ?_
    unfold recvF
    refine (slot2_write_slot1 s c p q _ _).trans ?_
    unfold sendF
    refine (sB_store_apply c p q _ _).trans ?_
    refine (pay1_apply _ p q).trans ?_
    refine (xV_load_apply c p q _).trans ?_
    unfold xvF
    rw [scratch0_write_arg0]

/-- The result array at the end is the gather of the specification. -/
theorem joined_eq (m : (ℓ : Loc nD τ sig) → Buf (Elt Ideal) ℓ) (c : Dev nD) (σ : Seeds (F := Ideal) c) :
    joinedF (F := Ideal) m c σ = Cert.A2A.gathered (fun s : Fin 16 => m ((s : Thread nD τ).loc main_arg0)) c := by
  funext i
  obtain ⟨s, p, q, rfl⟩ : ∃ (s : Fin 16) (p q : Fin 256),
      i = ix2 (⟨256 * s.val + p.val, by have := s.isLt; have := p.isLt; omega⟩ : Fin 4096) q :=
    ⟨Cert.A2A.srcDev (i 0), Cert.A2A.srcRow (i 0), i 1, by
      funext a
      match a with
      | ⟨0, _⟩ => exact Fin.ext (by show (i 0).val = 256 * ((i 0).val / 256) + (i 0).val % 256; omega)
      | ⟨1, _⟩ => rfl⟩
  have hs : Cert.A2A.srcDev (⟨256 * s.val + p.val, by have := s.isLt; have := p.isLt; omega⟩ : Fin 4096) = s :=
    Fin.ext (by show (256 * s.val + p.val) / 256 = s.val; have := p.isLt; omega)
  have hp : Cert.A2A.srcRow (⟨256 * s.val + p.val, by have := s.isLt; have := p.isLt; omega⟩ : Fin 4096) = p :=
    Fin.ext (by show (256 * s.val + p.val) % 256 = p.val; have := p.isLt; omega)
  show rowF m c σ (Cert.A2A.srcDev (⟨256 * s.val + p.val, _⟩ : Fin 4096)) _
      = m (((Cert.A2A.srcDev (⟨256 * s.val + p.val, _⟩ : Fin 4096) : Dev nD) : Thread nD τ).loc main_arg0)
          (ix2 (Cert.A2A.srcRow (⟨256 * s.val + p.val, _⟩ : Fin 4096)) (Cert.A2A.srcCol c q))
  rw [hs, hp]
  exact row_apply m c σ s p q

/-- When the devices' argument blocks are the row blocks of one array, device `c` ends with that array's column
    block `c`. -/
theorem joined_block (m : (ℓ : Loc nD τ sig) → Buf (Elt Ideal) ℓ) (c : Dev nD) (σ : Seeds (F := Ideal) c)
    (v : (⟨2, ![4096, 4096]⟩ : Shape).Idx → Elt Ideal .f32)
    (hv : ∀ s : Dev nD, m ((s : Thread nD τ).loc main_arg0) = Layout.block ⟨2, ![256, 4096]⟩ ⟨2, ![4096, 4096]⟩ 0 16 s v) :
    joinedF (F := Ideal) m c σ = Layout.block ⟨2, ![4096, 256]⟩ ⟨2, ![4096, 4096]⟩ 1 16 c v := by
  rw [joined_eq, ← Cert.A2A.gathered_block v c]
  exact congrArg (fun X => Cert.A2A.gathered X c) (funext hv)

/-- info: 'Cert.KernelIdealProof.joined_eq' depends on axioms: [propext, Classical.choice, Quot.sound] -/
#guard_msgs in #print axioms joined_eq

/-- info: 'Cert.KernelIdealProof.joined_block' depends on axioms: [propext, Classical.choice, Quot.sound] -/
#guard_msgs in #print axioms joined_block

end Cert.KernelIdealProof

end
-- ==== Proof.BitsSlots.lean ====
/-
  The pieces of the four big buffers that the all-to-all moves one at a time.

  The three scratch buffers of shape 16 × 256 × 256 are used slot by slot: slot `s` is the 256 × 256 matrix
  at first coordinate `s`. The result array of shape 4096 × 256 is written row block by row block: block `s` is
  rows `256·s … 256·s + 255`. The argument array of shape 256 × 4096 is read column block by column block.
  Each of the three semaphore arrays has one semaphore per slot.
-/
import proofs.«900406_g7700000000000407_dist_a2a_v7x_i16_i_m256_n256_bf16_1_alg».proof.Proof.Gen.Kernel
import Idealize.ShloMosaic.Lib.Pipeline.Kit

noncomputable section

namespace Cert.KernelProof

open Cert.Kernel Cert.Kernel.Gen
open Idealize.ShloMosaic
open Idealize.ShloMosaic.TcCoe

/-! ## Slots -/

theorem slot_inb (s : Fin 16) : ∀ a, (![s.val, 0, 0] : Fin 3 → Nat) a + S1x256x256.size a ≤ S16x256x256.size a := by
  intro a; have := s.isLt; fin_cases a <;> simp [Shape.size] <;> omega

/-- Slot `s` of a 16 × 256 × 256 scratch buffer, as a 256 × 256 matrix. -/
abbrev slotM {e : EltTy} (b : Memref sig .tc .vmem S16x256x256 e) (s : Fin 16) : Memref sig .tc .vmem S256x256 e :=
  (b.slice (Rect.unit (s := S16x256x256) ![s.val, 0, 0] S1x256x256.size (slot_inb s)) (fun _ => rfl)).squeeze S256x256 squeezes_S1x256x256_S256x256

theorem rows_inb (s : Fin 16) : ∀ a, (![256 * s.val, 0] : Fin 2 → Nat) a + S256x256.size a ≤ S4096x256.size a := by
  intro a; have := s.isLt; fin_cases a <;> simp [Shape.size] <;> omega

/-- Row block `s` of the 4096 × 256 result array. -/
abbrev rowsM (b : Memref sig .tc .hbm S4096x256 .f32) (s : Fin 16) : Memref sig .tc .hbm S256x256 .f32 :=
  b.slice (Rect.unit (s := S4096x256) ![256 * s.val, 0] S256x256.size (rows_inb s)) (fun _ => rfl)

theorem cols_inb (s : Fin 16) : ∀ a, (![0, 256 * s.val] : Fin 2 → Nat) a + S256x256.size a ≤ S256x4096.size a := by
  intro a; have := s.isLt; fin_cases a <;> simp [Shape.size] <;> omega

/-- Column block `s` of a 256 × 4096 array. -/
abbrev colsM {sp : Space} (b : Memref sig .tc sp S256x4096 .f32) (s : Fin 16) : Memref sig .tc sp S256x256 .f32 :=
  b.slice (Rect.unit (s := S256x4096) ![0, 256 * s.val] S256x256.size (cols_inb s)) (fun _ => rfl)

theorem sem_inb (s : Fin 16) : ∀ a, (![s.val] : Fin 1 → Nat) a + S1.size a ≤ S16.size a := by
  intro a; have := s.isLt; fin_cases a; simp [Shape.size]; omega

/-- Semaphore `s` of an array of sixteen. -/
abbrev semAt (a : DmaSems sig S16) (s : Fin 16) : DmaSem sig :=
  ((a.slice (Rect.unit (s := S16) ![s.val] S1.size (sem_inb s))).squeeze S_ squeezes_S1_S_).sem

end Cert.KernelProof

end
-- ==== Proof.BitsLibSlots.lean ====
/-
  The big buffers of the all-to-all, held piece by piece.

  A buffer of shape 16 × 256 × 256 is the disjoint union of its sixteen slots (first coordinate fixed); the
  4096 × 256 result array is the disjoint union of its sixteen blocks of 256 rows. Holding such a buffer whole is
  therefore the same as holding every piece, at the same contents; and pieces held at contents of their own join
  to the buffer whole, at contents that agree with each piece's on that piece. The facts about the index sets are
  stated once for the rectangles, then carried to any memref of the shape along its placement.
-/
import proofs.«900406_g7700000000000407_dist_a2a_v7x_i16_i_m256_n256_bf16_1_alg».proof.Proof.BitsSlots
import proofs.«900406_g7700000000000407_dist_a2a_v7x_i16_i_m256_n256_bf16_1_alg».proof.Proof.Spec
import Idealize.ShloMosaic.Lib.Ring

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The rectangles -/

/-- The rectangle of slot `s` in the 16 × 256 × 256 shape: first coordinate `s`, the other two whole. -/
abbrev slotRect (s : Fin 16) : Rect S16x256x256 := Rect.unit (s := S16x256x256) ![s.val, 0, 0] S1x256x256.size (slot_inb s)
/-- The rectangle of row block `s` in the 4096 × 256 shape: rows `256·s … 256·s + 255`, every column. -/
abbrev rowsRect (s : Fin 16) : Rect S4096x256 := Rect.unit (s := S4096x256) ![256 * s.val, 0] S256x256.size (rows_inb s)

/-- An index lies in slot `s` exactly when its first coordinate is `s`. -/
theorem mem_slotRect {s : Fin 16} {i : S16x256x256.Idx} : i ∈ (slotRect s).set ↔ (i 0).val = s.val := by
  rw [Rect.mem_set_unit]
  constructor
  · intro h
    have := h 0
    simp [Shape.size] at this
    omega
  · intro h a
    have ha := (i a).isLt
    fin_cases a <;> simp [Shape.size] at ha ⊢ <;> omega

/-- An index lies in row block `s` exactly when its row, divided by 256, is `s`. -/
theorem mem_rowsRect {s : Fin 16} {i : S4096x256.Idx} : i ∈ (rowsRect s).set ↔ (i 0).val / 256 = s.val := by
  rw [Rect.mem_set_unit]
  constructor
  · intro h
    have := h 0
    simp [Shape.size] at this
    omega
  · intro h a
    have ha := (i a).isLt
    fin_cases a <;> simp [Shape.size] at ha ⊢ <;> omega

theorem slotRect_disjoint (s s' : Fin 16) (h : s ≠ s') : Disjoint (slotRect s).set (slotRect s').set :=
  Ring.lead_disjoint (s := S16x256x256) (NB := 16) 0 1 (fun s : Fin 16 => ![s.val, 0, 0]) S1x256x256.size (fun s => slot_inb s)
    (fun b => by simp) rfl s s' h

theorem slotRect_cover : Finset.univ.biUnion (fun s : Fin 16 => (slotRect s).set) = Finset.univ :=
  Ring.lead_cover (s := S16x256x256) (NB := 16) 0 1 (fun s : Fin 16 => ![s.val, 0, 0]) S1x256x256.size (fun s => slot_inb s)
    (fun b => by simp) (fun b a ha => by fin_cases a <;> simp at ha ⊢) rfl (fun a ha => by fin_cases a <;> simp [Shape.size] at ha ⊢) (by decide)

theorem rowsRect_disjoint (s s' : Fin 16) (h : s ≠ s') : Disjoint (rowsRect s).set (rowsRect s').set :=
  Ring.lead_disjoint (s := S4096x256) (NB := 16) 0 256 (fun s : Fin 16 => ![256 * s.val, 0]) S256x256.size (fun s => rows_inb s)
    (fun b => by simp) rfl s s' h

theorem rowsRect_cover : Finset.univ.biUnion (fun s : Fin 16 => (rowsRect s).set) = Finset.univ :=
  Ring.lead_cover (s := S4096x256) (NB := 16) 0 256 (fun s : Fin 16 => ![256 * s.val, 0]) S256x256.size (fun s => rows_inb s)
    (fun b => by simp) (fun b a ha => by fin_cases a <;> simp at ha ⊢) rfl (fun a ha => by fin_cases a <;> simp [Shape.size] at ha ⊢) (by decide)

/-! ## The element sets of the pieces of a memref -/

/-- The buffer elements under slot `s` of a memref: the slot's rectangle, placed by the memref. -/
theorem slot_set {e : EltTy} (b : Memref sig .tc .vmem S16x256x256 e) (s : Fin 16) :
    (slotM b s).view.set = (slotRect s).set.map b.view.emb := by
  show ((b.view.slice (slotRect s)).reshape S256x256 _).set = _
  rw [View.set_reshape, View.set_slice]

/-- The buffer elements under row block `s` of a memref. -/
theorem rows_set (b : Memref sig .tc .hbm S4096x256 .f32) (s : Fin 16) :
    (rowsM b s).view.set = (rowsRect s).set.map b.view.emb := by
  show (b.view.slice (rowsRect s)).set = _
  rw [View.set_slice]

/-- The slots' element sets, as one family of subsets of the memref's buffer. -/
def slotSet {e : EltTy} (b : Memref sig .tc .vmem S16x256x256 e) (s : Fin 16) : Finset b.view.ty.Idx := (slotM b s).view.set
/-- The row blocks' element sets, likewise. -/
def rowsSet (b : Memref sig .tc .hbm S4096x256 .f32) (s : Fin 16) : Finset b.view.ty.Idx := (rowsM b s).view.set

theorem slotSet_eq {e : EltTy} (b : Memref sig .tc .vmem S16x256x256 e) (s : Fin 16) :
    slotSet b s = (slotRect s).set.map b.view.emb := slot_set b s
theorem rowsSet_eq (b : Memref sig .tc .hbm S4096x256 .f32) (s : Fin 16) :
    rowsSet b s = (rowsRect s).set.map b.view.emb := rows_set b s

/-- Different slots share no element. -/
theorem slotSet_disjoint {e : EltTy} (b : Memref sig .tc .vmem S16x256x256 e) (s s' : Fin 16) (h : s ≠ s') :
    Disjoint (slotSet b s) (slotSet b s') := by
  rw [slotSet_eq, slotSet_eq]
  exact (Finset.disjoint_map _).mpr (slotRect_disjoint s s' h)

/-- The sixteen slots are the whole memref. -/
theorem slotSet_cover {e : EltTy} (b : Memref sig .tc .vmem S16x256x256 e) :
    Finset.univ.biUnion (slotSet b) = b.view.set := by
  ext i
  constructor
  · intro hi
    obtain ⟨s, -, hs⟩ := Finset.mem_biUnion.mp hi
    rw [slotSet_eq] at hs
    obtain ⟨x, -, rfl⟩ := Finset.mem_map.mp hs
    exact View.emb_mem_set _ x
  · intro hi
    obtain ⟨x, -, rfl⟩ := Finset.mem_map.mp (show i ∈ Finset.univ.map b.view.emb from hi)
    have hx : x ∈ Finset.univ.biUnion (fun s : Fin 16 => (slotRect s).set) := by rw [slotRect_cover]; exact Finset.mem_univ _
    obtain ⟨s, -, hs⟩ := Finset.mem_biUnion.mp hx
    exact Finset.mem_biUnion.mpr ⟨s, Finset.mem_univ _, by rw [slotSet_eq]; exact Finset.mem_map_of_mem _ hs⟩

/-- Different row blocks share no element. -/
theorem rowsSet_disjoint (b : Memref sig .tc .hbm S4096x256 .f32) (s s' : Fin 16) (h : s ≠ s') :
    Disjoint (rowsSet b s) (rowsSet b s') := by
  rw [rowsSet_eq, rowsSet_eq]
  exact (Finset.disjoint_map _).mpr (rowsRect_disjoint s s' h)

/-- The sixteen row blocks are the whole memref. -/
theorem rowsSet_cover (b : Memref sig .tc .hbm S4096x256 .f32) :
    Finset.univ.biUnion (rowsSet b) = b.view.set := by
  ext i
  constructor
  · intro hi
    obtain ⟨s, -, hs⟩ := Finset.mem_biUnion.mp hi
    rw [rowsSet_eq] at hs
    obtain ⟨x, -, rfl⟩ := Finset.mem_map.mp hs
    exact View.emb_mem_set _ x
  · intro hi
    obtain ⟨x, -, rfl⟩ := Finset.mem_map.mp (show i ∈ Finset.univ.map b.view.emb from hi)
    have hx : x ∈ Finset.univ.biUnion (fun s : Fin 16 => (rowsRect s).set) := by rw [rowsRect_cover]; exact Finset.mem_univ _
    obtain ⟨s, -, hs⟩ := Finset.mem_biUnion.mp hx
    exact Finset.mem_biUnion.mpr ⟨s, Finset.mem_univ _, by rw [rowsSet_eq]; exact Finset.mem_map_of_mem _ hs⟩

section BI

variable {Ix : Type} [DecidableEq Ix] {Val : EltTy → Type} {Name : Type} [DecidableEq Name] {UU : Type} [URA UU] {Lvl : Type}

local notation "𝕄" => MT nD τ sig Ix Val Name UU Lvl

/-- Pieces of one buffer, pairwise disjoint, each held at contents of its own, join to their union held at some
    contents (`f₀` names contents for the case of no piece at all). -/
theorem blocks_join_ex₀ {ℓ : Loc nD τ sig} {B : Type} [Fintype B] [DecidableEq B] (K : B → Finset (Idx ℓ))
    (hd : ∀ b b', b ≠ b' → Disjoint (K b) (K b')) (q : PosShare TreeShare) (f₀ : Buf Val ℓ) :
    bigSep Finset.univ (fun b => iprop(∃ f, ℓ ↦[K b]{q} f)) ⊢ (iprop(∃ g, ℓ ↦[Finset.univ.biUnion K]{q} g) : sProp 𝕄) := by
  have : Nonempty (Buf Val ℓ) := ⟨f₀⟩
  refine (Idealize.SL.BI.bigSep_exists_pi Finset.univ (fun b (f : Buf Val ℓ) => (ℓ ↦[K b]{q} f : sProp 𝕄))).trans ?_
  iintro ⟨%fs, H⟩
  ihave H' := (pointsTo_biUnion_join Finset.univ K fs f₀ (fun b _ b' _ h => hd b b' h)) $$ H
  icases H' with ⟨%g, -, H'⟩
  iexists g; iexact H'

/-- The same with no contents named in advance: one piece's contents serve. -/
theorem blocks_join_ex {ℓ : Loc nD τ sig} {B : Type} [Fintype B] [DecidableEq B] (K : B → Finset (Idx ℓ))
    (hd : ∀ b b', b ≠ b' → Disjoint (K b) (K b')) (q : PosShare TreeShare) (b₀ : B) :
    bigSep Finset.univ (fun b => iprop(∃ f, ℓ ↦[K b]{q} f)) ⊢ (iprop(∃ g, ℓ ↦[Finset.univ.biUnion K]{q} g) : sProp 𝕄) := by
  have e : bigSep Finset.univ (fun b => iprop(∃ f, ℓ ↦[K b]{q} f))
      = (iprop((∃ f, ℓ ↦[K b₀]{q} f) ∗ bigSep (Finset.univ.erase b₀) fun b => iprop(∃ f, ℓ ↦[K b]{q} f)) : sProp 𝕄) :=
    bigSep_univ_split b₀
  rw [e]
  iintro ⟨⟨%f0, H0⟩, Hr⟩
  iapply (blocks_join_ex₀ K hd q f0)
  rw [e]
  isplitl [H0]
  · iexists f0; iexact H0
  · iexact Hr

/-! ## A memref held whole is held piece by piece -/

/-- A 16 × 256 × 256 memref's elements, held at `f`, are its sixteen slots, each held at `f`. -/
theorem slots_eq {e : EltTy} (b : Memref sig .tc .vmem S16x256x256 e) (c : Dev nD) (q : PosShare TreeShare)
    (f : Buf Val (b.view.loc (c : Thread nD τ))) :
    (b.view.loc (c : Thread nD τ) ↦[b.view.set]{q} f : sProp 𝕄)
      = bigSep Finset.univ fun s : Fin 16 => ((slotM b s).view.loc (c : Thread nD τ) ↦[(slotM b s).view.set]{q} f) := by
  have h1 : (b.view.loc (c : Thread nD τ) ↦[b.view.set]{q} f : sProp 𝕄)
      = (b.view.loc (c : Thread nD τ) ↦[Finset.univ.biUnion (slotSet b)]{q} f) := by rw [slotSet_cover b]
  have h2 := pointsTo_biUnion (Ix := Ix) (Name := Name) (U := UU) (Lvl := Lvl) (q := q) (f := f) Finset.univ (slotSet b)
    (fun s _ s' _ h => slotSet_disjoint b s s' h)
  refine h1.trans (h2.trans ?_)
  refine bigSep_congr fun s _ => ?_
  rfl

/-- A 4096 × 256 memref's elements, held at `f`, are its sixteen row blocks, each held at `f`. -/
theorem rows_eq (b : Memref sig .tc .hbm S4096x256 .f32) (c : Dev nD) (q : PosShare TreeShare)
    (f : Buf Val (b.view.loc (c : Thread nD τ))) :
    (b.view.loc (c : Thread nD τ) ↦[b.view.set]{q} f : sProp 𝕄)
      = bigSep Finset.univ fun s : Fin 16 => ((rowsM b s).view.loc (c : Thread nD τ) ↦[(rowsM b s).view.set]{q} f) := by
  have h1 : (b.view.loc (c : Thread nD τ) ↦[b.view.set]{q} f : sProp 𝕄)
      = (b.view.loc (c : Thread nD τ) ↦[Finset.univ.biUnion (rowsSet b)]{q} f) := by rw [rowsSet_cover b]
  have h2 := pointsTo_biUnion (Ix := Ix) (Name := Name) (U := UU) (Lvl := Lvl) (q := q) (f := f) Finset.univ (rowsSet b)
    (fun s _ s' _ h => rowsSet_disjoint b s s' h)
  refine h1.trans (h2.trans ?_)
  refine bigSep_congr fun s _ => ?_
  rfl

/-- The slots, each held at contents of its own, join to the memref's elements held at some contents. -/
theorem slots_join_ex {e : EltTy} (b : Memref sig .tc .vmem S16x256x256 e) (c : Dev nD) (q : PosShare TreeShare) :
    bigSep Finset.univ (fun s : Fin 16 => iprop(∃ f, (slotM b s).view.loc (c : Thread nD τ) ↦[(slotM b s).view.set]{q} f))
      ⊢ (iprop(∃ f, b.view.loc (c : Thread nD τ) ↦[b.view.set]{q} f) : sProp 𝕄) := by
  have h := blocks_join_ex (Ix := Ix) (Val := Val) (Name := Name) (UU := UU) (Lvl := Lvl)
    (ℓ := b.view.loc (c : Thread nD τ)) (slotSet b) (slotSet_disjoint b) q (0 : Fin 16)
  rw [slotSet_cover b] at h
  exact (Entails.of_eq (bigSep_congr fun s _ => rfl)).trans h

/-- The row blocks, each held at contents of its own, join to the memref's elements held at some contents. -/
theorem rows_join_ex (b : Memref sig .tc .hbm S4096x256 .f32) (c : Dev nD) (q : PosShare TreeShare) :
    bigSep Finset.univ (fun s : Fin 16 => iprop(∃ f, (rowsM b s).view.loc (c : Thread nD τ) ↦[(rowsM b s).view.set]{q} f))
      ⊢ (iprop(∃ f, b.view.loc (c : Thread nD τ) ↦[b.view.set]{q} f) : sProp 𝕄) := by
  have h := blocks_join_ex (Ix := Ix) (Val := Val) (Name := Name) (UU := UU) (Lvl := Lvl)
    (ℓ := b.view.loc (c : Thread nD τ)) (rowsSet b) (rowsSet_disjoint b) q (0 : Fin 16)
  rw [rowsSet_cover b] at h
  exact (Entails.of_eq (bigSep_congr fun s _ => rfl)).trans h

/-- The row blocks, block `s` held at `Fs s`, are the memref's elements held at any contents that agree with
    `Fs s` on block `s`, for every `s`. -/
theorem rows_join_named (b : Memref sig .tc .hbm S4096x256 .f32) (c : Dev nD) (q : PosShare TreeShare)
    (Fs : Fin 16 → Buf Val (b.view.loc (c : Thread nD τ))) (G : Buf Val (b.view.loc (c : Thread nD τ)))
    (hG : ∀ s, ∀ i ∈ (rowsM b s).view.set, G i = Fs s i) :
    (bigSep Finset.univ (fun s : Fin 16 => ((rowsM b s).view.loc (c : Thread nD τ) ↦[(rowsM b s).view.set]{q} Fs s)) : sProp 𝕄)
      = (b.view.loc (c : Thread nD τ) ↦[b.view.set]{q} G) := by
  rw [rows_eq b c q G]
  exact bigSep_congr fun s _ => (pointsTo_congr (hG s)).symm

/-- The slots likewise. -/
theorem slots_join_named {e : EltTy} (b : Memref sig .tc .vmem S16x256x256 e) (c : Dev nD) (q : PosShare TreeShare)
    (Fs : Fin 16 → Buf Val (b.view.loc (c : Thread nD τ))) (G : Buf Val (b.view.loc (c : Thread nD τ)))
    (hG : ∀ s, ∀ i ∈ (slotM b s).view.set, G i = Fs s i) :
    (bigSep Finset.univ (fun s : Fin 16 => ((slotM b s).view.loc (c : Thread nD τ) ↦[(slotM b s).view.set]{q} Fs s)) : sProp 𝕄)
      = (b.view.loc (c : Thread nD τ) ↦[b.view.set]{q} G) := by
  rw [slots_eq b c q G]
  exact bigSep_congr fun s _ => (pointsTo_congr (hG s)).symm

/-! ## The same for a memref that is a whole buffer

`hb` says the memref covers its buffer (for `Memref.whole r` it is `View.set_whole r`); the buffer whole is then
the pieces, and back. -/

/-- A buffer held whole is held slot by slot, at the same contents. -/
theorem slots_split {e : EltTy} (b : Memref sig .tc .vmem S16x256x256 e) (hb : b.view.set = Finset.univ) (c : Dev nD)
    (q : PosShare TreeShare) (f : Buf Val (b.view.loc (c : Thread nD τ))) :
    (b.view.loc (c : Thread nD τ) ↦{q} f : sProp 𝕄)
      ⊢ bigSep Finset.univ fun s : Fin 16 => ((slotM b s).view.loc (c : Thread nD τ) ↦[(slotM b s).view.set]{q} f) := by
  have h := slots_eq (Ix := Ix) (Name := Name) (UU := UU) (Lvl := Lvl) b c q f
  rw [hb] at h
  exact Entails.of_eq h

/-- The slots, each at contents of its own, join to the buffer held whole at some contents. -/
theorem slots_join {e : EltTy} (b : Memref sig .tc .vmem S16x256x256 e) (hb : b.view.set = Finset.univ) (c : Dev nD)
    (q : PosShare TreeShare) :
    bigSep Finset.univ (fun s : Fin 16 => iprop(∃ f, (slotM b s).view.loc (c : Thread nD τ) ↦[(slotM b s).view.set]{q} f))
      ⊢ (iprop(∃ f, b.view.loc (c : Thread nD τ) ↦{q} f) : sProp 𝕄) := by
  have h := slots_join_ex (Ix := Ix) (Val := Val) (Name := Name) (UU := UU) (Lvl := Lvl) b c q
  rw [hb] at h
  exact h

/-- The slots, slot `s` at `Fs s`, join to the buffer held whole at contents that agree with `Fs s` on slot `s`. -/
theorem slots_join_at {e : EltTy} (b : Memref sig .tc .vmem S16x256x256 e) (hb : b.view.set = Finset.univ) (c : Dev nD)
    (q : PosShare TreeShare) (Fs : Fin 16 → Buf Val (b.view.loc (c : Thread nD τ))) (G : Buf Val (b.view.loc (c : Thread nD τ)))
    (hG : ∀ s, ∀ i ∈ (slotM b s).view.set, G i = Fs s i) :
    (bigSep Finset.univ (fun s : Fin 16 => ((slotM b s).view.loc (c : Thread nD τ) ↦[(slotM b s).view.set]{q} Fs s)) : sProp 𝕄)
      ⊢ (b.view.loc (c : Thread nD τ) ↦{q} G) := by
  have h := slots_join_named (Ix := Ix) (Name := Name) (UU := UU) (Lvl := Lvl) b c q Fs G hG
  rw [hb] at h
  exact Entails.of_eq h

/-- A buffer held whole is held row block by row block, at the same contents. -/
theorem rows_split (b : Memref sig .tc .hbm S4096x256 .f32) (hb : b.view.set = Finset.univ) (c : Dev nD)
    (q : PosShare TreeShare) (f : Buf Val (b.view.loc (c : Thread nD τ))) :
    (b.view.loc (c : Thread nD τ) ↦{q} f : sProp 𝕄)
      ⊢ bigSep Finset.univ fun s : Fin 16 => ((rowsM b s).view.loc (c : Thread nD τ) ↦[(rowsM b s).view.set]{q} f) := by
  have h := rows_eq (Ix := Ix) (Name := Name) (UU := UU) (Lvl := Lvl) b c q f
  rw [hb] at h
  exact Entails.of_eq h

/-- The row blocks, each at contents of its own, join to the buffer held whole at some contents. -/
theorem rows_join (b : Memref sig .tc .hbm S4096x256 .f32) (hb : b.view.set = Finset.univ) (c : Dev nD)
    (q : PosShare TreeShare) :
    bigSep Finset.univ (fun s : Fin 16 => iprop(∃ f, (rowsM b s).view.loc (c : Thread nD τ) ↦[(rowsM b s).view.set]{q} f))
      ⊢ (iprop(∃ f, b.view.loc (c : Thread nD τ) ↦{q} f) : sProp 𝕄) := by
  have h := rows_join_ex (Ix := Ix) (Val := Val) (Name := Name) (UU := UU) (Lvl := Lvl) b c q
  rw [hb] at h
  exact h

/-- The row blocks, block `s` at `Fs s`, join to the buffer held whole at contents that agree with `Fs s` on block `s`. -/
theorem rows_join_at (b : Memref sig .tc .hbm S4096x256 .f32) (hb : b.view.set = Finset.univ) (c : Dev nD)
    (q : PosShare TreeShare) (Fs : Fin 16 → Buf Val (b.view.loc (c : Thread nD τ))) (G : Buf Val (b.view.loc (c : Thread nD τ)))
    (hG : ∀ s, ∀ i ∈ (rowsM b s).view.set, G i = Fs s i) :
    (bigSep Finset.univ (fun s : Fin 16 => ((rowsM b s).view.loc (c : Thread nD τ) ↦[(rowsM b s).view.set]{q} Fs s)) : sProp 𝕄)
      ⊢ (b.view.loc (c : Thread nD τ) ↦{q} G) := by
  have h := rows_join_named (Ix := Ix) (Name := Name) (UU := UU) (Lvl := Lvl) b c q Fs G hG
  rw [hb] at h
  exact Entails.of_eq h

end BI

/-! ## Membership, for the kernel's own buffers -/

theorem mem_slot1 {s : Fin 16} {i : S16x256x256.Idx} :
    i ∈ (slotM (Memref.whole cc0_scratch1) s).view.set ↔ (i 0).val = s.val := by
  rw [slot_set]; show i ∈ Finset.map (Function.Embedding.refl _) (slotRect s).set ↔ _; rw [Finset.map_refl]; exact mem_slotRect
theorem mem_slot2 {s : Fin 16} {i : S16x256x256.Idx} :
    i ∈ (slotM (Memref.whole cc0_scratch2) s).view.set ↔ (i 0).val = s.val := by
  rw [slot_set]; show i ∈ Finset.map (Function.Embedding.refl _) (slotRect s).set ↔ _; rw [Finset.map_refl]; exact mem_slotRect
theorem mem_slot3 {s : Fin 16} {i : S16x256x256.Idx} :
    i ∈ (slotM (Memref.whole cc0_scratch3) s).view.set ↔ (i 0).val = s.val := by
  rw [slot_set]; show i ∈ Finset.map (Function.Embedding.refl _) (slotRect s).set ↔ _; rw [Finset.map_refl]; exact mem_slotRect
theorem mem_rows_v1 {s : Fin 16} {i : S4096x256.Idx} :
    i ∈ (rowsM (Memref.whole main_v1) s).view.set ↔ (i 0).val / 256 = s.val := by
  rw [rows_set]; show i ∈ Finset.map (Function.Embedding.refl _) (rowsRect s).set ↔ _; rw [Finset.map_refl]; exact mem_rowsRect

/-- Different slots of one memref share no element. -/
theorem slot_disjoint {e : EltTy} (b : Memref sig .tc .vmem S16x256x256 e) (s s' : Fin 16) (h : s ≠ s') :
    Disjoint (slotM b s).view.set (slotM b s').view.set := slotSet_disjoint b s s' h
/-- Different row blocks of one memref share no element. -/
theorem rows_disjoint (b : Memref sig .tc .hbm S4096x256 .f32) (s s' : Fin 16) (h : s ≠ s') :
    Disjoint (rowsM b s).view.set (rowsM b s').view.set := rowsSet_disjoint b s s' h

section BIown

variable {Ix : Type} [DecidableEq Ix] {Val : EltTy → Type} {Name : Type} [DecidableEq Name] {UU : Type} [URA UU] {Lvl : Type}

local notation "𝕄" => MT nD τ sig Ix Val Name UU Lvl

/-! ## The kernel's own buffers -/

/-- Scratch buffer 1 held whole is held slot by slot. -/
theorem slots_split_s1 (c : Dev nD) (q : PosShare TreeShare) (f : Buf Val ((c : Thread nD τ).loc cc0_scratch1)) :
    ((c : Thread nD τ).loc cc0_scratch1 ↦{q} f : sProp 𝕄)
      ⊢ bigSep Finset.univ fun s : Fin 16 => ((slotM (Memref.whole cc0_scratch1) s).view.loc (c : Thread nD τ)
          ↦[(slotM (Memref.whole cc0_scratch1) s).view.set]{q} f) :=
  slots_split (Memref.whole cc0_scratch1) (View.set_whole _) c q f

/-- Its slots, each at contents of its own, join to scratch buffer 1 held whole at some contents. -/
theorem slots_join_s1 (c : Dev nD) (q : PosShare TreeShare) :
    bigSep Finset.univ (fun s : Fin 16 => iprop(∃ f, (slotM (Memref.whole cc0_scratch1) s).view.loc (c : Thread nD τ)
        ↦[(slotM (Memref.whole cc0_scratch1) s).view.set]{q} f))
      ⊢ (iprop(∃ f, (c : Thread nD τ).loc cc0_scratch1 ↦{q} f) : sProp 𝕄) :=
  slots_join (Memref.whole cc0_scratch1) (View.set_whole _) c q

/-- Scratch buffer 2 held whole is held slot by slot. -/
theorem slots_split_s2 (c : Dev nD) (q : PosShare TreeShare) (f : Buf Val ((c : Thread nD τ).loc cc0_scratch2)) :
    ((c : Thread nD τ).loc cc0_scratch2 ↦{q} f : sProp 𝕄)
      ⊢ bigSep Finset.univ fun s : Fin 16 => ((slotM (Memref.whole cc0_scratch2) s).view.loc (c : Thread nD τ)
          ↦[(slotM (Memref.whole cc0_scratch2) s).view.set]{q} f) :=
  slots_split (Memref.whole cc0_scratch2) (View.set_whole _) c q f

/-- Its slots, each at contents of its own, join to scratch buffer 2 held whole at some contents. -/
theorem slots_join_s2 (c : Dev nD) (q : PosShare TreeShare) :
    bigSep Finset.univ (fun s : Fin 16 => iprop(∃ f, (slotM (Memref.whole cc0_scratch2) s).view.loc (c : Thread nD τ)
        ↦[(slotM (Memref.whole cc0_scratch2) s).view.set]{q} f))
      ⊢ (iprop(∃ f, (c : Thread nD τ).loc cc0_scratch2 ↦{q} f) : sProp 𝕄) :=
  slots_join (Memref.whole cc0_scratch2) (View.set_whole _) c q

/-- Scratch buffer 3 held whole is held slot by slot. -/
theorem slots_split_s3 (c : Dev nD) (q : PosShare TreeShare) (f : Buf Val ((c : Thread nD τ).loc cc0_scratch3)) :
    ((c : Thread nD τ).loc cc0_scratch3 ↦{q} f : sProp 𝕄)
      ⊢ bigSep Finset.univ fun s : Fin 16 => ((slotM (Memref.whole cc0_scratch3) s).view.loc (c : Thread nD τ)
          ↦[(slotM (Memref.whole cc0_scratch3) s).view.set]{q} f) :=
  slots_split (Memref.whole cc0_scratch3) (View.set_whole _) c q f

/-- Its slots, each at contents of its own, join to scratch buffer 3 held whole at some contents. -/
theorem slots_join_s3 (c : Dev nD) (q : PosShare TreeShare) :
    bigSep Finset.univ (fun s : Fin 16 => iprop(∃ f, (slotM (Memref.whole cc0_scratch3) s).view.loc (c : Thread nD τ)
        ↦[(slotM (Memref.whole cc0_scratch3) s).view.set]{q} f))
      ⊢ (iprop(∃ f, (c : Thread nD τ).loc cc0_scratch3 ↦{q} f) : sProp 𝕄) :=
  slots_join (Memref.whole cc0_scratch3) (View.set_whole _) c q

/-- The result array held whole is held row block by row block. -/
theorem rows_split_v1 (c : Dev nD) (q : PosShare TreeShare) (f : Buf Val ((c : Thread nD τ).loc main_v1)) :
    ((c : Thread nD τ).loc main_v1 ↦{q} f : sProp 𝕄)
      ⊢ bigSep Finset.univ fun s : Fin 16 => ((rowsM (Memref.whole main_v1) s).view.loc (c : Thread nD τ)
          ↦[(rowsM (Memref.whole main_v1) s).view.set]{q} f) :=
  rows_split (Memref.whole main_v1) (View.set_whole _) c q f

/-- Its row blocks, each at contents of its own, join to the result array held whole at some contents. -/
theorem rows_join_ex_v1 (c : Dev nD) (q : PosShare TreeShare) :
    bigSep Finset.univ (fun s : Fin 16 => iprop(∃ f, (rowsM (Memref.whole main_v1) s).view.loc (c : Thread nD τ)
        ↦[(rowsM (Memref.whole main_v1) s).view.set]{q} f))
      ⊢ (iprop(∃ f, (c : Thread nD τ).loc main_v1 ↦{q} f) : sProp 𝕄) :=
  rows_join (Memref.whole main_v1) (View.set_whole _) c q

/-- The result array's row blocks, block `s` at `Fs s`, are the result array whole at the contents that take row `r`
    from `Fs (r / 256)`. -/
theorem rows_join_v1 (c : Dev nD) (q : PosShare TreeShare) (Fs : Fin 16 → Buf Val ((c : Thread nD τ).loc main_v1)) :
    (bigSep Finset.univ (fun s : Fin 16 => ((rowsM (Memref.whole main_v1) s).view.loc (c : Thread nD τ)
        ↦[(rowsM (Memref.whole main_v1) s).view.set]{q} Fs s)) : sProp 𝕄)
      ⊢ ((c : Thread nD τ).loc main_v1 ↦{q} fun (i : S4096x256.Idx) => Fs (Cert.A2A.srcDev (i 0)) i) :=
  rows_join_at (Memref.whole main_v1) (View.set_whole _) c q Fs _ fun s (i : S4096x256.Idx) hi => by
    have h := mem_rows_v1.mp hi
    have : Cert.A2A.srcDev (i 0) = s := Fin.ext h
    rw [this]

end BIown

/-- info: 'Cert.KernelProof.slots_split' depends on axioms: [propext, Classical.choice, Quot.sound] -/
#guard_msgs in #print axioms slots_split

/-- info: 'Cert.KernelProof.slots_join' depends on axioms: [propext, Classical.choice, Quot.sound] -/
#guard_msgs in #print axioms slots_join

/-- info: 'Cert.KernelProof.slots_join_at' depends on axioms: [propext, Classical.choice, Quot.sound] -/
#guard_msgs in #print axioms slots_join_at

/-- info: 'Cert.KernelProof.rows_split' depends on axioms: [propext, Classical.choice, Quot.sound] -/
#guard_msgs in #print axioms rows_split

/-- info: 'Cert.KernelProof.rows_join' depends on axioms: [propext, Classical.choice, Quot.sound] -/
#guard_msgs in #print axioms rows_join

/-- info: 'Cert.KernelProof.rows_join_v1' depends on axioms: [propext, Classical.choice, Quot.sound] -/
#guard_msgs in #print axioms rows_join_v1

/-- info: 'Cert.KernelProof.slots_split_s1' depends on axioms: [propext, Classical.choice, Quot.sound] -/
#guard_msgs in #print axioms slots_split_s1

/-- info: 'Cert.KernelProof.slots_join_s3' depends on axioms: [propext, Classical.choice, Quot.sound] -/
#guard_msgs in #print axioms slots_join_s3

/-- info: 'Cert.KernelProof.mem_slot1' depends on axioms: [propext, Classical.choice, Quot.sound] -/
#guard_msgs in #print axioms mem_slot1

/-- info: 'Cert.KernelProof.mem_rows_v1' depends on axioms: [propext, Classical.choice, Quot.sound] -/
#guard_msgs in #print axioms mem_rows_v1

end Cert.KernelProof

end
-- ==== Proof.BitsCells.lean ====
/-
  The all-to-all's protocol: who signals and copies onto which semaphore, how much, and what each landing hands
  its waiter.

  Device `c` sends, for `r = 0 … 14`, slot `peer c r` of its send buffer to device `peer c r = c + r + 1 (mod 16)`,
  into slot `c` of that device's receive buffer; it receives, in the order `r = 0 … 14`, from `src c r = c + 15 - r
  (mod 16)` into slot `src c r` of its own receive buffer. Before any transfer every device signals every other
  device's barrier semaphore once and waits for fifteen units on its own: a unit from device `j` says that `j` is
  inside the kernel and carries slot `c` of `j`'s receive buffer, the destination of `c`'s transfer to `j`.
-/
import proofs.«900406_g7700000000000407_dist_a2a_v7x_i16_i_m256_n256_bf16_1_alg».proof.Proof.BitsSlots
import proofs.«900406_g7700000000000407_dist_a2a_v7x_i16_i_m256_n256_bf16_1_alg».proof.Proof.BitsLibSlots
import proofs.«900406_g7700000000000407_dist_a2a_v7x_i16_i_m256_n256_bf16_1_alg».proof.Proof.Spec
import proofs.«900406_g7700000000000407_dist_a2a_v7x_i16_i_m256_n256_bf16_1_alg».proof.Proof.Gen.Kernel.Skeleton
import proofs.«900406_g7700000000000407_dist_a2a_v7x_i16_i_m256_n256_bf16_1_alg».proof.Proof.Gen.Kernel.Launch
import Idealize.ShloMosaic.Lib.Pipeline.Launch
import Idealize.ShloMosaic.Lib.Pipeline.Kit
import Idealize.ShloMosaic.Lib.Tactic
import Mathlib.Tactic.DeriveFintype

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the launch's cells, one for the protocol's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- The destination of device `c`'s `r`-th transfer. -/
def peer (c : Dev nD) (r : Fin 15) : Dev nD := ⟨(c.val + r.val + 1) % 16, Nat.mod_lt _ (by decide)⟩
/-- The source of the `r`-th block device `c` waits for. -/
def src (c : Dev nD) (r : Fin 15) : Dev nD := ⟨((c.val + 15) - r.val) % 16, Nat.mod_lt _ (by decide)⟩

theorem peer_ne (c : Dev nD) (r : Fin 15) : peer c r ≠ c := by revert c r; decide
theorem src_ne (c : Dev nD) (r : Fin 15) : src c r ≠ c := by revert c r; decide
theorem peer_inj (c : Dev nD) : Function.Injective (peer c) := by revert c; decide
theorem src_inj (c : Dev nD) : Function.Injective (src c) := by revert c; decide
/-- The transfer `c` waits for at step `r` is its source's transfer with the same number. -/
theorem peer_src (c : Dev nD) (r : Fin 15) : peer (src c r) r = c := by revert c r; decide
theorem src_peer (c : Dev nD) (r : Fin 15) : src (peer c r) r = c := by revert c r; decide
/-- Every other device is a peer. -/
theorem exists_peer (c d : Dev nD) (h : d ≠ c) : ∃ r, peer c r = d := by revert c d; decide
theorem exists_src (c d : Dev nD) (h : d ≠ c) : ∃ r, src c r = d := by revert c d; decide

/-! ## Memrefs, semaphores, cells -/

abbrev xH : Memref sig .tc .hbm S256x4096 .f32 := Memref.whole main_arg0
abbrev oH : Memref sig .tc .hbm S4096x256 .f32 := Memref.whole main_v1
abbrev xV : Memref sig .tc .vmem S256x4096 .f32 := Memref.whole cc0_scratch0
abbrev sB : Memref sig .tc .vmem S16x256x256 .bf16 := Memref.whole cc0_scratch1
abbrev rB : Memref sig .tc .vmem S16x256x256 .bf16 := Memref.whole cc0_scratch2
abbrev gB : Memref sig .tc .vmem S16x256x256 .f32 := Memref.whole cc0_scratch3

abbrev barS : Sem sig := (SemArray.scalar (sig.barrier 0 rfl) : Sems sig S_).sem
abbrev inS : DmaSem sig := (cc0_scratch4 : DmaSems sig S_).sem
abbrev outS (s : Fin 16) : DmaSem sig := semAt cc0_scratch5 s
abbrev sendS (s : Fin 16) : DmaSem sig := semAt cc0_scratch6 s
abbrev recvS (s : Fin 16) : DmaSem sig := semAt cc0_scratch7 s

/-- The kinds of cell a device has: its barrier, the semaphore of the fetch into vector memory, and one each per slot
    for the copies into the result, the departures and the arrivals. -/
inductive CK where
  | bar | inn | out (s : Fin 16) | send (s : Fin 16) | recv (s : Fin 16)
  deriving DecidableEq, Fintype

def csem : CK → SemLoc sig
  | .bar => .reg barS | .inn => .dma inS | .out s => .dma (outS s) | .send s => .dma (sendS s) | .recv s => .dma (recvS s)

abbrev kcell (ck : Dev nD × CK) : GSem nD τ sig := ((ck.1 : Thread nD τ), csem ck.2)
abbrev barCell (c : Dev nD) : GSem nD τ sig := ((c : Thread nD τ), SemLoc.reg barS)
abbrev inCell (c : Dev nD) : GSem nD τ sig := ((c : Thread nD τ), SemLoc.dma inS)
abbrev outCell (c : Dev nD) (s : Fin 16) : GSem nD τ sig := ((c : Thread nD τ), SemLoc.dma (outS s))
abbrev sendCell (c : Dev nD) (s : Fin 16) : GSem nD τ sig := ((c : Thread nD τ), SemLoc.dma (sendS s))
abbrev recvCell (c : Dev nD) (s : Fin 16) : GSem nD τ sig := ((c : Thread nD τ), SemLoc.dma (recvS s))
theorem kcell_bar (c : Dev nD) : kcell (c, .bar) = barCell c := rfl
theorem kcell_in (c : Dev nD) : kcell (c, .inn) = inCell c := rfl
theorem kcell_out (c : Dev nD) (s : Fin 16) : kcell (c, .out s) = outCell c s := rfl
theorem kcell_send (c : Dev nD) (s : Fin 16) : kcell (c, .send s) = sendCell c s := rfl
theorem kcell_recv (c : Dev nD) (s : Fin 16) : kcell (c, .recv s) = recvCell c s := rfl

theorem outS_val (s : Fin 16) : (outS s).val = 1 + s.val := by revert s; decide
theorem sendS_val (s : Fin 16) : (sendS s).val = 17 + s.val := by revert s; decide
theorem recvS_val (s : Fin 16) : (recvS s).val = 33 + s.val := by revert s; decide
theorem inS_val : (inS : DmaSem sig).val = 0 := by decide

theorem csem_injective : Function.Injective csem := by
  intro a b h
  cases a <;> cases b <;> simp only [csem, SemLoc.dma.injEq, reduceCtorEq] at h <;> try rfl
  all_goals first
    | (have h' := congrArg Fin.val h; simp only [outS_val, sendS_val, recvS_val, inS_val] at h'; first | omega | (congr 1; exact Fin.ext (by omega)))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## Credits -/

abbrev Nx : ℕ := (xV : Memref sig .tc .vmem S256x4096 .f32).view.dmaCredit
abbrev No : ℕ := (rowsM oH 0).view.dmaCredit
abbrev Nb : ℕ := (slotM rB 0).view.dmaCredit
theorem Nx_pos : 0 < Nx := View.dmaCredit_pos _ (by decide)
theorem No_pos : 0 < No := View.dmaCredit_pos _ (by decide)
theorem Nb_pos : 0 < Nb := View.dmaCredit_pos _ (by decide)

/-! ## Regions -/

abbrev colsRect (s : Fin 16) : Rect S256x4096 := Rect.unit (s := S256x4096) ![0, 256 * s.val] S256x256.size (cols_inb s)

variable (m : (ℓ : Loc nD τ sig) → Buf (Elt F) ℓ)

/-! ## Contents

Every function below is the contents of a whole buffer after the step that overwrites one slot of it; only its
values on the slot it names matter. The leading arguments (`fx`, `f0`, `fd`, `g0`, `fo`) are what the buffers held before. -/

/-- Device `c`'s argument block. -/
abbrev X (c : Dev nD) : Buf (Elt F) ((c : Thread nD τ).loc main_arg0) := m ((c : Thread nD τ).loc main_arg0)

/-- The vector-memory copy of the argument block after the fetch. -/
def xvF (c : Dev nD) (fx : Buf (Elt F) ((c : Thread nD τ).loc cc0_scratch0)) : Buf (Elt F) ((c : Thread nD τ).loc cc0_scratch0) :=
  (xV : Memref sig .tc .vmem S256x4096 .f32).view.write (Elt F) fx ((xH : Memref sig .tc .hbm S256x4096 .f32).view.read (Elt F) (X m c)) Finset.univ

/-- The send buffer after column block `d` of the copy, narrowed, is stored into slot `d`. -/
def sendF (c : Dev nD) (d : Fin 16) (fx : Buf (Elt F) ((c : Thread nD τ).loc cc0_scratch0)) (f0 : Buf (Elt F) ((c : Thread nD τ).loc cc0_scratch1)) :
    Buf (Elt F) ((c : Thread nD τ).loc cc0_scratch1) :=
  ((sB : Memref sig .tc .vmem S16x256x256 .bf16).access (slotRect d) : View sig .tc _ _ _).write (Elt F) f0
    (k0_pay1 (((xV : Memref sig .tc .vmem S256x4096 .f32).access (colsRect d) : View sig .tc _ _ _).read (Elt F) (xvF m c fx))) Finset.univ

/-- The receive buffer of device `c` after device `s`'s slot `c` has landed in its slot `s`. -/
def recvF (c : Dev nD) (s : Fin 16) (fd : Buf (Elt F) ((c : Thread nD τ).loc cc0_scratch2)) (fx : Buf (Elt F) ((s : Thread nD τ).loc cc0_scratch0))
    (f0 : Buf (Elt F) ((s : Thread nD τ).loc cc0_scratch1)) : Buf (Elt F) ((c : Thread nD τ).loc cc0_scratch2) :=
  (slotM rB s).view.write (Elt F) fd ((slotM sB c).view.read (Elt F) (sendF m s c fx f0)) Finset.univ

/-- The staging buffer after the landed slot `s`, widened, is stored into its slot `s`. -/
def stageF (c : Dev nD) (s : Fin 16) (g0 : Buf (Elt F) ((c : Thread nD τ).loc cc0_scratch3)) (fd : Buf (Elt F) ((c : Thread nD τ).loc cc0_scratch2))
    (fx : Buf (Elt F) ((s : Thread nD τ).loc cc0_scratch0)) (f0 : Buf (Elt F) ((s : Thread nD τ).loc cc0_scratch1)) :
    Buf (Elt F) ((c : Thread nD τ).loc cc0_scratch3) :=
  ((gB : Memref sig .tc .vmem S16x256x256 .f32).access (slotRect s) : View sig .tc _ _ _).write (Elt F) g0
    (k0_pay20 (((rB : Memref sig .tc .vmem S16x256x256 .bf16).access (slotRect s) : View sig .tc _ _ _).read (Elt F) (recvF m c s fd fx f0))) Finset.univ

/-- The result array after slot `s` of the staging buffer is copied to its row block `s`. -/
def outF (c : Dev nD) (s : Fin 16) (fo : Buf (Elt F) ((c : Thread nD τ).loc main_v1)) (g0 : Buf (Elt F) ((c : Thread nD τ).loc cc0_scratch3))
    (fd : Buf (Elt F) ((c : Thread nD τ).loc cc0_scratch2)) (fx : Buf (Elt F) ((s : Thread nD τ).loc cc0_scratch0))
    (f0 : Buf (Elt F) ((s : Thread nD τ).loc cc0_scratch1)) : Buf (Elt F) ((c : Thread nD τ).loc main_v1) :=
  (rowsM oH s).view.write (Elt F) fo ((slotM gB s).view.read (Elt F) (stageF m c s g0 fd fx f0)) Finset.univ

/-- The result array after the device's own column block `c` of its argument is copied to row block `c`. -/
def ownF (c : Dev nD) (fo : Buf (Elt F) ((c : Thread nD τ).loc main_v1)) : Buf (Elt F) ((c : Thread nD τ).loc main_v1) :=
  (rowsM oH c).view.write (Elt F) fo ((colsM xH c).view.read (Elt F) (X m c)) Finset.univ

/-! ## Points-to by region -/

def sPts (c : Dev nD) (s : Fin 16) (f : Buf (Elt F) ((c : Thread nD τ).loc cc0_scratch1)) : sProp 𝕄 :=
  (slotM sB s).view.loc (c : Thread nD τ) ↦[(slotM sB s).view.set]{fullShare} f
def rPts (c : Dev nD) (s : Fin 16) (f : Buf (Elt F) ((c : Thread nD τ).loc cc0_scratch2)) : sProp 𝕄 :=
  (slotM rB s).view.loc (c : Thread nD τ) ↦[(slotM rB s).view.set]{fullShare} f
def gPts (c : Dev nD) (s : Fin 16) (f : Buf (Elt F) ((c : Thread nD τ).loc cc0_scratch3)) : sProp 𝕄 :=
  (slotM gB s).view.loc (c : Thread nD τ) ↦[(slotM gB s).view.set]{fullShare} f
def oPts (c : Dev nD) (s : Fin 16) (f : Buf (Elt F) ((c : Thread nD τ).loc main_v1)) : sProp 𝕄 :=
  (rowsM oH s).view.loc (c : Thread nD τ) ↦[(rowsM oH s).view.set]{fullShare} f
/-- A share of column block `s` of the argument array. -/
def xcPts (c : Dev nD) (s : Fin 16) (q : PosShare TreeShare) (f : Buf (Elt F) ((c : Thread nD τ).loc main_arg0)) : sProp 𝕄 :=
  (colsM xH s).view.loc (c : Thread nD τ) ↦[(colsM xH s).view.set]{q} f

/-! ## The schedule -/

/-- A unit from device `j` on device `c`'s barrier: slot `c` of `j`'s receive buffer, and that `j`'s cell for arrivals
    from `c` is at its first round. -/
def barPay (c j : Dev nD) : sProp 𝕄 := iprop((∃ f, rPts j c f) ∗ reached ER (recvCell j c) 0)
/-- The fetch landed: the copy in vector memory, and the lent half of the argument array back. -/
def inPay (c : Dev nD) : sProp 𝕄 :=
  iprop(∃ fx, (((c : Thread nD τ).loc cc0_scratch0) ↦[(xV : Memref sig .tc .vmem S256x4096 .f32).view.set]{fullShare} xvF m c fx)
    ∗ (((c : Thread nD τ).loc main_arg0) ↦[(xH : Memref sig .tc .hbm S256x4096 .f32).view.set]{fullShare.left} X m c))
/-- A departure is read out: the slot of the send buffer back. -/
def sendPay (c : Dev nD) (d : Fin 16) : sProp 𝕄 := iprop(∃ f, sPts c d f)
/-- An arrival landed: slot `s` of the receive buffer holding slot `c` of `s`'s send buffer. -/
def recvPay (c : Dev nD) (s : Fin 16) : sProp 𝕄 := iprop(∃ fd fx f0, rPts c s (recvF m c s fd fx f0))
/-- A copy into the result landed: the row block written, the source back. -/
def outPay (c : Dev nD) (s : Fin 16) : sProp 𝕄 :=
  if s = c then iprop((∃ fo, oPts c s (ownF m c fo)) ∗ xcPts c c fullShare.right (X m c))
  else iprop(∃ fo g0 fd fx f0, oPts c s (outF m c s fo g0 fd fx f0) ∗ gPts c s (stageF m c s g0 fd fx f0))

/-- Which kind of cell a semaphore is. -/
def ckOf (sm : SemLoc sig) : Option CK := if h : ∃ k, csem k = sm then some h.choose else none
theorem ckOf_csem (k : CK) : ckOf (csem k) = some k := by
  unfold ckOf
  have h : ∃ k', csem k' = csem k := ⟨k, rfl⟩
  rw [dif_pos h]; exact congrArg some (csem_injective h.choose_spec)

def dutiesOf (c : Dev nD) : Option CK → Finset (Dev nD)
  | some .bar => Finset.univ.erase c
  | some .inn => {c}
  | some (.out _) => {c}
  | some (.send s) => if s = c then ∅ else {c}
  | some (.recv s) => if s = c then ∅ else {c}
  | none => ∅
def amountOf : Option CK → ℕ
  | some .bar => 1 | some .inn => Nx | some (.out _) => No | some (.send _) => Nb | some (.recv _) => Nb | none => 1
def payloadOf (c : Dev nD) (d : Dev nD) : Option CK → sProp 𝕄
  | some .bar => barPay c d | some .inn => inPay m c | some (.out s) => outPay m c s
  | some (.send s) => sendPay c s | some (.recv s) => recvPay m c s | none => iprop(emp)

/-- One round. A barrier cell has one duty per other device (named by it), one unit each; a used send, receive or
    copy cell has one duty (named by its own device) of the block's credit. -/
def a2a : Rounds.Schedule (GSem nD τ sig) (Dev nD) 𝕄 where
  duties g r := if r = 0 ∧ g.1.2 = .tc then dutiesOf g.1.1 (ckOf g.2) else ∅
  unitless _ := False
  amount g _ _ := amountOf (ckOf g.2)
  payload g _ d := payloadOf m g.1.1 d (ckOf g.2)
  amount_pos g _ _ _ := by
    generalize ckOf g.2 = o
    rcases o with _ | k
    · exact Nat.one_pos
    · cases k <;> first | exact Nat.one_pos | exact Nx_pos | exact No_pos | exact Nb_pos

instance a2a_payload_storable (g : GSem nD τ sig) (r : ℕ) (d : Dev nD) :
    BI.Storable (upEmb : UEmb _ 𝕄) ((a2a (F := F) m).payload g r d) := by
  show BI.Storable upEmb (payloadOf m g.1.1 d (ckOf g.2))
  generalize ckOf g.2 = o
  match o with
  | none => show BI.Storable upEmb (iprop(emp) : sProp 𝕄); infer_instance
  | some .bar => show BI.Storable upEmb (barPay g.1.1 d); unfold barPay rPts; infer_instance
  | some .inn => show BI.Storable upEmb (inPay m g.1.1); unfold inPay; infer_instance
  | some (.out s) => show BI.Storable upEmb (outPay m g.1.1 s); unfold outPay oPts gPts xcPts; split <;> infer_instance
  | some (.send s) => show BI.Storable upEmb (sendPay g.1.1 s); unfold sendPay sPts; infer_instance
  | some (.recv s) => show BI.Storable upEmb (recvPay m g.1.1 s); unfold recvPay rPts; infer_instance

section Tables
variable (c : Dev nD)

theorem duties_k (k : CK) : (a2a (F := F) m).duties (kcell (c, k)) 0 = dutiesOf c (some k) := by
  show (if (0 : ℕ) = 0 ∧ (Proc.tc : Proc τ) = .tc then dutiesOf c (ckOf (csem k)) else ∅) = _
  rw [if_pos ⟨rfl, rfl⟩, ckOf_csem]
theorem duties_later (g : GSem nD τ sig) : ∀ r, 1 ≤ r → (a2a (F := F) m).duties g r = ∅ :=
  fun r hr => by dsimp only [a2a]; rw [if_neg fun h => by omega]
theorem amount_k (k : CK) (r : ℕ) (d : Dev nD) : (a2a (F := F) m).amount (kcell (c, k)) r d = amountOf (some k) := by
  show amountOf (ckOf (csem k)) = _; rw [ckOf_csem]
theorem payload_k (k : CK) (r : ℕ) (d : Dev nD) : (a2a (F := F) m).payload (kcell (c, k)) r d = payloadOf m c d (some k) := by
  show payloadOf m c d (ckOf (csem k)) = _; rw [ckOf_csem]

theorem duties_bar : (a2a (F := F) m).duties (barCell c) 0 = Finset.univ.erase c := duties_k m c .bar
theorem duties_in : (a2a (F := F) m).duties (inCell c) 0 = {c} := duties_k m c .inn
theorem duties_out (s : Fin 16) : (a2a (F := F) m).duties (outCell c s) 0 = {c} := duties_k m c (.out s)
theorem duties_send (s : Fin 16) (h : s ≠ c) : (a2a (F := F) m).duties (sendCell c s) 0 = {c} := (duties_k m c (.send s)).trans (if_neg h)
theorem duties_recv (s : Fin 16) (h : s ≠ c) : (a2a (F := F) m).duties (recvCell c s) 0 = {c} := (duties_k m c (.recv s)).trans (if_neg h)
theorem duties_send_self : (a2a (F := F) m).duties (sendCell c c) 0 = ∅ := (duties_k m c (.send c)).trans (if_pos rfl)
theorem duties_recv_self : (a2a (F := F) m).duties (recvCell c c) 0 = ∅ := (duties_k m c (.recv c)).trans (if_pos rfl)

theorem expect_single (k : CK) (h : dutiesOf c (some k) = {c}) : (a2a (F := F) m).expect (kcell (c, k)) 0 = amountOf (some k) := by
  unfold Schedule.expect Schedule.amountOf; rw [duties_k, h, Finset.sum_singleton, amount_k]
theorem expect_bar : (a2a (F := F) m).expect (barCell c) 0 = 15 := by
  unfold Schedule.expect Schedule.amountOf
  rw [duties_bar, Finset.sum_congr rfl fun d _ => (show (a2a (F := F) m).amount (barCell c) 0 d = 1 from amount_k m c .bar 0 d)]
  show ∑ _d ∈ Finset.univ.erase c, 1 = 15
  rw [Finset.sum_const, Finset.card_erase_of_mem (Finset.mem_univ _), Finset.card_univ, Fintype.card_fin]
  rfl
theorem expect_in : (a2a (F := F) m).expect (inCell c) 0 = Nx := expect_single m c .inn rfl
theorem expect_out (s : Fin 16) : (a2a (F := F) m).expect (outCell c s) 0 = No := expect_single m c (.out s) rfl
theorem expect_send (s : Fin 16) (h : s ≠ c) : (a2a (F := F) m).expect (sendCell c s) 0 = Nb := expect_single m c (.send s) (if_neg h)
theorem expect_recv (s : Fin 16) (h : s ≠ c) : (a2a (F := F) m).expect (recvCell c s) 0 = Nb := expect_single m c (.recv s) (if_neg h)

/-- The whole round of a cell with one duty: its payload. -/
theorem rest_single (k : CK) (h : dutiesOf c (some k) = {c}) :
    bigSep ((a2a (F := F) m).duties (kcell (c, k)) 0 \ ∅) (fun d => (a2a (F := F) m).payload (kcell (c, k)) 0 d) = payloadOf m c c (some k) := by
  rw [Finset.sdiff_empty, duties_k, h, bigSep_singleton, payload_k]
/-- The whole round of a barrier cell: every other device's unit. -/
theorem rest_bar :
    bigSep ((a2a (F := F) m).duties (barCell c) 0 \ ∅) (fun d => (a2a (F := F) m).payload (barCell c) 0 d) = bigSep (Finset.univ.erase c) (fun j => barPay c j) := by
  rw [Finset.sdiff_empty, duties_bar]
  exact bigSep_congr fun j _ => payload_k m c .bar 0 j

theorem rest_recv (s : Fin 16) (h : s ≠ c) :
    bigSep ((a2a (F := F) m).duties (recvCell c s) 0 \ ∅) (fun d => (a2a (F := F) m).payload (recvCell c s) 0 d) = recvPay m c s :=
  rest_single m c (.recv s) (if_neg h)
theorem rest_send (s : Fin 16) (h : s ≠ c) :
    bigSep ((a2a (F := F) m).duties (sendCell c s) 0 \ ∅) (fun d => (a2a (F := F) m).payload (sendCell c s) 0 d) = sendPay c s :=
  rest_single m c (.send s) (if_neg h)
theorem rest_out (s : Fin 16) :
    bigSep ((a2a (F := F) m).duties (outCell c s) 0 \ ∅) (fun d => (a2a (F := F) m).payload (outCell c s) 0 d) = outPay m c s :=
  rest_single m c (.out s) rfl
theorem rest_in :
    bigSep ((a2a (F := F) m).duties (inCell c) 0 \ ∅) (fun d => (a2a (F := F) m).payload (inCell c) 0 d) = inPay m c :=
  rest_single m c .inn rfl
theorem amount_bar (r : ℕ) (d : Dev nD) : (a2a (F := F) m).amount (barCell c) r d = 1 := amount_k m c .bar r d
theorem amount_in (r : ℕ) (d : Dev nD) : (a2a (F := F) m).amount (inCell c) r d = Nx := amount_k m c .inn r d
theorem amount_out (s : Fin 16) (r : ℕ) (d : Dev nD) : (a2a (F := F) m).amount (outCell c s) r d = No := amount_k m c (.out s) r d
theorem amount_send (s : Fin 16) (r : ℕ) (d : Dev nD) : (a2a (F := F) m).amount (sendCell c s) r d = Nb := amount_k m c (.send s) r d
theorem amount_recv (s : Fin 16) (r : ℕ) (d : Dev nD) : (a2a (F := F) m).amount (recvCell c s) r d = Nb := amount_k m c (.recv s) r d
theorem payload_bar (r : ℕ) (d : Dev nD) : (a2a (F := F) m).payload (barCell c) r d = barPay c d := payload_k m c .bar r d
theorem payload_in (r : ℕ) (d : Dev nD) : (a2a (F := F) m).payload (inCell c) r d = inPay m c := payload_k m c .inn r d
theorem payload_out (s : Fin 16) (r : ℕ) (d : Dev nD) : (a2a (F := F) m).payload (outCell c s) r d = outPay m c s := payload_k m c (.out s) r d
theorem payload_send (s : Fin 16) (r : ℕ) (d : Dev nD) : (a2a (F := F) m).payload (sendCell c s) r d = sendPay c s := payload_k m c (.send s) r d
theorem payload_recv (s : Fin 16) (r : ℕ) (d : Dev nD) : (a2a (F := F) m).payload (recvCell c s) r d = recvPay m c s := payload_k m c (.recv s) r d

end Tables

/-! ## What each device owes at launch; the levels -/

/-- The devices other than `c` numbered `n` or more: those whose barrier `c` has not yet signalled after the first `n`
    conditional signals. -/
def pend (c : Dev nD) (n : ℕ) : Finset (Dev nD) := Finset.univ.filter fun j => n ≤ j.val ∧ j ≠ c
/-- The transfers numbered `n` or more. -/
def rpend (n : ℕ) : Finset (Fin 15) := Finset.univ.filter fun r => n ≤ r.val

theorem pend_zero (c : Dev nD) : pend c 0 = Finset.univ.erase c := by
  ext j; simp [pend, Finset.mem_erase]
theorem pend_end (c : Dev nD) : pend c 16 = ∅ := by
  ext j; have := j.isLt; simp [pend]
theorem pend_step (c j : Dev nD) (h : j ≠ c) : pend c j.val = insert j (pend c (j.val + 1)) := by
  ext i; simp only [pend, Finset.mem_filter, Finset.mem_univ, true_and, Finset.mem_insert]
  constructor
  · rintro ⟨h1, h2⟩
    by_cases e : i = j
    · exact Or.inl e
    · exact Or.inr ⟨by have : i.val ≠ j.val := fun h' => e (Fin.ext h'); omega, h2⟩
  · rintro (rfl | ⟨h1, h2⟩)
    · exact ⟨le_rfl, h⟩
    · exact ⟨by omega, h2⟩
theorem not_mem_pend_succ (c j : Dev nD) : j ∉ pend c (j.val + 1) := by
  simp [pend]
theorem pend_skip (c : Dev nD) : pend c c.val = pend c (c.val + 1) := by
  ext i; simp only [pend, Finset.mem_filter, Finset.mem_univ, true_and]
  constructor
  · rintro ⟨h1, h2⟩; exact ⟨by have : i.val ≠ c.val := fun h' => h2 (Fin.ext h'); omega, h2⟩
  · rintro ⟨h1, h2⟩; exact ⟨by omega, h2⟩
theorem rpend_end : rpend 15 = ∅ := by
  ext r; have := r.isLt; simp [rpend]
theorem rpend_zero : rpend 0 = Finset.univ := by ext r; simp [rpend]
theorem rpend_step (r : Fin 15) : rpend r.val = insert r (rpend (r.val + 1)) := by
  ext i; simp only [rpend, Finset.mem_filter, Finset.mem_univ, true_and, Finset.mem_insert]
  constructor
  · intro h1
    by_cases e : i = r
    · exact Or.inl e
    · exact Or.inr (by have : i.val ≠ r.val := fun h' => e (Fin.ext h'); omega)
  · rintro (rfl | h1)
    · exact le_rfl
    · omega
theorem not_mem_rpend_succ (r : Fin 15) : r ∉ rpend (r.val + 1) := by simp [rpend]

/-- The barrier units still owed after the first `n` conditional signals: one to every other device numbered `n` or more. -/
def Obar (c : Dev nD) (n : ℕ) : CellTallies nD τ sig Unit := ∑ j ∈ pend c n, tallyAt (barCell j) () 1
/-- The arrival credits still owed after the first `n` transfers. -/
def Orecv (c : Dev nD) (n : ℕ) : CellTallies nD τ sig Unit := ∑ r ∈ rpend n, tallyAt (recvCell (peer c r) c) () Nb
/-- At launch a device owes every other device one barrier unit and one arrival's credit. -/
def O₀ (c : Dev nD) : CellTallies nD τ sig Unit := Orecv c 0 + Obar c 0

theorem Obar_step (c j : Dev nD) (h : j ≠ c) : Obar c j.val = Obar c (j.val + 1) + tallyAt (barCell j) () 1 := by
  unfold Obar; rw [pend_step c j h, Finset.sum_insert (not_mem_pend_succ c j), add_comm]
theorem Obar_skip (c : Dev nD) : Obar c c.val = Obar c (c.val + 1) := by unfold Obar; rw [pend_skip]
theorem Obar_end (c : Dev nD) : Obar c 16 = 0 := by unfold Obar; rw [pend_end, Finset.sum_empty]
theorem Orecv_step (c : Dev nD) (r : Fin 15) : Orecv c r.val = Orecv c (r.val + 1) + tallyAt (recvCell (peer c r) c) () Nb := by
  unfold Orecv; rw [rpend_step r, Finset.sum_insert (not_mem_rpend_succ r), add_comm]
theorem Orecv_end (c : Dev nD) : Orecv c 15 = 0 := by unfold Orecv; rw [rpend_end, Finset.sum_empty]

def L (g : GSem nD τ sig) : Finset Unit := if g.1.2 = .tc then {()} else ∅
def lvOf : Option CK → ℕ
  | some .bar => 1 | some (.recv _) => 2 | _ => 0
/-- Barrier cells at 1, arrival cells at 2, everything else at 0: a device waits on its barrier owing only
    arrivals, and on an arrival owing nothing. -/
def lv (g : GSem nD τ sig) (_ : Unit) : ℕ := lvOf (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = lvOf (some k) := by
  show lvOf (ckOf (csem k)) = _; rw [ckOf_csem]

/-! ## The ghost state a device's body starts from -/

/-- Every cell's invariant under the names `K`, and that every cell is at its first round. -/
def records (K : Dev nD × CK → ℕ) : sProp 𝕄 :=
  iprop((bigSep Finset.univ fun ck : Dev nD × CK => cellInv ER (a2a m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays: a unit on every other barrier; per transfer the arrival duty of the
    peer's cell and the departure duty of its own; the fetch's; the sixteen copies' into the result. -/
def payToks (c : Dev nD) : sProp 𝕄 :=
  iprop((bigSep (Finset.univ.erase c) fun j : Dev nD => dutyTok ER (barCell j) 0 c)
    ∗ (bigSep Finset.univ fun r : Fin 15 => iprop(dutyTok ER (recvCell (peer c r) c) 0 (peer c r) ∗ dutyTok ER (sendCell c (peer c r)) 0 c))
    ∗ dutyTok ER (inCell c) 0 c
    ∗ bigSep Finset.univ fun s : Fin 16 => dutyTok ER (outCell c s) 0 c)
/-- Its position at the first round of each of its own cells, and those tokens. -/
def linear (c : Dev nD) : sProp 𝕄 :=
  iprop((bigSep Finset.univ fun k : CK => atPos ER (kcell (c, k)) 0 ∅ 0) ∗ payToks c)
def ghost (K : Dev nD × CK → ℕ) (c : Dev nD) : sProp 𝕄 := iprop(records m K ∗ linear c)

/-- The credit its waits on cells others pay consume: fifteen barrier units, fifteen arrivals. -/
def launchCreds (c : Dev nD) : sProp 𝕄 :=
  iprop(cred (tallyAt (barCell c) () 15) ∗ bigSep Finset.univ fun r : Fin 15 => cred (tallyAt (recvCell c (src c r)) () Nb))

/-- What a device's body starts from, the scratch buffers aside: the ghost state at some names, the credit, the
    levels, its argument block and its result array at what they held at launch. -/
def start (c : Dev nD) : sProp 𝕄 :=
  iprop((∃ K, ghost m K c) ∗ launchCreds c ∗ levAts L lv
    ∗ (((c : Thread nD τ).loc main_arg0) ↦{fullShare} X m c)
    ∗ ∃ f : Buf (Elt F) ((c : Thread nD τ).loc main_v1), (((c : Thread nD τ).loc main_v1) ↦{fullShare} f))

/-- The four scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What the buffers held before each step that overwrites them, per row block of the result. -/
structure Seeds (c : Dev nD) where
  fo : Fin 16 → Buf (Elt F) ((c : Thread nD τ).loc main_v1)
  g0 : Fin 16 → Buf (Elt F) ((c : Thread nD τ).loc cc0_scratch3)
  fd : Fin 16 → Buf (Elt F) ((c : Thread nD τ).loc cc0_scratch2)
  fx : (s : Fin 16) → Buf (Elt F) ((s : Thread nD τ).loc cc0_scratch0)
  f0 : (s : Fin 16) → Buf (Elt F) ((s : Thread nD τ).loc cc0_scratch1)

/-- The contents of the result array whose values on row block `s` are what the copy into that block left. -/
def rowF (c : Dev nD) (σ : Seeds (F := F) c) (s : Fin 16) : Buf (Elt F) ((c : Thread nD τ).loc main_v1) :=
  if s = c then ownF m c (σ.fo s) else outF m c s (σ.fo s) (σ.g0 s) (σ.fd s) (σ.fx s) (σ.f0 s)

/-- The result array at the end: row `i 0` lies in row block `i 0 / 256`. -/
def joinedF (c : Dev nD) (σ : Seeds (F := F) c) : Buf (Elt F) ((c : Thread nD τ).loc main_v1) :=
  fun i => rowF m c σ (Cert.A2A.srcDev (i 0)) i

def Φ₀ (c : Dev nD) : sProp 𝕄 := iprop(start m c ∗ scratch c)
/-- After the body: the result array joined, the argument block as it was, the scratch buffers whole again, and the
    counters of the forty-nine copy semaphores at zero. -/
def Φ₁ (c : Dev nD) : sProp 𝕄 :=
  iprop((∃ σ : Seeds (F := F) c, ((c : Thread nD τ).loc main_v1) ↦{fullShare} joinedF m c σ)
    ∗ (((c : Thread nD τ).loc main_arg0) ↦{fullShare} X m c)
    ∗ scratch c
    ∗ bigSep (Finset.univ.erase CK.bar) fun k : CK => semVal (kcell (c, k)) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelProof

end
-- ==== Proof.BitsStates.lean ====
/-
  The state of a device's body between two consecutive parts of its program, transfer by transfer.

  Each of the fifteen transfers a device sends goes through the phases: slot free (0), block stored (1), the
  peer's landing slot in hand after the barrier (2), sent (3), departure waited for (4). Each of the fifteen
  blocks it receives goes through: expected (0), landed and read (1, the landed contents' origins named), widened,
  staged and on its way to the result array (2), written to the result array (3).
-/
import proofs.«900406_g7700000000000407_dist_a2a_v7x_i16_i_m256_n256_bf16_1_alg».proof.Proof.BitsCells

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- The tokens of the two duties the `r`-th transfer pays. -/
def xferToks (c : Dev nD) (r : Fin 15) : sProp 𝕄 :=
  iprop(dutyTok ER (sendCell c (peer c r)) 0 c ∗ dutyTok ER (recvCell (peer c r) c) 0 (peer c r))

/-- Column block `peer c r` of the vector-memory copy, as the vector load reads it. -/
def xblk (c : Dev nD) (fx : Buf (Elt F) ((c : Thread nD τ).loc cc0_scratch0)) (r : Fin 15) : Vec F S256x256 .f32 :=
  ((xV : Memref sig .tc .vmem S256x4096 .f32).access (colsRect (peer c r)) : View sig .tc _ _ _).read (Elt F) (xvF m c fx)

/-- The `r`-th transfer on the sending side, by phase. -/
def sendSt (c : Dev nD) (fx : Buf (Elt F) ((c : Thread nD τ).loc cc0_scratch0)) (r : Fin 15) : ℕ → sProp 𝕄
  | 0 => iprop((∃ f, sPts c (peer c r) f) ∗ xferToks c r ∗ atPos ER (sendCell c (peer c r)) 0 ∅ 0)
  | 1 => iprop((∃ f0, sPts c (peer c r) (sendF m c (peer c r) fx f0)) ∗ xferToks c r ∗ atPos ER (sendCell c (peer c r)) 0 ∅ 0)
  | 2 => iprop((∃ f0, sPts c (peer c r) (sendF m c (peer c r) fx f0)) ∗ (∃ fd, rPts (peer c r) c fd) ∗ xferToks c r
      ∗ atPos ER (sendCell c (peer c r)) 0 ∅ 0)
  | 3 => iprop(cred (tallyAt (sendCell c (peer c r)) () Nb) ∗ atPos ER (sendCell c (peer c r)) 0 ∅ 0)
  | _ => iprop((∃ f, sPts c (peer c r) f) ∗ atPos ER (sendCell c (peer c r)) 1 ∅ 0)

/-- The `r`-th block received, by phase (phase 1 is `recvSt1`). -/
def recvSt (c : Dev nD) (r : Fin 15) : ℕ → sProp 𝕄
  | 0 => iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0)
  | 2 => iprop((∃ f, rPts c (src c r) f) ∗ atPos ER (recvCell c (src c r)) 1 ∅ 0
      ∗ cred (tallyAt (outCell c (src c r)) () No) ∗ atPos ER (outCell c (src c r)) 0 ∅ 0)
  | _ => iprop((∃ f, rPts c (src c r) f) ∗ atPos ER (recvCell c (src c r)) 1 ∅ 0
      ∗ outPay m c (src c r) ∗ atPos ER (outCell c (src c r)) 1 ∅ 0)

/-- Landed and read, not yet staged: the landed slot at its named contents. -/
def recvSt1 (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : sProp 𝕄 :=
  iprop(rPts c (src c r) (recvF m c (src c r) fd fx' f0) ∗ atPos ER (recvCell c (src c r)) 1 ∅ 0
    ∗ (∃ g, gPts c (src c r) g) ∗ (∃ f, oPts c (src c r) f) ∗ dutyTok ER (outCell c (src c r)) 0 c ∗ atPos ER (outCell c (src c r)) 0 ∅ 0)

/-- What the vector load of the landed slot `src c r` reads. -/
def rblk (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : Vec F S1x256x256 .bf16 :=
  ((rB : Memref sig .tc .vmem S16x256x256 .bf16).access (slotRect (src c r)) : View sig .tc _ _ _).read (Elt F) (recvF m c (src c r) fd fx' f0)

/-- The copy of the device's own block into the result array: pending (0), landed (1). -/
def ownSt (c : Dev nD) : ℕ → sProp 𝕄
  | 0 => iprop(cred (tallyAt (outCell c c) () No) ∗ atPos ER (outCell c c) 0 ∅ 0)
  | _ => iprop(outPay m c c ∗ atPos ER (outCell c c) 1 ∅ 0)

/-- What does not change from the fetch's wait to the end: the vector-memory copy, the parts of the argument
    array not lent to the pending copy, the three slots numbered `c` that no transfer touches, the positions
    of the cells without duties and of the fetch's and the barrier's cell. -/
def globSt (c : Dev nD) (fx : Buf (Elt F) ((c : Thread nD τ).loc cc0_scratch0)) (bar : ℕ) : sProp 𝕄 :=
  iprop(((xV : Memref sig .tc .vmem S256x4096 .f32).view.loc (c : Thread nD τ) ↦[(xV : Memref sig .tc .vmem S256x4096 .f32).view.set]{fullShare} xvF m c fx)
    ∗ ((xH : Memref sig .tc .hbm S256x4096 .f32).view.loc (c : Thread nD τ) ↦[(xH : Memref sig .tc .hbm S256x4096 .f32).view.set]{fullShare.left} X m c)
    ∗ ((xH : Memref sig .tc .hbm S256x4096 .f32).view.loc (c : Thread nD τ) ↦[(xH : Memref sig .tc .hbm S256x4096 .f32).view.set \ (colsM xH c).view.set]{fullShare.right} X m c)
    ∗ (∃ f, sPts c c f) ∗ (∃ f, rPts c c f) ∗ (∃ f, gPts c c f)
    ∗ atPos ER (sendCell c c) 0 ∅ 0 ∗ atPos ER (recvCell c c) 0 ∅ 0 ∗ atPos ER (inCell c) 1 ∅ 0 ∗ atPos ER (barCell c) bar ∅ 0)

end Cert.KernelProof

end
-- ==== Proof.BitsSteps.lean ====
/-
  One lemma per kind of step of a device's body: what the step consumes and what the program continues with.
-/
import proofs.«900406_g7700000000000407_dist_a2a_v7x_i16_i_m256_n256_bf16_1_alg».proof.Proof.BitsCells

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : Dev nD × CK → ℕ)

/-! ## The program's spellings of semaphores and slots are the named ones -/

theorem outSem_src (c : Dev nD) (r : Fin 15) :
    ((SemArray.slice cc0_scratch5 (Rect.unit (s := S16) (k0_off9 c (BitVec.ofNat 32 (1 + r.val))) S1.size (k0_off9_inb c r))).squeeze S_ squeezes_S1_S_).sem = outS (src c r) := by
  exact congrArg (fun a => (SemArray.squeeze a S_ squeezes_S1_S_).sem) (SemArray.slice_unit_congr _ (k0_off9_eq c r) _ _)
theorem recvSem_src (c : Dev nD) (r : Fin 15) :
    ((SemArray.slice cc0_scratch7 (Rect.unit (s := S16) (k0_off9 c (BitVec.ofNat 32 (1 + r.val))) S1.size (k0_off9_inb c r))).squeeze S_ squeezes_S1_S_).sem = recvS (src c r) := by
  exact congrArg (fun a => (SemArray.squeeze a S_ squeezes_S1_S_).sem) (SemArray.slice_unit_congr _ (k0_off9_eq c r) _ _)
theorem sendSem_src (c : Dev nD) (r : Fin 15) :
    ((SemArray.slice cc0_scratch6 (Rect.unit (s := S16) (k0_off9 c (BitVec.ofNat 32 (1 + r.val))) S1.size (k0_off9_inb c r))).squeeze S_ squeezes_S1_S_).sem = sendS (src c r) := by
  exact congrArg (fun a => (SemArray.squeeze a S_ squeezes_S1_S_).sem) (SemArray.slice_unit_congr _ (k0_off9_eq c r) _ _)
theorem sendSem_peer (c : Dev nD) (r : Fin 15) :
    ((SemArray.slice cc0_scratch6 (Rect.unit (s := S16) (k0_off6 c (BitVec.ofNat 32 (1 + r.val))) S1.size (k0_off6_inb c r))).squeeze S_ squeezes_S1_S_).sem = sendS (peer c r) := by
  exact congrArg (fun a => (SemArray.squeeze a S_ squeezes_S1_S_).sem) (SemArray.slice_unit_congr _ (k0_off6_eq c r) _ _)
theorem recvSem_self (c : Dev nD) :
    ((SemArray.slice cc0_scratch7 (Rect.unit (s := S16) (k0_off1 c) S1.size (k0_off1_inb c))).squeeze S_ squeezes_S1_S_).sem = recvS c := by
  exact congrArg (fun a => (SemArray.squeeze a S_ squeezes_S1_S_).sem) (SemArray.slice_unit_congr _ (k0_off1_eq c) _ _)
theorem outSem_self (c : Dev nD) :
    ((SemArray.slice cc0_scratch5 (Rect.unit (s := S16) (k0_off1 c) S1.size (k0_off1_inb c))).squeeze S_ squeezes_S1_S_).sem = outS c := by
  exact congrArg (fun a => (SemArray.squeeze a S_ squeezes_S1_S_).sem) (SemArray.slice_unit_congr _ (k0_off1_eq c) _ _)

/-! ## The program's spellings of the slots -/

theorem slot_peer {e : EltTy} (b : Memref sig .tc .vmem S16x256x256 e) (c : Dev nD) (r : Fin 15) (hs) :
    ((b.slice (Rect.unit (s := S16x256x256) (k0_off8 c (BitVec.ofNat 32 (1 + r.val))) S1x256x256.size (k0_off8_inb c r)) hs).squeeze S256x256 squeezes_S1x256x256_S256x256) = slotM b (peer c r) :=
  congrArg (fun a => Memref.squeeze a S256x256 squeezes_S1x256x256_S256x256) (Memref.slice_unit_congr b (k0_off8_eq c r) _ _ _ _)
theorem slot_src {e : EltTy} (b : Memref sig .tc .vmem S16x256x256 e) (c : Dev nD) (r : Fin 15) (hs) :
    ((b.slice (Rect.unit (s := S16x256x256) (k0_off10 c (BitVec.ofNat 32 (1 + r.val))) S1x256x256.size (k0_off10_inb c r)) hs).squeeze S256x256 squeezes_S1x256x256_S256x256) = slotM b (src c r) :=
  congrArg (fun a => Memref.squeeze a S256x256 squeezes_S1x256x256_S256x256) (Memref.slice_unit_congr b (k0_off10_eq c r) _ _ _ _)
theorem slot_self {e : EltTy} (b : Memref sig .tc .vmem S16x256x256 e) (c : Dev nD) (hs) :
    ((b.slice (Rect.unit (s := S16x256x256) (k0_off7 c) S1x256x256.size (k0_off7_inb c)) hs).squeeze S256x256 squeezes_S1x256x256_S256x256) = slotM b c :=
  congrArg (fun a => Memref.squeeze a S256x256 squeezes_S1x256x256_S256x256) (Memref.slice_unit_congr b (k0_off7_eq c) _ _ _ _)
theorem rows_src (c : Dev nD) (r : Fin 15) (hs) :
    (oH.slice (Rect.unit (s := S4096x256) (k0_off12 c (BitVec.ofNat 32 (1 + r.val))) S256x256.size (k0_off12_inb c r)) hs) = rowsM oH (src c r) :=
  Memref.slice_unit_congr oH (k0_off12_eq c r) _ _ _ _
theorem rows_self (c : Dev nD) (hs) :
    (oH.slice (Rect.unit (s := S4096x256) (k0_off2 c) S256x256.size (k0_off2_inb c)) hs) = rowsM oH c :=
  Memref.slice_unit_congr oH (k0_off2_eq c) _ _ _ _
theorem cols_self (c : Dev nD) (hs) :
    (xH.slice (Rect.unit (s := S256x4096) (k0_off3 c) S256x256.size (k0_off3_inb c)) hs) = colsM xH c :=
  Memref.slice_unit_congr xH (k0_off3_eq c) _ _ _ _
theorem rect_cols_peer (c : Dev nD) (r : Fin 15) :
    Rect.unit (s := S256x4096) (k0_off4 c (BitVec.ofNat 32 (1 + r.val))) S256x256.size (k0_off4_inb c r) = colsRect (peer c r) :=
  Rect.unit_congr (k0_off4_eq c r) _ _
theorem rect_slot_peer (c : Dev nD) (r : Fin 15) :
    Rect.unit (s := S16x256x256) (k0_off5 c (BitVec.ofNat 32 (1 + r.val))) S1x256x256.size (k0_off5_inb c r) = slotRect (peer c r) :=
  Rect.unit_congr (k0_off5_eq c r) _ _
theorem rect_slot_src (c : Dev nD) (r : Fin 15) :
    Rect.unit (s := S16x256x256) (k0_off11 c (BitVec.ofNat 32 (1 + r.val))) S1x256x256.size (k0_off11_inb c r) = slotRect (src c r) :=
  Rect.unit_congr (k0_off11_eq c r) _ _

/-! ## The device chains -/

theorem dev_peer (c : Dev nD) (r : Fin 15) (n : ℕ) (hn : n < nD) (h : n = (c.val + (r.val + 1)) % 16) : (⟨n, hn⟩ : Dev nD) = peer c r :=
  Fin.ext (by show n = (c.val + r.val + 1) % 16; omega)

/-! ## The records -/

theorem inv_k (c : Dev nD) (k : CK) : records m K ⊢ cellInv ER (a2a m) (K (c, k)) (kcell (c, k)) := by
  unfold records; exact (BI.sep_and.trans BI.and_elimL).trans (bigSep_elim (Φ := fun ck : Dev nD × CK => cellInv ER (a2a m) (K ck) (kcell ck)) (Finset.mem_univ ((c, k) : Dev nD × CK)))
theorem inv_bar (c : Dev nD) : records m K ⊢ cellInv ER (a2a m) (K (c, .bar)) (barCell c) := inv_k m K c .bar
theorem inv_in (c : Dev nD) : records m K ⊢ cellInv ER (a2a m) (K (c, .inn)) (inCell c) := inv_k m K c .inn
theorem inv_out (c : Dev nD) (s : Fin 16) : records m K ⊢ cellInv ER (a2a m) (K (c, .out s)) (outCell c s) := inv_k m K c (.out s)
theorem inv_send (c : Dev nD) (s : Fin 16) : records m K ⊢ cellInv ER (a2a m) (K (c, .send s)) (sendCell c s) := inv_k m K c (.send s)
theorem inv_recv (c : Dev nD) (s : Fin 16) : records m K ⊢ cellInv ER (a2a m) (K (c, .recv s)) (recvCell c s) := inv_k m K c (.recv s)
theorem reached_k (c : Dev nD) (k : CK) : records m K ⊢ reached ER (kcell (c, k)) 0 := by
  unfold records; exact (BI.sep_and.trans BI.and_elimR).trans (bigSep_elim (Φ := fun ck : Dev nD × CK => reached ER (kcell ck) 0) (Finset.mem_univ ((c, k) : Dev nD × CK)))
theorem reached_bar (c : Dev nD) : records m K ⊢ reached ER (barCell c) 0 := reached_k m K c .bar
theorem reached_in (c : Dev nD) : records m K ⊢ reached ER (inCell c) 0 := reached_k m K c .inn
theorem reached_out (c : Dev nD) (s : Fin 16) : records m K ⊢ reached ER (outCell c s) 0 := reached_k m K c (.out s)
theorem reached_send (c : Dev nD) (s : Fin 16) : records m K ⊢ reached ER (sendCell c s) 0 := reached_k m K c (.send s)
theorem reached_recv (c : Dev nD) (s : Fin 16) : records m K ⊢ reached ER (recvCell c s) 0 := reached_k m K c (.recv s)

theorem bigSep_insert' {I : Type} [DecidableEq I] {s : Finset I} {i : I} (hi : i ∉ s) (Φ : I → sProp 𝕄) :
    bigSep (insert i s) Φ = iprop(Φ i ∗ bigSep s Φ) := bigSep_insert hi

/-! ## The conditional signals -/

/-- After the first `n` conditional signals: what is still owed, and for every device still to be signalled the
    token of its barrier's unit with the slot of the receive buffer the unit carries. -/
def SigSt (c : Dev nD) (n : ℕ) (W : Waits sig Unit) : sProp 𝕄 :=
  iprop(owes (c : Thread nD τ) (Orecv c 0 + Obar c n) W ∗ bigSep (pend c n) fun j => iprop(dutyTok ER (barCell j) 0 c ∗ ∃ f, rPts c j f))

theorem step_cond_signal (c j : Dev nD) (cond : BitVec 1) (hc : cond = 1#1 ↔ j ≠ c) (dev : ℕ) (hd : dev = j.val) (hlt : cond = 1#1 → dev < nD)
    {α : Type} {Q : α → sProp 𝕄} (R : Prog (TpuEff nD τ sig (Elt F) Λ₀ .tc) α) (W : Waits sig Unit) :
    iprop(records m K ∗ SigSt c j.val W)
      ⊢ iprop((SigSt c (j.val + 1) W -∗ wp frame (wpE (defs₀ (F := F)) 𝒱₀ c none) Set.univ R Q)
          -∗ wp frame (wpE (defs₀ (F := F)) 𝒱₀ c none) Set.univ
              (if h : cond = 1#1 then Prog.op (TpuEff.semSignal ((⟨dev, hlt h⟩ : Dev nD), Proc.tc) barS (1#32 : BitVec 32).toNat) (fun _ => R) else R) Q) := by
  iintro ⟨#HR, HS⟩ Hk
  by_cases h : cond = 1#1
  · rw [dif_pos h]
    have hj : j ≠ c := hc.mp h
    have hdev : (⟨dev, hlt h⟩ : Dev nD) = j := Fin.ext hd
    rw [hdev]
    unfold SigSt
    rw [pend_step c j hj, bigSep_insert' (not_mem_pend_succ c j)]
    icases HS with ⟨HO, ⟨Htok, %f, Hslot⟩, Hrest⟩
    iapply (Rounds.wp_signal 𝒱₀ ER (a2a m) (c : Thread nD τ) none (dst := (j : Thread nD τ)) (κ := K (j, .bar)) (d := c) (O₀ := Orecv c 0 + Obar c j.val)
        (by rw [duties_bar]; exact Finset.mem_erase.mpr ⟨hj.symm, Finset.mem_univ _⟩)
        ((amount_bar m j 0 c).trans (by decide : 1 = (1#32 : BitVec 32).toNat)) () (Orecv c 0 + Obar c (j.val + 1))
        (by rw [Obar_step c j hj, add_assoc]; rfl)) $$ [HO Htok Hslot]
    · isplitr; · iapply (inv_bar m K j); iexact HR
      isplitl [HO]; · iexact HO
      isplitl [Htok]; · iexact Htok
      isplitl [Hslot]
      · rw [payload_bar]; unfold barPay
        isplitl [Hslot]; · iexists f; iexact Hslot
        iapply (reached_recv m K c j); iexact HR
      · iapply (reached_bar m K j); iexact HR
    iintro HO
    iapply Hk
    isplitl [HO]; · iexact HO
    iexact Hrest
  · rw [dif_neg h]
    have hj : j = c := by by_contra hne; exact h (hc.mpr hne)
    subst hj
    iapply Hk
    unfold SigSt; rw [← Obar_skip, ← pend_skip]; iexact HS

/-! ## Waiting while arrivals are still owed -/

/-- A cell below the arrival cells may be waited on while only arrival credits are owed. -/
theorem mayWait_Orecv (c : Dev nD) (n : ℕ) (sm : SemLoc sig) (h : lv ((c : Thread nD τ), sm) () < 2) :
    (levAts L lv : sProp 𝕄) ⊢ MayWait (c : Thread nD τ) sm () (Orecv c n) :=
  Pipeline.mayWait_of_levAts (by rw [L_tc]; exact Finset.mem_singleton_self _) (fun g i hg => by
    unfold Orecv at hg
    obtain ⟨r, _, hr⟩ := Pipeline.sum_pos_exists hg
    obtain ⟨rfl, rfl⟩ := Pipeline.tallyAt_pos hr
    refine ⟨by rw [L_tc]; exact Finset.mem_singleton_self _, ?_⟩
    rw [show lv (recvCell (peer c r) c) () = 2 from lv_k (peer c r) (.recv c) ()]
    exact h)

/-! ## The fetch and the device's own block -/

/-- A transfer's credit depends on the shape and element type of its destination only. -/
theorem amount_rows (s : Fin 16) (sm : DmaSem sig) : (rowsM oH s).view.amount (.dma sm) = No := rfl
theorem amount_slot_r (s : Fin 16) (sm : DmaSem sig) : (slotM rB s).view.amount (.dma sm) = Nb := rfl

theorem step_fetch (c : Dev nD) {α : Type} {Q : α → sProp 𝕄} {k : PUnit → Prog (TpuEff nD τ sig (Elt F) Λ₀ .tc) α}
    (fx : Buf (Elt F) ((c : Thread nD τ).loc cc0_scratch0)) {h1 : (xH : Memref sig .tc .hbm S256x4096 .f32).view.WordExact}
    {h2 : (xV : Memref sig .tc .vmem S256x4096 .f32).view.WordExact}
    {h3 : (DmaTarget.here xV : DmaTarget nD τ sig Proc.tc .vmem S256x4096 .f32).Typed .hbm (.dma inS)} :
    iprop(records m K ∗ ((xH : Memref sig .tc .hbm S256x4096 .f32).view.loc (c : Thread nD τ) ↦[(xH : Memref sig .tc .hbm S256x4096 .f32).view.set]{fullShare.left} X m c)
        ∗ ((xV : Memref sig .tc .vmem S256x4096 .f32).view.loc (c : Thread nD τ) ↦[(xV : Memref sig .tc .vmem S256x4096 .f32).view.set]{fullShare} fx)
        ∗ dutyTok ER (inCell c) 0 c)
      ⊢ iprop((cred (tallyAt (inCell c) () Nx) -∗ wp frame (wpE (defs₀ (F := F)) 𝒱₀ c none) Set.univ (k ⟨⟩) Q)
          -∗ wp frame (wpE (defs₀ (F := F)) 𝒱₀ c none) Set.univ (.op (.enqueueDma xH (.here xV) (.dma inS) h1 h2 h3) k) Q) := by
  iintro ⟨#HR, Hs, Hd, Htok⟩ Hk
  iapply (Rounds.wp_copy_pointsTo 𝒱₀ ER (a2a m) (c : Thread nD τ) none (src := xH) (dst := xV) (sem := .dma inS)
      (κ := K (c, .inn)) (r := 0) (d := c) (q := fullShare.left) (fs := X m c) (fd := fx)
      (by rw [duties_in]; exact Finset.mem_singleton_self _) () Nx rfl (amount_in m c 0 c)
      (by rw [payload_in]; unfold inPay; iintro ⟨Hd, Hs⟩; iexists fx; isplitl [Hd]; · iexact Hd
          iexact Hs)) $$ [Hs Hd Htok]
  · isplitr; · iapply (inv_in m K c); iexact HR
    isplitl [Hs]; · iexact Hs
    isplitl [Hd]; · iexact Hd
    isplitl [Htok]; · iexact Htok
    iapply (reached_in m K c); iexact HR
  iexact Hk

theorem step_own (c : Dev nD) {α : Type} {Q : α → sProp 𝕄} {k : PUnit → Prog (TpuEff nD τ sig (Elt F) Λ₀ .tc) α}
    (fo : Buf (Elt F) ((c : Thread nD τ).loc main_v1))
    {srcM : Memref sig .tc .hbm S256x256 .f32} {dstM : Memref sig .tc .hbm S256x256 .f32} {sem : DmaSem sig}
    (hs : srcM = colsM xH c) (hd : dstM = rowsM oH c) (hsem : sem = outS c)
    {h1 : srcM.view.WordExact} {h2 : dstM.view.WordExact}
    {h3 : (DmaTarget.here dstM : DmaTarget nD τ sig Proc.tc .hbm S256x256 .f32).Typed .hbm (.dma sem)} :
    iprop(records m K ∗ xcPts c c fullShare.right (X m c) ∗ oPts c c fo ∗ dutyTok ER (outCell c c) 0 c)
      ⊢ iprop((cred (tallyAt (outCell c c) () No) -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  subst hs hd hsem
  unfold xcPts oPts
  iintro ⟨#HR, Hs, Hd, Htok⟩ Hk
  iapply (Rounds.wp_copy_pointsTo 𝒱₀ ER (a2a m) (c : Thread nD τ) none (src := colsM xH c) (dst := rowsM oH c) (sem := .dma (outS c))
      (κ := K (c, .out c)) (r := 0) (d := c) (q := fullShare.right) (fs := X m c) (fd := fo)
      (by rw [duties_out]; exact Finset.mem_singleton_self _) () No (amount_rows c (outS c)) (amount_out m c c 0 c)
      (by rw [payload_out]; unfold outPay; rw [if_pos rfl]; unfold oPts xcPts ownF; iintro ⟨Hd, Hs⟩; isplitl [Hd]; · iexists fo; iexact Hd
          iexact Hs)) $$ [Hs Hd Htok]
  · isplitr; · iapply (inv_out m K c c); iexact HR
    isplitl [Hs]; · iexact Hs
    isplitl [Hd]; · iexact Hd
    isplitl [Htok]; · iexact Htok
    iapply (reached_out m K c c); iexact HR
  iexact Hk

theorem step_wait_in (c : Dev nD) {α : Type} {Q : α → sProp 𝕄} {k : PUnit → Prog (TpuEff nD τ sig (Elt F) Λ₀ .tc) α}
    (W : Waits sig Unit) {h1 : (xH : Memref sig .tc .hbm S256x4096 .f32).view.WordExact} {h2 : (xV : Memref sig .tc .vmem S256x4096 .f32).view.WordExact} :
    iprop(records m K ∗ levAts L lv ∗ cred (tallyAt (inCell c) () Nx) ∗ owes (c : Thread nD τ) (Orecv c 0) W ∗ atPos ER (inCell c) 0 ∅ 0)
      ⊢ iprop(((owes (c : Thread nD τ) (Orecv c 0) (insert (SemLoc.dma inS, ()) W) ∗ atPos ER (inCell c) 1 ∅ 0 ∗ inPay m c)
            -∗ wp frame (wpE (defs₀ (F := F)) 𝒱₀ c none) Set.univ (k ⟨⟩) Q)
          -∗ wp frame (wpE (defs₀ (F := F)) 𝒱₀ c none) Set.univ (.op (.waitDma2 inS xH xV h1 h2) k) Q) := by
  iintro ⟨#HR, #Hlev, Hc, HO, Hat⟩ Hk
  iapply (Rounds.wp_wait_rest_token 𝒱₀ ER (a2a m) (c : Thread nD τ) none (κ := K (c, .inn))
      (wpE_waitDma2_eq 𝒱₀ (c : Thread nD τ) none Set.univ) (Set.mem_univ _) () (O := Orecv c 0) (W := W) (R := 0) (m := 0) (T := ∅)
      ((Nat.zero_add _).trans (expect_in m c).symm)) $$ [Hc HO Hat]
  · isplitr; · iapply (inv_in m K c); iexact HR
    isplitl [Hc]; · iexact Hc
    isplitl [HO]; · iexact HO
    isplitr; · iapply (mayWait_Orecv c 0 (.dma inS) (by rw [show lv (inCell c) () = 0 from lv_k c .inn ()]; decide)); iexact Hlev
    iexact Hat
  iintro ⟨HO, Hat, -, Hpay⟩
  iapply Hk
  isplitl [HO]; · iexact HO
  isplitl [Hat]; · iexact Hat
  iapply (Entails.of_eq (rest_in m c)) $$ Hpay

/-! ## The barrier -/

theorem step_wait_bar (c : Dev nD) {α : Type} {Q : α → sProp 𝕄} {k : PUnit → Prog (TpuEff nD τ sig (Elt F) Λ₀ .tc) α} (W : Waits sig Unit) :
    iprop(records m K ∗ levAts L lv ∗ cred (tallyAt (barCell c) () 15) ∗ owes (c : Thread nD τ) (Orecv c 0) W ∗ atPos ER (barCell c) 0 ∅ 0)
      ⊢ iprop(((owes (c : Thread nD τ) (Orecv c 0) (insert (SemLoc.reg barS, ()) W) ∗ atPos ER (barCell c) 1 ∅ 0 ∗ bigSep (Finset.univ.erase c) (fun j => barPay c j))
            -∗ wp frame (wpE (defs₀ (F := F)) 𝒱₀ c none) Set.univ (k ⟨⟩) Q)
          -∗ wp frame (wpE (defs₀ (F := F)) 𝒱₀ c none) Set.univ (.op (.semWait barS (15#32 : BitVec 32).toNat) k) Q) := by
  iintro ⟨#HR, #Hlev, Hc, HO, Hat⟩ Hk
  iapply (Rounds.wp_wait_rest_token 𝒱₀ ER (a2a m) (c : Thread nD τ) none (κ := K (c, .bar))
      (wpE_semWait_eq 𝒱₀ (c : Thread nD τ) none Set.univ) (Set.mem_univ _) () (O := Orecv c 0) (W := W) (R := 0) (m := 0) (T := ∅)
      ((Nat.zero_add _).trans ((by decide : (15#32 : BitVec 32).toNat = 15).trans (expect_bar m c).symm))) $$ [Hc HO Hat]
  · isplitr; · iapply (inv_bar m K c); iexact HR
    isplitl [Hc]; · iexact Hc
    isplitl [HO]; · iexact HO
    isplitr; · iapply (mayWait_Orecv c 0 (.reg barS) (by rw [show lv (barCell c) () = 1 from lv_k c .bar ()]; decide)); iexact Hlev
    iexact Hat
  iintro ⟨HO, Hat, -, Hpay⟩
  iapply Hk
  isplitl [HO]; · iexact HO
  isplitl [Hat]; · iexact Hat
  iapply (Entails.of_eq (rest_bar m c)) $$ Hpay

/-! ## A departure -/

/-- The `r`-th transfer, to `d = peer c r`: slot `d` of the send buffer, slot `c` of `d`'s receive buffer, the two tokens and
    the arrival's credit go in; the departure's credit comes out. -/
theorem step_send (c : Dev nD) (r : Fin 15) {α : Type} {Q : α → sProp 𝕄} {k : PUnit → Prog (TpuEff nD τ sig (Elt F) Λ₀ .tc) α}
    (W : Waits sig Unit) (fx : Buf (Elt F) ((c : Thread nD τ).loc cc0_scratch0)) (f0 : Buf (Elt F) ((c : Thread nD τ).loc cc0_scratch1))
    (fd : Buf (Elt F) ((peer c r : Thread nD τ).loc cc0_scratch2))
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ sPts c (peer c r) (sendF m c (peer c r) fx f0) ∗ rPts (peer c r) c fd
        ∗ owes (c : Thread nD τ) (Orecv c r.val) W
        ∗ dutyTok ER (sendCell c (peer c r)) 0 c ∗ dutyTok ER (recvCell (peer c r) c) 0 (peer c r))
      ⊢ iprop(((cred (tallyAt (sendCell c (peer c r)) () Nb) ∗ owes (c : Thread nD τ) (Orecv c (r.val + 1)) W)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  subst hn hs hd hsS hsem
  unfold sPts rPts
  iintro ⟨#HR, Hs, Hd, HO, HtS, HtR⟩ Hk
  iapply (Rounds.wp_send_pointsTo 𝒱₀ ER (a2a m) (c : Thread nD τ) none (c' := (peer c r : Thread nD τ))
      (src := slotM sB (peer c r)) (dst := slotM rB c) (sS := .dma (sendS (peer c r))) (sem := .dma (recvS c)) (q := fullShare)
      (κ₁ := K (c, .send (peer c r))) (κ₂ := K (peer c r, .recv c))
      (r₁ := 0) (r₂ := 0) (d₁ := c) (d₂ := peer c r) (fs := sendF m c (peer c r) fx f0) (fd := fd) (O₀ := Orecv c r.val)
      (by rw [duties_send m c (peer c r) (peer_ne c r)]; exact Finset.mem_singleton_self _)
      (by rw [duties_recv m (peer c r) c (peer_ne c r).symm]; exact Finset.mem_singleton_self _)
      () () Nb (amount_slot_r c (recvS c)) (amount_send m c (peer c r) 0 c) (amount_recv m (peer c r) c 0 (peer c r)) (Orecv c (r.val + 1)) (Orecv_step c r) (W := W)
      (by rw [payload_send]; unfold sendPay sPts; iintro H; iexists _; iexact H)
      (by rw [payload_recv]; unfold recvPay rPts recvF; iintro H; iexists fd, fx, f0; iexact H)) $$ [Hs Hd HO HtS HtR]
  · isplitr; · iapply (inv_send m K c (peer c r)); iexact HR
    isplitr; · iapply (inv_recv m K (peer c r) c); iexact HR
    isplitl [Hs]; · iexact Hs
    isplitl [Hd]; · iexact Hd
    isplitl [HO]; · iexact HO
    isplitl [HtS]; · iexact HtS
    isplitr; · iapply (reached_send m K c (peer c r)); iexact HR
    isplitl [HtR]; · iexact HtR
    iapply (reached_recv m K (peer c r) c); iexact HR
  iexact Hk

/-! ## An arrival -/

/-- The wait on the arrival cell of slot `s`: the arrival's credit and the position go in; the landed slot comes out. -/
theorem step_recv_wait_at (c : Dev nD) (s : Fin 16) (hs : s ≠ c) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB s) (hsem : sem = recvS s) {h1 : srcM.view.WordExact} {h2 : dstM.view.WordExact} :
    iprop(records m K ∗ cred (tallyAt (recvCell c s) () Nb) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0 ∗ recvPay m c s)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .recv s))
      (w := .waitDma2 (recvS s) srcM (slotM rB s) h1 h2) (sm := .dma (recvS s)) (k' := (slotM rB s).view.dmaCredit) (k := k)
      (wpE_waitDma2_eq 𝒱₀ (c : Thread nD τ) none Set.univ) (Set.mem_univ _) () (O := 0) (W := W) (R := 0) (m := 0) (T := ∅)
      ((Nat.zero_add _).trans (expect_recv m c s hs).symm)) $$ [Hc HO Hat]
  · isplitr; · iapply (inv_recv m K c s); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c s hs)) $$ Hpay

/-- The wait for the block from `s = src c r`: the arrival's credit and the position go in; the landed slot comes out. -/
theorem step_recv_wait (c : Dev nD) (r : Fin 15) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ cred (tallyAt (recvCell c (src c r)) () Nb) ∗ owes (c : Thread nD τ) 0 W ∗ atPos ER (recvCell c (src c r)) 0 ∅ 0)
      ⊢ iprop(((owes (c : Thread nD τ) 0 (insert (SemLoc.dma (recvS (src c r)), ()) W) ∗ atPos ER (recvCell c (src c r)) 1 ∅ 0 ∗ recvPay m c (src c r))
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) :=
  step_recv_wait_at m K c (src c r) (src_ne c r) W hd hsem

/-- The copy of the widened slot `s` of the staging buffer into row block `s` of the result. -/
theorem step_out_copy (c : Dev nD) (s : Fin 16) (hsc : s ≠ c) {α : Type} {Q : α → sProp 𝕄} {k : PUnit → Prog (TpuEff nD τ sig (Elt F) Λ₀ .tc) α}
    (fo : Buf (Elt F) ((c : Thread nD τ).loc main_v1)) (g0 : Buf (Elt F) ((c : Thread nD τ).loc cc0_scratch3))
    (fd : Buf (Elt F) ((c : Thread nD τ).loc cc0_scratch2)) (fx : Buf (Elt F) ((s : Thread nD τ).loc cc0_scratch0))
    (f0 : Buf (Elt F) ((s : Thread nD τ).loc cc0_scratch1))
    {srcM : Memref sig .tc .vmem S256x256 .f32} {dstM : Memref sig .tc .hbm S256x256 .f32} {sem : DmaSem sig}
    (hs : srcM = slotM gB s) (hd : dstM = rowsM oH s) (hsem : sem = outS s)
    {h1 : srcM.view.WordExact} {h2 : dstM.view.WordExact}
    {h3 : (DmaTarget.here dstM : DmaTarget nD τ sig Proc.tc .hbm S256x256 .f32).Typed .vmem (.dma sem)} :
    iprop(records m K ∗ gPts c s (stageF m c s g0 fd fx f0) ∗ oPts c s fo ∗ dutyTok ER (outCell c s) 0 c)
      ⊢ iprop((cred (tallyAt (outCell c s) () No) -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  subst hs hd hsem
  unfold gPts oPts
  iintro ⟨#HR, Hs, Hd, Htok⟩ Hk
  iapply (Rounds.wp_copy_pointsTo 𝒱₀ ER (a2a m) (c : Thread nD τ) none (src := slotM gB s) (dst := rowsM oH s) (sem := .dma (outS s))
      (κ := K (c, .out s)) (r := 0) (d := c) (q := fullShare) (fs := stageF m c s g0 fd fx f0) (fd := fo)
      (by rw [duties_out]; exact Finset.mem_singleton_self _) () No (amount_rows s (outS s)) (amount_out m c s 0 c)
      (by rw [payload_out]; unfold outPay; rw [if_neg hsc]; unfold oPts gPts outF; iintro ⟨Hd, Hs⟩; iexists fo, g0, fd, fx, f0
          isplitl [Hd]; · iexact Hd
          iexact Hs)) $$ [Hs Hd Htok]
  · isplitr; · iapply (inv_out m K c s); iexact HR
    isplitl [Hs]; · iexact Hs
    isplitl [Hd]; · iexact Hd
    isplitl [Htok]; · iexact Htok
    iapply (reached_out m K c s); iexact HR
  iexact Hk

/-! ## The closing waits -/

theorem step_wait_send (c : Dev nD) (d : Fin 16) (hdc : d ≠ c) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB d) (hsem : sem = sendS d) {h1 : srcM.view.WordExact} {h2 : dstM.view.WordExact} :
    iprop(records m K ∗ cred (tallyAt (sendCell c d) () Nb) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0 ∗ sendPay c d)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .send d))
      (w := .waitDma2 (sendS d) srcM (slotM sB d) h1 h2) (sm := .dma (sendS d)) (k' := (slotM sB d).view.dmaCredit) (k := k)
      (wpE_waitDma2_eq 𝒱₀ (c : Thread nD τ) none Set.univ) (Set.mem_univ _) () (O := 0) (W := W) (R := 0) (m := 0) (T := ∅)
      ((Nat.zero_add _).trans (expect_send m c d hdc).symm)) $$ [Hc HO Hat]
  · isplitr; · iapply (inv_send m K c d); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d hdc)) $$ Hpay

theorem step_wait_out (c : Dev nD) (s : Fin 16) {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH s) (hsem : sem = outS s) {h1 : srcM.view.WordExact} {h2 : dstM.view.WordExact} :
    iprop(records m K ∗ cred (tallyAt (outCell c s) () No) ∗ owes (c : Thread nD τ) 0 W ∗ atPos ER (outCell c s) 0 ∅ 0)
      ⊢ iprop(((owes (c : Thread nD τ) 0 (insert (SemLoc.dma (outS s), ()) W) ∗ atPos ER (outCell c s) 1 ∅ 0 ∗ outPay m c s)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hd hsem
  iintro ⟨#HR, Hc, HO, Hat⟩ Hk
  iapply (Rounds.wp_wait_rest_token 𝒱₀ ER (a2a m) (c : Thread nD τ) none (κ := K (c, .out s))
      (w := .waitDma2 (outS s) srcM (rowsM oH s) h1 h2) (sm := .dma (outS s)) (k' := (rowsM oH s).view.dmaCredit) (k := k)
      (wpE_waitDma2_eq 𝒱₀ (c : Thread nD τ) none Set.univ) (Set.mem_univ _) () (O := 0) (W := W) (R := 0) (m := 0) (T := ∅)
      ((Nat.zero_add _).trans (expect_out m c s).symm)) $$ [Hc HO Hat]
  · isplitr; · iapply (inv_out m K c s); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_out m c s)) $$ Hpay

/-! ## Vector loads and stores -/

/-- The load of column block `d` of the vector-memory copy, the buffer held whole at any contents. -/
theorem step_load_x (c : Dev nD) (d : Fin 16) {α : Type} {Q : α → sProp 𝕄}
    {off : Fin 2 → ℕ} {hin : ∀ a, off a + S256x256.size a ≤ S256x4096.size a} (hoff : off = ![0, 256 * d.val])
    {hl : (xV : Memref sig .tc .vmem S256x4096 .f32).view.LoadsAt (Rect.unit (s := S256x4096) off S256x256.size hin).toLoadRect}
    {k : ((Rect.unit (s := S256x4096) off S256x256.size hin).shape.Idx → Elt F .f32) → Prog (TpuEff nD τ sig (Elt F) Λ₀ .tc) α}
    (q : PosShare TreeShare) (f : Buf (Elt F) ((c : Thread nD τ).loc cc0_scratch0)) :
    ((((c : Thread nD τ).loc cc0_scratch0) ↦{q} f) : sProp 𝕄)
      ⊢ iprop(((((c : Thread nD τ).loc cc0_scratch0) ↦{q} f)
            -∗ wp frame (wpE (defs₀ (F := F)) 𝒱₀ c none) Set.univ (k (((xV : Memref sig .tc .vmem S256x4096 .f32).access (colsRect d)).read (Elt F) f)) Q)
          -∗ wp frame (wpE (defs₀ (F := F)) 𝒱₀ c none) Set.univ
              (.op (.load (xV : Memref sig .tc .vmem S256x4096 .f32) (Rect.unit (s := S256x4096) off S256x256.size hin).toLoadRect hl) k) Q) := by
  subst hoff
  exact wp_load_rect 𝒱₀ (c : Thread nD τ) none Set.univ (m := (xV : Memref sig .tc .vmem S256x4096 .f32)) (r := colsRect d) (Finset.subset_univ _)

/-- A load of slot `s` of a 16 × 256 × 256 buffer held by that slot. -/
theorem step_load_slot {e : EltTy} (b : Memref sig .tc .vmem S16x256x256 e) (c : Dev nD) (s : Fin 16) {α : Type} {Q : α → sProp 𝕄}
    {off : Fin 3 → ℕ} {hin : ∀ a, off a + S1x256x256.size a ≤ S16x256x256.size a} (hoff : off = ![s.val, 0, 0])
    {hl : b.view.LoadsAt (Rect.unit (s := S16x256x256) off S1x256x256.size hin).toLoadRect}
    {k : ((Rect.unit (s := S16x256x256) off S1x256x256.size hin).shape.Idx → Elt F e) → Prog (TpuEff nD τ sig (Elt F) Λ₀ .tc) α}
    (q : PosShare TreeShare) (f : Buf (Elt F) ((slotM b s).view.loc (c : Thread nD τ))) :
    (((slotM b s).view.loc (c : Thread nD τ) ↦[(slotM b s).view.set]{q} f) : sProp 𝕄)
      ⊢ iprop((((slotM b s).view.loc (c : Thread nD τ) ↦[(slotM b s).view.set]{q} f)
            -∗ wp frame (wpE (defs₀ (F := F)) 𝒱₀ c none) Set.univ (k ((b.access (slotRect s)).read (Elt F) f)) Q)
          -∗ wp frame (wpE (defs₀ (F := F)) 𝒱₀ c none) Set.univ
              (.op (.load b (Rect.unit (s := S16x256x256) off S1x256x256.size hin).toLoadRect hl) k) Q) := by
  subst hoff
  exact wp_load_rect 𝒱₀ (c : Thread nD τ) none Set.univ (m := b) (r := slotRect s)
    ((View.set_reshape (b.view.slice (slotRect s)) _).symm.subset)

/-- A store of `w` into slot `s` of a 16 × 256 × 256 buffer held by that slot. -/
theorem step_store_slot {e : EltTy} (b : Memref sig .tc .vmem S16x256x256 e) (c : Dev nD) (s : Fin 16) {α : Type} {Q : α → sProp 𝕄}
    {off : Fin 3 → ℕ} {hin : ∀ a, off a + S1x256x256.size a ≤ S16x256x256.size a} (hoff : off = ![s.val, 0, 0])
    {w : (Rect.unit (s := S16x256x256) off S1x256x256.size hin).shape.Idx → Elt F e}
    {hx : (b.access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (f : Buf (Elt F) ((slotM b s).view.loc (c : Thread nD τ))) :
    (((slotM b s).view.loc (c : Thread nD τ) ↦[(slotM b s).view.set]{fullShare} f) : sProp 𝕄)
      ⊢ iprop((((slotM b s).view.loc (c : Thread nD τ) ↦[(slotM b s).view.set]{fullShare} ((b.access (slotRect s)).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size hin) w Finset.univ hx hm) k) Q) := by
  subst hoff
  exact wp_store 𝒱₀ (c : Thread nD τ) none Set.univ (m := b) (r := slotRect s) (w := w) (Mk := Finset.univ)
    ((View.set_reshape (b.view.slice (slotRect s)) _).symm.subset)

/-- The store of the narrowed column block into slot `d` of the send buffer. -/
theorem step_store_send (c : Dev nD) (d : Fin 16) {α : Type} {Q : α → sProp 𝕄}
    {off : Fin 3 → ℕ} {hin : ∀ a, off a + S1x256x256.size a ≤ S16x256x256.size a} (hoff : off = ![d.val, 0, 0])
    {w : (Rect.unit (s := S16x256x256) off S1x256x256.size hin).shape.Idx → Elt F .bf16}
    {hx : ((sB : Memref sig .tc .vmem S16x256x256 .bf16).access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (f0 : Buf (Elt F) ((c : Thread nD τ).loc cc0_scratch1)) :
    (sPts c d f0 : sProp 𝕄)
      ⊢ iprop((sPts c d (((sB : Memref sig .tc .vmem S16x256x256 .bf16).access (slotRect d)).write (Elt F) f0 w Finset.univ)
            -∗ wp frame (wpE (defs₀ (F := F)) 𝒱₀ c none) Set.univ (k ⟨⟩) Q)
          -∗ wp frame (wpE (defs₀ (F := F)) 𝒱₀ c none) Set.univ
              (.op (.store (sB : Memref sig .tc .vmem S16x256x256 .bf16) (Rect.unit (s := S16x256x256) off S1x256x256.size hin) w Finset.univ hx hm) k) Q) := by
  unfold sPts
  exact step_store_slot sB c d hoff f0

/-- The store of the widened landed slot into slot `s` of the staging buffer. -/
theorem step_store_stage (c : Dev nD) (s : Fin 16) {α : Type} {Q : α → sProp 𝕄}
    {off : Fin 3 → ℕ} {hin : ∀ a, off a + S1x256x256.size a ≤ S16x256x256.size a} (hoff : off = ![s.val, 0, 0])
    {w : (Rect.unit (s := S16x256x256) off S1x256x256.size hin).shape.Idx → Elt F .f32}
    {hx : ((gB : Memref sig .tc .vmem S16x256x256 .f32).access (Rect.unit (s := S16x256x256) off S1x256x256.size hin)).Stores Finset.univ}
    {hm : (Finset.univ : Finset (Rect.unit (s := S16x256x256) off S1x256x256.size hin).shape.Idx) = Finset.univ ∨ ∀ a, (Rect.unit (s := S16x256x256) off S1x256x256.size hin).stride a = 1}
    {k : PUnit → Prog (TpuEff nD τ sig (Elt F) Λ₀ .tc) α}
    (g0 : Buf (Elt F) ((c : Thread nD τ).loc cc0_scratch3)) :
    (gPts c s g0 : sProp 𝕄)
      ⊢ iprop((gPts c s (((gB : Memref sig .tc .vmem S16x256x256 .f32).access (slotRect s)).write (Elt F) g0 w Finset.univ)
            -∗ wp frame (wpE (defs₀ (F := F)) 𝒱₀ c none) Set.univ (k ⟨⟩) Q)
          -∗ wp frame (wpE (defs₀ (F := F)) 𝒱₀ c none) Set.univ
              (.op (.store (gB : Memref sig .tc .vmem S16x256x256 .f32) (Rect.unit (s := S16x256x256) off S1x256x256.size hin) w Finset.univ hx hm) k) Q) := by
  unfold gPts
  exact step_store_slot gB c s hoff g0

/-- The load of slot `d` of the send buffer, the slot held. -/
theorem step_load_send (c : Dev nD) (d : Fin 16) {α : Type} {Q : α → sProp 𝕄}
    {off : Fin 3 → ℕ} {hin : ∀ a, off a + S1x256x256.size a ≤ S16x256x256.size a} (hoff : off = ![d.val, 0, 0])
    {hl : (sB : Memref sig .tc .vmem S16x256x256 .bf16).view.LoadsAt (Rect.unit (s := S16x256x256) off S1x256x256.size hin).toLoadRect}
    {k : ((Rect.unit (s := S16x256x256) off S1x256x256.size hin).shape.Idx → Elt F .bf16) → Prog (TpuEff nD τ sig (Elt F) Λ₀ .tc) α}
    (f : Buf (Elt F) ((c : Thread nD τ).loc cc0_scratch1)) :
    (sPts c d f : sProp 𝕄)
      ⊢ iprop((sPts c d f -∗ wp frame (wpE (defs₀ (F := F)) 𝒱₀ c none) Set.univ (k (((sB : Memref sig .tc .vmem S16x256x256 .bf16).access (slotRect d)).read (Elt F) f)) Q)
          -∗ wp frame (wpE (defs₀ (F := F)) 𝒱₀ c none) Set.univ
              (.op (.load (sB : Memref sig .tc .vmem S16x256x256 .bf16) (Rect.unit (s := S16x256x256) off S1x256x256.size hin).toLoadRect hl) k) Q) := by
  unfold sPts
  exact step_load_slot sB c d hoff fullShare f

/-- The load of the landed slot `s` of the receive buffer, the slot held. -/
theorem step_load_recv (c : Dev nD) (s : Fin 16) {α : Type} {Q : α → sProp 𝕄}
    {off : Fin 3 → ℕ} {hin : ∀ a, off a + S1x256x256.size a ≤ S16x256x256.size a} (hoff : off = ![s.val, 0, 0])
    {hl : (rB : Memref sig .tc .vmem S16x256x256 .bf16).view.LoadsAt (Rect.unit (s := S16x256x256) off S1x256x256.size hin).toLoadRect}
    {k : ((Rect.unit (s := S16x256x256) off S1x256x256.size hin).shape.Idx → Elt F .bf16) → Prog (TpuEff nD τ sig (Elt F) Λ₀ .tc) α}
    (f : Buf (Elt F) ((c : Thread nD τ).loc cc0_scratch2)) :
    (rPts c s f : sProp 𝕄)
      ⊢ iprop((rPts c s f -∗ wp frame (wpE (defs₀ (F := F)) 𝒱₀ c none) Set.univ (k (((rB : Memref sig .tc .vmem S16x256x256 .bf16).access (slotRect s)).read (Elt F) f)) Q)
          -∗ wp frame (wpE (defs₀ (F := F)) 𝒱₀ c none) Set.univ
              (.op (.load (rB : Memref sig .tc .vmem S16x256x256 .bf16) (Rect.unit (s := S16x256x256) off S1x256x256.size hin).toLoadRect hl) k) Q) := by
  unfold rPts
  exact step_load_slot rB c s hoff fullShare f

/-- The load of slot `s` of the staging buffer, the slot held. -/
theorem step_load_stage (c : Dev nD) (s : Fin 16) {α : Type} {Q : α → sProp 𝕄}
    {off : Fin 3 → ℕ} {hin : ∀ a, off a + S1x256x256.size a ≤ S16x256x256.size a} (hoff : off = ![s.val, 0, 0])
    {hl : (gB : Memref sig .tc .vmem S16x256x256 .f32).view.LoadsAt (Rect.unit (s := S16x256x256) off S1x256x256.size hin).toLoadRect}
    {k : ((Rect.unit (s := S16x256x256) off S1x256x256.size hin).shape.Idx → Elt F .f32) → Prog (TpuEff nD τ sig (Elt F) Λ₀ .tc) α}
    (f : Buf (Elt F) ((c : Thread nD τ).loc cc0_scratch3)) :
    (gPts c s f : sProp 𝕄)
      ⊢ iprop((gPts c s f -∗ wp frame (wpE (defs₀ (F := F)) 𝒱₀ c none) Set.univ (k (((gB : Memref sig .tc .vmem S16x256x256 .f32).access (slotRect s)).read (Elt F) f)) Q)
          -∗ wp frame (wpE (defs₀ (F := F)) 𝒱₀ c none) Set.univ
              (.op (.load (gB : Memref sig .tc .vmem S16x256x256 .f32) (Rect.unit (s := S16x256x256) off S1x256x256.size hin).toLoadRect hl) k) Q) := by
  unfold gPts
  exact step_load_slot gB c s hoff fullShare f

end Cert.KernelProof

end
-- ==== Proof.BitsOpen.lean ====
/-
  The beginning of a device's body.

  The launch hands a device its ghost state, its credit, its two arrays whole and its four scratch buffers whole.
  The body works cell by cell and piece by piece: the positions and tokens are dealt to the sixteen slots (the
  device's own, the fifteen destinations, the fifteen sources), the send, receive and staging buffers and the
  result array are cut into their sixteen pieces, each at what it happens to hold, and the argument array into its
  left half and the two pieces of its right half.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Transfer `r` on the sending side before anything is stored: phase 0 does not mention the vector-memory copy. -/
def sendSt0 (c : Dev nD) (r : Fin 15) : sProp 𝕄 :=
  iprop((∃ f, sPts c (peer c r) f) ∗ xferToks c r ∗ atPos ER (sendCell c (peer c r)) 0 ∅ 0)
theorem sendSt_zero (c : Dev nD) (fx : Buf (Elt F) ((c : Thread nD τ).loc cc0_scratch0)) (r : Fin 15) : sendSt m c fx r 0 = sendSt0 c r := rfl

/-- What part 2 needs beyond the signals' state, and everything the first two parts leave untouched. -/
def preRest (c : Dev nD) : sProp 𝕄 :=
  iprop(cred (tallyAt (barCell c) () 15)
    ∗ (∃ f, (xV : Memref sig .tc .vmem S256x4096 .f32).view.loc (c : Thread nD τ) ↦[(xV : Memref sig .tc .vmem S256x4096 .f32).view.set]{fullShare} f)
    ∗ ((xH : Memref sig .tc .hbm S256x4096 .f32).view.loc (c : Thread nD τ) ↦[(xH : Memref sig .tc .hbm S256x4096 .f32).view.set]{fullShare.left} X m c)
    ∗ ((xH : Memref sig .tc .hbm S256x4096 .f32).view.loc (c : Thread nD τ) ↦[(xH : Memref sig .tc .hbm S256x4096 .f32).view.set \ (colsM xH c).view.set]{fullShare.right} X m c)
    ∗ xcPts c c fullShare.right (X m c)
    ∗ (∃ fo, oPts c c fo)
    ∗ dutyTok ER (inCell c) 0 c ∗ dutyTok ER (outCell c c) 0 c
    ∗ atPos ER (inCell c) 0 ∅ 0 ∗ atPos ER (outCell c c) 0 ∅ 0
    ∗ (∃ f, sPts c c f) ∗ (∃ f, rPts c c f) ∗ (∃ f, gPts c c f)
    ∗ atPos ER (sendCell c c) 0 ∅ 0 ∗ atPos ER (recvCell c c) 0 ∅ 0 ∗ atPos ER (barCell c) 0 ∅ 0
    ∗ sendSt0 c 0 ∗ sendSt0 c 1 ∗ sendSt0 c 2 ∗ sendSt0 c 3 ∗ sendSt0 c 4 ∗ sendSt0 c 5 ∗ sendSt0 c 6 ∗ sendSt0 c 7 ∗ sendSt0 c 8 ∗ sendSt0 c 9 ∗ sendSt0 c 10 ∗ sendSt0 c 11 ∗ sendSt0 c 12 ∗ sendSt0 c 13 ∗ sendSt0 c 14
    ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0)

/-! ## Products over the kinds of cell and over the other devices -/

/-- The kinds of cell, listed: the barrier, the fetch, and three families of sixteen. -/
def opnCkEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem opn_bigSep_unit (Ψ : Unit → sProp 𝕄) : bigSep Finset.univ Ψ = Ψ () := by
  rw [show (Finset.univ : Finset Unit) = {()} from rfl, bigSep_singleton]

/-- A product over the kinds of cell, kind by kind. -/
theorem opn_bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv opnCkEquiv.symm Φ, bigSep_univ_sum, bigSep_univ_sum, bigSep_univ_sum, bigSep_univ_sum, opn_bigSep_unit, opn_bigSep_unit]
  rfl

/-- A product over the kinds of cell other than the barrier. -/
theorem opn_bigSep_CK_erase (Φ : CK → sProp 𝕄) :
    bigSep (Finset.univ.erase CK.bar) Φ = iprop(Φ .inn ∗ (bigSep Finset.univ fun s : Fin 16 => Φ (.out s)) ∗ (bigSep Finset.univ fun s : Fin 16 => Φ (.send s))
      ∗ bigSep Finset.univ fun s : Fin 16 => Φ (.recv s)) := by
  rw [← Finset.filter_ne' Finset.univ CK.bar, bigSep_filter, opn_bigSep_CK]
  simp only [ne_eq, not_true_eq_false, reduceCtorEq, not_false_eq_true, if_true, if_false]
  exact BI.equiv_iff.mp emp_sep

/-- The other devices are the fifteen destinations, -/
theorem opn_erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩
/-- and the fifteen sources. -/
theorem opn_erase_eq_src (c : Dev nD) : ((Finset.univ : Finset (Dev nD)).erase c) = Finset.univ.map ⟨src c, src_inj c⟩ := by
  ext d
  simp only [Finset.mem_erase, Finset.mem_univ, and_true, Finset.mem_map, Function.Embedding.coeFn_mk, true_and]
  exact ⟨fun h => exists_src c d h, fun ⟨r, hr⟩ => hr ▸ src_ne c r⟩

/-- A product over all sixteen devices: the device itself, then its fifteen destinations; -/
theorem opn_bigSep_self_peer (c : Dev nD) (Φ : Dev nD → sProp 𝕄) :
    bigSep Finset.univ Φ = iprop(Φ c ∗ bigSep Finset.univ fun r : Fin 15 => Φ (peer c r)) := by
  rw [bigSep_univ_at Φ c, opn_erase_eq_peer, bigSep_map]; rfl
/-- or the device itself, then its fifteen sources. -/
theorem opn_bigSep_self_src (c : Dev nD) (Φ : Dev nD → sProp 𝕄) :
    bigSep Finset.univ Φ = iprop(Φ c ∗ bigSep Finset.univ fun r : Fin 15 => Φ (src c r)) := by
  rw [bigSep_univ_at Φ c, opn_erase_eq_src, bigSep_map]; rfl

/-- The fifteen transfers, listed. -/
theorem opn15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-! ## The launch's ghost state, cell by cell -/

/-- The positions, kind by kind, the device's own slot first. -/
theorem pos_split (c : Dev nD) :
    (bigSep Finset.univ fun k : CK => atPos ER (kcell (c, k)) 0 ∅ 0 : sProp 𝕄)
      ⊢ iprop(atPos ER (barCell c) 0 ∅ 0 ∗ atPos ER (inCell c) 0 ∅ 0
        ∗ (atPos ER (outCell c c) 0 ∅ 0 ∗ bigSep Finset.univ fun r : Fin 15 => atPos ER (outCell c (src c r)) 0 ∅ 0)
        ∗ (atPos ER (sendCell c c) 0 ∅ 0 ∗ bigSep Finset.univ fun r : Fin 15 => atPos ER (sendCell c (peer c r)) 0 ∅ 0)
        ∗ (atPos ER (recvCell c c) 0 ∅ 0 ∗ bigSep Finset.univ fun r : Fin 15 => atPos ER (recvCell c (src c r)) 0 ∅ 0)) := by
  rw [opn_bigSep_CK,
    opn_bigSep_self_src c (fun s => (atPos ER (kcell (c, CK.out s)) 0 ∅ 0 : sProp 𝕄)),
    opn_bigSep_self_peer c (fun s => (atPos ER (kcell (c, CK.send s)) 0 ∅ 0 : sProp 𝕄)),
    opn_bigSep_self_src c (fun s => (atPos ER (kcell (c, CK.recv s)) 0 ∅ 0 : sProp 𝕄))]
  exact .rfl

/-- The tokens of the sixteen copies into the result array, the device's own first. -/
theorem outToks_split (c : Dev nD) :
    (bigSep Finset.univ fun s : Fin 16 => dutyTok ER (outCell c s) 0 c : sProp 𝕄)
      ⊢ iprop(dutyTok ER (outCell c c) 0 c ∗ bigSep Finset.univ fun r : Fin 15 => dutyTok ER (outCell c (src c r)) 0 c) := by
  rw [opn_bigSep_self_src c (fun s => (dutyTok ER (outCell c s) 0 c : sProp 𝕄))]

/-! ## The buffers, piece by piece, each at some contents -/

theorem sPts_ex (c : Dev nD) (s : Fin 16) (f : Buf (Elt F) ((c : Thread nD τ).loc cc0_scratch1)) :
    ((slotM (Memref.whole cc0_scratch1) s).view.loc (c : Thread nD τ) ↦[(slotM (Memref.whole cc0_scratch1) s).view.set]{fullShare} f : sProp 𝕄)
      ⊢ iprop(∃ f, sPts c s f) := by
  iintro H; iexists f; unfold sPts; iexact H
theorem rPts_ex (c : Dev nD) (s : Fin 16) (f : Buf (Elt F) ((c : Thread nD τ).loc cc0_scratch2)) :
    ((slotM (Memref.whole cc0_scratch2) s).view.loc (c : Thread nD τ) ↦[(slotM (Memref.whole cc0_scratch2) s).view.set]{fullShare} f : sProp 𝕄)
      ⊢ iprop(∃ f, rPts c s f) := by
  iintro H; iexists f; unfold rPts; iexact H
theorem gPts_ex (c : Dev nD) (s : Fin 16) (f : Buf (Elt F) ((c : Thread nD τ).loc cc0_scratch3)) :
    ((slotM (Memref.whole cc0_scratch3) s).view.loc (c : Thread nD τ) ↦[(slotM (Memref.whole cc0_scratch3) s).view.set]{fullShare} f : sProp 𝕄)
      ⊢ iprop(∃ f, gPts c s f) := by
  iintro H; iexists f; unfold gPts; iexact H
theorem oPts_ex (c : Dev nD) (s : Fin 16) (f : Buf (Elt F) ((c : Thread nD τ).loc main_v1)) :
    ((rowsM (Memref.whole main_v1) s).view.loc (c : Thread nD τ) ↦[(rowsM (Memref.whole main_v1) s).view.set]{fullShare} f : sProp 𝕄)
      ⊢ iprop(∃ f, oPts c s f) := by
  iintro H; iexists f; unfold oPts; iexact H

/-- The send buffer: its own slot, and the slots of the fifteen destinations. -/
theorem scr1_split (c : Dev nD) :
    (iprop(∃ f : Buf (Elt F) ((c : Thread nD τ).loc cc0_scratch1), ((c : Thread nD τ).loc cc0_scratch1) ↦{fullShare} f) : sProp 𝕄)
      ⊢ iprop((∃ f, sPts c c f) ∗ bigSep Finset.univ fun r : Fin 15 => iprop(∃ f, sPts c (peer c r) f)) := by
  iintro ⟨%f, H⟩
  iapply (show (bigSep Finset.univ fun s : Fin 16 => ((slotM (Memref.whole cc0_scratch1) s).view.loc (c : Thread nD τ)
        ↦[(slotM (Memref.whole cc0_scratch1) s).view.set]{fullShare} f) : sProp 𝕄)
      ⊢ iprop((∃ f, sPts c c f) ∗ bigSep Finset.univ fun r : Fin 15 => iprop(∃ f, sPts c (peer c r) f)) from by
    rw [opn_bigSep_self_peer c (fun s => (((slotM (Memref.whole cc0_scratch1) s).view.loc (c : Thread nD τ)
        ↦[(slotM (Memref.whole cc0_scratch1) s).view.set]{fullShare} f) : sProp 𝕄))]
    exact BIClass.sep_mono (sPts_ex c c f) (bigSep_mono fun r _ => sPts_ex c (peer c r) f))
  iapply (slots_split_s1 c fullShare f)
  iexact H

/-- The receive buffer: its own slot, and the slots of the fifteen other devices. -/
theorem scr2_split (c : Dev nD) :
    (iprop(∃ f : Buf (Elt F) ((c : Thread nD τ).loc cc0_scratch2), ((c : Thread nD τ).loc cc0_scratch2) ↦{fullShare} f) : sProp 𝕄)
      ⊢ iprop((∃ f, rPts c c f) ∗ bigSep (Finset.univ.erase c) fun j : Dev nD => iprop(∃ f, rPts c j f)) := by
  iintro ⟨%f, H⟩
  iapply (show (bigSep Finset.univ fun s : Fin 16 => ((slotM (Memref.whole cc0_scratch2) s).view.loc (c : Thread nD τ)
        ↦[(slotM (Memref.whole cc0_scratch2) s).view.set]{fullShare} f) : sProp 𝕄)
      ⊢ iprop((∃ f, rPts c c f) ∗ bigSep (Finset.univ.erase c) fun j : Dev nD => iprop(∃ f, rPts c j f)) from by
    rw [bigSep_univ_at (fun s : Fin 16 => (((slotM (Memref.whole cc0_scratch2) s).view.loc (c : Thread nD τ)
        ↦[(slotM (Memref.whole cc0_scratch2) s).view.set]{fullShare} f) : sProp 𝕄)) c]
    exact BIClass.sep_mono (rPts_ex c c f) (bigSep_mono fun j _ => rPts_ex c j f))
  iapply (slots_split_s2 c fullShare f)
  iexact H

/-- The staging buffer: its own slot, and the slots of the fifteen sources. -/
theorem scr3_split (c : Dev nD) :
    (iprop(∃ f : Buf (Elt F) ((c : Thread nD τ).loc cc0_scratch3), ((c : Thread nD τ).loc cc0_scratch3) ↦{fullShare} f) : sProp 𝕄)
      ⊢ iprop((∃ f, gPts c c f) ∗ bigSep Finset.univ fun r : Fin 15 => iprop(∃ f, gPts c (src c r) f)) := by
  iintro ⟨%f, H⟩
  iapply (show (bigSep Finset.univ fun s : Fin 16 => ((slotM (Memref.whole cc0_scratch3) s).view.loc (c : Thread nD τ)
        ↦[(slotM (Memref.whole cc0_scratch3) s).view.set]{fullShare} f) : sProp 𝕄)
      ⊢ iprop((∃ f, gPts c c f) ∗ bigSep Finset.univ fun r : Fin 15 => iprop(∃ f, gPts c (src c r) f)) from by
    rw [opn_bigSep_self_src c (fun s => (((slotM (Memref.whole cc0_scratch3) s).view.loc (c : Thread nD τ)
        ↦[(slotM (Memref.whole cc0_scratch3) s).view.set]{fullShare} f) : sProp 𝕄))]
    exact BIClass.sep_mono (gPts_ex c c f) (bigSep_mono fun r _ => gPts_ex c (src c r) f))
  iapply (slots_split_s3 c fullShare f)
  iexact H

/-- The result array: its own row block, and the row blocks of the fifteen sources. -/
theorem v1_split (c : Dev nD) :
    (iprop(∃ f : Buf (Elt F) ((c : Thread nD τ).loc main_v1), ((c : Thread nD τ).loc main_v1) ↦{fullShare} f) : sProp 𝕄)
      ⊢ iprop((∃ f, oPts c c f) ∗ bigSep Finset.univ fun r : Fin 15 => iprop(∃ f, oPts c (src c r) f)) := by
  iintro ⟨%f, H⟩
  iapply (show (bigSep Finset.univ fun s : Fin 16 => ((rowsM (Memref.whole main_v1) s).view.loc (c : Thread nD τ)
        ↦[(rowsM (Memref.whole main_v1) s).view.set]{fullShare} f) : sProp 𝕄)
      ⊢ iprop((∃ f, oPts c c f) ∗ bigSep Finset.univ fun r : Fin 15 => iprop(∃ f, oPts c (src c r) f)) from by
    rw [opn_bigSep_self_src c (fun s => (((rowsM (Memref.whole main_v1) s).view.loc (c : Thread nD τ)
        ↦[(rowsM (Memref.whole main_v1) s).view.set]{fullShare} f) : sProp 𝕄))]
    exact BIClass.sep_mono (oPts_ex c c f) (bigSep_mono fun r _ => oPts_ex c (src c r) f))
  iapply (rows_split_v1 c fullShare f)
  iexact H

/-- The argument array: its left half whole, its right half cut into column block `c` and the rest. -/
theorem arg_split (c : Dev nD) :
    ((((c : Thread nD τ).loc main_arg0) ↦{fullShare} X m c) : sProp 𝕄)
      ⊢ iprop(((xH : Memref sig .tc .hbm S256x4096 .f32).view.loc (c : Thread nD τ) ↦[(xH : Memref sig .tc .hbm S256x4096 .f32).view.set]{fullShare.left} X m c)
        ∗ ((xH : Memref sig .tc .hbm S256x4096 .f32).view.loc (c : Thread nD τ) ↦[(xH : Memref sig .tc .hbm S256x4096 .f32).view.set \ (colsM xH c).view.set]{fullShare.right} X m c)
        ∗ xcPts c c fullShare.right (X m c)) := by
  have hsub : (colsM (xH : Memref sig .tc .hbm S256x4096 .f32) c).view.set ⊆ (xH : Memref sig .tc .hbm S256x4096 .f32).view.set :=
    View.set_slice_subset _ _
  have hset : (xH : Memref sig .tc .hbm S256x4096 .f32).view.set = Finset.univ := View.set_whole _
  iintro H
  ihave H' : ((xH : Memref sig .tc .hbm S256x4096 .f32).view.loc (c : Thread nD τ) ↦[(xH : Memref sig .tc .hbm S256x4096 .f32).view.set]{fullShare} X m c) $$ [H]
  · rw [hset]; iexact H
  icases (pointsTo_share (ℓ := (xH : Memref sig .tc .hbm S256x4096 .f32).view.loc (c : Thread nD τ))
      (I := (xH : Memref sig .tc .hbm S256x4096 .f32).view.set) (f := X m c) (PosShare.mem_left_op_right fullShare)).1 $$ H' with ⟨Hl, Hr⟩
  icases (pointsTo_split_subset (ℓ := (xH : Memref sig .tc .hbm S256x4096 .f32).view.loc (c : Thread nD τ))
      (q := fullShare.right) (f := X m c) hsub).1 $$ Hr with ⟨Hc, Hrest⟩
  isplitl [Hl]; · iexact Hl
  isplitl [Hrest]; · iexact Hrest
  unfold xcPts
  iexact Hc

/-! ## The transfers' starting states -/

/-- Transfer `r` on the sending side: its slot, its two tokens, its position. -/
theorem send_piece0 (c : Dev nD) (r : Fin 15) :
    (iprop((∃ f, sPts c (peer c r) f)
        ∗ (dutyTok ER (recvCell (peer c r) c) 0 (peer c r) ∗ dutyTok ER (sendCell c (peer c r)) 0 c)
        ∗ atPos ER (sendCell c (peer c r)) 0 ∅ 0) : sProp 𝕄)
      ⊢ sendSt0 c r := by
  unfold sendSt0 xferToks
  iintro ⟨Hs, ⟨HtR, HtS⟩, Hat⟩
  isplitl [Hs]; · iexact Hs
  isplitl [HtS HtR]
  · isplitl [HtS]; · iexact HtS
    iexact HtR
  iexact Hat

/-- The fifteen transfers on the sending side, from the three families. -/
theorem send_family0 (c : Dev nD) :
    (iprop((bigSep Finset.univ fun r : Fin 15 => iprop(∃ f, sPts c (peer c r) f))
        ∗ (bigSep Finset.univ fun r : Fin 15 => iprop(dutyTok ER (recvCell (peer c r) c) 0 (peer c r) ∗ dutyTok ER (sendCell c (peer c r)) 0 c))
        ∗ bigSep Finset.univ fun r : Fin 15 => atPos ER (sendCell c (peer c r)) 0 ∅ 0) : sProp 𝕄)
      ⊢ bigSep Finset.univ fun r : Fin 15 => sendSt0 c r := by
  rw [← bigSep_sep', ← bigSep_sep']
  exact bigSep_mono fun r _ => send_piece0 c r

/-- The fifteen blocks on the receiving side, from the six families. -/
theorem recv_family0 (c : Dev nD) :
    (iprop((bigSep Finset.univ fun r : Fin 15 => cred (tallyAt (recvCell c (src c r)) () Nb))
        ∗ (bigSep Finset.univ fun r : Fin 15 => atPos ER (recvCell c (src c r)) 0 ∅ 0)
        ∗ (bigSep Finset.univ fun r : Fin 15 => iprop(∃ g, gPts c (src c r) g))
        ∗ (bigSep Finset.univ fun r : Fin 15 => iprop(∃ f, oPts c (src c r) f))
        ∗ (bigSep Finset.univ fun r : Fin 15 => dutyTok ER (outCell c (src c r)) 0 c)
        ∗ bigSep Finset.univ fun r : Fin 15 => atPos ER (outCell c (src c r)) 0 ∅ 0) : sProp 𝕄)
      ⊢ bigSep Finset.univ fun r : Fin 15 => recvSt m c r 0 := by
  rw [← bigSep_sep', ← bigSep_sep', ← bigSep_sep', ← bigSep_sep', ← bigSep_sep']
  exact bigSep_mono fun r _ => .refl _

/-- The barrier units still to send, each with the slot of the receive buffer it carries. -/
theorem sig_family (c : Dev nD) :
    (iprop((bigSep (Finset.univ.erase c) fun j : Dev nD => dutyTok ER (barCell j) 0 c)
        ∗ bigSep (Finset.univ.erase c) fun j : Dev nD => iprop(∃ f, rPts c j f)) : sProp 𝕄)
      ⊢ bigSep (pend c 0) fun j => iprop(dutyTok ER (barCell j) 0 c ∗ ∃ f, rPts c j f) := by
  rw [pend_zero, ← bigSep_sep']

/-- Two families of fifteen, as one chain. -/
theorem chain30 (Φ Ψ : Fin 15 → sProp 𝕄) :
    iprop(bigSep Finset.univ Φ ∗ bigSep Finset.univ Ψ)
      ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14
        ∗ Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14) := by
  rw [opn15 Φ, opn15 Ψ]
  iintro ⟨⟨a0, a1, a2, a3, a4, a5, a6, a7, a8, a9, a10, a11, a12, a13, a14⟩, b⟩
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [a8]; · iexact a8
  isplitl [a9]; · iexact a9
  isplitl [a10]; · iexact a10
  isplitl [a11]; · iexact a11
  isplitl [a12]; · iexact a12
  isplitl [a13]; · iexact a13
  isplitl [a14]; · iexact a14
  iexact b

/-- From what the launch hands a device (its ghost state, its credit, its two arrays and its four scratch buffers,
    what it owes) to the state the first conditional signal starts from. -/
theorem open0 (K : Dev nD × CK → ℕ) (c : Dev nD) (W : Waits sig Unit) :
    iprop(ghost m K c ∗ launchCreds c
        ∗ (((c : Thread nD τ).loc main_arg0) ↦{fullShare} X m c)
        ∗ (∃ f : Buf (Elt F) ((c : Thread nD τ).loc main_v1), (((c : Thread nD τ).loc main_v1) ↦{fullShare} f))
        ∗ scratch c ∗ owes (c : Thread nD τ) (O₀ c) W)
      ⊢ iprop(records m K ∗ SigSt c 0 W ∗ preRest m c) := by
  unfold ghost linear payToks launchCreds scratch
  iintro ⟨⟨#HR, Hpos, HtB, HtX, HtI, HtO⟩, ⟨HcB, HcR⟩, Harg, Hv1, ⟨H0, H1, H2, H3⟩, HO⟩
  icases (pos_split c) $$ Hpos with ⟨PB, PI, ⟨POc, POr⟩, ⟨PSc, PSr⟩, ⟨PRc, PRr⟩⟩
  icases (outToks_split c) $$ HtO with ⟨TOc, TOr⟩
  icases (scr1_split c) $$ H1 with ⟨S1c, S1r⟩
  icases (scr2_split c) $$ H2 with ⟨S2c, S2r⟩
  icases (scr3_split c) $$ H3 with ⟨S3c, S3r⟩
  icases (v1_split c) $$ Hv1 with ⟨Voc, Vor⟩
  icases (arg_split m c) $$ Harg with ⟨Al, Ar, Ac⟩
  isplitr; · iexact HR
  isplitl [HO HtB S2r]
  · unfold SigSt
    isplitl [HO]; · iexact HO
    iapply (sig_family c)
    isplitl [HtB]; · iexact HtB
    iexact S2r
  unfold preRest
  isplitl [HcB]; · iexact HcB
  isplitl [H0]
  · icases H0 with ⟨%f, H0⟩
    iexists f
    rw [show (xV : Memref sig .tc .vmem S256x4096 .f32).view.set = Finset.univ from View.set_whole _]
    iexact H0
  isplitl [Al]; · iexact Al
  isplitl [Ar]; · iexact Ar
  isplitl [Ac]; · iexact Ac
  isplitl [Voc]; · iexact Voc
  isplitl [HtI]; · iexact HtI
  isplitl [TOc]; · iexact TOc
  isplitl [PI]; · iexact PI
  isplitl [POc]; · iexact POc
  isplitl [S1c]; · iexact S1c
  isplitl [S2c]; · iexact S2c
  isplitl [S3c]; · iexact S3c
  isplitl [PSc]; · iexact PSc
  isplitl [PRc]; · iexact PRc
  isplitl [PB]; · iexact PB
  iapply (chain30 (fun r => sendSt0 c r) (fun r => recvSt m c r 0))
  isplitl [S1r HtX PSr]
  · iapply (send_family0 c)
    isplitl [S1r]; · iexact S1r
    isplitl [HtX]; · iexact HtX
    iexact PSr
  · iapply (recv_family0 m c)
    isplitl [HcR]; · iexact HcR
    isplitl [PRr]; · iexact PRr
    isplitl [S3r]; · iexact S3r
    isplitl [Vor]; · iexact Vor
    isplitl [TOr]; · iexact TOr
    iexact POr

/-- info: 'Cert.KernelProof.open0' depends on axioms: [propext, Classical.choice, Quot.sound] -/
#guard_msgs in #print axioms open0

end Cert.KernelProof

end
-- ==== Proof.BitsFinish.lean ====
/-
  The end of a device's body.

  After the last wait every transfer is over: each cell of the forty-nine copy semaphores stands at a round from
  which it has no duty, so it can be closed and its counter read at zero; the send, receive and staging buffers
  are their sixteen slots again, the argument array its two halves, and the result array its sixteen row blocks,
  each at what the copy into it left.
-/
import proofs.«900406_g7700000000000407_dist_a2a_v7x_i16_i_m256_n256_bf16_1_alg».proof.Proof.BitsStates

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Products over the kinds of cell and over the other devices -/

/-- The kinds of cell, listed: the barrier, the fetch, and three families of sixteen. -/
def finCkEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem fin_bigSep_unit (Ψ : Unit → sProp 𝕄) : bigSep Finset.univ Ψ = Ψ () := by
  rw [show (Finset.univ : Finset Unit) = {()} from rfl, bigSep_singleton]

/-- A product over the kinds of cell, kind by kind. -/
theorem fin_bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv finCkEquiv.symm Φ, bigSep_univ_sum, bigSep_univ_sum, bigSep_univ_sum, bigSep_univ_sum, fin_bigSep_unit, fin_bigSep_unit]
  rfl

/-- A product over the kinds of cell other than the barrier. -/
theorem fin_bigSep_CK_erase (Φ : CK → sProp 𝕄) :
    bigSep (Finset.univ.erase CK.bar) Φ = iprop(Φ .inn ∗ (bigSep Finset.univ fun s : Fin 16 => Φ (.out s)) ∗ (bigSep Finset.univ fun s : Fin 16 => Φ (.send s))
      ∗ bigSep Finset.univ fun s : Fin 16 => Φ (.recv s)) := by
  rw [← Finset.filter_ne' Finset.univ CK.bar, bigSep_filter, fin_bigSep_CK]
  simp only [ne_eq, not_true_eq_false, reduceCtorEq, not_false_eq_true, if_true, if_false]
  exact BI.equiv_iff.mp emp_sep

/-- The other devices are the fifteen destinations, -/
theorem fin_erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩
/-- and the fifteen sources. -/
theorem fin_erase_eq_src (c : Dev nD) : ((Finset.univ : Finset (Dev nD)).erase c) = Finset.univ.map ⟨src c, src_inj c⟩ := by
  ext d
  simp only [Finset.mem_erase, Finset.mem_univ, and_true, Finset.mem_map, Function.Embedding.coeFn_mk, true_and]
  exact ⟨fun h => exists_src c d h, fun ⟨r, hr⟩ => hr ▸ src_ne c r⟩

/-- A product over all sixteen devices: the device itself, then its fifteen destinations; -/
theorem fin_bigSep_self_peer (c : Dev nD) (Φ : Dev nD → sProp 𝕄) :
    bigSep Finset.univ Φ = iprop(Φ c ∗ bigSep Finset.univ fun r : Fin 15 => Φ (peer c r)) := by
  rw [bigSep_univ_at Φ c, fin_erase_eq_peer, bigSep_map]; rfl
/-- or the device itself, then its fifteen sources. -/
theorem fin_bigSep_self_src (c : Dev nD) (Φ : Dev nD → sProp 𝕄) :
    bigSep Finset.univ Φ = iprop(Φ c ∗ bigSep Finset.univ fun r : Fin 15 => Φ (src c r)) := by
  rw [bigSep_univ_at Φ c, fin_erase_eq_src, bigSep_map]; rfl

/-! ## Closing the cells -/

/-- Every cell's invariant is among the records. -/
theorem fin_inv (K : Dev nD × CK → ℕ) (c : Dev nD) (k : CK) :
    records m K ⊢ cellInv ER (a2a m) (K (c, k)) (kcell (c, k)) := by
  unfold records
  exact (BI.sep_and.trans BI.and_elimL).trans
    (bigSep_elim (Φ := fun ck : Dev nD × CK => cellInv ER (a2a m) (K ck) (kcell ck)) (Finset.mem_univ ((c, k) : Dev nD × CK)))

/-- A cell standing at a round from which it has no duty closes, its counter at zero. -/
theorem close_cell (K : Dev nD × CK → ℕ) (c : Dev nD) (k : CK) (R : ℕ)
    (hR : ∀ r, R ≤ r → (a2a (F := F) m).duties (kcell (c, k)) r = ∅) :
    iprop(records m K ∗ atPos ER (kcell (c, k)) R ∅ 0) ⊢ iprop(|={Set.univ}=> semVal (kcell (c, k)) 0) := by
  iintro ⟨#HR, Hat⟩
  iapply (Rounds.cell_close ER (a2a m) (Set.mem_univ (K (c, k))) (fun h => h) hR)
  isplitr
  · iapply (fin_inv m K c k); iexact HR
  · iexact Hat

/-- A departure waited for: the slot of the send buffer, and the cell closed. -/
theorem close_send (K : Dev nD × CK → ℕ) (c : Dev nD) (fx : Buf (Elt F) ((c : Thread nD τ).loc cc0_scratch0)) (r : Fin 15) :
    iprop(records m K ∗ sendSt m c fx r 4)
      ⊢ iprop(|={Set.univ}=> ((∃ f, sPts c (peer c r) f) ∗ semVal (sendCell c (peer c r)) 0)) := by
  show iprop(records m K ∗ ((∃ f, sPts c (peer c r) f) ∗ atPos ER (sendCell c (peer c r)) 1 ∅ 0)) ⊢ _
  iintro ⟨#HR, Hs, Hat⟩
  imod (close_cell m K c (.send (peer c r)) 1 (fun r' h => duties_later m _ r' h)) $$ [Hat] with Hv
  · isplitr; · iexact HR
    iexact Hat
  imodintro
  isplitl [Hs]; · iexact Hs
  iexact Hv

/-- An arrival written to the result array: the slot of the receive buffer, what the copy left, and both cells closed. -/
theorem close_recv (K : Dev nD × CK → ℕ) (c : Dev nD) (r : Fin 15) :
    iprop(records m K ∗ recvSt m c r 3)
      ⊢ iprop(|={Set.univ}=> ((∃ f, rPts c (src c r) f) ∗ outPay m c (src c r)
          ∗ semVal (recvCell c (src c r)) 0 ∗ semVal (outCell c (src c r)) 0)) := by
  show iprop(records m K ∗ ((∃ f, rPts c (src c r) f) ∗ atPos ER (recvCell c (src c r)) 1 ∅ 0
      ∗ outPay m c (src c r) ∗ atPos ER (outCell c (src c r)) 1 ∅ 0)) ⊢ _
  iintro ⟨#HR, Hr, HatR, Hp, HatO⟩
  imod (close_cell m K c (.recv (src c r)) 1 (fun r' h => duties_later m _ r' h)) $$ [HatR] with HvR
  · isplitr; · iexact HR
    iexact HatR
  imod (close_cell m K c (.out (src c r)) 1 (fun r' h => duties_later m _ r' h)) $$ [HatO] with HvO
  · isplitr; · iexact HR
    iexact HatO
  imodintro
  isplitl [Hr]; · iexact Hr
  isplitl [Hp]; · iexact Hp
  isplitl [HvR]; · iexact HvR
  iexact HvO

/-! ## The buffers whole again -/

/-- The counters of the forty-nine copy semaphores, kind by kind, the device's own slot first. -/
theorem sems_join (c : Dev nD) :
    iprop(semVal (inCell c) 0
        ∗ (semVal (outCell c c) 0 ∗ bigSep Finset.univ fun r : Fin 15 => semVal (outCell c (src c r)) 0)
        ∗ (semVal (sendCell c c) 0 ∗ bigSep Finset.univ fun r : Fin 15 => semVal (sendCell c (peer c r)) 0)
        ∗ (semVal (recvCell c c) 0 ∗ bigSep Finset.univ fun r : Fin 15 => semVal (recvCell c (src c r)) 0))
      ⊢ (bigSep (Finset.univ.erase CK.bar) fun k : CK => semVal (kcell (c, k)) 0 : sProp 𝕄) := by
  rw [fin_bigSep_CK_erase,
    fin_bigSep_self_src c (fun s => (semVal (kcell (c, CK.out s)) 0 : sProp 𝕄)),
    fin_bigSep_self_peer c (fun s => (semVal (kcell (c, CK.send s)) 0 : sProp 𝕄)),
    fin_bigSep_self_src c (fun s => (semVal (kcell (c, CK.recv s)) 0 : sProp 𝕄))]
  exact .rfl

/-- The send buffer from its sixteen slots. -/
theorem scr1_join (c : Dev nD) :
    iprop((∃ f, sPts c c f) ∗ bigSep Finset.univ fun r : Fin 15 => iprop(∃ f, sPts c (peer c r) f))
      ⊢ (iprop(∃ f : Buf (Elt F) ((c : Thread nD τ).loc cc0_scratch1), ((c : Thread nD τ).loc cc0_scratch1) ↦{fullShare} f) : sProp 𝕄) := by
  refine Entails.trans (Entails.of_eq ?_) (slots_join_s1 c fullShare)
  rw [fin_bigSep_self_peer c (fun s => (iprop(∃ f, (slotM (Memref.whole cc0_scratch1) s).view.loc (c : Thread nD τ)
        ↦[(slotM (Memref.whole cc0_scratch1) s).view.set]{fullShare} f) : sProp 𝕄))]
  rfl

/-- The receive buffer from its sixteen slots. -/
theorem scr2_join (c : Dev nD) :
    iprop((∃ f, rPts c c f) ∗ bigSep Finset.univ fun r : Fin 15 => iprop(∃ f, rPts c (src c r) f))
      ⊢ (iprop(∃ f : Buf (Elt F) ((c : Thread nD τ).loc cc0_scratch2), ((c : Thread nD τ).loc cc0_scratch2) ↦{fullShare} f) : sProp 𝕄) := by
  refine Entails.trans (Entails.of_eq ?_) (slots_join_s2 c fullShare)
  rw [fin_bigSep_self_src c (fun s => (iprop(∃ f, (slotM (Memref.whole cc0_scratch2) s).view.loc (c : Thread nD τ)
        ↦[(slotM (Memref.whole cc0_scratch2) s).view.set]{fullShare} f) : sProp 𝕄))]
  rfl

/-- The staging buffer from its sixteen slots. -/
theorem scr3_join (c : Dev nD) :
    iprop((∃ f, gPts c c f) ∗ bigSep Finset.univ fun r : Fin 15 => iprop(∃ f, gPts c (src c r) f))
      ⊢ (iprop(∃ f : Buf (Elt F) ((c : Thread nD τ).loc cc0_scratch3), ((c : Thread nD τ).loc cc0_scratch3) ↦{fullShare} f) : sProp 𝕄) := by
  refine Entails.trans (Entails.of_eq ?_) (slots_join_s3 c fullShare)
  rw [fin_bigSep_self_src c (fun s => (iprop(∃ f, (slotM (Memref.whole cc0_scratch3) s).view.loc (c : Thread nD τ)
        ↦[(slotM (Memref.whole cc0_scratch3) s).view.set]{fullShare} f) : sProp 𝕄))]
  rfl

/-- The argument array from its left half and the two pieces of its right half. -/
theorem arg_join (c : Dev nD) :
    iprop(((xH : Memref sig .tc .hbm S256x4096 .f32).view.loc (c : Thread nD τ) ↦[(xH : Memref sig .tc .hbm S256x4096 .f32).view.set]{fullShare.left} X m c)
        ∗ ((xH : Memref sig .tc .hbm S256x4096 .f32).view.loc (c : Thread nD τ) ↦[(xH : Memref sig .tc .hbm S256x4096 .f32).view.set \ (colsM xH c).view.set]{fullShare.right} X m c)
        ∗ xcPts c c fullShare.right (X m c))
      ⊢ ((((c : Thread nD τ).loc main_arg0) ↦{fullShare} X m c) : sProp 𝕄) := by
  have hsub : (colsM (xH : Memref sig .tc .hbm S256x4096 .f32) c).view.set ⊆ (xH : Memref sig .tc .hbm S256x4096 .f32).view.set :=
    View.set_slice_subset _ _
  iintro ⟨Hl, Hrest, Hc⟩
  unfold xcPts
  ihave Hr := (pointsTo_split_subset (ℓ := (xH : Memref sig .tc .hbm S256x4096 .f32).view.loc (c : Thread nD τ))
      (q := fullShare.right) (f := X m c) hsub).2 $$ [Hc Hrest]
  · isplitl [Hc]; · iexact Hc
    iexact Hrest
  ihave H := (pointsTo_share (ℓ := (xH : Memref sig .tc .hbm S256x4096 .f32).view.loc (c : Thread nD τ))
      (I := (xH : Memref sig .tc .hbm S256x4096 .f32).view.set) (f := X m c) (PosShare.mem_left_op_right fullShare)).2 $$ [Hl Hr]
  · isplitl [Hl]; · iexact Hl
    iexact Hr
  rw [show (xH : Memref sig .tc .hbm S256x4096 .f32).view.set = Finset.univ from View.set_whole _] at *
  iexact H

/-! ## The result array from its sixteen row blocks -/

/-- What the buffers held before the steps that fill one row block. -/
structure Seed (c : Dev nD) where
  fo : Buf (Elt F) ((c : Thread nD τ).loc main_v1)
  g0 : Buf (Elt F) ((c : Thread nD τ).loc cc0_scratch3)
  fd : Buf (Elt F) ((c : Thread nD τ).loc cc0_scratch2)
  fx : Buf (Elt F) ((c : Thread nD τ).loc cc0_scratch0)
  f0 : Buf (Elt F) ((c : Thread nD τ).loc cc0_scratch1)

/-- The result array's contents after the copy into row block `s`, from that block's seeds. -/
def rowOf (c : Dev nD) (s : Fin 16) (t : Seed (F := F) c) : Buf (Elt F) ((c : Thread nD τ).loc main_v1) :=
  if s = c then ownF m c t.fo else outF m c s t.fo t.g0 t.fd t.fx t.f0

/-- Sixteen row blocks, each at what its copy left from seeds of its own, are the result array at the end. -/
theorem out_join (c : Dev nD) (t₀ : Seed (F := F) c) :
    (bigSep Finset.univ fun s : Fin 16 => iprop(∃ t : Seed (F := F) c, oPts c s (rowOf m c s t)))
      ⊢ (iprop(∃ σ : Seeds (F := F) c, ((c : Thread nD τ).loc main_v1) ↦{fullShare} joinedF m c σ) : sProp 𝕄) := by
  have : Nonempty (Seed (F := F) c) := ⟨t₀⟩
  refine (Idealize.SL.BI.bigSep_exists_pi Finset.univ (fun (s : Fin 16) (t : Seed (F := F) c) => (oPts c s (rowOf m c s t) : sProp 𝕄))).trans ?_
  iintro ⟨%T, H⟩
  iexists (⟨fun s => (T s).fo, fun s => (T s).g0, fun s => (T s).fd, fun s => (T s).fx, fun s => (T s).f0⟩ : Seeds (F := F) c)
  iapply (rows_join_v1 c fullShare (fun s => rowOf m c s (T s)))
  iexact H

/-- The device's own row block under its seeds. -/
theorem out_own (c : Dev nD) (t₀ : Seed (F := F) c) :
    (iprop(∃ fo, oPts c c (ownF m c fo)) : sProp 𝕄) ⊢ iprop(∃ t : Seed (F := F) c, oPts c c (rowOf m c c t)) := by
  iintro ⟨%fo, H⟩
  iexists (⟨fo, t₀.g0, t₀.fd, t₀.fx, t₀.f0⟩ : Seed (F := F) c)
  rw [show rowOf m c c ⟨fo, t₀.g0, t₀.fd, t₀.fx, t₀.f0⟩ = ownF m c fo from if_pos rfl]
  iexact H

/-- Another device's row block under its seeds. -/
theorem out_other (c : Dev nD) (r : Fin 15) :
    (iprop(∃ fo g0 fd fx f0, oPts c (src c r) (outF m c (src c r) fo g0 fd fx f0)) : sProp 𝕄)
      ⊢ iprop(∃ t : Seed (F := F) c, oPts c (src c r) (rowOf m c (src c r) t)) := by
  iintro ⟨%fo, %g0, %fd, %fx, %f0, H⟩
  iexists (⟨fo, g0, fd, fx, f0⟩ : Seed (F := F) c)
  rw [show rowOf m c (src c r) ⟨fo, g0, fd, fx, f0⟩ = outF m c (src c r) fo g0 fd fx f0 from if_neg (src_ne c r)]
  iexact H

/-- The device's own row block and the fifteen others, each under its own seeds, as one family. -/
theorem out_family (c : Dev nD) (t₀ : Seed (F := F) c) :
    iprop((∃ fo, oPts c c (ownF m c fo))
        ∗ bigSep Finset.univ fun r : Fin 15 => iprop(∃ fo g0 fd fx f0, oPts c (src c r) (outF m c (src c r) fo g0 fd fx f0)))
      ⊢ (bigSep Finset.univ fun s : Fin 16 => iprop(∃ t : Seed (F := F) c, oPts c s (rowOf m c s t)) : sProp 𝕄) := by
  rw [fin_bigSep_self_src c (fun s => (iprop(∃ t : Seed (F := F) c, oPts c s (rowOf m c s t)) : sProp 𝕄))]
  exact BIClass.sep_mono (out_own m c t₀) (bigSep_mono fun r _ => out_other m c r)

/-! ## Updates over a family -/

/-- A persistent assertion goes to every member of a family. -/
theorem bigSep_persistent_frame {I : Type} [DecidableEq I] (S : Finset I) (P : sProp 𝕄) [BI.Persistent P] (Φ : I → sProp 𝕄) :
    iprop(P ∗ bigSep S Φ) ⊢ bigSep S fun i => iprop(P ∗ Φ i) := by
  induction S using Finset.induction_on with
  | empty =>
    rw [bigSep_empty, bigSep_empty]
    iintro ⟨-, H⟩; iexact H
  | insert i S hi ih =>
    have e1 : bigSep (insert i S) Φ = (iprop(Φ i ∗ bigSep S Φ) : sProp 𝕄) := bigSep_insert hi
    have e2 : (bigSep (insert i S) fun i => iprop(P ∗ Φ i)) = (iprop((P ∗ Φ i) ∗ bigSep S fun i => iprop(P ∗ Φ i)) : sProp 𝕄) := bigSep_insert hi
    rw [e1, e2]
    iintro ⟨#HP, Hi, HS⟩
    isplitl [Hi]
    · isplitr; · iexact HP
      iexact Hi
    · iapply ih
      isplitr; · iexact HP
      iexact HS

/-- Every departure's cell closed. -/
theorem closes_send (K : Dev nD × CK → ℕ) (c : Dev nD) (fx : Buf (Elt F) ((c : Thread nD τ).loc cc0_scratch0)) :
    iprop(records m K ∗ bigSep Finset.univ fun r : Fin 15 => sendSt m c fx r 4)
      ⊢ iprop(|={Set.univ}=> bigSep Finset.univ fun r : Fin 15 => iprop((∃ f, sPts c (peer c r) f) ∗ semVal (sendCell c (peer c r)) 0)) :=
  (bigSep_persistent_frame Finset.univ (records m K) _).trans
    ((bigSep_mono fun r _ => close_send m K c fx r).trans (bigSep_fupd Finset.univ _))

/-- Every arrival's two cells closed. -/
theorem closes_recv (K : Dev nD × CK → ℕ) (c : Dev nD) :
    iprop(records m K ∗ bigSep Finset.univ fun r : Fin 15 => recvSt m c r 3)
      ⊢ iprop(|={Set.univ}=> bigSep Finset.univ fun r : Fin 15 => iprop((∃ f, rPts c (src c r) f) ∗ outPay m c (src c r)
          ∗ semVal (recvCell c (src c r)) 0 ∗ semVal (outCell c (src c r)) 0)) :=
  (bigSep_persistent_frame Finset.univ (records m K) _).trans
    ((bigSep_mono fun r _ => close_recv m K c r).trans (bigSep_fupd Finset.univ _))

/-! ## The pieces after the cells are closed -/

theorem ownSt_one (c : Dev nD) : ownSt m c 1 = (iprop(outPay m c c ∗ atPos ER (outCell c c) 1 ∅ 0) : sProp 𝕄) := rfl

/-- What the device's own copy left: its row block, and the column block lent to it. -/
theorem outPay_own (c : Dev nD) :
    outPay m c c ⊢ (iprop((∃ fo, oPts c c (ownF m c fo)) ∗ xcPts c c fullShare.right (X m c)) : sProp 𝕄) := by
  unfold outPay; rw [if_pos rfl]

/-- What another device's block left: its row block, and its slot of the staging buffer. -/
theorem outPay_other (c : Dev nD) (r : Fin 15) :
    outPay m c (src c r) ⊢ (iprop((∃ fo g0 fd fx f0, oPts c (src c r) (outF m c (src c r) fo g0 fd fx f0))
      ∗ (∃ g, gPts c (src c r) g)) : sProp 𝕄) := by
  unfold outPay; rw [if_neg (src_ne c r)]
  iintro ⟨%fo, %g0, %fd, %fx, %f0, Ho, Hg⟩
  isplitl [Ho]
  · iexists fo, g0, fd, fx, f0; iexact Ho
  · iexists _; iexact Hg

theorem recv_piece (c : Dev nD) (r : Fin 15) :
    (iprop((∃ f, rPts c (src c r) f) ∗ outPay m c (src c r)
        ∗ semVal (recvCell c (src c r)) 0 ∗ semVal (outCell c (src c r)) 0) : sProp 𝕄)
      ⊢ iprop((∃ f, rPts c (src c r) f)
        ∗ (∃ fo g0 fd fx f0, oPts c (src c r) (outF m c (src c r) fo g0 fd fx f0))
        ∗ (∃ g, gPts c (src c r) g)
        ∗ semVal (recvCell c (src c r)) 0 ∗ semVal (outCell c (src c r)) 0) := by
  iintro ⟨Hr, Hp, HvR, HvO⟩
  icases (outPay_other m c r) $$ Hp with ⟨Ho, Hg⟩
  isplitl [Hr]; · iexact Hr
  isplitl [Ho]; · iexact Ho
  isplitl [Hg]; · iexact Hg
  isplitl [HvR]; · iexact HvR
  iexact HvO

/-- The departures' slots and their counters, as two families. -/
theorem send_family (c : Dev nD) :
    (bigSep Finset.univ fun r : Fin 15 => iprop((∃ f, sPts c (peer c r) f) ∗ semVal (sendCell c (peer c r)) 0) : sProp 𝕄)
      ⊢ iprop((bigSep Finset.univ fun r : Fin 15 => iprop(∃ f, sPts c (peer c r) f))
        ∗ bigSep Finset.univ fun r : Fin 15 => semVal (sendCell c (peer c r)) 0) :=
  Entails.of_eq (bigSep_sep' _ _ _)

/-- The arrivals' slots, row blocks, staging slots and counters, as five families. -/
theorem recv_family (c : Dev nD) :
    (bigSep Finset.univ fun r : Fin 15 => iprop((∃ f, rPts c (src c r) f) ∗ outPay m c (src c r)
        ∗ semVal (recvCell c (src c r)) 0 ∗ semVal (outCell c (src c r)) 0) : sProp 𝕄)
      ⊢ iprop((bigSep Finset.univ fun r : Fin 15 => iprop(∃ f, rPts c (src c r) f))
        ∗ (bigSep Finset.univ fun r : Fin 15 => iprop(∃ fo g0 fd fx f0, oPts c (src c r) (outF m c (src c r) fo g0 fd fx f0)))
        ∗ (bigSep Finset.univ fun r : Fin 15 => iprop(∃ g, gPts c (src c r) g))
        ∗ (bigSep Finset.univ fun r : Fin 15 => semVal (recvCell c (src c r)) 0)
        ∗ bigSep Finset.univ fun r : Fin 15 => semVal (outCell c (src c r)) 0) :=
by
  refine (bigSep_mono fun r _ => recv_piece m c r).trans ?_
  rw [bigSep_sep', bigSep_sep', bigSep_sep', bigSep_sep']
  all_goals exact .refl _

/-! ## The end of the body -/

/-- From the state after the last wait: the cells closed, the buffers whole, the result array joined. -/
theorem finish_core (K : Dev nD × CK → ℕ) (c : Dev nD) (fx : Buf (Elt F) ((c : Thread nD τ).loc cc0_scratch0)) (W : Waits sig Unit) :
    iprop(records m K
        ∗ owes (c : Thread nD τ) 0 W
        ∗ globSt m c fx 1
        ∗ ownSt m c 1
        ∗ (bigSep Finset.univ fun r : Fin 15 => sendSt m c fx r 4)
        ∗ (bigSep Finset.univ fun r : Fin 15 => recvSt m c r 3))
      ⊢ iprop(|={Set.univ}=> iprop(Φ₁ m c ∗ owes (c : Thread nD τ) 0 W)) := by
  rw [ownSt_one]
  unfold globSt
  iintro ⟨#HR, HO, ⟨Hxv, Hxl, Hxr, Hsc, Hrc, Hgc, HatS, HatR, HatI, -⟩, ⟨Hpc, HatOc⟩, HS, HRv⟩
  imod (closes_send m K c fx) $$ [HS] with HS
  · isplitr; · iexact HR
    iexact HS
  imod (closes_recv m K c) $$ [HRv] with HRv
  · isplitr; · iexact HR
    iexact HRv
  imod (close_cell m K c (.send c) 0 (fun r' _ => by
      rcases Nat.eq_zero_or_pos r' with h | h
      · subst h; exact duties_send_self m c
      · exact duties_later m _ r' h)) $$ [HatS] with HvSc
  · isplitr; · iexact HR
    iexact HatS
  imod (close_cell m K c (.recv c) 0 (fun r' _ => by
      rcases Nat.eq_zero_or_pos r' with h | h
      · subst h; exact duties_recv_self m c
      · exact duties_later m _ r' h)) $$ [HatR] with HvRc
  · isplitr; · iexact HR
    iexact HatR
  imod (close_cell m K c .inn 1 (fun r' h => duties_later m _ r' h)) $$ [HatI] with HvI
  · isplitr; · iexact HR
    iexact HatI
  imod (close_cell m K c (.out c) 1 (fun r' h => duties_later m _ r' h)) $$ [HatOc] with HvOc
  · isplitr; · iexact HR
    iexact HatOc
  imodintro
  icases (outPay_own m c) $$ Hpc with ⟨Hoc, Hxc⟩
  icases (send_family c) $$ HS with ⟨HSs, HSv⟩
  icases (recv_family m c) $$ HRv with ⟨HRr, HRo, HRg, HRvR, HRvO⟩
  icases Hsc with ⟨%fs0, Hsc⟩
  icases Hrc with ⟨%fr0, Hrc⟩
  icases Hgc with ⟨%fg0, Hgc⟩
  icases Hoc with ⟨%fo0, Hoc⟩
  isplitr [HO]
  swap
  · iexact HO
  unfold Φ₁ scratch
  isplitl [Hoc HRo]
  · iapply (out_join m c ⟨fo0, fg0, fr0, fx, fs0⟩)
    iapply (out_family m c ⟨fo0, fg0, fr0, fx, fs0⟩)
    isplitl [Hoc]
    · iexists fo0; iexact Hoc
    · iexact HRo
  isplitl [Hxl Hxr Hxc]
  · iapply (arg_join m c)
    isplitl [Hxl]; · iexact Hxl
    isplitl [Hxr]; · iexact Hxr
    iexact Hxc
  isplitl [Hxv Hsc HSs Hrc HRr Hgc HRg]
  · isplitl [Hxv]
    · iexists xvF m c fx
      rw [show (xV : Memref sig .tc .vmem S256x4096 .f32).view.set = Finset.univ from View.set_whole _]
      iexact Hxv
    isplitl [Hsc HSs]
    · iapply (scr1_join c)
      isplitl [Hsc]
      · iexists fs0; iexact Hsc
      · iexact HSs
    isplitl [Hrc HRr]
    · iapply (scr2_join c)
      isplitl [Hrc]
      · iexists fr0; iexact Hrc
      · iexact HRr
    · iapply (scr3_join c)
      isplitl [Hgc]
      · iexists fg0; iexact Hgc
      · iexact HRg
  · iapply (sems_join c)
    isplitl [HvI]; · iexact HvI
    isplitl [HvOc HRvO]
    · isplitl [HvOc]; · iexact HvOc
      iexact HRvO
    isplitl [HvSc HSv]
    · isplitl [HvSc]; · iexact HvSc
      iexact HSv
    · isplitl [HvRc]; · iexact HvRc
      iexact HRvR

/-- The fifteen transfers, listed. -/
theorem fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem finish (K : Dev nD × CK → ℕ) (c : Dev nD) (fx : Buf (Elt F) ((c : Thread nD τ).loc cc0_scratch0)) (W : Waits sig Unit) :
    iprop(records m K
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 3
        ∗ recvSt m c 8 3
        ∗ recvSt m c 9 3
        ∗ recvSt m c 10 3
        ∗ recvSt m c 11 3
        ∗ recvSt m c 12 3
        ∗ recvSt m c 13 3
        ∗ recvSt m c 14 3)
      ⊢ iprop(|={Set.univ}=> iprop(Φ₁ m c ∗ owes (c : Thread nD τ) 0 W)) := by
  iintro ⟨HR, HO, Hg, Hown, S0, S1, S2, S3, S4, S5, S6, S7, S8, S9, S10, S11, S12, S13, S14,
    R0, R1, R2, R3, R4, R5, R6, R7, R8, R9, R10, R11, R12, R13, R14⟩
  iapply (finish_core m K c fx W)
  rw [fin15 (fun r => sendSt m c fx r 4), fin15 (fun r => recvSt m c r 3)]
  isplitl [HR]; · iexact HR
  isplitl [HO]; · iexact HO
  isplitl [Hg]; · iexact Hg
  isplitl [Hown]; · iexact Hown
  isplitl [S0 S1 S2 S3 S4 S5 S6 S7 S8 S9 S10 S11 S12 S13 S14]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14

/-- info: 'Cert.KernelProof.finish' depends on axioms: [propext, Classical.choice, Quot.sound] -/
#guard_msgs in #print axioms finish

end Cert.KernelProof

end
-- ==== Proof.BitsPart01.lean ====
/-
  The first part of a device's body: it reads its index and signals the barriers of the devices 0 … 7 other than itself.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem cond1_iff : ∀ c : Dev nD, k0_cond1 c = 1#1 ↔ (⟨0, by decide⟩ : Dev nD) ≠ c := by decide +kernel
theorem cond2_iff : ∀ c : Dev nD, k0_cond2 c = 1#1 ↔ (⟨1, by decide⟩ : Dev nD) ≠ c := by decide +kernel
theorem cond3_iff : ∀ c : Dev nD, k0_cond3 c = 1#1 ↔ (⟨2, by decide⟩ : Dev nD) ≠ c := by decide +kernel
theorem cond4_iff : ∀ c : Dev nD, k0_cond4 c = 1#1 ↔ (⟨3, by decide⟩ : Dev nD) ≠ c := by decide +kernel
theorem cond5_iff : ∀ c : Dev nD, k0_cond5 c = 1#1 ↔ (⟨4, by decide⟩ : Dev nD) ≠ c := by decide +kernel
theorem cond6_iff : ∀ c : Dev nD, k0_cond6 c = 1#1 ↔ (⟨5, by decide⟩ : Dev nD) ≠ c := by decide +kernel
theorem cond7_iff : ∀ c : Dev nD, k0_cond7 c = 1#1 ↔ (⟨6, by decide⟩ : Dev nD) ≠ c := by decide +kernel
theorem cond8_iff : ∀ c : Dev nD, k0_cond8 c = 1#1 ↔ (⟨7, by decide⟩ : Dev nD) ≠ c := by decide +kernel

set_option maxHeartbeats 1600000 in
theorem part1_spec (c : Dev nD) (W : Waits sig Unit) :
    iprop(records m K ∗ SigSt c 0 W)
      ⊢ wp frame (wpE (defs₀ (F := F)) 𝒱₀ c none) Set.univ (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
          (fun ret => iprop(⌜ret.1 = c ∧ ret.2.2 = (SemArray.scalar (sig.barrier 0 rfl) : Sems sig S_)⌝ ∗ SigSt c 8 W)) := by
  iintro ⟨#HR, HS⟩
  simp only [k0_part1_eq_skeleton]; unfold k0_part1_skel
  simp only [semSignalWord, Prog.lift, Prog.bind_op, Prog.bind_ret, Prog.pure_eq_ret, wp_deviceId]
  -- the unit for device 0
  iapply (step_cond_signal m K c ⟨0, by decide⟩ (k0_cond1 c) (cond1_iff c) k0_dev1 k0_dev1_eq (fun h => k0_dev1_lt c h) _ W) $$ [HS]
  · isplitr; · iexact HR
    iexact HS
  iintro HS
  -- the unit for device 1
  iapply (step_cond_signal m K c ⟨1, by decide⟩ (k0_cond2 c) (cond2_iff c) k0_dev2 k0_dev2_eq (fun h => k0_dev2_lt c h) _ W) $$ [HS]
  · isplitr; · iexact HR
    iexact HS
  iintro HS
  -- the unit for device 2
  iapply (step_cond_signal m K c ⟨2, by decide⟩ (k0_cond3 c) (cond3_iff c) k0_dev3 k0_dev3_eq (fun h => k0_dev3_lt c h) _ W) $$ [HS]
  · isplitr; · iexact HR
    iexact HS
  iintro HS
  -- the unit for device 3
  iapply (step_cond_signal m K c ⟨3, by decide⟩ (k0_cond4 c) (cond4_iff c) k0_dev4 k0_dev4_eq (fun h => k0_dev4_lt c h) _ W) $$ [HS]
  · isplitr; · iexact HR
    iexact HS
  iintro HS
  -- the unit for device 4
  iapply (step_cond_signal m K c ⟨4, by decide⟩ (k0_cond5 c) (cond5_iff c) k0_dev5 k0_dev5_eq (fun h => k0_dev5_lt c h) _ W) $$ [HS]
  · isplitr; · iexact HR
    iexact HS
  iintro HS
  -- the unit for device 5
  iapply (step_cond_signal m K c ⟨5, by decide⟩ (k0_cond6 c) (cond6_iff c) k0_dev6 k0_dev6_eq (fun h => k0_dev6_lt c h) _ W) $$ [HS]
  · isplitr; · iexact HR
    iexact HS
  iintro HS
  -- the unit for device 6
  iapply (step_cond_signal m K c ⟨6, by decide⟩ (k0_cond7 c) (cond7_iff c) k0_dev7 k0_dev7_eq (fun h => k0_dev7_lt c h) _ W) $$ [HS]
  · isplitr; · iexact HR
    iexact HS
  iintro HS
  -- the unit for device 7
  iapply (step_cond_signal m K c ⟨7, by decide⟩ (k0_cond8 c) (cond8_iff c) k0_dev8 k0_dev8_eq (fun h => k0_dev8_lt c h) _ W) $$ [HS]
  · isplitr; · iexact HR
    iexact HS
  iintro HS
  rw [wp_ret]; imodintro
  isplitr; · ipureintro; exact ⟨rfl, rfl⟩
  iexact HS

/-- info: 'Cert.KernelProof.part1_spec' depends on axioms: [propext, Classical.choice, Quot.sound] -/
#guard_msgs in #print axioms part1_spec

end Cert.KernelProof

end
-- ==== Proof.BitsPart02.lean ====
/-
  The second part of a device's body: the units for the devices 8 … 15 other than itself; the fetch of the
  argument block into vector memory; the copy of the device's own column block into the result array; the
  wait for the fetch.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsOpen
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem cond9_iff : ∀ c : Dev nD, k0_cond9 c = 1#1 ↔ (⟨8, by decide⟩ : Dev nD) ≠ c := by decide +kernel
theorem cond10_iff : ∀ c : Dev nD, k0_cond10 c = 1#1 ↔ (⟨9, by decide⟩ : Dev nD) ≠ c := by decide +kernel
theorem cond11_iff : ∀ c : Dev nD, k0_cond11 c = 1#1 ↔ (⟨10, by decide⟩ : Dev nD) ≠ c := by decide +kernel
theorem cond12_iff : ∀ c : Dev nD, k0_cond12 c = 1#1 ↔ (⟨11, by decide⟩ : Dev nD) ≠ c := by decide +kernel
theorem cond13_iff : ∀ c : Dev nD, k0_cond13 c = 1#1 ↔ (⟨12, by decide⟩ : Dev nD) ≠ c := by decide +kernel
theorem cond14_iff : ∀ c : Dev nD, k0_cond14 c = 1#1 ↔ (⟨13, by decide⟩ : Dev nD) ≠ c := by decide +kernel
theorem cond15_iff : ∀ c : Dev nD, k0_cond15 c = 1#1 ↔ (⟨14, by decide⟩ : Dev nD) ≠ c := by decide +kernel
theorem cond16_iff : ∀ c : Dev nD, k0_cond16 c = 1#1 ↔ (⟨15, by decide⟩ : Dev nD) ≠ c := by decide +kernel

theorem SigSt_end (c : Dev nD) (W : Waits sig Unit) :
    (SigSt c 16 W : sProp 𝕄) = iprop(owes (c : Thread nD τ) (Orecv c 0) W ∗ emp) := by
  unfold SigSt; rw [Obar_end, add_zero, pend_end]; simp only [BI.bigSep_empty]; rfl

theorem ownSt_zero (c : Dev nD) : ownSt m c 0 = iprop(cred (tallyAt (outCell c c) () No) ∗ atPos ER (outCell c c) 0 ∅ 0) := rfl

theorem fresh_chain (c : Dev nD) (fx : Buf (Elt F) ((c : Thread nD τ).loc cc0_scratch0)) :
    (iprop(sendSt0 c 0 ∗ sendSt0 c 1 ∗ sendSt0 c 2 ∗ sendSt0 c 3 ∗ sendSt0 c 4 ∗ sendSt0 c 5 ∗ sendSt0 c 6 ∗ sendSt0 c 7 ∗ sendSt0 c 8 ∗ sendSt0 c 9 ∗ sendSt0 c 10 ∗ sendSt0 c 11 ∗ sendSt0 c 12 ∗ sendSt0 c 13 ∗ sendSt0 c 14 ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0) : sProp 𝕄)
      = iprop(sendSt m c fx 0 0 ∗ sendSt m c fx 1 0 ∗ sendSt m c fx 2 0 ∗ sendSt m c fx 3 0 ∗ sendSt m c fx 4 0 ∗ sendSt m c fx 5 0 ∗ sendSt m c fx 6 0 ∗ sendSt m c fx 7 0 ∗ sendSt m c fx 8 0 ∗ sendSt m c fx 9 0 ∗ sendSt m c fx 10 0 ∗ sendSt m c fx 11 0 ∗ sendSt m c fx 12 0 ∗ sendSt m c fx 13 0 ∗ sendSt m c fx 14 0 ∗ recvSt m c 0 0 ∗ recvSt m c 1 0 ∗ recvSt m c 2 0 ∗ recvSt m c 3 0 ∗ recvSt m c 4 0 ∗ recvSt m c 5 0 ∗ recvSt m c 6 0 ∗ recvSt m c 7 0 ∗ recvSt m c 8 0 ∗ recvSt m c 9 0 ∗ recvSt m c 10 0 ∗ recvSt m c 11 0 ∗ recvSt m c 12 0 ∗ recvSt m c 13 0 ∗ recvSt m c 14 0) := rfl

/-- After the sixteenth conditional signal only the arrival credits are owed. -/
theorem SigSt_last (c : Dev nD) (W : Waits sig Unit) :
    (SigSt c ((⟨15, by decide⟩ : Dev nD).val + 1) W : sProp 𝕄) ⊢ owes (c : Thread nD τ) (Orecv c 0) W := by
  show (SigSt c 16 W : sProp 𝕄) ⊢ _
  rw [SigSt_end]; iintro ⟨H, -⟩; iexact H

set_option maxHeartbeats 1600000 in
theorem part2_spec (c : Dev nD) (W : Waits sig Unit) (v2 : BitVec 32) :
    iprop(records m K ∗ levAts L lv ∗ SigSt c 8 W ∗ preRest m c)
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_))
          (fun ret => iprop(∃ fx W', owes (c : Thread nD τ) (Orecv c 0) W'
        ∗ cred (tallyAt (barCell c) () 15)
        ∗ globSt m c fx 0
        ∗ ownSt m c 0
        ∗ sendSt m c fx 0 0
        ∗ sendSt m c fx 1 0
        ∗ sendSt m c fx 2 0
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HS, Hrest⟩
  simp only [k0_part2_eq_skeleton]; unfold k0_part2_skel
  simp only [semSignalWord, Prog.lift, Prog.bind_op, Prog.bind_ret, Prog.pure_eq_ret]
  -- the unit for device 8
  iapply (step_cond_signal m K c ⟨8, by decide⟩ (k0_cond9 c) (cond9_iff c) k0_dev9 k0_dev9_eq (fun h => k0_dev9_lt c h) _ W) $$ [HS]
  · isplitr; · iexact HR
    iexact HS
  iintro HS
  -- the unit for device 9
  iapply (step_cond_signal m K c ⟨9, by decide⟩ (k0_cond10 c) (cond10_iff c) k0_dev10 k0_dev10_eq (fun h => k0_dev10_lt c h) _ W) $$ [HS]
  · isplitr; · iexact HR
    iexact HS
  iintro HS
  -- the unit for device 10
  iapply (step_cond_signal m K c ⟨10, by decide⟩ (k0_cond11 c) (cond11_iff c) k0_dev11 k0_dev11_eq (fun h => k0_dev11_lt c h) _ W) $$ [HS]
  · isplitr; · iexact HR
    iexact HS
  iintro HS
  -- the unit for device 11
  iapply (step_cond_signal m K c ⟨11, by decide⟩ (k0_cond12 c) (cond12_iff c) k0_dev12 k0_dev12_eq (fun h => k0_dev12_lt c h) _ W) $$ [HS]
  · isplitr; · iexact HR
    iexact HS
  iintro HS
  -- the unit for device 12
  iapply (step_cond_signal m K c ⟨12, by decide⟩ (k0_cond13 c) (cond13_iff c) k0_dev13 k0_dev13_eq (fun h => k0_dev13_lt c h) _ W) $$ [HS]
  · isplitr; · iexact HR
    iexact HS
  iintro HS
  -- the unit for device 13
  iapply (step_cond_signal m K c ⟨13, by decide⟩ (k0_cond14 c) (cond14_iff c) k0_dev14 k0_dev14_eq (fun h => k0_dev14_lt c h) _ W) $$ [HS]
  · isplitr; · iexact HR
    iexact HS
  iintro HS
  -- the unit for device 14
  iapply (step_cond_signal m K c ⟨14, by decide⟩ (k0_cond15 c) (cond15_iff c) k0_dev15 k0_dev15_eq (fun h => k0_dev15_lt c h) _ W) $$ [HS]
  · isplitr; · iexact HR
    iexact HS
  iintro HS
  -- the unit for device 15
  iapply (step_cond_signal m K c ⟨15, by decide⟩ (k0_cond16 c) (cond16_iff c) k0_dev16 k0_dev16_eq (fun h => k0_dev16_lt c h) _ W) $$ [HS]
  · isplitr; · iexact HR
    iexact HS
  iintro HS
  ihave HO := (SigSt_last c W) $$ HS
  unfold preRest
  icases Hrest with ⟨Hbar, ⟨%fv, HxV⟩, HxL, HxR, Hxc, ⟨%fo, Hoc⟩, HtIn, HtOut, HatIn, HatOut, Hsc, Hrc, Hgc, HatSc, HatRc, HatBar, Hsr⟩
  -- the fetch
  iapply (step_fetch m K c fv) $$ [HxL HxV HtIn]
  · isplitr; · iexact HR
    isplitl [HxL]; · iexact HxL
    isplitl [HxV]; · iexact HxV
    iexact HtIn
  iintro HcIn
  -- the device's own block
  iapply (step_own m K c fo (cols_self c _) (rows_self c _) (outSem_self c)) $$ [Hxc Hoc HtOut]
  · isplitr; · iexact HR
    isplitl [Hxc]; · iexact Hxc
    isplitl [Hoc]; · iexact Hoc
    iexact HtOut
  iintro HcOut
  -- the wait for the fetch
  iapply (step_wait_in m K c W) $$ [HcIn HO HatIn]
  · isplitr; · iexact HR
    isplitr; · iexact Hlev
    isplitl [HcIn]; · iexact HcIn
    isplitl [HO]; · iexact HO
    iexact HatIn
  iintro ⟨HO, HatIn, Hpay⟩
  unfold inPay
  icases Hpay with ⟨%fx, HxV, HxL⟩
  rw [wp_ret]; imodintro
  iexists fx, (insert (SemLoc.dma inS, ()) W)
  isplitl [HO]; · iexact HO
  isplitl [Hbar]; · iexact Hbar
  isplitl [HxV HxL HxR Hsc Hrc Hgc HatSc HatRc HatIn HatBar]
  · unfold globSt
    isplitl [HxV]; · iexact HxV
    isplitl [HxL]; · iexact HxL
    isplitl [HxR]; · iexact HxR
    isplitl [Hsc]; · iexact Hsc
    isplitl [Hrc]; · iexact Hrc
    isplitl [Hgc]; · iexact Hgc
    isplitl [HatSc]; · iexact HatSc
    isplitl [HatRc]; · iexact HatRc
    isplitl [HatIn]; · iexact HatIn
    iexact HatBar
  isplitl [HcOut HatOut]
  · iapply (Entails.of_eq (ownSt_zero m c).symm)
    isplitl [HcOut]; · iexact HcOut
    iexact HatOut
  iapply (Entails.of_eq (fresh_chain m c fx))
  iexact Hsr

/-- info: 'Cert.KernelProof.part2_spec' depends on axioms: [propext, Classical.choice, Quot.sound] -/
#guard_msgs in #print axioms part2_spec

end Cert.KernelProof

end
-- ==== Proof.BitsLaunch.lean ====
/-
  The launch of the all-to-all: the protocol's ghost state dealt to the sixteen devices, every cell's invariant
  allocated under one update, the duty tokens dealt to the devices that pay them, the credit each device waits
  with, and the run of @main from one device's body.
-/
import proofs.«900406_g7700000000000407_dist_a2a_v7x_i16_i_m256_n256_bf16_1_alg».proof.Proof.BitsCells

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the kinds of cell and over the other devices -/

/-- The kinds of cell, listed: the barrier, the fetch, and three families of sixteen. -/
def ckEquiv : CK ≃ Unit ⊕ (Unit ⊕ (Fin 16 ⊕ (Fin 16 ⊕ Fin 16))) where
  toFun
    | .bar => .inl () | .inn => .inr (.inl ()) | .out s => .inr (.inr (.inl s))
    | .send s => .inr (.inr (.inr (.inl s))) | .recv s => .inr (.inr (.inr (.inr s)))
  invFun
    | .inl _ => .bar | .inr (.inl _) => .inn | .inr (.inr (.inl s)) => .out s
    | .inr (.inr (.inr (.inl s))) => .send s | .inr (.inr (.inr (.inr s))) => .recv s
  left_inv k := by cases k <;> rfl
  right_inv x := by rcases x with _ | _ | s | s | s <;> rfl

theorem bigSep_unit (Ψ : Unit → sProp 𝕄) : bigSep Finset.univ Ψ = Ψ () := by
  rw [show (Finset.univ : Finset Unit) = {()} from rfl, bigSep_singleton]

/-- A product over the kinds of cell, kind by kind. -/
theorem bigSep_CK (Φ : CK → sProp 𝕄) :
    bigSep Finset.univ Φ = iprop(Φ .bar ∗ Φ .inn ∗ (bigSep Finset.univ fun s : Fin 16 => Φ (.out s)) ∗ (bigSep Finset.univ fun s : Fin 16 => Φ (.send s))
      ∗ bigSep Finset.univ fun s : Fin 16 => Φ (.recv s)) := by
  rw [bigSep_univ_equiv ckEquiv.symm Φ, bigSep_univ_sum, bigSep_univ_sum, bigSep_univ_sum, bigSep_univ_sum, bigSep_unit, bigSep_unit]
  rfl

/-- The other devices are the fifteen peers. -/
theorem erase_eq_peer (c : Dev nD) : ((Finset.univ : Finset (Dev nD)).erase c) = Finset.univ.map ⟨peer c, peer_inj c⟩ := by
  ext d
  simp only [Finset.mem_erase, Finset.mem_univ, and_true, Finset.mem_map, Function.Embedding.coeFn_mk, true_and]
  exact ⟨fun h => exists_peer c d h, fun ⟨r, hr⟩ => hr ▸ peer_ne c r⟩

theorem bigSep_peer (c : Dev nD) (Φ : Dev nD → sProp 𝕄) :
    bigSep ((Finset.univ : Finset (Dev nD)).erase c) Φ = bigSep Finset.univ fun r : Fin 15 => Φ (peer c r) := by
  rw [erase_eq_peer, bigSep_map]; rfl

/-- A product over the ordered pairs of distinct devices, read by its first or by its second member. -/
theorem bigSep_erase_comm (T : Dev nD → Dev nD → sProp 𝕄) :
    (bigSep Finset.univ fun a : Dev nD => bigSep ((Finset.univ : Finset (Dev nD)).erase a) fun b => T a b)
      = bigSep Finset.univ fun b : Dev nD => bigSep ((Finset.univ : Finset (Dev nD)).erase b) fun a => T a b := by
  have h1 (a : Dev nD) : (bigSep ((Finset.univ : Finset (Dev nD)).erase a) fun b => T a b) = bigSep Finset.univ fun b : Dev nD => if b ≠ a then T a b else (BI.emp : sProp 𝕄) := by
    rw [← Finset.filter_ne' Finset.univ a, bigSep_filter]
  have h2 (b : Dev nD) : (bigSep ((Finset.univ : Finset (Dev nD)).erase b) fun a => T a b) = bigSep Finset.univ fun a : Dev nD => if a ≠ b then T a b else (BI.emp : sProp 𝕄) := by
    rw [← Finset.filter_ne' Finset.univ b, bigSep_filter]
  calc (bigSep Finset.univ fun a : Dev nD => bigSep ((Finset.univ : Finset (Dev nD)).erase a) fun b => T a b)
      = bigSep Finset.univ fun a : Dev nD => bigSep Finset.univ fun b : Dev nD => if b ≠ a then T a b else (BI.emp : sProp 𝕄) := bigSep_congr fun a _ => h1 a
    _ = bigSep Finset.univ fun b : Dev nD => bigSep Finset.univ fun a : Dev nD => if b ≠ a then T a b else (BI.emp : sProp 𝕄) := bigSep_univ_comm _
    _ = bigSep Finset.univ fun b : Dev nD => bigSep Finset.univ fun a : Dev nD => if a ≠ b then T a b else (BI.emp : sProp 𝕄) :=
        bigSep_congr fun b _ => bigSep_congr fun a _ => by
          by_cases h : a = b
          · subst h; rfl
          · rw [if_pos (Ne.symm h), if_pos h]
    _ = _ := (bigSep_congr fun b _ => h2 b).symm

/-- A cell used for every slot but the device's own: its one duty, slot by slot. -/
theorem bigSep_offdiag (c : Dev nD) (Ψ : Fin 16 → Dev nD → sProp 𝕄) :
    (bigSep Finset.univ fun s : Fin 16 => bigSep (if s = c then (∅ : Finset (Dev nD)) else {c}) (Ψ s))
      = bigSep ((Finset.univ : Finset (Fin 16)).erase c) fun s => Ψ s c := by
  rw [← Finset.filter_ne' Finset.univ c, bigSep_filter]
  refine bigSep_congr fun s _ => ?_
  by_cases h : s = c
  · rw [if_pos h, if_neg (not_not.mpr h), bigSep_empty]
  · rw [if_neg h, if_pos h, bigSep_singleton]

/-! ## The kernel's own semaphores -/

/-- Every kind of cell but the barrier: the forty-nine copy semaphores, scoped to the kernel. -/
abbrev OwnK : Type := {k : CK // k ≠ CK.bar}
abbrev osem : OwnK → SemLoc sig := fun k => csem k.1

theorem csem_scoped (k : CK) (hk : k ≠ CK.bar) : (csem k).isScoped .tc = true := by
  cases k with
  | bar => exact absurd rfl hk
  | inn => decide
  | out s => clear hk; revert s; decide
  | send s => clear hk; revert s; decide
  | recv s => clear hk; revert s; decide

theorem ownSemFacts : Pipeline.OwnSemFacts cfg0.spec osem :=
  ⟨fun k => csem_scoped k.1 k.2, fun a b h => Subtype.ext (csem_injective h), fun k w s => w.elim0⟩

/-! ## The launch element -/

/-- Every device's fifty cells. -/
def cells : Finset (GSem nD τ sig) := Finset.univ.map ⟨kcell, kcell_injective⟩

/-- A duty of the schedule: its cell (device, kind) and its name. -/
abbrev TokIx : Type := (Dev nD × CK) × Dev nD
def tokOf (x : TokIx) : GSem nD τ sig × ℕ × Dev nD := (kcell x.1, 0, x.2)
theorem tokOf_injective : Function.Injective tokOf := by
  rintro ⟨ck, d⟩ ⟨ck', d'⟩ h
  have h1 : kcell ck = kcell ck' := congrArg Prod.fst h
  have h2 : d = d' := congrArg (fun x : GSem nD τ sig × ℕ × Dev nD => x.2.2) h
  rw [kcell_injective h1, h2]
/-- The duties the schedule has. -/
def toks : Finset (GSem nD τ sig × ℕ × Dev nD) :=
  (Finset.univ.filter fun x : TokIx => x.2 ∈ dutiesOf x.1.1 (some x.1.2)).map ⟨tokOf, tokOf_injective⟩

def u₀ : UU := (initOf (Pipeline.cells cfgs cellOf_inj) (Pipeline.launchToks cfgs cellOf_inj), initOf cells toks)

/-- The tokens of the duties of device `c`'s own cells. -/
def ownToks (c : Dev nD) : sProp 𝕄 :=
  bigSep Finset.univ fun k : CK => bigSep (dutiesOf c (some k)) fun d => dutyTok ER (kcell (c, k)) 0 d

/-- What the launch element deals device `c`: its cells' round states, its positions, the reached marks, its cells' tokens. -/
def G (c : Dev nD) : sProp 𝕄 :=
  iprop((bigSep Finset.univ fun k : CK => roundState ER (a2a m) (kcell (c, k)) 0)
    ∗ (bigSep Finset.univ fun k : CK => iprop(atPos ER (kcell (c, k)) 0 ∅ 0 ∗ reached ER (kcell (c, k)) 0)) ∗ ownToks c)

/-- What the global step makes of it. -/
def G' (c : Dev nD) : sProp 𝕄 := iprop(∃ K, ghost m K c)

theorem fund_a2a : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep toks (fun x => (dutyTok ER x.1 x.2.1 x.2.2 : sProp 𝕄)) = bigSep Finset.univ fun c : Dev nD => ownToks c := by
    unfold toks ownToks
    rw [bigSep_map, bigSep_filter, bigSep_univ_prod, bigSep_univ_prod]
    refine bigSep_congr fun c _ => bigSep_congr fun k _ => ?_
    have hS : dutiesOf c (some k) = Finset.univ.filter (fun d => d ∈ dutiesOf c (some k)) := by
      rw [Finset.filter_mem_eq_inter, Finset.univ_inter]
    conv_rhs => rw [hS, bigSep_filter]
    rfl
  iintro HX
  imod (Rounds.fund ER (a2a m) cells toks) $$ HX with ⟨Hst, Hr, Hat, Htok⟩
  imodintro
  ihave Hst' := (Entails.of_eq (hX fun g => roundState ER (a2a m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, and the tokens dealt -/

/-- The copy semaphores are the kernel's own; -/
theorem ownSems0_eq (c : Dev nD) : (Pipeline.ownSems0 (Ix := Unit) (Name := ℕ) (U := UU) (Lvl := ℕ) (Val := Elt F) (τ := τ) osem c : sProp 𝕄)
    = bigSep (Finset.univ.erase CK.bar) fun k : CK => semVal (kcell (c, k)) 0 := by
  unfold Pipeline.ownSems0
  rw [← Finset.filter_ne' Finset.univ CK.bar, ← Finset.univ_map_subtype, bigSep_map]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_at (fun k : CK => (semVal (kcell (c, k)) 0 : sProp 𝕄)) CK.bar]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2a m) κ (kcell (c, k))))
          ∗ (bigSep Finset.univ fun k : CK => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (a2a m) (kcell (c, k)) 0)
      ⊢ (|={Set.univ}=> bigSep Finset.univ fun k : CK => iprop(∃ κ : ℕ, cellInv ER (a2a m) κ (kcell (c, k))) : sProp 𝕄) from by
        rw [← bigSep_sep']
        exact (bigSep_mono fun k _ => (Rounds.body_intro ER (a2a m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ linear c) ⊢ G' m c := by
  unfold G' ghost
  iintro H
  iexists K
  iexact H

/-- A device's own cells' tokens, kind by kind. -/
theorem ownToks_eq (c : Dev nD) : (ownToks c : sProp 𝕄) = iprop((bigSep ((Finset.univ : Finset (Dev nD)).erase c) fun j => dutyTok ER (barCell c) 0 j)
    ∗ dutyTok ER (inCell c) 0 c ∗ (bigSep Finset.univ fun s : Fin 16 => dutyTok ER (outCell c s) 0 c)
    ∗ (bigSep ((Finset.univ : Finset (Fin 16)).erase c) fun s => dutyTok ER (sendCell c s) 0 c)
    ∗ bigSep ((Finset.univ : Finset (Fin 16)).erase c) fun s => dutyTok ER (recvCell c s) 0 c) := by
  unfold ownToks
  rw [bigSep_CK]
  simp only [dutiesOf, bigSep_singleton]
  rw [bigSep_offdiag c fun s d => dutyTok ER (kcell (c, CK.send s)) 0 d, bigSep_offdiag c fun s d => dutyTok ER (kcell (c, CK.recv s)) 0 d]
  rfl

/-- The tokens a device pays with, regrouped: the other barriers' duties it names, the other devices' arrival duties into
    its slot, its own departures', the fetch's, the sixteen copies'. -/
theorem payToks_eq (c : Dev nD) : (payToks c : sProp 𝕄) = iprop((bigSep ((Finset.univ : Finset (Dev nD)).erase c) fun j => dutyTok ER (barCell j) 0 c)
    ∗ ((bigSep ((Finset.univ : Finset (Dev nD)).erase c) fun d => dutyTok ER (recvCell d c) 0 d)
      ∗ bigSep ((Finset.univ : Finset (Dev nD)).erase c) fun s => dutyTok ER (sendCell c s) 0 c)
    ∗ dutyTok ER (inCell c) 0 c ∗ bigSep Finset.univ fun s : Fin 16 => dutyTok ER (outCell c s) 0 c) := by
  unfold payToks
  rw [bigSep_sep', bigSep_peer c (fun d => dutyTok ER (recvCell d c) 0 d), bigSep_peer c (fun s => dutyTok ER (sendCell c s) 0 c)]

/-- The tokens dealt: a barrier duty goes to the device it names, an arrival duty to the device that sends into that slot. -/
theorem toks_deal : (bigSep Finset.univ fun c : Dev nD => (ownToks c : sProp 𝕄)) ⊢ bigSep Finset.univ fun c : Dev nD => payToks c := by
  rw [bigSep_congr fun c _ => ownToks_eq c, bigSep_congr fun c _ => payToks_eq c]
  simp only [bigSep_sep']
  rw [bigSep_erase_comm (fun c j => dutyTok ER (barCell c) 0 j), bigSep_erase_comm (fun d s => dutyTok ER (recvCell d s) 0 d)]
  iintro ⟨HB, HI, HO, HS, HR⟩
  isplitl [HB]; · iexact HB
  isplitl [HR HS]
  · isplitl [HR] <;> iassumption
  isplitl [HI] <;> iassumption

theorem regroup :
    (bigSep Finset.univ fun c : Dev nD => iprop((bigSep Finset.univ fun k : CK => iprop(∃ κ : ℕ, cellInv ER (a2a m) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CK => iprop(∃ κ : ℕ, cellInv ER (a2a m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (a2a m) κ (kcell ck) : sProp 𝕄))) $$ HI
  icases HK with ⟨%K, #HI⟩
  ihave Htk := (toks_deal (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Device `d`'s due for its transfer number `r`; -/
def Dr (r : Fin 15) (d : Dev nD) : CellTallies nD τ sig Unit := tallyAt (recvCell (peer d r) d) () Nb
/-- its due on device `j`'s barrier. -/
def Db (j : Dev nD) (d : Dev nD) : CellTallies nD τ sig Unit := if j ≠ d then tallyAt (barCell j) () 1 else 0

theorem O₀_eq : (O₀ : Dev nD → CellTallies nD τ sig Unit) = fun d => (∑ r : Fin 15, Dr r d) + ∑ j : Dev nD, Db j d := by
  funext d
  unfold O₀ Orecv Obar
  rw [rpend_zero, pend_zero, ← Finset.filter_ne' Finset.univ d, Finset.sum_filter]
  rfl

/-- The one device that owes slot `src c r` of device `c`'s arrivals is `src c r`, with its transfer number `r`. -/
theorem cred_recv (c : Dev nD) (r : Fin 15) :
    (Pipeline.launchCred (Dr r) c : sProp 𝕄) ⊢ cred (tallyAt (recvCell c (src c r)) () Nb) := by
  refine (Pipeline.launchCred_elim _ c (SemLoc.dma (recvS (src c r)))).trans (Entails.of_eq (congrArg cred ?_))
  rw [Pipeline.tallyOn_launchCredit_owing]
  unfold Dr tallyAt
  refine congrArg _ ?_
  rw [Finset.sum_apply]
  have h0 : ∀ d ∈ (Finset.univ : Finset (Dev nD)), d ≠ src c r →
      tallyOn (nD := nD) (sig := sig) (recvCell (peer d r) d) (Finsupp.single () Nb) (recvCell c (src c r)) = 0 := fun d _ hd => by
    unfold tallyOn
    refine Pi.single_eq_of_ne (fun h => hd ?_) _
    have h3 : ((c, CK.recv (src c r)) : Dev nD × CK) = (peer d r, CK.recv d) := kcell_injective h
    exact (CK.recv.inj (congrArg Prod.snd h3)).symm
  rw [Finset.sum_eq_single (src c r) h0 (fun h => absurd (Finset.mem_univ _) h)]
  unfold tallyOn
  rw [peer_src, Pi.single_eq_same]

theorem others_card : ∀ c : Dev nD, (∑ d : Dev nD, if c ≠ d then 1 else 0) = 15 := by decide

/-- Every other device owes a device's barrier one unit. -/
theorem cred_bar (c : Dev nD) : (Pipeline.launchCred (Db c) c : sProp 𝕄) ⊢ cred (tallyAt (barCell c) () 15) := by
  refine (Pipeline.launchCred_elim _ c (SemLoc.reg barS)).trans (Entails.of_eq (congrArg cred ?_))
  unfold tallyAt; refine congrArg _ (Finsupp.ext fun u => ?_); cases u
  rw [Pipeline.launchCredit_owing, Finsupp.single_eq_same, ← others_card c]
  refine Finset.sum_congr rfl fun d _ => ?_
  unfold Db
  by_cases hd : c ≠ d
  · rw [if_pos hd, if_pos hd, tallyAt_apply, if_pos ⟨rfl, rfl⟩]
  · rw [if_neg hd, if_neg hd]; rfl

theorem creds (c : Dev nD) : (Pipeline.launchCred O₀ c : sProp 𝕄) ⊢ launchCreds c := by
  rw [O₀_eq, Pipeline.launchCred_add (fun d => ∑ r : Fin 15, Dr r d) (fun d => ∑ j : Dev nD, Db j d),
    Pipeline.launchCred_sum Finset.univ Dr, Pipeline.launchCred_sum Finset.univ Db]
  unfold launchCreds
  iintro ⟨HR, HB⟩
  isplitl [HB]
  · ihave HB' := (show (bigSep Finset.univ fun j : Dev nD => (Pipeline.launchCred (Db j) c : sProp 𝕄)) ⊢ Pipeline.launchCred (Db c) c from
      bigSep_elim (Finset.mem_univ c)) $$ HB
    iapply (cred_bar (F := F) c); iexact HB'
  · iapply (show (bigSep Finset.univ fun r : Fin 15 => (Pipeline.launchCred (Dr r) c : sProp 𝕄))
        ⊢ bigSep Finset.univ fun r : Fin 15 => cred (tallyAt (recvCell c (src c r)) () Nb) from bigSep_mono fun r _ => cred_recv c r)
    iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]; · iexact Hx
    iexists (m ((c : Thread nD τ).loc main_v1)); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device holds of the two arrays after its body: the result array joined, the argument block as launched. -/
def Yc (c : Dev nD) : sProp 𝕄 :=
  iprop((∃ σ : Seeds (F := F) c, ((c : Thread nD τ).loc main_v1) ↦{fullShare} joinedF m c σ) ∗ (((c : Thread nD τ).loc main_arg0) ↦{fullShare} X m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc scratch
  iintro ⟨Ho, Hx, Hs, Hz⟩
  isplitl [Ho Hx]
  · isplitl [Ho] <;> iassumption
  isplitl [Hz]; · iexact Hz
  iexact Hs

/-- No staging window: the pipeline itself waits on nothing. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters: if each device's
    body meets its obligation, every weakly fair execution of @main terminates, and in every final state each device's
    result array is the joined contents at some seeds and its argument block is what it held. -/
theorem run_main (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      (∃ σ : Seeds (F := F) c, r.2.mem ((c : Thread nD τ).loc main_v1) = joinedF m c σ)
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => (∃ σ : Seeds (F := F) c, s.mem ((c : Thread nD τ).loc main_v1) = joinedF m c σ)
      ∧ s.mem ((c : Thread nD τ).loc main_arg0) = m ((c : Thread nD τ).loc main_arg0))
    (hY := fun c s' => by
      unfold Yc
      iintro ⟨⟨⟨%σ, Ho⟩, Hx⟩, -, HSI⟩
      icombine HSI Ho gives %ho
      icombine HSI Hx gives %hx
      imodintro
      isplitr; · ipureintro; exact ⟨⟨σ, Buf.eq_of_forall_mem_univ ho⟩, Buf.eq_of_forall_mem_univ hx⟩
      iexact HSI)
    (hQ := fun _ h c => (h c).2.2)

/-- info: 'Cert.KernelProof.run_main' depends on axioms: [propext, Classical.choice, Quot.sound] -/
#guard_msgs in #print axioms run_main

end Cert.KernelProof

end
-- ==== Proof.BitsSendBlock.lean ====
/-
  One transfer sent by a device's body, step by step.

  Each of the fifteen transfers a device sends is prepared by a vector load of a column block of the vector-memory
  copy of its argument, a vector load of the old contents of a slot of the send buffer, and a vector store of the
  narrowed block into that slot; after the barrier wait, which hands every transfer the landing slot on its peer,
  the slot is sent. Each lemma here steps one of these operations on the state of that transfer (`sendSt`).
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsLaunch

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-- A product over the fifteen transfers, written out. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The vector load of column block `peer c r` of the vector-memory copy reads the block the transfer carries. -/
theorem send_load_x (c : Dev nD) (fx : Buf (Elt F) ((c : Thread nD τ).loc cc0_scratch0)) (r : Fin 15) (bar : ℕ)
    {α : Type} {Q : α → sProp 𝕄} {off : Fin S256x4096.rank → ℕ} (ho : off = ![0, 256 * (peer c r).val])
    {inb : ∀ a, off a + S256x256.size a ≤ S256x4096.size a}
    {hl : (xV : Memref sig .tc .vmem S256x4096 .f32).view.LoadsAt (Rect.unit (s := S256x4096) off S256x256.size inb).toLoadRect}
    {k : Vec F S256x256 .f32 → Prog (TpuEff nD τ sig (Elt F) Λ₀ .tc) α} :
    globSt m c fx bar
      ⊢ iprop((globSt m c fx bar -∗ wp frame (wpE (defs₀ (F := F)) 𝒱₀ c none) Set.univ (k (xblk m c fx r)) Q)
          -∗ wp frame (wpE (defs₀ (F := F)) 𝒱₀ c none) Set.univ (.op (.load xV (Rect.unit (s := S256x4096) off S256x256.size inb).toLoadRect hl) k) Q) := by
  subst ho
  unfold globSt
  iintro ⟨Hx, Hrest⟩ Hk
  iapply (wp_load_rect 𝒱₀ (c : Thread nD τ) none Set.univ (m := (xV : Memref sig .tc .vmem S256x4096 .f32)) (r := colsRect (peer c r))
      (q := fullShare) (f := xvF m c fx) (S := (xV : Memref sig .tc .vmem S256x4096 .f32).view.set)
      (View.set_slice_subset _ _)) $$ Hx
  iintro Hx
  iapply Hk
  isplitl [Hx]; · iexact Hx
  iexact Hrest

/-- The vector load of the old contents of the transfer's slot of the send buffer changes nothing. -/
theorem send_load_old (c : Dev nD) (fx : Buf (Elt F) ((c : Thread nD τ).loc cc0_scratch0)) (r : Fin 15)
    {α : Type} {Q : α → sProp 𝕄} {off : Fin S16x256x256.rank → ℕ} (ho : off = ![(peer c r).val, 0, 0])
    {inb : ∀ a, off a + S1x256x256.size a ≤ S16x256x256.size a}
    {hl : (sB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    sendSt m c fx r 0
      ⊢ iprop((∀ v, sendSt m c fx r 0 -∗ wp frame (wpE (defs₀ (F := F)) 𝒱₀ c none) Set.univ (k v) Q)
          -∗ wp frame (wpE (defs₀ (F := F)) 𝒱₀ c none) Set.univ (.op (.load sB (Rect.unit (s := S16x256x256) off S1x256x256.size inb).toLoadRect hl) k) Q) := by
  simp only [sendSt]
  iintro ⟨⟨%f, Hs⟩, Hrest⟩ Hk
  iapply (step_load_send c (peer c r) ho f) $$ Hs
  iintro Hs
  iapply Hk
  isplitl [Hs]; · iexists f; iexact Hs
  iexact Hrest

/-- The vector store of the narrowed block into the transfer's slot of the send buffer. -/
theorem send_store (c : Dev nD) (fx : Buf (Elt F) ((c : Thread nD τ).loc cc0_scratch0)) (r : Fin 15)
    {α : Type} {Q : α → sProp 𝕄} {off : Fin S16x256x256.rank → ℕ} (ho : off = ![(peer c r).val, 0, 0])
    {inb : ∀ a, off a + S1x256x256.size a ≤ S16x256x256.size a}
    {w : Vec F S1x256x256 .bf16}
    {hx : ((sB : Memref sig .tc .vmem S16x256x256 .bf16).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (hw : w = k0_pay1 (xblk m c fx r)) :
    sendSt m c fx r 0
      ⊢ iprop((sendSt m c fx r 1 -∗ wp frame (wpE (defs₀ (F := F)) 𝒱₀ c none) Set.univ (k ⟨⟩) Q)
          -∗ wp frame (wpE (defs₀ (F := F)) 𝒱₀ c none) Set.univ (.op (.store sB (Rect.unit (s := S16x256x256) off S1x256x256.size inb) w Finset.univ hx hm) k) Q) := by
  subst hw
  simp only [sendSt]
  iintro ⟨⟨%f, Hs⟩, Hrest⟩ Hk
  iapply (step_store_send c (peer c r) ho f) $$ Hs
  iintro Hs
  iapply Hk
  isplitl [Hs]
  · iexists f
    iexact Hs
  iexact Hrest

/-- A barrier unit from the transfer's peer hands the transfer its landing slot there. -/
theorem send_deal (c : Dev nD) (fx : Buf (Elt F) ((c : Thread nD τ).loc cc0_scratch0)) (r : Fin 15) :
    iprop(sendSt m c fx r 1 ∗ barPay c (peer c r)) ⊢ sendSt m c fx r 2 := by
  simp only [sendSt]
  unfold barPay
  iintro ⟨⟨Hs, Ht, Hat⟩, Hd, -⟩
  isplitl [Hs]; · iexact Hs
  isplitl [Hd]; · iexact Hd
  isplitl [Ht] <;> iassumption

/-- The barrier wait: fifteen units, one per other device; each hands its transfer the landing slot on that device. -/
theorem bar_wait (c : Dev nD) (fx : Buf (Elt F) ((c : Thread nD τ).loc cc0_scratch0)) (W : Waits sig Unit)
    {α : Type} {Q : α → sProp 𝕄} {k : PUnit → Prog (TpuEff nD τ sig (Elt F) Λ₀ .tc) α} :
    iprop(records m K ∗ levAts L lv ∗ cred (tallyAt (barCell c) () 15) ∗ owes (c : Thread nD τ) (Orecv c 0) W ∗ globSt m c fx 0
        ∗ bigSep Finset.univ fun r : Fin 15 => sendSt m c fx r 1)
      ⊢ iprop(((owes (c : Thread nD τ) (Orecv c 0) (insert (SemLoc.reg barS, ()) W) ∗ globSt m c fx 1
              ∗ bigSep Finset.univ fun r : Fin 15 => sendSt m c fx r 2)
            -∗ wp frame (wpE (defs₀ (F := F)) 𝒱₀ c none) Set.univ (k ⟨⟩) Q)
          -∗ wp frame (wpE (defs₀ (F := F)) 𝒱₀ c none) Set.univ (.op (.semWait barS (15#32 : BitVec 32).toNat) k) Q) := by
  unfold globSt
  iintro ⟨#HR, #Hlev, Hc, HO, ⟨G1, G2, G3, G4, G5, G6, G7, G8, G9, Hat⟩, HS⟩ Hk
  iapply (step_wait_bar m K c W) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexact HO
  isplitl [G1 G2 G3 G4 G5 G6 G7 G8 G9 Hat]
  · isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    iexact Hat
  · ihave Hp := (Entails.of_eq (bigSep_peer c (fun j => (barPay c j : sProp 𝕄)))) $$ Hpay
    iapply (show iprop((bigSep Finset.univ fun r : Fin 15 => sendSt m c fx r 1) ∗ bigSep Finset.univ fun r : Fin 15 => (barPay c (peer c r) : sProp 𝕄))
        ⊢ bigSep Finset.univ fun r : Fin 15 => sendSt m c fx r 2 from by
      rw [← bigSep_sep']; exact bigSep_mono fun r _ => send_deal m c fx r)
    isplitl [HS]; · iexact HS
    iexact Hp

/-- The transfer: its slot, the landing slot, the two tokens and the arrival's due go in; the departure's credit comes out. -/
theorem send_xfer (c : Dev nD) (fx : Buf (Elt F) ((c : Thread nD τ).loc cc0_scratch0)) (r : Fin 15) (W : Waits sig Unit)
    {α : Type} {Q : α → sProp 𝕄} {k : PUnit → Prog (TpuEff nD τ sig (Elt F) Λ₀ .tc) α}
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c r.val) W ∗ sendSt m c fx r 2)
      ⊢ iprop(((owes (c : Thread nD τ) (Orecv c (r.val + 1)) W ∗ sendSt m c fx r 3) -∗ wp frame (wpE (defs₀ (F := F)) 𝒱₀ c none) Set.univ (k ⟨⟩) Q)
          -∗ wp frame (wpE (defs₀ (F := F)) 𝒱₀ c none) Set.univ (.op (.enqueueDma srcM (.remote (Dev.tc n : Thread nD τ) dstM (.dma sS) hsc) (.dma sem) h1 h2 h3) k) Q) := by
  simp only [sendSt, xferToks]
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS] <;> iassumption
  iintro ⟨Hc, HO⟩
  iapply Hk
  isplitl [HO]; · iexact HO
  isplitl [Hc] <;> iassumption

end Cert.KernelProof

end
-- ==== Proof.BitsPart03.lean ====
/-
  Part 3 of a device's body: the first three blocks narrowed and stored into the send buffer, and the fourth read.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsSendBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part3_spec (K : Dev nD × CK → ℕ) (c : Dev nD) (fx : Buf (Elt F) ((c : Thread nD τ).loc cc0_scratch0)) (W : Waits sig Unit) (v2 : BitVec 32) (v59 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 0
        ∗ sendSt m c fx 1 0
        ∗ sendSt m c fx 2 0
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v59)
          (fun ret => iprop(∃ W', ⌜ret = k0_pay4 (xblk m c fx 3)⌝ ∗ owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part3_eq_skeleton]
  unfold k0_part3_skel
  simp only [Prog.lift, Prog.bind_op, Prog.bind_ret, Prog.pure_eq_ret]
  iapply (send_load_x m c fx (0 : Fin 15) 0 (k0_off4_eq c (0 : Fin 15))) $$ HG
  iintro HG
  iapply (send_load_old m c fx (0 : Fin 15) (k0_off5_eq c (0 : Fin 15))) $$ S0
  iintro %old0 S0
  iapply (send_store m c fx (0 : Fin 15) (k0_off5_eq c (0 : Fin 15)) rfl) $$ S0
  iintro S0
  iapply (send_load_x m c fx (1 : Fin 15) 0 (k0_off4_eq c (1 : Fin 15))) $$ HG
  iintro HG
  iapply (send_load_old m c fx (1 : Fin 15) (k0_off5_eq c (1 : Fin 15))) $$ S1
  iintro %old1 S1
  iapply (send_store m c fx (1 : Fin 15) (k0_off5_eq c (1 : Fin 15)) rfl) $$ S1
  iintro S1
  iapply (send_load_x m c fx (2 : Fin 15) 0 (k0_off4_eq c (2 : Fin 15))) $$ HG
  iintro HG
  iapply (send_load_old m c fx (2 : Fin 15) (k0_off5_eq c (2 : Fin 15))) $$ S2
  iintro %old2 S2
  iapply (send_store m c fx (2 : Fin 15) (k0_off5_eq c (2 : Fin 15)) rfl) $$ S2
  iintro S2
  iapply (send_load_x m c fx (3 : Fin 15) 0 (k0_off4_eq c (3 : Fin 15))) $$ HG
  iintro HG
  rw [wp_ret]; imodintro
  iexists W
  isplitr; · ipureintro; rfl
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelProof.part3_spec' depends on axioms: [propext, Classical.choice, Quot.sound] -/
#guard_msgs in #print axioms part3_spec

end Cert.KernelProof

end
-- ==== Proof.BitsPart04.lean ====
/-
  The stores of the narrowed column blocks of transfers 3 to 6 into their slots of the send buffer; the block of
  transfer 3 was read, and narrowed, by the part before.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsSendBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part4_spec (K : Dev nD × CK → ℕ) (c : Dev nD) (fx : Buf (Elt F) ((c : Thread nD τ).loc cc0_scratch0)) (W : Waits sig Unit) (v2 : BitVec 32) (v93 : FVec F S256x256 .bf16) (hv : v93 = k0_pay4 (xblk m c fx 3)) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 0
        ∗ sendSt m c fx 4 0
        ∗ sendSt m c fx 5 0
        ∗ sendSt m c fx 6 0
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v93)
          (fun ret => iprop(∃ W', owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  iintro ⟨#HR, #Hlev, HO, Hc, HG, Hown, S0, S1, S2, S3, S4, S5, S6, Htail⟩
  simp only [k0_part4_eq_skeleton]
  unfold k0_part4_skel
  simp only [Prog.lift, Prog.bind_op, Prog.bind_ret, Prog.pure_eq_ret]
  -- transfer 3: the old slot is read, the block narrowed before is stored
  iapply (send_load_old m c fx (3 : Fin 15) (k0_off5_eq c (3 : Fin 15))) $$ S3
  iintro %old3 S3
  iapply (send_store m c fx (3 : Fin 15) (k0_off5_eq c (3 : Fin 15)) (show k0_pay5 (k0_pay4 (xblk m c fx 3)) = k0_pay1 (xblk m c fx 3) from rfl)) $$ S3
  iintro S3
  -- transfer 4: the column block is read, the old slot is read, the narrowed block is stored
  iapply (send_load_x m c fx (4 : Fin 15) 0 (k0_off4_eq c (4 : Fin 15))) $$ HG
  iintro HG
  iapply (send_load_old m c fx (4 : Fin 15) (k0_off5_eq c (4 : Fin 15))) $$ S4
  iintro %old4 S4
  iapply (send_store m c fx (4 : Fin 15) (k0_off5_eq c (4 : Fin 15)) rfl) $$ S4
  iintro S4
  -- transfer 5: the column block is read, the old slot is read, the narrowed block is stored
  iapply (send_load_x m c fx (5 : Fin 15) 0 (k0_off4_eq c (5 : Fin 15))) $$ HG
  iintro HG
  iapply (send_load_old m c fx (5 : Fin 15) (k0_off5_eq c (5 : Fin 15))) $$ S5
  iintro %old5 S5
  iapply (send_store m c fx (5 : Fin 15) (k0_off5_eq c (5 : Fin 15)) rfl) $$ S5
  iintro S5
  -- transfer 6: the column block is read, the old slot is read, the narrowed block is stored
  iapply (send_load_x m c fx (6 : Fin 15) 0 (k0_off4_eq c (6 : Fin 15))) $$ HG
  iintro HG
  iapply (send_load_old m c fx (6 : Fin 15) (k0_off5_eq c (6 : Fin 15))) $$ S6
  iintro %old6 S6
  iapply (send_store m c fx (6 : Fin 15) (k0_off5_eq c (6 : Fin 15)) rfl) $$ S6
  iintro S6
  rw [wp_ret]; imodintro
  iexists W
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Htail

/-- info: 'Cert.KernelProof.part4_spec' depends on axioms: [propext, Classical.choice, Quot.sound] -/
#guard_msgs in #print axioms part4_spec

end Cert.KernelProof

end
-- ==== Proof.BitsPart05.lean ====
/-
  Part 5 of a device's body: the eighth to tenth blocks stored into the send buffer, the eleventh read.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsSendBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part5_spec (K : Dev nD × CK → ℕ) (c : Dev nD) (fx : Buf (Elt F) ((c : Thread nD τ).loc cc0_scratch0)) (W : Waits sig Unit) (v2 : BitVec 32) (v129 : BitVec 32) (c256_i32_63 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 0
        ∗ sendSt m c fx 8 0
        ∗ sendSt m c fx 9 0
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v129 c256_i32_63)
          (fun ret => iprop(∃ W', ⌜ret.1 = k0_pay12 (xblk m c fx 10)⌝ ∗ owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part5_eq_skeleton]
  unfold k0_part5_skel
  simp only [Prog.lift, Prog.bind_op, Prog.bind_ret, Prog.pure_eq_ret]
  iapply (send_load_x m c fx (7 : Fin 15) 0 (k0_off4_eq c (7 : Fin 15))) $$ HG
  iintro HG
  iapply (send_load_old m c fx (7 : Fin 15) (k0_off5_eq c (7 : Fin 15))) $$ S7
  iintro %old7 S7
  iapply (send_store m c fx (7 : Fin 15) (k0_off5_eq c (7 : Fin 15)) rfl) $$ S7
  iintro S7
  iapply (send_load_x m c fx (8 : Fin 15) 0 (k0_off4_eq c (8 : Fin 15))) $$ HG
  iintro HG
  iapply (send_load_old m c fx (8 : Fin 15) (k0_off5_eq c (8 : Fin 15))) $$ S8
  iintro %old8 S8
  iapply (send_store m c fx (8 : Fin 15) (k0_off5_eq c (8 : Fin 15)) rfl) $$ S8
  iintro S8
  iapply (send_load_x m c fx (9 : Fin 15) 0 (k0_off4_eq c (9 : Fin 15))) $$ HG
  iintro HG
  iapply (send_load_old m c fx (9 : Fin 15) (k0_off5_eq c (9 : Fin 15))) $$ S9
  iintro %old9 S9
  iapply (send_store m c fx (9 : Fin 15) (k0_off5_eq c (9 : Fin 15)) rfl) $$ S9
  iintro S9
  iapply (send_load_x m c fx (10 : Fin 15) 0 (k0_off4_eq c (10 : Fin 15))) $$ HG
  iintro HG
  iapply (send_load_old m c fx (10 : Fin 15) (k0_off5_eq c (10 : Fin 15))) $$ S10
  iintro %old10 S10
  rw [wp_ret]; imodintro
  iexists W
  isplitr; · ipureintro; rfl
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelProof.part5_spec' depends on axioms: [propext, Classical.choice, Quot.sound] -/
#guard_msgs in #print axioms part5_spec

end Cert.KernelProof

end
-- ==== Proof.BitsPart06.lean ====
/-
  The stores of the narrowed column blocks of transfers 10 to 13 into their slots of the send buffer; the block of
  transfer 10 and the old contents of its slot were read by the part before.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsSendBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part6_spec (K : Dev nD × CK → ℕ) (c : Dev nD) (fx : Buf (Elt F) ((c : Thread nD τ).loc cc0_scratch0)) (W : Waits sig Unit) (v2 : BitVec 32) (v163 : FVec F S256x256 .bf16) (v165 : Vec F S1x256x256 .bf16) (hv : v163 = k0_pay12 (xblk m c fx 10)) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 0
        ∗ sendSt m c fx 11 0
        ∗ sendSt m c fx 12 0
        ∗ sendSt m c fx 13 0
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v163 v165)
          (fun ret => iprop(∃ W', owes (c : Thread nD τ) (Orecv c 0) W'
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 1
        ∗ sendSt m c fx 11 1
        ∗ sendSt m c fx 12 1
        ∗ sendSt m c fx 13 1
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  iintro ⟨#HR, #Hlev, HO, Hc, HG, Hown, S0, S1, S2, S3, S4, S5, S6, S7, S8, S9, S10, S11, S12, S13, Htail⟩
  simp only [k0_part6_eq_skeleton]
  unfold k0_part6_skel
  simp only [Prog.lift, Prog.bind_op, Prog.bind_ret, Prog.pure_eq_ret]
  -- transfer 10: the block narrowed before is stored
  iapply (send_store m c fx (10 : Fin 15) (k0_off5_eq c (10 : Fin 15)) (show k0_pay13 (k0_pay12 (xblk m c fx 10)) = k0_pay1 (xblk m c fx 10) from rfl)) $$ S10
  iintro S10
  -- transfer 11: the column block is read, the old slot is read, the narrowed block is stored
  iapply (send_load_x m c fx (11 : Fin 15) 0 (k0_off4_eq c (11 : Fin 15))) $$ HG
  iintro HG
  iapply (send_load_old m c fx (11 : Fin 15) (k0_off5_eq c (11 : Fin 15))) $$ S11
  iintro %old11 S11
  iapply (send_store m c fx (11 : Fin 15) (k0_off5_eq c (11 : Fin 15)) rfl) $$ S11
  iintro S11
  -- transfer 12: the column block is read, the old slot is read, the narrowed block is stored
  iapply (send_load_x m c fx (12 : Fin 15) 0 (k0_off4_eq c (12 : Fin 15))) $$ HG
  iintro HG
  iapply (send_load_old m c fx (12 : Fin 15) (k0_off5_eq c (12 : Fin 15))) $$ S12
  iintro %old12 S12
  iapply (send_store m c fx (12 : Fin 15) (k0_off5_eq c (12 : Fin 15)) rfl) $$ S12
  iintro S12
  -- transfer 13: the column block is read, the old slot is read, the narrowed block is stored
  iapply (send_load_x m c fx (13 : Fin 15) 0 (k0_off4_eq c (13 : Fin 15))) $$ HG
  iintro HG
  iapply (send_load_old m c fx (13 : Fin 15) (k0_off5_eq c (13 : Fin 15))) $$ S13
  iintro %old13 S13
  iapply (send_store m c fx (13 : Fin 15) (k0_off5_eq c (13 : Fin 15)) rfl) $$ S13
  iintro S13
  rw [wp_ret]; imodintro
  iexists W
  isplitl [HO]; · iexact HO
  isplitl [Hc]; · iexact Hc
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  iexact Htail

/-- info: 'Cert.KernelProof.part6_spec' depends on axioms: [propext, Classical.choice, Quot.sound] -/
#guard_msgs in #print axioms part6_spec

end Cert.KernelProof

end
-- ==== Proof.BitsPart07.lean ====
/-
  Part 7 of a device's body: the last block stored, the barrier wait, and the first two transfers.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsSendBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem part7_spec (K : Dev nD × CK → ℕ) (c : Dev nD) (fx : Buf (Elt F) ((c : Thread nD τ).loc cc0_scratch0)) (W : Waits sig Unit) (v2 : BitVec 32)  (v199 : BitVec 32) (v200 : BitVec 32) :
    iprop(records m K ∗ levAts L lv
        ∗ owes (c : Thread nD τ) (Orecv c 0) W
        ∗ cred (tallyAt (barCell c) () 15)
        ∗ globSt m c fx 0
        ∗ ownSt m c 0
        ∗ sendSt m c fx 0 1
        ∗ sendSt m c fx 1 1
        ∗ sendSt m c fx 2 1
        ∗ sendSt m c fx 3 1
        ∗ sendSt m c fx 4 1
        ∗ sendSt m c fx 5 1
        ∗ sendSt m c fx 6 1
        ∗ sendSt m c fx 7 1
        ∗ sendSt m c fx 8 1
        ∗ sendSt m c fx 9 1
        ∗ sendSt m c fx 10 1
        ∗ sendSt m c fx 11 1
        ∗ sendSt m c fx 12 1
        ∗ sendSt m c fx 13 1
        ∗ sendSt m c fx 14 0
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl) : Sems sig S_) v199 v200)
          (fun ret => iprop(∃ W', owes (c : Thread nD τ) (Orecv c 2) W'
        ∗ globSt m c fx 1
        ∗ ownSt m c 0
        ∗ sendSt m c fx 0 3
        ∗ sendSt m c fx 1 3
        ∗ sendSt m c fx 2 2
        ∗ sendSt m c fx 3 2
        ∗ sendSt m c fx 4 2
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by

  iintro ⟨#HR, #Hlev, HO, Hc, HG, Hown, S0, S1, S2, S3, S4, S5, S6, S7, S8, S9, S10, S11, S12, S13, S14, HRv⟩
  simp only [k0_part7_eq_skeleton]
  unfold k0_part7_skel
  simp only [Prog.lift, Prog.bind_op, Prog.bind_ret, Prog.pure_eq_ret, semWaitWord]
  iapply (send_load_x m c fx (14 : Fin 15) 0 (k0_off4_eq c (14 : Fin 15))) $$ HG
  iintro HG
  iapply (send_load_old m c fx (14 : Fin 15) (k0_off5_eq c (14 : Fin 15))) $$ S14
  iintro %old14 S14
  iapply (send_store m c fx (14 : Fin 15) (k0_off5_eq c (14 : Fin 15)) rfl) $$ S14
  iintro S14
  ihave HS := (Entails.of_eq (bigSep_fin15 (fun r : Fin 15 => sendSt m c fx r 1)).symm) $$ [S0 S1 S2 S3 S4 S5 S6 S7 S8 S9 S10 S11 S12 S13 S14]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  iapply (bar_wait m K c fx W) $$ [Hc HO HG HS]
  · isplitr; · iexact HR
    isplitr; · iexact Hlev
    isplitl [Hc]; · iexact Hc
    isplitl [HO]; · iexact HO
    isplitl [HG]; · iexact HG
    iexact HS
  iintro ⟨HO, HG, HS⟩
  ihave HS' := (Entails.of_eq (bigSep_fin15 (fun r : Fin 15 => sendSt m c fx r 2))) $$ HS
  icases HS' with ⟨S0, S1, S2, S3, S4, S5, S6, S7, S8, S9, S10, S11, S12, S13, S14⟩
  iapply (send_xfer m K c fx (0 : Fin 15) (insert (SemLoc.reg barS, ()) W) (dev_peer c (0 : Fin 15) _ _ (k0_dev17_eq c)) (slot_peer sB c (0 : Fin 15) _) (slot_self rB c _) (sendSem_peer c (0 : Fin 15)) (recvSem_self c)) $$ [HO S0]
  · isplitr; · iexact HR
    isplitl [HO]; · iexact HO
    iexact S0
  iintro ⟨HO, S0⟩
  iapply (send_xfer m K c fx (1 : Fin 15) (insert (SemLoc.reg barS, ()) W) (dev_peer c (1 : Fin 15) _ _ (k0_dev18_eq c)) (slot_peer sB c (1 : Fin 15) _) (slot_self rB c _) (sendSem_peer c (1 : Fin 15)) (recvSem_self c)) $$ [HO S1]
  · isplitr; · iexact HR
    isplitl [HO]; · iexact HO
    iexact S1
  iintro ⟨HO, S1⟩
  rw [wp_ret]; imodintro
  iexists (insert (SemLoc.reg barS, ()) W)
  isplitl [HO]; · iexact HO
  isplitl [HG]; · iexact HG
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact HRv

/-- info: 'Cert.KernelProof.part7_spec' depends on axioms: [propext, Classical.choice, Quot.sound] -/
#guard_msgs in #print axioms part7_spec

end Cert.KernelProof

end
-- ==== Proof.BitsXferBlock.lean ====
/-
  One transfer sent, on its state.

  Each of the fifteen transfers a device sends is one remote copy of a slot of its send buffer into slot `c` of the
  peer's receive buffer. The lemma here steps that copy on the state of the transfer (`sendSt`, phase 2 to phase 3),
  and lowers what the device still owes by that transfer's arrival credit.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-- The `r`-th transfer is sent: the stored slot of the send buffer, the peer's landing slot, the two tokens and one
    arrival's credit of what is owed go in; the transfer is then pending, its departure's credit in hand. -/
theorem xfer_send (c : Dev nD) (r : Fin 15) (fx : Buf (Elt F) ((c : Thread nD τ).loc cc0_scratch0))
    {α : Type} {Q : α → sProp 𝕄} {k : PUnit → Prog (TpuEff nD τ sig (Elt F) Λ₀ .tc) α} (W : Waits sig Unit)
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c r.val) W ∗ sendSt m c fx r 2)
      ⊢ iprop(((owes (c : Thread nD τ) (Orecv c (r.val + 1)) W ∗ sendSt m c fx r 3)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  simp only [sendSt, xferToks]
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS]; · iexact HtS
    iexact HtR
  iintro ⟨Hc, HO⟩
  iapply Hk
  isplitl [HO]; · iexact HO
  isplitl [Hc]; · iexact Hc
  iexact Hat

/-- The last transfer sent: nothing is owed any more. -/
theorem xfer_send_last (c : Dev nD) (fx : Buf (Elt F) ((c : Thread nD τ).loc cc0_scratch0))
    {α : Type} {Q : α → sProp 𝕄} {k : PUnit → Prog (TpuEff nD τ sig (Elt F) Λ₀ .tc) α} (W : Waits sig Unit)
    {n : Dev nD} (hn : n = peer c 14)
    {srcM : Memref sig .tc .vmem S256x256 .bf16} {dstM : Memref sig .tc .vmem S256x256 .bf16} {sS sem : DmaSem sig}
    (hs : srcM = slotM sB (peer c 14)) (hd : dstM = slotM rB c) (hsS : sS = sendS (peer c 14)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc : DmaTarget nD τ sig Proc.tc .vmem S256x256 .bf16)} :
    iprop(records m K ∗ owes (c : Thread nD τ) (Orecv c 14) W ∗ sendSt m c fx 14 2)
      ⊢ iprop(((owes (c : Thread nD τ) 0 W ∗ sendSt m c fx 14 3)
            -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  have h := xfer_send m K c 14 fx (Q := Q) (k := k) W hn hs hd hsS hsem (hsc := hsc) (h1 := h1) (h2 := h2) (h3 := h3)
  rw [show ((14 : Fin 15).val + 1) = 15 from rfl, Orecv_end] at h
  exact h

/-- info: 'Cert.KernelProof.xfer_send' depends on axioms: [propext, Classical.choice, Quot.sound] -/
#guard_msgs in #print axioms xfer_send

/-- info: 'Cert.KernelProof.xfer_send_last' depends on axioms: [propext, Classical.choice, Quot.sound] -/
#guard_msgs in #print axioms xfer_send_last

end Cert.KernelProof

end
-- ==== Proof.BitsPart08.lean ====
/-
  Part 8 of a device's body. Transfers 2, 3 and 4 are sent.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsXferBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part8_spec (K : Dev nD × CK → ℕ) (c : Dev nD) (fx : Buf (Elt F) ((c : Thread nD τ).loc cc0_scratch0)) (W : Waits sig Unit) (v2 : BitVec 32) (v233 : BitVec 32) :
    iprop(records m K ∗ levAts L lv
        ∗ owes (c : Thread nD τ) (Orecv c 2) W
        ∗ globSt m c fx 1
        ∗ ownSt m c 0
        ∗ sendSt m c fx 0 3
        ∗ sendSt m c fx 1 3
        ∗ sendSt m c fx 2 2
        ∗ sendSt m c fx 3 2
        ∗ sendSt m c fx 4 2
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v233)
          (fun ret => iprop(∃ W', owes (c : Thread nD τ) (Orecv c 5) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, St⟩
  simp only [k0_part8_eq_skeleton]; unfold k0_part8_skel
  simp only [Prog.lift, Prog.bind_op, Prog.bind_ret, Prog.pure_eq_ret]
  -- transfer 2, to `peer c 2`
  iapply (xfer_send m K c 2 fx _ (dev_peer c 2 _ _ (k0_dev19_eq c)) (slot_peer sB c 2 _) (slot_self rB c _) (sendSem_peer c 2) (recvSem_self c)) $$ [HO S2]
  · isplitr; · iexact HR
    isplitl [HO]; · iexact HO
    iexact S2
  iintro ⟨HO, S2⟩
  -- transfer 3, to `peer c 3`
  iapply (xfer_send m K c 3 fx _ (dev_peer c 3 _ _ (k0_dev20_eq c)) (slot_peer sB c 3 _) (slot_self rB c _) (sendSem_peer c 3) (recvSem_self c)) $$ [HO S3]
  · isplitr; · iexact HR
    isplitl [HO]; · iexact HO
    iexact S3
  iintro ⟨HO, S3⟩
  -- transfer 4, to `peer c 4`
  iapply (xfer_send m K c 4 fx _ (dev_peer c 4 _ _ (k0_dev21_eq c)) (slot_peer sB c 4 _) (slot_self rB c _) (sendSem_peer c 4) (recvSem_self c)) $$ [HO S4]
  · isplitr; · iexact HR
    isplitl [HO]; · iexact HO
    iexact S4
  iintro ⟨HO, S4⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  iexact St

/-- info: 'Cert.KernelProof.part8_spec' depends on axioms: [propext, Classical.choice, Quot.sound] -/
#guard_msgs in #print axioms part8_spec

end Cert.KernelProof

end
-- ==== Proof.BitsPart09.lean ====
/-
  Part 9 of a device's body. Transfers 5 and 6 are sent.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsXferBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part9_spec (K : Dev nD × CK → ℕ) (c : Dev nD) (fx : Buf (Elt F) ((c : Thread nD τ).loc cc0_scratch0)) (W : Waits sig Unit) (v2 : BitVec 32) (c6_i32_150 : BitVec 32) :
    iprop(records m K ∗ levAts L lv
        ∗ owes (c : Thread nD τ) (Orecv c 5) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 2
        ∗ sendSt m c fx 6 2
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c6_i32_150)
          (fun ret => iprop(∃ W', owes (c : Thread nD τ) (Orecv c 7) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, St⟩
  simp only [k0_part9_eq_skeleton]; unfold k0_part9_skel
  simp only [Prog.lift, Prog.bind_op, Prog.bind_ret, Prog.pure_eq_ret]
  -- transfer 5, to `peer c 5`
  iapply (xfer_send m K c 5 fx _ (dev_peer c 5 _ _ (k0_dev22_eq c)) (slot_peer sB c 5 _) (slot_self rB c _) (sendSem_peer c 5) (recvSem_self c)) $$ [HO S5]
  · isplitr; · iexact HR
    isplitl [HO]; · iexact HO
    iexact S5
  iintro ⟨HO, S5⟩
  -- transfer 6, to `peer c 6`
  iapply (xfer_send m K c 6 fx _ (dev_peer c 6 _ _ (k0_dev23_eq c)) (slot_peer sB c 6 _) (slot_self rB c _) (sendSem_peer c 6) (recvSem_self c)) $$ [HO S6]
  · isplitr; · iexact HR
    isplitl [HO]; · iexact HO
    iexact S6
  iintro ⟨HO, S6⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  iexact St

/-- info: 'Cert.KernelProof.part9_spec' depends on axioms: [propext, Classical.choice, Quot.sound] -/
#guard_msgs in #print axioms part9_spec

end Cert.KernelProof

end
-- ==== Proof.BitsPart10.lean ====
/-
  Part 10 of a device's body. Transfers 7, 8 and 9 are sent.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsXferBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part10_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 7) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 2
        ∗ sendSt m c fx 8 2
        ∗ sendSt m c fx 9 2
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W', owes (c : Thread nD τ) (Orecv c 10) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, St⟩
  simp only [k0_part10_eq_skeleton]; unfold k0_part10_skel
  simp only [Prog.lift, Prog.bind_op, Prog.bind_ret, Prog.pure_eq_ret]
  -- transfer 7, to `peer c 7`
  iapply (xfer_send m K c 7 fx _ (dev_peer c 7 _ _ (k0_dev24_eq c)) (slot_peer sB c 7 _) (slot_self rB c _) (sendSem_peer c 7) (recvSem_self c)) $$ [HO S7]
  · isplitr; · iexact HR
    isplitl [HO]; · iexact HO
    iexact S7
  iintro ⟨HO, S7⟩
  -- transfer 8, to `peer c 8`
  iapply (xfer_send m K c 8 fx _ (dev_peer c 8 _ _ (k0_dev25_eq c)) (slot_peer sB c 8 _) (slot_self rB c _) (sendSem_peer c 8) (recvSem_self c)) $$ [HO S8]
  · isplitr; · iexact HR
    isplitl [HO]; · iexact HO
    iexact S8
  iintro ⟨HO, S8⟩
  -- transfer 9, to `peer c 9`
  iapply (xfer_send m K c 9 fx _ (dev_peer c 9 _ _ (k0_dev26_eq c)) (slot_peer sB c 9 _) (slot_self rB c _) (sendSem_peer c 9) (recvSem_self c)) $$ [HO S9]
  · isplitr; · iexact HR
    isplitl [HO]; · iexact HO
    iexact S9
  iintro ⟨HO, S9⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact St

/-- info: 'Cert.KernelProof.part10_spec' depends on axioms: [propext, Classical.choice, Quot.sound] -/
#guard_msgs in #print axioms part10_spec

end Cert.KernelProof

end
-- ==== Proof.BitsPart11.lean ====
/-
  Part 11 of a device's body. Transfers 10, 11 and 12 are sent.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsXferBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part11_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 10) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 2
        ∗ sendSt m c fx 11 2
        ∗ sendSt m c fx 12 2
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W', owes (c : Thread nD τ) (Orecv c 13) W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, St⟩
  simp only [k0_part11_eq_skeleton]; unfold k0_part11_skel
  simp only [Prog.lift, Prog.bind_op, Prog.bind_ret, Prog.pure_eq_ret]
  -- transfer 10, to `peer c 10`
  iapply (xfer_send m K c 10 fx _ (dev_peer c 10 _ _ (k0_dev27_eq c)) (slot_peer sB c 10 _) (slot_self rB c _) (sendSem_peer c 10) (recvSem_self c)) $$ [HO S10]
  · isplitr; · iexact HR
    isplitl [HO]; · iexact HO
    iexact S10
  iintro ⟨HO, S10⟩
  -- transfer 11, to `peer c 11`
  iapply (xfer_send m K c 11 fx _ (dev_peer c 11 _ _ (k0_dev28_eq c)) (slot_peer sB c 11 _) (slot_self rB c _) (sendSem_peer c 11) (recvSem_self c)) $$ [HO S11]
  · isplitr; · iexact HR
    isplitl [HO]; · iexact HO
    iexact S11
  iintro ⟨HO, S11⟩
  -- transfer 12, to `peer c 12`
  iapply (xfer_send m K c 12 fx _ (dev_peer c 12 _ _ (k0_dev29_eq c)) (slot_peer sB c 12 _) (slot_self rB c _) (sendSem_peer c 12) (recvSem_self c)) $$ [HO S12]
  · isplitr; · iexact HR
    isplitl [HO]; · iexact HO
    iexact S12
  iintro ⟨HO, S12⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iexact St

/-- info: 'Cert.KernelProof.part11_spec' depends on axioms: [propext, Classical.choice, Quot.sound] -/
#guard_msgs in #print axioms part11_spec

end Cert.KernelProof

end
-- ==== Proof.BitsPart12.lean ====
/-
  The last two departures, the first arrival, and the reads of the landed slot and of its staging slot.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part12_sendSt_two (c : Dev nD) (fx : Buf (Elt F) ((c : Thread nD τ).loc cc0_scratch0)) (r : Fin 15) :
    sendSt m c fx r 2 = iprop((∃ f0, sPts c (peer c r) (sendF m c (peer c r) fx f0)) ∗ (∃ fd, rPts (peer c r) c fd) ∗ xferToks c r
      ∗ atPos ER (sendCell c (peer c r)) 0 ∅ 0) := rfl
theorem part12_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl

theorem part12_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part12_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part12_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part12_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part12_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## A departure -/

/-- The `r`-th transfer leaves: its stored slot, the peer's landing slot and its two tokens go, the departure's
    credit comes, and one arrival's credit less is owed. -/
theorem part12_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α} (W : Waits sig Unit)
    {n : Dev nD} (hn : n = peer c r)
    {srcM : Memref sig .tc .vmem S256x256 .bf16} {dstM : Memref sig .tc .vmem S256x256 .bf16} {sS sem : DmaSem sig}
    (hs : srcM = slotM sB (peer c r)) (hd : dstM = slotM rB c) (hsS : sS = sendS (peer c r)) (hsem : sem = recvS c)
    {hsc : dstM.view.ref.isScScratch = false} {h1 : srcM.view.WordExact} {h2 : dstM.view.WordExact}
    {h3 : DmaTarget.Typed .vmem (.dma sem) (.remote (Dev.tc n : Thread nD τ) dstM (.dma sS) hsc)} :
    iprop(records m K ∗ owes (c : Thread nD τ) (Orecv c r.val) W ∗ sendSt m c fx r 2)
      ⊢ iprop(((owes (c : Thread nD τ) (Orecv c (r.val + 1)) W ∗ sendSt m c fx r 3) -∗ wp frame (wpE (defs₀ (F := F)) 𝒱₀ c none) Set.univ (k ⟨⟩) Q)
          -∗ wp frame (wpE (defs₀ (F := F)) 𝒱₀ c none) Set.univ
              (.op (.enqueueDma srcM (.remote (Dev.tc n : Thread nD τ) dstM (.dma sS) hsc) (.dma sem) h1 h2 h3) k) Q) := by
  rw [part12_sendSt_two, part12_sendSt_three]; unfold xferToks
  iintro ⟨#HR, HO, ⟨%f0, Hs⟩, ⟨%fd, Hd⟩, ⟨HtS, HtR⟩, Hat⟩ Hk
  iapply (step_send m K c r W fx f0 fd hn hs hd hsS hsem) $$ [Hs Hd HO HtS HtR]
  · isplitr; · iexact HR
    isplitl [Hs]; · iexact Hs
    isplitl [Hd]; · iexact Hd
    isplitl [HO]; · iexact HO
    isplitl [HtS]; · iexact HtS
    iexact HtR
  iintro ⟨Hc, HO⟩
  iapply Hk
  isplitl [HO]; · iexact HO
  isplitl [Hc]; · iexact Hc
  iexact Hat

/-! ## An arrival -/

/-- The wait for the `r`-th block: its credit goes, the landed slot comes at named contents. -/
theorem part12_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part12_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part12_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part12_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part12_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part12_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part12_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part12_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part12_stagedSt gPts
  iintro ⟨Hr, Hat, ⟨%g0, Hg⟩, Hrest⟩ Hk
  iapply (part12_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part12_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part12_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part12_recvSt_two]; unfold part12_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part12_spec (K : Dev nD × CK → ℕ) (c : Dev nD) (fx : Buf (Elt F) ((c : Thread nD τ).loc cc0_scratch0)) (W : Waits sig Unit) (v2 : BitVec 32) :
    iprop(records m K ∗ levAts L lv
        ∗ owes (c : Thread nD τ) (Orecv c 13) W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 2
        ∗ sendSt m c fx 14 2
        ∗ recvSt m c 0 0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2)
          (fun ret => iprop(∃ W' fd fx' f0, ⌜ret.2.1 = k0_pay18 (rblk m c 0 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt1 m c 0 fd fx' f0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part12_eq_skeleton]; unfold k0_part12_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, Rt⟩
  -- transfer 13 leaves
  iapply (part12_send m K c fx 13 W (dev_peer c 13 _ _ (k0_dev30_eq c)) (slot_peer sB c 13 _) (slot_self rB c _) (sendSem_peer c 13) (recvSem_self c)) $$ [HO S13]
  · isplitr; · iexact HR
    isplitl [HO]; · iexact HO
    iexact S13
  iintro ⟨HO, S13⟩
  -- transfer 14 leaves
  iapply (part12_send m K c fx 14 W (dev_peer c 14 _ _ (k0_dev31_eq c)) (slot_peer sB c 14 _) (slot_self rB c _) (sendSem_peer c 14) (recvSem_self c)) $$ [HO S14]
  · isplitr; · iexact HR
    isplitl [HO]; · iexact HO
    iexact S14
  iintro ⟨HO, S14⟩
  -- block 0 arrives
  iapply (part12_arrive m K c 0 _ (Orecv_end c) (slot_src rB c 0 _) (recvSem_src c 0)) $$ [HO R0]
  · isplitr; · iexact HR
    isplitl [HO]; · iexact HO
    iexact R0
  iintro ⟨%fd0, %fx0, %f00, HO, R0⟩
  -- the landed slot is read, then the staging slot as it stands
  iapply (part12_load_landed m c 0 fd0 fx0 f00 (k0_off11_eq c 0)) $$ [R0]
  · iexact R0
  iintro R0
  iapply (part12_load_stage m c 0 fd0 fx0 f00 (k0_off11_eq c 0)) $$ [R0]
  · iexact R0
  iintro %v0 R0
  rw [wp_ret]; imodintro
  iexists _, fd0, fx0, f00
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  iexact Rt

/-- info: 'Cert.KernelProof.part12_spec' depends on axioms: [propext, Classical.choice, Quot.sound] -/
#guard_msgs in #print axioms part12_spec

end Cert.KernelProof

end
-- ==== Proof.BitsPart13.lean ====
/-
  The first block received is staged and sent on to the result array; the second arrives, is read, staged and sent on.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part13_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part13_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part13_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part13_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part13_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part13_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part13_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part13_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part13_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part13_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part13_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part13_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part13_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part13_stagedSt gPts
  iintro ⟨Hr, Hat, ⟨%g0, Hg⟩, Hrest⟩ Hk
  iapply (part13_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part13_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part13_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part13_recvSt_two]; unfold part13_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part13_spec (K : Dev nD × CK → ℕ) (c : Dev nD) (fx : Buf (Elt F) ((c : Thread nD τ).loc cc0_scratch0)) (W : Waits sig Unit) (v2 : BitVec 32) (v390 : BitVec 32) (v402 : FVec F S256x256 .f32) (v404 : Vec F S1x256x256 .f32) (fd : Buf (Elt F) ((c : Thread nD τ).loc cc0_scratch2)) (fx' : Buf (Elt F) ((src c 0 : Thread nD τ).loc cc0_scratch0)) (f0 : Buf (Elt F) ((src c 0 : Thread nD τ).loc cc0_scratch1)) (hv : v402 = k0_pay18 (rblk m c 0 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt1 m c 0 fd fx' f0
        ∗ recvSt m c 1 0
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part13 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v390 v402 v404)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  simp only [k0_part13_eq_skeleton]; unfold k0_part13_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, Rt⟩
  -- the widened block is stored into its staging slot and its copy into the result array starts
  iapply (part13_stage_store m c 0 fd fx' f0 (k0_off11_eq c 0) rfl) $$ [R0]
  · iexact R0
  iintro R0
  iapply (part13_stage_copy m K c 0 (slot_src gB c 0 _) (rows_src c 0 _) (outSem_src c 0)) $$ [R0]
  · isplitr; · iexact HR
    iexact R0
  iintro R0
  -- block 1 arrives
  iapply (part13_arrive m K c 1 _ rfl (slot_src rB c 1 _) (recvSem_src c 1)) $$ [HO R1]
  · isplitr; · iexact HR
    isplitl [HO]; · iexact HO
    iexact R1
  iintro ⟨%fd1, %fx1, %f01, HO, R1⟩
  -- the landed slot is read, then the staging slot as it stands
  iapply (part13_load_landed m c 1 fd1 fx1 f01 (k0_off11_eq c 1)) $$ [R1]
  · iexact R1
  iintro R1
  iapply (part13_load_stage m c 1 fd1 fx1 f01 (k0_off11_eq c 1)) $$ [R1]
  · iexact R1
  iintro %v1 R1
  -- the widened block is stored into its staging slot and its copy into the result array starts
  iapply (part13_stage_store m c 1 fd1 fx1 f01 (k0_off11_eq c 1) rfl) $$ [R1]
  · iexact R1
  iintro R1
  iapply (part13_stage_copy m K c 1 (slot_src gB c 1 _) (rows_src c 1 _) (outSem_src c 1)) $$ [R1]
  · isplitr; · iexact HR
    iexact R1
  iintro R1
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  iexact Rt

/-- info: 'Cert.KernelProof.part13_spec' depends on axioms: [propext, Classical.choice, Quot.sound] -/
#guard_msgs in #print axioms part13_spec

end Cert.KernelProof

end
-- ==== Proof.BitsPart14.lean ====
/-
  The third block received: arrival, reads, staging, and the start of its copy into the result array.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part14_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part14_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part14_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part14_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part14_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part14_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part14_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part14_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part14_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part14_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part14_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part14_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part14_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part14_stagedSt gPts
  iintro ⟨Hr, Hat, ⟨%g0, Hg⟩, Hrest⟩ Hk
  iapply (part14_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part14_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part14_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part14_recvSt_two]; unfold part14_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part14_spec (K : Dev nD × CK → ℕ) (c : Dev nD) (fx : Buf (Elt F) ((c : Thread nD τ).loc cc0_scratch0)) (W : Waits sig Unit) (v2 : BitVec 32) (c3_i32_264 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 0
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part14 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c3_i32_264)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part14_eq_skeleton]; unfold k0_part14_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, Rt⟩
  -- block 2 arrives
  iapply (part14_arrive m K c 2 _ rfl (slot_src rB c 2 _) (recvSem_src c 2)) $$ [HO R2]
  · isplitr; · iexact HR
    isplitl [HO]; · iexact HO
    iexact R2
  iintro ⟨%fd2, %fx2, %f02, HO, R2⟩
  -- the landed slot is read, then the staging slot as it stands
  iapply (part14_load_landed m c 2 fd2 fx2 f02 (k0_off11_eq c 2)) $$ [R2]
  · iexact R2
  iintro R2
  iapply (part14_load_stage m c 2 fd2 fx2 f02 (k0_off11_eq c 2)) $$ [R2]
  · iexact R2
  iintro %v2 R2
  -- the widened block is stored into its staging slot and its copy into the result array starts
  iapply (part14_stage_store m c 2 fd2 fx2 f02 (k0_off11_eq c 2) rfl) $$ [R2]
  · iexact R2
  iintro R2
  iapply (part14_stage_copy m K c 2 (slot_src gB c 2 _) (rows_src c 2 _) (outSem_src c 2)) $$ [R2]
  · isplitr; · iexact HR
    iexact R2
  iintro R2
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  iexact Rt

/-- info: 'Cert.KernelProof.part14_spec' depends on axioms: [propext, Classical.choice, Quot.sound] -/
#guard_msgs in #print axioms part14_spec

end Cert.KernelProof

end
-- ==== Proof.BitsPart15.lean ====
/-
  The fourth block received goes all the way to the result array; the fifth arrives and is read.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part15_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part15_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part15_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part15_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part15_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part15_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part15_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part15_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part15_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part15_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part15_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part15_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part15_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part15_stagedSt gPts
  iintro ⟨Hr, Hat, ⟨%g0, Hg⟩, Hrest⟩ Hk
  iapply (part15_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part15_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part15_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part15_recvSt_two]; unfold part15_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part15_spec (K : Dev nD × CK → ℕ) (c : Dev nD) (fx : Buf (Elt F) ((c : Thread nD τ).loc cc0_scratch0)) (W : Waits sig Unit) (v2 : BitVec 32) (v465 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 0
        ∗ recvSt m c 4 0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part15 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v465)
          (fun ret => iprop(∃ W' fd fx' f0, ⌜ret.2.1 = k0_pay23 (rblk m c 4 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt1 m c 4 fd fx' f0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part15_eq_skeleton]; unfold k0_part15_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, Rt⟩
  -- block 3 arrives
  iapply (part15_arrive m K c 3 _ rfl (slot_src rB c 3 _) (recvSem_src c 3)) $$ [HO R3]
  · isplitr; · iexact HR
    isplitl [HO]; · iexact HO
    iexact R3
  iintro ⟨%fd3, %fx3, %f03, HO, R3⟩
  -- the landed slot is read, then the staging slot as it stands
  iapply (part15_load_landed m c 3 fd3 fx3 f03 (k0_off11_eq c 3)) $$ [R3]
  · iexact R3
  iintro R3
  iapply (part15_load_stage m c 3 fd3 fx3 f03 (k0_off11_eq c 3)) $$ [R3]
  · iexact R3
  iintro %v3 R3
  -- the widened block is stored into its staging slot and its copy into the result array starts
  iapply (part15_stage_store m c 3 fd3 fx3 f03 (k0_off11_eq c 3) rfl) $$ [R3]
  · iexact R3
  iintro R3
  iapply (part15_stage_copy m K c 3 (slot_src gB c 3 _) (rows_src c 3 _) (outSem_src c 3)) $$ [R3]
  · isplitr; · iexact HR
    iexact R3
  iintro R3
  -- block 4 arrives
  iapply (part15_arrive m K c 4 _ rfl (slot_src rB c 4 _) (recvSem_src c 4)) $$ [HO R4]
  · isplitr; · iexact HR
    isplitl [HO]; · iexact HO
    iexact R4
  iintro ⟨%fd4, %fx4, %f04, HO, R4⟩
  -- the landed slot is read, then the staging slot as it stands
  iapply (part15_load_landed m c 4 fd4 fx4 f04 (k0_off11_eq c 4)) $$ [R4]
  · iexact R4
  iintro R4
  iapply (part15_load_stage m c 4 fd4 fx4 f04 (k0_off11_eq c 4)) $$ [R4]
  · iexact R4
  iintro %v4 R4
  rw [wp_ret]; imodintro
  iexists _, fd4, fx4, f04
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  iexact Rt

/-- info: 'Cert.KernelProof.part15_spec' depends on axioms: [propext, Classical.choice, Quot.sound] -/
#guard_msgs in #print axioms part15_spec

end Cert.KernelProof

end
-- ==== Proof.BitsPart16.lean ====
/-
  The fifth block received is staged and sent on to the result array; the sixth arrives, is read, staged and sent on.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part16_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part16_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part16_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part16_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part16_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part16_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part16_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part16_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part16_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part16_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part16_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part16_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part16_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part16_stagedSt gPts
  iintro ⟨Hr, Hat, ⟨%g0, Hg⟩, Hrest⟩ Hk
  iapply (part16_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part16_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part16_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part16_recvSt_two]; unfold part16_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part16_spec (K : Dev nD × CK → ℕ) (c : Dev nD) (fx : Buf (Elt F) ((c : Thread nD τ).loc cc0_scratch0)) (W : Waits sig Unit) (v2 : BitVec 32) (v490 : BitVec 32) (v502 : FVec F S256x256 .f32) (v504 : Vec F S1x256x256 .f32) (fd : Buf (Elt F) ((c : Thread nD τ).loc cc0_scratch2)) (fx' : Buf (Elt F) ((src c 4 : Thread nD τ).loc cc0_scratch0)) (f0 : Buf (Elt F) ((src c 4 : Thread nD τ).loc cc0_scratch1)) (hv : v502 = k0_pay23 (rblk m c 4 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt1 m c 4 fd fx' f0
        ∗ recvSt m c 5 0
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part16 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v490 v502 v504)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  subst hv
  simp only [k0_part16_eq_skeleton]; unfold k0_part16_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, R5, Rt⟩
  -- the widened block is stored into its staging slot and its copy into the result array starts
  iapply (part16_stage_store m c 4 fd fx' f0 (k0_off11_eq c 4) rfl) $$ [R4]
  · iexact R4
  iintro R4
  iapply (part16_stage_copy m K c 4 (slot_src gB c 4 _) (rows_src c 4 _) (outSem_src c 4)) $$ [R4]
  · isplitr; · iexact HR
    iexact R4
  iintro R4
  -- block 5 arrives
  iapply (part16_arrive m K c 5 _ rfl (slot_src rB c 5 _) (recvSem_src c 5)) $$ [HO R5]
  · isplitr; · iexact HR
    isplitl [HO]; · iexact HO
    iexact R5
  iintro ⟨%fd5, %fx5, %f05, HO, R5⟩
  -- the landed slot is read, then the staging slot as it stands
  iapply (part16_load_landed m c 5 fd5 fx5 f05 (k0_off11_eq c 5)) $$ [R5]
  · iexact R5
  iintro R5
  iapply (part16_load_stage m c 5 fd5 fx5 f05 (k0_off11_eq c 5)) $$ [R5]
  · iexact R5
  iintro %v5 R5
  -- the widened block is stored into its staging slot and its copy into the result array starts
  iapply (part16_stage_store m c 5 fd5 fx5 f05 (k0_off11_eq c 5) rfl) $$ [R5]
  · iexact R5
  iintro R5
  iapply (part16_stage_copy m K c 5 (slot_src gB c 5 _) (rows_src c 5 _) (outSem_src c 5)) $$ [R5]
  · isplitr; · iexact HR
    iexact R5
  iintro R5
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  iexact Rt

/-- info: 'Cert.KernelProof.part16_spec' depends on axioms: [propext, Classical.choice, Quot.sound] -/
#guard_msgs in #print axioms part16_spec

end Cert.KernelProof

end
-- ==== Proof.BitsPart17.lean ====
/-
  The seventh block received: arrival, reads, staging, and the start of its copy into the result array.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The phases this part moves between, unfolded -/

theorem part17_recvSt_zero (c : Dev nD) (r : Fin 15) :
    recvSt m c r 0 = iprop(cred (tallyAt (recvCell c (src c r)) () Nb) ∗ atPos ER (recvCell c (src c r)) 0 ∅ 0
      ∗ (∃ g, gPts c (src c r) g) ∗ (∃ f, oPts c (src c r) f) ∗ dutyTok ER (outCell c (src c r)) 0 c ∗ atPos ER (outCell c (src c r)) 0 ∅ 0) := rfl
theorem part17_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl

/-- A block landed, read, widened and stored into its staging slot; its copy into the result array not yet started. -/
def part17_stagedSt (c : Dev nD) (r : Fin 15) : sProp 𝕄 :=
  iprop((∃ f, rPts c (src c r) f) ∗ atPos ER (recvCell c (src c r)) 1 ∅ 0
    ∗ (∃ g0 fd fx' f0, gPts c (src c r) (stageF m c (src c r) g0 fd fx' f0)) ∗ (∃ f, oPts c (src c r) f)
    ∗ dutyTok ER (outCell c (src c r)) 0 c ∗ atPos ER (outCell c (src c r)) 0 ∅ 0)

/-! ## Vector loads and stores of one slot of a sixteen-slot scratch buffer -/

/-- A vector load of slot `s`, holding the slot: the slot comes back, and the program continues at what the slot's
    rectangle reads. -/
theorem part17_load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape] <;> exact subset_rfl)

/-- A vector store of `w` over the whole of slot `s`, holding the slot. -/
theorem part17_store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s) (by rw [View.setOn_univ, View.set_reshape] <;> exact subset_rfl)

/-! ## An arrival -/

/-- The wait for the `r`-th block: its credit goes, the landed slot comes at named contents. -/
theorem part17_arrive (K : Dev nD × CK → ℕ) (c : Dev nD) (r : Fin 15) {α : Type} {Q : α → sProp 𝕄} {k : PUnit → Prog (TpuEff nD τ sig (Elt F) Λ₀ .tc) α}
    (W : Waits sig Unit) {O : CellTallies nD τ sig Unit} (hO : O = 0)
    {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) O W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  subst hO
  rw [part17_recvSt_zero]; unfold recvSt1
  iintro ⟨#HR, HO, Hc, Hat, Hg, Ho, Htok, Hato⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  isplitl [Hr]; · iexact Hr
  isplitl [Hat]; · iexact Hat
  isplitl [Hg]; · iexact Hg
  isplitl [Ho]; · iexact Ho
  isplitl [Htok]; · iexact Htok
  iexact Hato

/-- The vector load of the landed slot reads the block by its name. -/
theorem part17_load_landed (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α} :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rblk rPts
  iintro ⟨Hr, Hrest⟩ Hk
  iapply (part17_load_slot rB c (src c r) ho (recvF m c (src c r) fd fx' f0)) $$ [Hr]
  · iexact Hr
  iintro Hr
  iapply Hk
  isplitl [Hr]; · iexact Hr
  iexact Hrest

/-- The vector load of the staging slot before it is overwritten: whatever it reads, the state is unchanged. -/
theorem part17_load_stage (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α} :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (part17_load_slot gB c (src c r) ho g) $$ [Hg]
  · iexact Hg
  iintro Hg
  iapply Hk $$ %_ [Hr Hat Hg Hrest]
  isplitl [Hr]; · iexact Hr
  isplitl [Hat]; · iexact Hat
  isplitl [Hg]; · iexists g; iexact Hg
  iexact Hrest

/-! ## Staging a landed block and starting its copy into the result array -/

/-- The store of the widened block into its staging slot. -/
theorem part17_stage_store (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1))
    {α : Type} {Q : α → sProp 𝕄} {off : Fin S16x256x256.rank → ℕ} (ho : off = ![(src c r).val, 0, 0])
    {inb : ∀ a, off a + S1x256x256.size a ≤ S16x256x256.size a}
    {w : Vec F S1x256x256 .f32} (hw : w = k0_pay20 (rblk m c r fd fx' f0))
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α} :
    recvSt1 m c r fd fx' f0
      ⊢ iprop((part17_stagedSt m c r -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 part17_stagedSt gPts
  iintro ⟨Hr, Hat, ⟨%g0, Hg⟩, Hrest⟩ Hk
  iapply (part17_store_slot gB c (src c r) ho g0) $$ [Hg]
  · iexact Hg
  iintro Hg
  iapply Hk
  isplitl [Hr]; · iexists _; iexact Hr
  isplitl [Hat]; · iexact Hat
  isplitl [Hg]; · iexists g0, fd, fx', f0; iexact Hg
  iexact Hrest

/-- The copy of the staged block into its row block of the result array starts: both go, the copy's credit comes. -/
theorem part17_stage_copy (K : Dev nD × CK → ℕ) (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)} :
    iprop(records m K ∗ part17_stagedSt m c r)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  rw [part17_recvSt_two]; unfold part17_stagedSt
  iintro ⟨#HR, Hr, Hat, ⟨%g0, %fd, %fx', %f0, Hg⟩, ⟨%fo, Ho⟩, Htok, Hato⟩ Hk
  iapply (step_out_copy m K c (src c r) (src_ne c r) fo g0 fd fx' f0 hs hd hsem) $$ [Hg Ho Htok]
  · isplitr; · iexact HR
    isplitl [Hg]; · iexact Hg
    isplitl [Ho]; · iexact Ho
    iexact Htok
  iintro Hc
  iapply Hk
  isplitl [Hr]; · iexact Hr
  isplitl [Hat]; · iexact Hat
  isplitl [Hc]; · iexact Hc
  iexact Hato

/-! ## The part -/

theorem part17_spec (K : Dev nD × CK → ℕ) (c : Dev nD) (fx : Buf (Elt F) ((c : Thread nD τ).loc cc0_scratch0)) (W : Waits sig Unit) (v2 : BitVec 32) (c7_i32_332 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 0
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part17 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c7_i32_332)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)) := by
  simp only [k0_part17_eq_skeleton]; unfold k0_part17_skel
  simp only [Prog.lift, Prog.bind_op, Prog.bind_ret, Prog.pure_eq_ret]
  iintro ⟨#HR, #Hlev, HO, Hglob, Hown, S0, S1, S2, S3, S4, S5, S6, S7, S8, S9, S10, S11, S12, S13, S14, R0, R1, R2, R3, R4, R5, R6, Rt⟩
  -- block 6 arrives
  iapply (part17_arrive m K c 6 _ rfl (slot_src rB c 6 _) (recvSem_src c 6)) $$ [HO R6]
  · isplitr; · iexact HR
    isplitl [HO]; · iexact HO
    iexact R6
  iintro ⟨%fd6, %fx6, %f06, HO, R6⟩
  -- the landed slot is read, then the staging slot as it stands
  iapply (part17_load_landed m c 6 fd6 fx6 f06 (k0_off11_eq c 6)) $$ [R6]
  · iexact R6
  iintro R6
  iapply (part17_load_stage m c 6 fd6 fx6 f06 (k0_off11_eq c 6)) $$ [R6]
  · iexact R6
  iintro %v6 R6
  -- the widened block is stored into its staging slot and its copy into the result array starts
  iapply (part17_stage_store m c 6 fd6 fx6 f06 (k0_off11_eq c 6) rfl) $$ [R6]
  · iexact R6
  iintro R6
  iapply (part17_stage_copy m K c 6 (slot_src gB c 6 _) (rows_src c 6 _) (outSem_src c 6)) $$ [R6]
  · isplitr; · iexact HR
    iexact R6
  iintro R6
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  iexact Rt

/-- info: 'Cert.KernelProof.part17_spec' depends on axioms: [propext, Classical.choice, Quot.sound] -/
#guard_msgs in #print axioms part17_spec

end Cert.KernelProof

end
-- ==== Proof.BitsRecvBlock.lean ====
/-
  One received block of a device's body, step by step.

  Each of the fifteen blocks a device receives is waited for, read out of its slot of the receive buffer by a vector
  load, widened, stored into the same slot of the staging buffer by a vector store, and copied from there into its
  row block of the result array. Each lemma here steps one of these operations on the state of that block
  (`recvSt`, `recvSt1`). The last lemma is the wait for a
  departure, on the state of a transfer sent.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

/-! ## Vector loads and stores of one slot -/

/-- A vector load of slot `s` of a 16 × 256 × 256 scratch buffer, holding a share of that slot: the slot comes back, and
    the program continues at what the slot's rectangle reads. -/
theorem load_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {hl : b.view.LoadsAt (Rect.unit (s := S16x256x256) off S1x256x256.size inb).toLoadRect}
    {k : Vec F S1x256x256 e → Prog (TpuEff nD τ sig (Elt F) Λ₀ .tc) α}
    (q : PosShare TreeShare) (f : Buf (Elt F) ((slotM b s).view.loc (c : Thread nD τ))) :
    ((slotM b s).view.loc (c : Thread nD τ) ↦[(slotM b s).view.set]{q} f)
      ⊢ iprop((((slotM b s).view.loc (c : Thread nD τ) ↦[(slotM b s).view.set]{q} f)
            -∗ wp frame (wpE (defs₀ (F := F)) 𝒱₀ c none) Set.univ (k ((b.access (slotRect s) : View sig .tc _ _ _).read (Elt F) f)) Q)
          -∗ wp frame (wpE (defs₀ (F := F)) 𝒱₀ c none) Set.univ
              (.op (.load b (Rect.unit (s := S16x256x256) off S1x256x256.size inb).toLoadRect hl) k) Q) := by
  subst ho
  exact wp_load_rect 𝒱₀ (c : Thread nD τ) none Set.univ (m := b) (r := slotRect s) (by rw [View.set_reshape])

/-- A vector store of `w` over slot `s` of a 16 × 256 × 256 scratch buffer, holding that slot. -/
theorem store_slot {e : EltTy} (b : Memref sig .tc .vmem S16x256x256 e) (c : Dev nD) (s : Fin 16)
    {α : Type} {Q : α → sProp 𝕄} {off : Fin S16x256x256.rank → ℕ} (ho : off = ![s.val, 0, 0])
    {inb : ∀ a, off a + S1x256x256.size a ≤ S16x256x256.size a}
    {w : Vec F S1x256x256 e}
    {hx : (b.access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (f : Buf (Elt F) ((slotM b s).view.loc (c : Thread nD τ))) :
    ((slotM b s).view.loc (c : Thread nD τ) ↦[(slotM b s).view.set]{fullShare} f)
      ⊢ iprop((((slotM b s).view.loc (c : Thread nD τ) ↦[(slotM b s).view.set]{fullShare}
              ((b.access (slotRect s) : View sig .tc _ _ _).write (Elt F) f w Finset.univ))
            -∗ wp frame (wpE (defs₀ (F := F)) 𝒱₀ c none) Set.univ (k ⟨⟩) Q)
          -∗ wp frame (wpE (defs₀ (F := F)) 𝒱₀ c none) Set.univ
              (.op (.store b (Rect.unit (s := S16x256x256) off S1x256x256.size inb) w Finset.univ hx hm) k) Q) := by
  subst ho
  exact wp_store 𝒱₀ (c : Thread nD τ) none Set.univ (m := b) (r := slotRect s)
    (by rw [View.set_reshape]; exact View.setOn_subset_set _ _)

/-! ## One received block, step by step, on its state -/

/-- Landed, read, widened and stored into the staging slot; the copy into the result not yet started. -/
def recvSt1s (c : Dev nD) (r : Fin 15) (fd : Buf (Elt F) ((c : Thread nD τ).loc cc0_scratch2))
    (fx' : Buf (Elt F) ((src c r : Thread nD τ).loc cc0_scratch0)) (f0 : Buf (Elt F) ((src c r : Thread nD τ).loc cc0_scratch1)) : sProp 𝕄 :=
  iprop(rPts c (src c r) (recvF m c (src c r) fd fx' f0) ∗ atPos ER (recvCell c (src c r)) 1 ∅ 0
    ∗ (∃ g, gPts c (src c r) (stageF m c (src c r) g fd fx' f0)) ∗ (∃ f, oPts c (src c r) f) ∗ dutyTok ER (outCell c (src c r)) 0 c ∗ atPos ER (outCell c (src c r)) 0 ∅ 0)

/-- The vector load of the landed slot reads the block named by the state. -/
theorem recv_load (c : Dev nD) (r : Fin 15) {α : Type} {Q : α → sProp 𝕄} {off : Fin S16x256x256.rank → ℕ} (ho : off = ![(src c r).val, 0, 0])
    {inb : ∀ a, off a + S1x256x256.size a ≤ S16x256x256.size a}
    {hl : (rB : Memref sig .tc .vmem S16x256x256 .bf16).view.LoadsAt (Rect.unit (s := S16x256x256) off S1x256x256.size inb).toLoadRect}
    {k : Vec F S1x256x256 .bf16 → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1)) :
    recvSt1 m c r fd fx' f0
      ⊢ iprop((recvSt1 m c r fd fx' f0 -∗ wp frame (wpE (defs₀ (F := F)) 𝒱₀ c none) Set.univ (k (rblk m c r fd fx' f0)) Q)
          -∗ wp frame (wpE (defs₀ (F := F)) 𝒱₀ c none) Set.univ
              (.op (.load rB (Rect.unit (s := S16x256x256) off S1x256x256.size inb).toLoadRect hl) k) Q) := by
  unfold recvSt1 rPts
  iintro ⟨Hr, Hrest⟩ Hk
  iapply (load_slot rB c (src c r) ho fullShare (recvF m c (src c r) fd fx' f0)) $$ Hr
  iintro Hr
  iapply Hk
  isplitl [Hr]; · iexact Hr
  iexact Hrest

/-- The vector load of the staging slot's old contents changes nothing. -/
theorem recv_load_g (c : Dev nD) (r : Fin 15) {α : Type} {Q : α → sProp 𝕄} {off : Fin S16x256x256.rank → ℕ} (ho : off = ![(src c r).val, 0, 0])
    {inb : ∀ a, off a + S1x256x256.size a ≤ S16x256x256.size a}
    {hl : (gB : Memref sig .tc .vmem S16x256x256 .f32).view.LoadsAt (Rect.unit (s := S16x256x256) off S1x256x256.size inb).toLoadRect}
    {k : Vec F S1x256x256 .f32 → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1)) :
    recvSt1 m c r fd fx' f0
      ⊢ iprop((∀ v, recvSt1 m c r fd fx' f0 -∗ wp frame (wpE (defs₀ (F := F)) 𝒱₀ c none) Set.univ (k v) Q)
          -∗ wp frame (wpE (defs₀ (F := F)) 𝒱₀ c none) Set.univ
              (.op (.load gB (Rect.unit (s := S16x256x256) off S1x256x256.size inb).toLoadRect hl) k) Q) := by
  unfold recvSt1 gPts
  iintro ⟨Hr, Hat, ⟨%g, Hg⟩, Hrest⟩ Hk
  iapply (load_slot gB c (src c r) ho fullShare g) $$ Hg
  iintro Hg
  iapply Hk
  isplitl [Hr]; · iexact Hr
  isplitl [Hat]; · iexact Hat
  isplitl [Hg]; · iexists g; iexact Hg
  iexact Hrest

/-- The vector store of the widened block into the staging slot. -/
theorem recv_store (c : Dev nD) (r : Fin 15) {α : Type} {Q : α → sProp 𝕄} {off : Fin S16x256x256.rank → ℕ} (ho : off = ![(src c r).val, 0, 0])
    {inb : ∀ a, off a + S1x256x256.size a ≤ S16x256x256.size a}
    {w : Vec F S1x256x256 .f32}
    {hx : ((gB : Memref sig .tc .vmem S16x256x256 .f32).access (Rect.unit (s := S16x256x256) off S1x256x256.size inb)).Stores Finset.univ}
    {hm : (Finset.univ : Finset (Rect.unit (s := S16x256x256) off S1x256x256.size inb).shape.Idx) = Finset.univ ∨ ∀ a, (Rect.unit (s := S16x256x256) off S1x256x256.size inb).stride a = 1}
    {k : PUnit → Prog (TpuEff nD τ sig (Elt F) Λ₀ .tc) α}
    (fd : Buf (Elt F) ((c : Thread nD τ).loc cc0_scratch2))
    (fx' : Buf (Elt F) ((src c r : Thread nD τ).loc cc0_scratch0)) (f0 : Buf (Elt F) ((src c r : Thread nD τ).loc cc0_scratch1))
    (hw : w = k0_pay20 (rblk m c r fd fx' f0)) :
    recvSt1 m c r fd fx' f0
      ⊢ iprop((recvSt1s m c r fd fx' f0 -∗ wp frame (wpE (defs₀ (F := F)) 𝒱₀ c none) Set.univ (k ⟨⟩) Q)
          -∗ wp frame (wpE (defs₀ (F := F)) 𝒱₀ c none) Set.univ
              (.op (.store gB (Rect.unit (s := S16x256x256) off S1x256x256.size inb) w Finset.univ hx hm) k) Q) := by
  subst hw
  unfold recvSt1 recvSt1s gPts
  iintro ⟨Hr, Hat, ⟨%g, Hg⟩, Hrest⟩ Hk
  iapply (store_slot gB c (src c r) ho g) $$ Hg
  iintro Hg
  iapply Hk
  isplitl [Hr]; · iexact Hr
  isplitl [Hat]; · iexact Hat
  isplitl [Hg]; · iexists g; iexact Hg
  iexact Hrest

/-- The wait for the block from `src c r`: the state goes from expected to landed, the landed contents' origins named. -/
theorem recv_wait (c : Dev nD) (r : Fin 15) {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM rB (src c r)) (hsem : sem = recvS (src c r)) {h1 : srcM.view.WordExact} {h2 : dstM.view.WordExact} :
    iprop(records m K ∗ owes (c : Thread nD τ) 0 W ∗ recvSt m c r 0)
      ⊢ iprop(((∃ fd fx' f0, owes (c : Thread nD τ) 0 (insert (SemLoc.dma (recvS (src c r)), ()) W) ∗ recvSt1 m c r fd fx' f0)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  simp only [recvSt]
  iintro ⟨#HR, HO, Hc, Hat, Hg, Ho, Htok, HatO⟩ Hk
  iapply (step_recv_wait m K c r W hd hsem) $$ [Hc HO Hat]
  · isplitr; · iexact HR
    isplitl [Hc]; · iexact Hc
    isplitl [HO]; · iexact HO
    iexact Hat
  iintro ⟨HO, Hat, Hpay⟩
  unfold recvPay
  icases Hpay with ⟨%fd, %fx', %f0, Hr⟩
  iapply Hk
  iexists fd, fx', f0
  isplitl [HO]; · iexact HO
  unfold recvSt1
  isplitl [Hr]; · iexact Hr
  isplitl [Hat]; · iexact Hat
  isplitl [Hg]; · iexact Hg
  isplitl [Ho]; · iexact Ho
  isplitl [Htok]; · iexact Htok
  iexact HatO

/-- The copy of the staged block into its row block of the result is started: the state is then "on its way". -/
theorem recv_copy (c : Dev nD) (r : Fin 15) {α : Type} {Q : α → sProp 𝕄} {k : PUnit → Prog (TpuEff nD τ sig (Elt F) Λ₀ .tc) α}
    {srcM : Memref sig .tc .vmem S256x256 .f32} {dstM : Memref sig .tc .hbm S256x256 .f32} {sem : DmaSem sig}
    (hs : srcM = slotM gB (src c r)) (hd : dstM = rowsM oH (src c r)) (hsem : sem = outS (src c r))
    {h1 : srcM.view.WordExact} {h2 : dstM.view.WordExact} {h3 : (DmaTarget.here dstM : DmaTarget nD τ sig Proc.tc .hbm S256x256 .f32).Typed .vmem (.dma sem)}
    (fd : Buf (Elt F) ((c : Thread nD τ).loc cc0_scratch2))
    (fx' : Buf (Elt F) ((src c r : Thread nD τ).loc cc0_scratch0)) (f0 : Buf (Elt F) ((src c r : Thread nD τ).loc cc0_scratch1)) :
    iprop(records m K ∗ recvSt1s m c r fd fx' f0)
      ⊢ iprop((recvSt m c r 2 -∗ wp frame (wpE (defs₀ (F := F)) 𝒱₀ c none) Set.univ (k ⟨⟩) Q)
          -∗ wp frame (wpE (defs₀ (F := F)) 𝒱₀ c none) Set.univ (.op (.enqueueDma srcM (.here dstM) (.dma sem) h1 h2 h3) k) Q) := by
  unfold recvSt1s
  iintro ⟨#HR, Hr, Hat, ⟨%g, Hg⟩, ⟨%fo, Ho⟩, Htok, HatO⟩ Hk
  iapply (step_out_copy m K c (src c r) (src_ne c r) fo g fd fx' f0 hs hd hsem) $$ [Hg Ho Htok]
  · isplitr; · iexact HR
    isplitl [Hg]; · iexact Hg
    isplitl [Ho]; · iexact Ho
    iexact Htok
  iintro Hc
  iapply Hk
  simp only [recvSt]
  isplitl [Hr]; · iexists _; iexact Hr
  isplitl [Hat]; · iexact Hat
  isplitl [Hc]; · iexact Hc
  iexact HatO

/-- The wait for the departure of the `r`-th transfer: its slot of the send buffer is back. -/
theorem send_wait (c : Dev nD) (r : Fin 15) (fx : Buf (Elt F) ((c : Thread nD τ).loc cc0_scratch0))
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  simp only [sendSt]
  iintro ⟨#HR, HO, Hc, Hat⟩ Hk
  iapply (step_wait_send m K c (peer c r) (peer_ne c r) W hd hsem) $$ [Hc HO Hat]
  · isplitr; · iexact HR
    isplitl [Hc]; · iexact Hc
    isplitl [HO]; · iexact HO
    iexact Hat
  iintro ⟨HO, Hat, Hpay⟩
  iapply Hk
  isplitl [HO]; · iexact HO
  unfold sendPay
  isplitl [Hpay]; · iexact Hpay
  iexact Hat

/-- info: 'Cert.KernelProof.recv_wait' depends on axioms: [propext, Classical.choice, Quot.sound] -/
#guard_msgs in #print axioms recv_wait

/-- info: 'Cert.KernelProof.recv_load' depends on axioms: [propext, Classical.choice, Quot.sound] -/
#guard_msgs in #print axioms recv_load

/-- info: 'Cert.KernelProof.recv_load_g' depends on axioms: [propext, Classical.choice, Quot.sound] -/
#guard_msgs in #print axioms recv_load_g

/-- info: 'Cert.KernelProof.recv_store' depends on axioms: [propext, Classical.choice, Quot.sound] -/
#guard_msgs in #print axioms recv_store

/-- info: 'Cert.KernelProof.recv_copy' depends on axioms: [propext, Classical.choice, Quot.sound] -/
#guard_msgs in #print axioms recv_copy

/-- info: 'Cert.KernelProof.send_wait' depends on axioms: [propext, Classical.choice, Quot.sound] -/
#guard_msgs in #print axioms send_wait

end Cert.KernelProof

end
-- ==== Proof.BitsPart18.lean ====
/-
  Part 18 of a device's body. The eighth block received is landed, widened, staged and on its way to the result; the ninth is landed and read.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part18_spec (K : Dev nD × CK → ℕ) (c : Dev nD) (fx : Buf (Elt F) ((c : Thread nD τ).loc cc0_scratch0)) (W : Waits sig Unit) (v2 : BitVec 32) (v565 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 0
        ∗ recvSt m c 8 0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part18 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v565)
          (fun ret => iprop(∃ W' fd fx' f0, ⌜ret.2.1 = k0_pay28 (rblk m c 8 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt1 m c 8 fd fx' f0
        ∗ recvSt m c 9 0
        ∗ recvSt m c 10 0
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, Rt⟩
  simp only [k0_part18_eq_skeleton]; unfold k0_part18_skel
  simp only [Prog.lift, Prog.bind_op, Prog.bind_ret, Prog.pure_eq_ret]
  -- the block from `src c 7`: its arrival, then the two vector loads
  iapply (recv_wait m K c 7 _ (slot_src rB c 7 _) (recvSem_src c 7)) $$ [HO R7]
  · isplitr; · iexact HR
    isplitl [HO]; · iexact HO
    iexact R7
  iintro ⟨%fd7, %fx7, %f07, HO, R7⟩
  iapply (recv_load m c 7 (k0_off11_eq c 7) fd7 fx7 f07) $$ R7
  iintro R7
  iapply (recv_load_g m c 7 (k0_off11_eq c 7) fd7 fx7 f07) $$ R7
  iintro %vg7 R7
  -- the widened block from `src c 7` is stored into the staging slot and its copy into the result started
  iapply (recv_store m c 7 (k0_off11_eq c 7) fd7 fx7 f07 rfl) $$ R7
  iintro R7
  iapply (recv_copy m K c 7 (slot_src gB c 7 _) (rows_src c 7 _) (outSem_src c 7) fd7 fx7 f07) $$ [R7]
  · isplitr; · iexact HR
    iexact R7
  iintro R7
  -- the block from `src c 8`: its arrival, then the two vector loads
  iapply (recv_wait m K c 8 _ (slot_src rB c 8 _) (recvSem_src c 8)) $$ [HO R8]
  · isplitr; · iexact HR
    isplitl [HO]; · iexact HO
    iexact R8
  iintro ⟨%fd8, %fx8, %f08, HO, R8⟩
  iapply (recv_load m c 8 (k0_off11_eq c 8) fd8 fx8 f08) $$ R8
  iintro R8
  iapply (recv_load_g m c 8 (k0_off11_eq c 8) fd8 fx8 f08) $$ R8
  iintro %vg8 R8
  rw [wp_ret]; imodintro
  iexists _, fd8, fx8, f08
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact Rt

/-- info: 'Cert.KernelProof.part18_spec' depends on axioms: [propext, Classical.choice, Quot.sound] -/
#guard_msgs in #print axioms part18_spec

end Cert.KernelProof

end
-- ==== Proof.BitsPart19.lean ====
/-
  Part 19 of a device's body. The ninth block received is staged and on its way to the result; the tenth is landed, widened, staged and on its way.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part19_spec (K : Dev nD × CK → ℕ) (c : Dev nD) (fx : Buf (Elt F) ((c : Thread nD τ).loc cc0_scratch0)) (W : Waits sig Unit) (v2 : BitVec 32) (v590 : BitVec 32) (v602 : FVec F S256x256 .f32) (v604 : Vec F S1x256x256 .f32) (fd : Buf (Elt F) ((c : Thread nD τ).loc cc0_scratch2)) (fx' : Buf (Elt F) ((src c 8 : Thread nD τ).loc cc0_scratch0)) (f0 : Buf (Elt F) ((src c 8 : Thread nD τ).loc cc0_scratch1)) (hv : v602 = k0_pay28 (rblk m c 8 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt1 m c 8 fd fx' f0
        ∗ recvSt m c 9 0
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v590 v602 v604)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 0
        ∗ recvSt m c 11 0
        ∗ recvSt m c 12 0
        ∗ recvSt m c 13 0
        ∗ recvSt m c 14 0)) := by
  subst hv
  iintro ⟨#HR, #Hlev, HO, Hglob, Hown, S0, S1, S2, S3, S4, S5, S6, S7, S8, S9, S10, S11, S12, S13, S14, R0, R1, R2, R3, R4, R5, R6, R7, R8, R9, Rt⟩
  simp only [k0_part19_eq_skeleton]; unfold k0_part19_skel
  simp only [Prog.lift, Prog.bind_op, Prog.bind_ret, Prog.pure_eq_ret]
  -- the widened block from `src c 8` is stored into the staging slot and its copy into the result started
  iapply (recv_store m c 8 (k0_off11_eq c 8) fd fx' f0 rfl) $$ R8
  iintro R8
  iapply (recv_copy m K c 8 (slot_src gB c 8 _) (rows_src c 8 _) (outSem_src c 8) fd fx' f0) $$ [R8]
  · isplitr; · iexact HR
    iexact R8
  iintro R8
  -- the block from `src c 9`: its arrival, then the two vector loads
  iapply (recv_wait m K c 9 _ (slot_src rB c 9 _) (recvSem_src c 9)) $$ [HO R9]
  · isplitr; · iexact HR
    isplitl [HO]; · iexact HO
    iexact R9
  iintro ⟨%fd9, %fx9, %f09, HO, R9⟩
  iapply (recv_load m c 9 (k0_off11_eq c 9) fd9 fx9 f09) $$ R9
  iintro R9
  iapply (recv_load_g m c 9 (k0_off11_eq c 9) fd9 fx9 f09) $$ R9
  iintro %vg9 R9
  -- the widened block from `src c 9` is stored into the staging slot and its copy into the result started
  iapply (recv_store m c 9 (k0_off11_eq c 9) fd9 fx9 f09 rfl) $$ R9
  iintro R9
  iapply (recv_copy m K c 9 (slot_src gB c 9 _) (rows_src c 9 _) (outSem_src c 9) fd9 fx9 f09) $$ [R9]
  · isplitr; · iexact HR
    iexact R9
  iintro R9
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Rt

/-- info: 'Cert.KernelProof.part19_spec' depends on axioms: [propext, Classical.choice, Quot.sound] -/
#guard_msgs in #print axioms part19_spec

end Cert.KernelProof

end
-- ==== Proof.BitsPart20.lean ====
/-
  Part 20 of a device's body. The eleventh block received is landed, widened, staged and on its way to the result.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part20_spec (K : Dev nD × CK → ℕ) (c : Dev nD) (fx : Buf (Elt F) ((c : Thread nD τ).loc cc0_scratch0)) (W : Waits sig Unit) (v2 : BitVec 32) (c11_i32_400 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 0
        ∗ recvSt m c 11 0
        ∗ recvSt m c 12 0
        ∗ recvSt m c 13 0
        ∗ recvSt m c 14 0)
      ⊢ wp frame (wpE (defs₀ (F := F)) 𝒱₀ c none) Set.univ (k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c11_i32_400)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 0
        ∗ recvSt m c 12 0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, R9, R10, Rt⟩
  simp only [k0_part20_eq_skeleton]; unfold k0_part20_skel
  simp only [Prog.lift, Prog.bind_op, Prog.bind_ret, Prog.pure_eq_ret]
  -- the block from `src c 10`: its arrival, then the two vector loads
  iapply (recv_wait m K c 10 _ (slot_src rB c 10 _) (recvSem_src c 10)) $$ [HO R10]
  · isplitr; · iexact HR
    isplitl [HO]; · iexact HO
    iexact R10
  iintro ⟨%fd10, %fx10, %f010, HO, R10⟩
  iapply (recv_load m c 10 (k0_off11_eq c 10) fd10 fx10 f010) $$ R10
  iintro R10
  iapply (recv_load_g m c 10 (k0_off11_eq c 10) fd10 fx10 f010) $$ R10
  iintro %vg10 R10
  -- the widened block from `src c 10` is stored into the staging slot and its copy into the result started
  iapply (recv_store m c 10 (k0_off11_eq c 10) fd10 fx10 f010 rfl) $$ R10
  iintro R10
  iapply (recv_copy m K c 10 (slot_src gB c 10 _) (rows_src c 10 _) (outSem_src c 10) fd10 fx10 f010) $$ [R10]
  · isplitr; · iexact HR
    iexact R10
  iintro R10
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact Rt

/-- info: 'Cert.KernelProof.part20_spec' depends on axioms: [propext, Classical.choice, Quot.sound] -/
#guard_msgs in #print axioms part20_spec

end Cert.KernelProof

end
-- ==== Proof.BitsPart21.lean ====
/-
  Part 21 of a device's body. The twelfth block received is landed, widened, staged and on its way to the result; the thirteenth is landed and read.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part21_spec (K : Dev nD × CK → ℕ) (c : Dev nD) (fx : Buf (Elt F) ((c : Thread nD τ).loc cc0_scratch0)) (W : Waits sig Unit) (v2 : BitVec 32) (v665 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 0
        ∗ recvSt m c 12 0
        ∗ recvSt m c 13 0
        ∗ recvSt m c 14 0)
      ⊢ wp frame (wpE (defs₀ (F := F)) 𝒱₀ c none) Set.univ (k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v665)
          (fun ret => iprop(∃ W' fd fx' f0, ⌜ret.2.1 = k0_pay33 (rblk m c 12 fd fx' f0)⌝ ∗ owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt1 m c 12 fd fx' f0
        ∗ recvSt m c 13 0
        ∗ recvSt m c 14 0)) := by
  iintro ⟨#HR, #Hlev, HO, Hglob, Hown, S0, S1, S2, S3, S4, S5, S6, S7, S8, S9, S10, S11, S12, S13, S14, R0, R1, R2, R3, R4, R5, R6, R7, R8, R9, R10, R11, R12, Rt⟩
  simp only [k0_part21_eq_skeleton]; unfold k0_part21_skel
  simp only [Prog.lift, Prog.bind_op, Prog.bind_ret, Prog.pure_eq_ret]
  -- the block from `src c 11`: its arrival, then the two vector loads
  iapply (recv_wait m K c 11 _ (slot_src rB c 11 _) (recvSem_src c 11)) $$ [HO R11]
  · isplitr; · iexact HR
    isplitl [HO]; · iexact HO
    iexact R11
  iintro ⟨%fd11, %fx11, %f011, HO, R11⟩
  iapply (recv_load m c 11 (k0_off11_eq c 11) fd11 fx11 f011) $$ R11
  iintro R11
  iapply (recv_load_g m c 11 (k0_off11_eq c 11) fd11 fx11 f011) $$ R11
  iintro %vg11 R11
  -- the widened block from `src c 11` is stored into the staging slot and its copy into the result started
  iapply (recv_store m c 11 (k0_off11_eq c 11) fd11 fx11 f011 rfl) $$ R11
  iintro R11
  iapply (recv_copy m K c 11 (slot_src gB c 11 _) (rows_src c 11 _) (outSem_src c 11) fd11 fx11 f011) $$ [R11]
  · isplitr; · iexact HR
    iexact R11
  iintro R11
  -- the block from `src c 12`: its arrival, then the two vector loads
  iapply (recv_wait m K c 12 _ (slot_src rB c 12 _) (recvSem_src c 12)) $$ [HO R12]
  · isplitr; · iexact HR
    isplitl [HO]; · iexact HO
    iexact R12
  iintro ⟨%fd12, %fx12, %f012, HO, R12⟩
  iapply (recv_load m c 12 (k0_off11_eq c 12) fd12 fx12 f012) $$ R12
  iintro R12
  iapply (recv_load_g m c 12 (k0_off11_eq c 12) fd12 fx12 f012) $$ R12
  iintro %vg12 R12
  rw [wp_ret]; imodintro
  iexists _, fd12, fx12, f012
  isplitr; · ipureintro; rfl
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact Rt

/-- info: 'Cert.KernelProof.part21_spec' depends on axioms: [propext, Classical.choice, Quot.sound] -/
#guard_msgs in #print axioms part21_spec

end Cert.KernelProof

end
-- ==== Proof.BitsPart22.lean ====
/-
  Part 22 of a device's body. The thirteenth block received is staged and on its way to the result; the fourteenth is landed, widened, staged and on its way.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part22_spec (K : Dev nD × CK → ℕ) (c : Dev nD) (fx : Buf (Elt F) ((c : Thread nD τ).loc cc0_scratch0)) (W : Waits sig Unit) (v2 : BitVec 32) (v690 : BitVec 32) (v702 : FVec F S256x256 .f32) (v704 : Vec F S1x256x256 .f32) (fd : Buf (Elt F) ((c : Thread nD τ).loc cc0_scratch2)) (fx' : Buf (Elt F) ((src c 12 : Thread nD τ).loc cc0_scratch0)) (f0 : Buf (Elt F) ((src c 12 : Thread nD τ).loc cc0_scratch1)) (hv : v702 = k0_pay33 (rblk m c 12 fd fx' f0)) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt1 m c 12 fd fx' f0
        ∗ recvSt m c 13 0
        ∗ recvSt m c 14 0)
      ⊢ wp frame (wpE (defs₀ (F := F)) 𝒱₀ c none) Set.univ (k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v690 v702 v704)
          (fun ret => iprop(∃ W', owes (c : Thread nD τ) 0 W'
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 0)) := by
  subst hv
  iintro ⟨#HR, #Hlev, HO, Hglob, Hown, S0, S1, S2, S3, S4, S5, S6, S7, S8, S9, S10, S11, S12, S13, S14, R0, R1, R2, R3, R4, R5, R6, R7, R8, R9, R10, R11, R12, R13, Rt⟩
  simp only [k0_part22_eq_skeleton]; unfold k0_part22_skel
  simp only [Prog.lift, Prog.bind_op, Prog.bind_ret, Prog.pure_eq_ret]
  -- the widened block from `src c 12` is stored into the staging slot and its copy into the result started
  iapply (recv_store m c 12 (k0_off11_eq c 12) fd fx' f0 rfl) $$ R12
  iintro R12
  iapply (recv_copy m K c 12 (slot_src gB c 12 _) (rows_src c 12 _) (outSem_src c 12) fd fx' f0) $$ [R12]
  · isplitr; · iexact HR
    iexact R12
  iintro R12
  -- the block from `src c 13`: its arrival, then the two vector loads
  iapply (recv_wait m K c 13 _ (slot_src rB c 13 _) (recvSem_src c 13)) $$ [HO R13]
  · isplitr; · iexact HR
    isplitl [HO]; · iexact HO
    iexact R13
  iintro ⟨%fd13, %fx13, %f013, HO, R13⟩
  iapply (recv_load m c 13 (k0_off11_eq c 13) fd13 fx13 f013) $$ R13
  iintro R13
  iapply (recv_load_g m c 13 (k0_off11_eq c 13) fd13 fx13 f013) $$ R13
  iintro %vg13 R13
  -- the widened block from `src c 13` is stored into the staging slot and its copy into the result started
  iapply (recv_store m c 13 (k0_off11_eq c 13) fd13 fx13 f013 rfl) $$ R13
  iintro R13
  iapply (recv_copy m K c 13 (slot_src gB c 13 _) (rows_src c 13 _) (outSem_src c 13) fd13 fx13 f013) $$ [R13]
  · isplitr; · iexact HR
    iexact R13
  iintro R13
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact Rt

/-- info: 'Cert.KernelProof.part22_spec' depends on axioms: [propext, Classical.choice, Quot.sound] -/
#guard_msgs in #print axioms part22_spec

end Cert.KernelProof

end
-- ==== Proof.BitsPart23.lean ====
/-
  Part 23 of a device's body. The last block received is landed, widened, staged and on its way to the result; then the departure of the first transfer is waited for.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsRecvBlock
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
theorem part23_spec (K : Dev nD × CK → ℕ) (c : Dev nD) (fx : Buf (Elt F) ((c : Thread nD τ).loc cc0_scratch0)) (W : Waits sig Unit) (v2 : BitVec 32) (c15_i32_468 : BitVec 32) :
    iprop(records m K ∗ levAts L lv
        ∗ owes (c : Thread nD τ) 0 W
        ∗ globSt m c fx 1
        ∗ ownSt m c 0
        ∗ sendSt m c fx 0 3
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 0)
      ⊢ wp frame (wpE (defs₀ (F := F)) 𝒱₀ c none) Set.univ (k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c15_i32_468)
          (fun ret => iprop(∃ W', owes (c : Thread nD τ) 0 W'
        ∗ globSt m c fx 1
        ∗ ownSt m c 0
        ∗ sendSt m c fx 0 4
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  iintro ⟨#HR, #Hlev, HO, Hglob, Hown, S0, S1, S2, S3, S4, S5, S6, S7, S8, S9, S10, S11, S12, S13, S14, R0, R1, R2, R3, R4, R5, R6, R7, R8, R9, R10, R11, R12, R13, R14⟩
  simp only [k0_part23_eq_skeleton]; unfold k0_part23_skel
  simp only [Prog.lift, Prog.bind_op, Prog.bind_ret, Prog.pure_eq_ret]
  -- the block from `src c 14`: its arrival, then the two vector loads
  iapply (recv_wait m K c 14 _ (slot_src rB c 14 _) (recvSem_src c 14)) $$ [HO R14]
  · isplitr; · iexact HR
    isplitl [HO]; · iexact HO
    iexact R14
  iintro ⟨%fd14, %fx14, %f014, HO, R14⟩
  iapply (recv_load m c 14 (k0_off11_eq c 14) fd14 fx14 f014) $$ R14
  iintro R14
  iapply (recv_load_g m c 14 (k0_off11_eq c 14) fd14 fx14 f014) $$ R14
  iintro %vg14 R14
  -- the widened block from `src c 14` is stored into the staging slot and its copy into the result started
  iapply (recv_store m c 14 (k0_off11_eq c 14) fd14 fx14 f014 rfl) $$ R14
  iintro R14
  iapply (recv_copy m K c 14 (slot_src gB c 14 _) (rows_src c 14 _) (outSem_src c 14) fd14 fx14 f014) $$ [R14]
  · isplitr; · iexact HR
    iexact R14
  iintro R14
  -- the departure of transfer 0 is waited for: its slot of the send buffer is back
  iapply (send_wait m K c 0 fx _ (slot_peer sB c 0 _) (sendSem_peer c 0)) $$ [HO S0]
  · isplitr; · iexact HR
    isplitl [HO]; · iexact HO
    iexact S0
  iintro ⟨HO, S0⟩
  rw [wp_ret]; imodintro
  iexists _
  isplitl [HO]; · iexact HO
  isplitl [Hglob]; · iexact Hglob
  isplitl [Hown]; · iexact Hown
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-- info: 'Cert.KernelProof.part23_spec' depends on axioms: [propext, Classical.choice, Quot.sound] -/
#guard_msgs in #print axioms part23_spec

end Cert.KernelProof

end
-- ==== Proof.BitsPart24.lean ====
/-
  The closing waits for the departures of transfers 1 to 5.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part24_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part24_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part24_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part24_sendSt_three, part24_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The part -/

theorem part24_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 3
        ∗ sendSt m c fx 2 3
        ∗ sendSt m c fx 3 3
        ∗ sendSt m c fx 4 3
        ∗ sendSt m c fx 5 3
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part24_eq_skeleton]; unfold k0_part24_skel
  simp only [Prog.lift, Prog.bind_op, Prog.bind_ret, Prog.pure_eq_ret]
  iintro ⟨#HR, #Hlev, HO, Hglob, Hown, Hs0, Hs1, Hs2, Hs3, Hs4, Hs5, Htail⟩
  -- the departure of transfer 1
  iapply (part24_close_send m K c fx 1 _ (slot_peer sB c 1 _) (sendSem_peer c 1)) $$ [HO Hs1]
  · isplitr; · iexact HR
    isplitl [HO]; · iexact HO
    iexact Hs1
  iintro ⟨HO, Hs1⟩
  -- the departure of transfer 2
  iapply (part24_close_send m K c fx 2 _ (slot_peer sB c 2 _) (sendSem_peer c 2)) $$ [HO Hs2]
  · isplitr; · iexact HR
    isplitl [HO]; · iexact HO
    iexact Hs2
  iintro ⟨HO, Hs2⟩
  -- the departure of transfer 3
  iapply (part24_close_send m K c fx 3 _ (slot_peer sB c 3 _) (sendSem_peer c 3)) $$ [HO Hs3]
  · isplitr; · iexact HR
    isplitl [HO]; · iexact HO
    iexact Hs3
  iintro ⟨HO, Hs3⟩
  -- the departure of transfer 4
  iapply (part24_close_send m K c fx 4 _ (slot_peer sB c 4 _) (sendSem_peer c 4)) $$ [HO Hs4]
  · isplitr; · iexact HR
    isplitl [HO]; · iexact HO
    iexact Hs4
  iintro ⟨HO, Hs4⟩
  -- the departure of transfer 5
  iapply (part24_close_send m K c fx 5 _ (slot_peer sB c 5 _) (sendSem_peer c 5)) $$ [HO Hs5]
  · isplitr; · iexact HR
    isplitl [HO]; · iexact HO
    iexact Hs5
  iintro ⟨HO, Hs5⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexact Htail

/-- info: 'Cert.KernelProof.part24_spec' depends on axioms: [propext, Classical.choice, Quot.sound] -/
#guard_msgs in #print axioms part24_spec

end Cert.KernelProof

end
-- ==== Proof.BitsPart25.lean ====
/-
  The closing waits for the departures of transfers 6 to 10.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part25_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part25_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part25_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part25_sendSt_three, part25_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The part -/

theorem part25_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 3
        ∗ sendSt m c fx 7 3
        ∗ sendSt m c fx 8 3
        ∗ sendSt m c fx 9 3
        ∗ sendSt m c fx 10 3
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part25_eq_skeleton]; unfold k0_part25_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Htail⟩
  -- the departure of transfer 6
  iapply (part25_close_send m K c fx 6 _ (slot_peer sB c 6 _) (sendSem_peer c 6)) $$ [HO Hs6]
  · isplitr; · iexact HR
    isplitl [HO]; · iexact HO
    iexact Hs6
  iintro ⟨HO, Hs6⟩
  -- the departure of transfer 7
  iapply (part25_close_send m K c fx 7 _ (slot_peer sB c 7 _) (sendSem_peer c 7)) $$ [HO Hs7]
  · isplitr; · iexact HR
    isplitl [HO]; · iexact HO
    iexact Hs7
  iintro ⟨HO, Hs7⟩
  -- the departure of transfer 8
  iapply (part25_close_send m K c fx 8 _ (slot_peer sB c 8 _) (sendSem_peer c 8)) $$ [HO Hs8]
  · isplitr; · iexact HR
    isplitl [HO]; · iexact HO
    iexact Hs8
  iintro ⟨HO, Hs8⟩
  -- the departure of transfer 9
  iapply (part25_close_send m K c fx 9 _ (slot_peer sB c 9 _) (sendSem_peer c 9)) $$ [HO Hs9]
  · isplitr; · iexact HR
    isplitl [HO]; · iexact HO
    iexact Hs9
  iintro ⟨HO, Hs9⟩
  -- the departure of transfer 10
  iapply (part25_close_send m K c fx 10 _ (slot_peer sB c 10 _) (sendSem_peer c 10)) $$ [HO Hs10]
  · isplitr; · iexact HR
    isplitl [HO]; · iexact HO
    iexact Hs10
  iintro ⟨HO, Hs10⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  iexact Htail

/-- info: 'Cert.KernelProof.part25_spec' depends on axioms: [propext, Classical.choice, Quot.sound] -/
#guard_msgs in #print axioms part25_spec

end Cert.KernelProof

end
-- ==== Proof.BitsPart26.lean ====
/-
  The closing waits for the departures of transfers 11 to 14, for the copy of the device's own block and for the
  copy of the first block received into the result.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The wait for a departure -/

private theorem part26_sendSt_three (c : Dev nD) (fx : Buf (Elt F) ((c : Thread nD τ).loc cc0_scratch0)) (r : Fin 15) :
    sendSt m c fx r 3 = iprop(cred (tallyAt (sendCell c (peer c r)) () Nb) ∗ atPos ER (sendCell c (peer c r)) 0 ∅ 0) := rfl
private theorem part26_sendSt_four (c : Dev nD) (fx : Buf (Elt F) ((c : Thread nD τ).loc cc0_scratch0)) (r : Fin 15) :
    sendSt m c fx r 4 = iprop((∃ f, sPts c (peer c r) f) ∗ atPos ER (sendCell c (peer c r)) 1 ∅ 0) := rfl

/-- The wait for the departure of transfer `r`: its credit is consumed, the cell moves to its next round and the
    slot of the send buffer is the device's again. -/
private theorem part26_close_send (K : Dev nD × CK → ℕ) (c : Dev nD) (fx : Buf (Elt F) ((c : Thread nD τ).loc cc0_scratch0)) (r : Fin 15)
    {α : Type} {Q : α → sProp 𝕄} {k : PUnit → Prog (TpuEff nD τ sig (Elt F) Λ₀ .tc) α}
    (W : Waits sig Unit) {s' : Shape} {e' : EltTy} {srcM : Memref sig .tc .vmem s' e'} {dstM : Memref sig .tc .vmem S256x256 .bf16} {sem : DmaSem sig}
    (hd : dstM = slotM sB (peer c r)) (hsem : sem = sendS (peer c r)) {h1 : srcM.view.WordExact} {h2 : dstM.view.WordExact} :
    iprop(records m K ∗ owes (c : Thread nD τ) 0 W ∗ sendSt m c fx r 3)
      ⊢ iprop(((owes (c : Thread nD τ) 0 (insert (SemLoc.dma (sendS (peer c r)), ()) W) ∗ sendSt m c fx r 4)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_sendSt_three, part26_sendSt_four]
  iintro ⟨#HR, HO, Hc, Hat⟩ Hk
  iapply (step_wait_send m K c (peer c r) (peer_ne c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · unfold sendPay; iexact Hpay
  iexact Hat

/-! ## The waits for the copies into the result -/

private theorem part26_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part26_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
private theorem part26_ownSt_zero (c : Dev nD) :
    ownSt m c 0 = iprop(cred (tallyAt (outCell c c) () No) ∗ atPos ER (outCell c c) 0 ∅ 0) := rfl
private theorem part26_ownSt_one (c : Dev nD) :
    ownSt m c 1 = iprop(outPay m c c ∗ atPos ER (outCell c c) 1 ∅ 0) := rfl

/-- The wait for the copy of the device's own block: its credit is consumed, the cell moves to its next round and
    the written row block comes back with the lent share of the argument's column block. -/
private theorem part26_close_own (K : Dev nD × CK → ℕ) (c : Dev nD)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH c) (hsem : sem = outS c) {h1 : srcM.view.WordExact} {h2 : dstM.view.WordExact} :
    iprop(records m K ∗ owes (c : Thread nD τ) 0 W ∗ ownSt m c 0)
      ⊢ iprop(((owes (c : Thread nD τ) 0 (insert (SemLoc.dma (outS c), ()) W) ∗ ownSt m c 1)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_ownSt_zero, part26_ownSt_one]
  iintro ⟨#HR, HO, Hc, Hat⟩ Hk
  iapply (step_wait_out m K c c W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hpay]; · iexact Hpay
  iexact Hat

/-- The wait for the copy of the `r`-th block received into the result: its credit is consumed, the cell moves to
    its next round and the written row block comes back with the staging slot. -/
private theorem part26_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part26_recvSt_two, part26_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part26_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 0
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 3
        ∗ sendSt m c fx 12 3
        ∗ sendSt m c fx 13 3
        ∗ sendSt m c fx 14 3
        ∗ recvSt m c 0 2
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part26_eq_skeleton]; unfold k0_part26_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Htail⟩
  -- the departure of transfer 11
  iapply (part26_close_send m K c fx 11 _ (slot_peer sB c 11 _) (sendSem_peer c 11)) $$ [HO Hs11]
  · isplitr; · iexact HR
    isplitl [HO]; · iexact HO
    iexact Hs11
  iintro ⟨HO, Hs11⟩
  -- the departure of transfer 12
  iapply (part26_close_send m K c fx 12 _ (slot_peer sB c 12 _) (sendSem_peer c 12)) $$ [HO Hs12]
  · isplitr; · iexact HR
    isplitl [HO]; · iexact HO
    iexact Hs12
  iintro ⟨HO, Hs12⟩
  -- the departure of transfer 13
  iapply (part26_close_send m K c fx 13 _ (slot_peer sB c 13 _) (sendSem_peer c 13)) $$ [HO Hs13]
  · isplitr; · iexact HR
    isplitl [HO]; · iexact HO
    iexact Hs13
  iintro ⟨HO, Hs13⟩
  -- the departure of transfer 14
  iapply (part26_close_send m K c fx 14 _ (slot_peer sB c 14 _) (sendSem_peer c 14)) $$ [HO Hs14]
  · isplitr; · iexact HR
    isplitl [HO]; · iexact HO
    iexact Hs14
  iintro ⟨HO, Hs14⟩
  -- the copy of the device's own block into the result
  iapply (part26_close_own m K c _ (rows_self c _) (outSem_self c)) $$ [HO Hown]
  · isplitr; · iexact HR
    isplitl [HO]; · iexact HO
    iexact Hown
  iintro ⟨HO, Hown⟩
  -- the copy of block 0 into the result
  iapply (part26_close_out m K c 0 _ (rows_src c 0 _) (outSem_src c 0)) $$ [HO Hr0]
  · isplitr; · iexact HR
    isplitl [HO]; · iexact HO
    iexact Hr0
  iintro ⟨HO, Hr0⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  iexact Htail

/-- info: 'Cert.KernelProof.part26_spec' depends on axioms: [propext, Classical.choice, Quot.sound] -/
#guard_msgs in #print axioms part26_spec

end Cert.KernelProof

end
-- ==== Proof.BitsPart27.lean ====
/-
  The closing waits for the copies of the second to the seventh block received into the result.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The waits for the copies into the result -/

private theorem part27_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part27_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
/-- The wait for the copy of the `r`-th block received into the result: its credit is consumed, the cell moves to
    its next round and the written row block comes back with the staging slot. -/
private theorem part27_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part27_recvSt_two, part27_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part27_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 2
        ∗ recvSt m c 2 2
        ∗ recvSt m c 3 2
        ∗ recvSt m c 4 2
        ∗ recvSt m c 5 2
        ∗ recvSt m c 6 2
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)) := by
  simp only [k0_part27_eq_skeleton]; unfold k0_part27_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Hr1, Hr2, Hr3, Hr4, Hr5, Hr6, Htail⟩
  -- the copy of block 1 into the result
  iapply (part27_close_out m K c 1 _ (rows_src c 1 _) (outSem_src c 1)) $$ [HO Hr1]
  · isplitr; · iexact HR
    isplitl [HO]; · iexact HO
    iexact Hr1
  iintro ⟨HO, Hr1⟩
  -- the copy of block 2 into the result
  iapply (part27_close_out m K c 2 _ (rows_src c 2 _) (outSem_src c 2)) $$ [HO Hr2]
  · isplitr; · iexact HR
    isplitl [HO]; · iexact HO
    iexact Hr2
  iintro ⟨HO, Hr2⟩
  -- the copy of block 3 into the result
  iapply (part27_close_out m K c 3 _ (rows_src c 3 _) (outSem_src c 3)) $$ [HO Hr3]
  · isplitr; · iexact HR
    isplitl [HO]; · iexact HO
    iexact Hr3
  iintro ⟨HO, Hr3⟩
  -- the copy of block 4 into the result
  iapply (part27_close_out m K c 4 _ (rows_src c 4 _) (outSem_src c 4)) $$ [HO Hr4]
  · isplitr; · iexact HR
    isplitl [HO]; · iexact HO
    iexact Hr4
  iintro ⟨HO, Hr4⟩
  -- the copy of block 5 into the result
  iapply (part27_close_out m K c 5 _ (rows_src c 5 _) (outSem_src c 5)) $$ [HO Hr5]
  · isplitr; · iexact HR
    isplitl [HO]; · iexact HO
    iexact Hr5
  iintro ⟨HO, Hr5⟩
  -- the copy of block 6 into the result
  iapply (part27_close_out m K c 6 _ (rows_src c 6 _) (outSem_src c 6)) $$ [HO Hr6]
  · isplitr; · iexact HR
    isplitl [HO]; · iexact HO
    iexact Hr6
  iintro ⟨HO, Hr6⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  iexact Htail

/-- info: 'Cert.KernelProof.part27_spec' depends on axioms: [propext, Classical.choice, Quot.sound] -/
#guard_msgs in #print axioms part27_spec

end Cert.KernelProof

end
-- ==== Proof.BitsPart28.lean ====
/-
  The closing waits for the copies of the eighth to the fourteenth block received into the result.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.Gen.Kernel.Skeleton

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The waits for the copies into the result -/

private theorem part28_recvSt_two (c : Dev nD) (r : Fin 15) :
    recvSt m c r 2 = iprop((∃ f, rPts c (src c r) f) ∗ atPos ER (recvCell c (src c r)) 1 ∅ 0
      ∗ cred (tallyAt (outCell c (src c r)) () No) ∗ atPos ER (outCell c (src c r)) 0 ∅ 0) := rfl
private theorem part28_recvSt_three (c : Dev nD) (r : Fin 15) :
    recvSt m c r 3 = iprop((∃ f, rPts c (src c r) f) ∗ atPos ER (recvCell c (src c r)) 1 ∅ 0
      ∗ outPay m c (src c r) ∗ atPos ER (outCell c (src c r)) 1 ∅ 0) := rfl
/-- The wait for the copy of the `r`-th block received into the result: its credit is consumed, the cell moves to
    its next round and the written row block comes back with the staging slot. -/
private theorem part28_close_out (K : Dev nD × CK → ℕ) (c : Dev nD) (r : Fin 15)
    {α : Type} {Q : α → sProp 𝕄} {k : PUnit → Prog (TpuEff nD τ sig (Elt F) Λ₀ .tc) α}
    (W : Waits sig Unit) {sp' : Space} {s' : Shape} {e' : EltTy} {srcM : Memref sig .tc sp' s' e'} {dstM : Memref sig .tc .hbm S256x256 .f32} {sem : DmaSem sig}
    (hd : dstM = rowsM oH (src c r)) (hsem : sem = outS (src c r)) {h1 : srcM.view.WordExact} {h2 : dstM.view.WordExact} :
    iprop(records m K ∗ owes (c : Thread nD τ) 0 W ∗ recvSt m c r 2)
      ⊢ iprop(((owes (c : Thread nD τ) 0 (insert (SemLoc.dma (outS (src c r)), ()) W) ∗ recvSt m c r 3)
            -∗ wp frame (wpE (defs₀ (F := F)) 𝒱₀ c none) Set.univ (k ⟨⟩) Q)
          -∗ wp frame (wpE (defs₀ (F := F)) 𝒱₀ c none) Set.univ (.op (.waitDma2 sem srcM dstM h1 h2) k) Q) := by
  rw [part28_recvSt_two, part28_recvSt_three]
  iintro ⟨#HR, HO, Hr, HatR, Hc, Hat⟩ Hk
  iapply (step_wait_out m K c (src c r) W hd hsem) $$ [HO Hc Hat]
  · isplitr; · iexact HR
    isplitl [Hc]; · iexact Hc
    isplitl [HO]; · iexact HO
    iexact Hat
  iintro ⟨HO, Hat, Hpay⟩
  iapply Hk
  isplitl [HO]; · iexact HO
  isplitl [Hr]; · iexact Hr
  isplitl [HatR]; · iexact HatR
  isplitl [Hpay]; · iexact Hpay
  iexact Hat

/-! ## The part -/

theorem part28_spec (K : Dev nD × CK → ℕ) (c : Dev nD) (fx : Buf (Elt F) ((c : Thread nD τ).loc cc0_scratch0)) (W : Waits sig Unit)  :
    iprop(records m K ∗ levAts L lv
        ∗ owes (c : Thread nD τ) 0 W
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 2
        ∗ recvSt m c 8 2
        ∗ recvSt m c 9 2
        ∗ recvSt m c 10 2
        ∗ recvSt m c 11 2
        ∗ recvSt m c 12 2
        ∗ recvSt m c 13 2
        ∗ recvSt m c 14 2)
      ⊢ wp frame (wpE (defs₀ (F := F)) 𝒱₀ c none) Set.univ (k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c)
          (fun ret => iprop(∃ W', owes (c : Thread nD τ) 0 W'
        ∗ globSt m c fx 1
        ∗ ownSt m c 1
        ∗ sendSt m c fx 0 4
        ∗ sendSt m c fx 1 4
        ∗ sendSt m c fx 2 4
        ∗ sendSt m c fx 3 4
        ∗ sendSt m c fx 4 4
        ∗ sendSt m c fx 5 4
        ∗ sendSt m c fx 6 4
        ∗ sendSt m c fx 7 4
        ∗ sendSt m c fx 8 4
        ∗ sendSt m c fx 9 4
        ∗ sendSt m c fx 10 4
        ∗ sendSt m c fx 11 4
        ∗ sendSt m c fx 12 4
        ∗ sendSt m c fx 13 4
        ∗ sendSt m c fx 14 4
        ∗ recvSt m c 0 3
        ∗ recvSt m c 1 3
        ∗ recvSt m c 2 3
        ∗ recvSt m c 3 3
        ∗ recvSt m c 4 3
        ∗ recvSt m c 5 3
        ∗ recvSt m c 6 3
        ∗ recvSt m c 7 3
        ∗ recvSt m c 8 3
        ∗ recvSt m c 9 3
        ∗ recvSt m c 10 3
        ∗ recvSt m c 11 3
        ∗ recvSt m c 12 3
        ∗ recvSt m c 13 3
        ∗ recvSt m c 14 2)) := by
  simp only [k0_part28_eq_skeleton]; unfold k0_part28_skel
  simp only [Prog.lift, Prog.bind_op, Prog.bind_ret, Prog.pure_eq_ret]
  iintro ⟨#HR, #Hlev, HO, Hglob, Hown, Hs0, Hs1, Hs2, Hs3, Hs4, Hs5, Hs6, Hs7, Hs8, Hs9, Hs10, Hs11, Hs12, Hs13, Hs14, Hr0, Hr1, Hr2, Hr3, Hr4, Hr5, Hr6, Hr7, Hr8, Hr9, Hr10, Hr11, Hr12, Hr13, Htail⟩
  -- the copy of block 7 into the result
  iapply (part28_close_out m K c 7 _ (rows_src c 7 _) (outSem_src c 7)) $$ [HO Hr7]
  · isplitr; · iexact HR
    isplitl [HO]; · iexact HO
    iexact Hr7
  iintro ⟨HO, Hr7⟩
  -- the copy of block 8 into the result
  iapply (part28_close_out m K c 8 _ (rows_src c 8 _) (outSem_src c 8)) $$ [HO Hr8]
  · isplitr; · iexact HR
    isplitl [HO]; · iexact HO
    iexact Hr8
  iintro ⟨HO, Hr8⟩
  -- the copy of block 9 into the result
  iapply (part28_close_out m K c 9 _ (rows_src c 9 _) (outSem_src c 9)) $$ [HO Hr9]
  · isplitr; · iexact HR
    isplitl [HO]; · iexact HO
    iexact Hr9
  iintro ⟨HO, Hr9⟩
  -- the copy of block 10 into the result
  iapply (part28_close_out m K c 10 _ (rows_src c 10 _) (outSem_src c 10)) $$ [HO Hr10]
  · isplitr; · iexact HR
    isplitl [HO]; · iexact HO
    iexact Hr10
  iintro ⟨HO, Hr10⟩
  -- the copy of block 11 into the result
  iapply (part28_close_out m K c 11 _ (rows_src c 11 _) (outSem_src c 11)) $$ [HO Hr11]
  · isplitr; · iexact HR
    isplitl [HO]; · iexact HO
    iexact Hr11
  iintro ⟨HO, Hr11⟩
  -- the copy of block 12 into the result
  iapply (part28_close_out m K c 12 _ (rows_src c 12 _) (outSem_src c 12)) $$ [HO Hr12]
  · isplitr; · iexact HR
    isplitl [HO]; · iexact HO
    iexact Hr12
  iintro ⟨HO, Hr12⟩
  -- the copy of block 13 into the result
  iapply (part28_close_out m K c 13 _ (rows_src c 13 _) (outSem_src c 13)) $$ [HO Hr13]
  · isplitr; · iexact HR
    isplitl [HO]; · iexact HO
    iexact Hr13
  iintro ⟨HO, Hr13⟩
  rw [wp_ret]; imodintro
  iexists _
  isplitl [HO]; · iexact HO
  isplitl [Hglob]; · iexact Hglob
  isplitl [Hown]; · iexact Hown
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  iexact Htail

/-- info: 'Cert.KernelProof.part28_spec' depends on axioms: [propext, Classical.choice, Quot.sound] -/
#guard_msgs in #print axioms part28_spec

end Cert.KernelProof

end
-- ==== Proof.BitsBody.lean ====
/-
  A device's body from what the launch hands it to what it hands back: the parts composed in program order.
-/
import proofs.«900406_g7700000000000407_dist_a2a_v7x_i16_i_m256_n256_bf16_1_alg».proof.Proof.BitsStates
import proofs.«900406_g7700000000000407_dist_a2a_v7x_i16_i_m256_n256_bf16_1_alg».proof.Proof.BitsSteps
import proofs.«900406_g7700000000000407_dist_a2a_v7x_i16_i_m256_n256_bf16_1_alg».proof.Proof.BitsOpen
import proofs.«900406_g7700000000000407_dist_a2a_v7x_i16_i_m256_n256_bf16_1_alg».proof.Proof.BitsFinish
import proofs.«900406_g7700000000000407_dist_a2a_v7x_i16_i_m256_n256_bf16_1_alg».proof.Proof.BitsPart01
import proofs.«900406_g7700000000000407_dist_a2a_v7x_i16_i_m256_n256_bf16_1_alg».proof.Proof.BitsPart02
import proofs.«900406_g7700000000000407_dist_a2a_v7x_i16_i_m256_n256_bf16_1_alg».proof.Proof.BitsPart03
import proofs.«900406_g7700000000000407_dist_a2a_v7x_i16_i_m256_n256_bf16_1_alg».proof.Proof.BitsPart04
import proofs.«900406_g7700000000000407_dist_a2a_v7x_i16_i_m256_n256_bf16_1_alg».proof.Proof.BitsPart05
import proofs.«900406_g7700000000000407_dist_a2a_v7x_i16_i_m256_n256_bf16_1_alg».proof.Proof.BitsPart06
import proofs.«900406_g7700000000000407_dist_a2a_v7x_i16_i_m256_n256_bf16_1_alg».proof.Proof.BitsPart07
import proofs.«900406_g7700000000000407_dist_a2a_v7x_i16_i_m256_n256_bf16_1_alg».proof.Proof.BitsPart08
import proofs.«900406_g7700000000000407_dist_a2a_v7x_i16_i_m256_n256_bf16_1_alg».proof.Proof.BitsPart09
import proofs.«900406_g7700000000000407_dist_a2a_v7x_i16_i_m256_n256_bf16_1_alg».proof.Proof.BitsPart10
import proofs.«900406_g7700000000000407_dist_a2a_v7x_i16_i_m256_n256_bf16_1_alg».proof.Proof.BitsPart11
import proofs.«900406_g7700000000000407_dist_a2a_v7x_i16_i_m256_n256_bf16_1_alg».proof.Proof.BitsPart12
import proofs.«900406_g7700000000000407_dist_a2a_v7x_i16_i_m256_n256_bf16_1_alg».proof.Proof.BitsPart13
import proofs.«900406_g7700000000000407_dist_a2a_v7x_i16_i_m256_n256_bf16_1_alg».proof.Proof.BitsPart14
import proofs.«900406_g7700000000000407_dist_a2a_v7x_i16_i_m256_n256_bf16_1_alg».proof.Proof.BitsPart15
import proofs.«900406_g7700000000000407_dist_a2a_v7x_i16_i_m256_n256_bf16_1_alg».proof.Proof.BitsPart16
import proofs.«900406_g7700000000000407_dist_a2a_v7x_i16_i_m256_n256_bf16_1_alg».proof.Proof.BitsPart17
import proofs.«900406_g7700000000000407_dist_a2a_v7x_i16_i_m256_n256_bf16_1_alg».proof.Proof.BitsPart18
import proofs.«900406_g7700000000000407_dist_a2a_v7x_i16_i_m256_n256_bf16_1_alg».proof.Proof.BitsPart19
import proofs.«900406_g7700000000000407_dist_a2a_v7x_i16_i_m256_n256_bf16_1_alg».proof.Proof.BitsPart20
import proofs.«900406_g7700000000000407_dist_a2a_v7x_i16_i_m256_n256_bf16_1_alg».proof.Proof.BitsPart21
import proofs.«900406_g7700000000000407_dist_a2a_v7x_i16_i_m256_n256_bf16_1_alg».proof.Proof.BitsPart22
import proofs.«900406_g7700000000000407_dist_a2a_v7x_i16_i_m256_n256_bf16_1_alg».proof.Proof.BitsPart23
import proofs.«900406_g7700000000000407_dist_a2a_v7x_i16_i_m256_n256_bf16_1_alg».proof.Proof.BitsPart24
import proofs.«900406_g7700000000000407_dist_a2a_v7x_i16_i_m256_n256_bf16_1_alg».proof.Proof.BitsPart25
import proofs.«900406_g7700000000000407_dist_a2a_v7x_i16_i_m256_n256_bf16_1_alg».proof.Proof.BitsPart26
import proofs.«900406_g7700000000000407_dist_a2a_v7x_i16_i_m256_n256_bf16_1_alg».proof.Proof.BitsPart27
import proofs.«900406_g7700000000000407_dist_a2a_v7x_i16_i_m256_n256_bf16_1_alg».proof.Proof.BitsPart28
import proofs.«900406_g7700000000000407_dist_a2a_v7x_i16_i_m256_n256_bf16_1_alg».proof.Proof.Gen.Kernel.Skeleton
import proofs.«900406_g7700000000000407_dist_a2a_v7x_i16_i_m256_n256_bf16_1_alg».proof.Proof.Gen.Kernel.Points

noncomputable section

namespace Cert.KernelProof

open Cert.Kernel Cert.Kernel.Gen
open Idealize.ShloMosaic
open Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

variable (K : Dev nD × CK → ℕ)

theorem recv14_two (c : Dev nD) : recvSt m c 14 2 = iprop((∃ f, rPts c (src c 14) f) ∗ atPos ER (recvCell c (src c 14)) 1 ∅ 0
    ∗ cred (tallyAt (outCell c (src c 14)) () No) ∗ atPos ER (outCell c (src c 14)) 0 ∅ 0) := rfl
theorem recv14_three (c : Dev nD) : recvSt m c 14 3 = iprop((∃ f, rPts c (src c 14) f) ∗ atPos ER (recvCell c (src c 14)) 1 ∅ 0
    ∗ outPay m c (src c 14) ∗ atPos ER (outCell c (src c 14)) 1 ∅ 0) := rfl

set_option maxHeartbeats 4000000 in
set_option maxRecDepth 65536 in
theorem sound_body (c : Dev nD) (W : Waits sig Unit) (Kt : PUnit → sProp 𝕄) :
    iprop(ghost m K c ∗ launchCreds c ∗ levAts L lv
        ∗ (((c : Thread nD τ).loc main_arg0) ↦{fullShare} X m c)
        ∗ (∃ f : Buf (Elt F) ((c : Thread nD τ).loc main_v1), (((c : Thread nD τ).loc main_v1) ↦{fullShare} f))
        ∗ scratch c ∗ owes (c : Thread nD τ) (O₀ c) W
        ∗ (∀ W', iprop(Φ₁ m c ∗ owes (c : Thread nD τ) 0 W') -∗ Kt ⟨⟩))
      ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  iintro ⟨Hg, Hcr, #Hlev, Harg, Hv1, Hscr, HO, Hk⟩
  ihave H := (open0 m K c W) $$ [Hg Hcr Harg Hv1 Hscr HO]
  · isplitl [Hg]; · iexact Hg
    isplitl [Hcr]; · iexact Hcr
    isplitl [Harg]; · iexact Harg
    isplitl [Hv1]; · iexact Hv1
    isplitl [Hscr]; · iexact Hscr
    iexact HO
  icases H with ⟨#HR, HS, Hrest⟩
  simp only [cc0_body_eq_skeleton]; unfold cc0_body_skel
  simp only [wp_bind]
  -- part 1
  iapply (wp_wand_r frame (wpE (defs₀ (F := F)) 𝒱₀ (c : Thread nD τ) none) Set.univ)
  isplitl [HS]
  · iapply (part1_spec m K c W)
    isplitr; · iexact HR
    iexact HS
  iintro %r1 ⟨%h1, HS⟩
  obtain ⟨d0, v2, v3⟩ := r1
  obtain ⟨hd, hv3⟩ := h1
  dsimp only at hd hv3 ⊢
  subst d0
  subst v3
  -- part 2
  iapply (wp_wand_r frame (wpE (defs₀ (F := F)) 𝒱₀ (c : Thread nD τ) none) Set.univ)
  isplitl [HS Hrest]
  · iapply (part2_spec m K c W v2)
    isplitr; · iexact HR
    isplitr; · iexact Hlev
    isplitl [HS]; · iexact HS
    iexact Hrest
  iintro %v59 ⟨%fx, %W2, HSt⟩
  -- part 3
  iapply (wp_wand_r frame (wpE (defs₀ (F := F)) 𝒱₀ (c : Thread nD τ) none) Set.univ)
  isplitl [HSt]
  · iapply (part3_spec m K c fx W2 v2 v59)
    isplitr; · iexact HR
    isplitr; · iexact Hlev
    iexact HSt
  iintro %r3 ⟨%W3, %hv, HSt⟩
  -- part 4
  iapply (wp_wand_r frame (wpE (defs₀ (F := F)) 𝒱₀ (c : Thread nD τ) none) Set.univ)
  isplitl [HSt]
  · iapply (part4_spec m K c fx W3 v2 r3 hv)
    isplitr; · iexact HR
    isplitr; · iexact Hlev
    iexact HSt
  iintro %r4 ⟨%W4, HSt⟩
  -- part 5
  iapply (wp_wand_r frame (wpE (defs₀ (F := F)) 𝒱₀ (c : Thread nD τ) none) Set.univ)
  isplitl [HSt]
  · iapply (part5_spec m K c fx W4 v2 r4.1 r4.2)
    isplitr; · iexact HR
    isplitr; · iexact Hlev
    iexact HSt
  iintro %r5 ⟨%W5, %hv, HSt⟩
  -- part 6
  iapply (wp_wand_r frame (wpE (defs₀ (F := F)) 𝒱₀ (c : Thread nD τ) none) Set.univ)
  isplitl [HSt]
  · iapply (part6_spec m K c fx W5 v2 r5.1 r5.2 hv)
    isplitr; · iexact HR
    isplitr; · iexact Hlev
    iexact HSt
  iintro %r6 ⟨%W6, HSt⟩
  -- part 7
  iapply (wp_wand_r frame (wpE (defs₀ (F := F)) 𝒱₀ (c : Thread nD τ) none) Set.univ)
  isplitl [HSt]
  · iapply (part7_spec m K c fx W6 v2 r6.1 r6.2)
    isplitr; · iexact HR
    isplitr; · iexact Hlev
    iexact HSt
  iintro %r7 ⟨%W7, HSt⟩
  -- part 8
  iapply (wp_wand_r frame (wpE (defs₀ (F := F)) 𝒱₀ (c : Thread nD τ) none) Set.univ)
  isplitl [HSt]
  · iapply (part8_spec m K c fx W7 v2 r7)
    isplitr; · iexact HR
    isplitr; · iexact Hlev
    iexact HSt
  iintro %r8 ⟨%W8, HSt⟩
  -- part 9
  iapply (wp_wand_r frame (wpE (defs₀ (F := F)) 𝒱₀ (c : Thread nD τ) none) Set.univ)
  isplitl [HSt]
  · iapply (part9_spec m K c fx W8 v2 r8)
    isplitr; · iexact HR
    isplitr; · iexact Hlev
    iexact HSt
  iintro %r9 ⟨%W9, HSt⟩
  -- part 10
  iapply (wp_wand_r frame (wpE (defs₀ (F := F)) 𝒱₀ (c : Thread nD τ) none) Set.univ)
  isplitl [HSt]
  · iapply (part10_spec m K c fx W9 v2)
    isplitr; · iexact HR
    isplitr; · iexact Hlev
    iexact HSt
  iintro %r10 ⟨%W10, HSt⟩
  -- part 11
  iapply (wp_wand_r frame (wpE (defs₀ (F := F)) 𝒱₀ (c : Thread nD τ) none) Set.univ)
  isplitl [HSt]
  · iapply (part11_spec m K c fx W10 v2)
    isplitr; · iexact HR
    isplitr; · iexact Hlev
    iexact HSt
  iintro %r11 ⟨%W11, HSt⟩
  -- part 12
  iapply (wp_wand_r frame (wpE (defs₀ (F := F)) 𝒱₀ (c : Thread nD τ) none) Set.univ)
  isplitl [HSt]
  · iapply (part12_spec m K c fx W11 v2)
    isplitr; · iexact HR
    isplitr; · iexact Hlev
    iexact HSt
  iintro %r12 ⟨%W12, %fd, %fx', %f0, %hv, HSt⟩
  -- part 13
  iapply (wp_wand_r frame (wpE (defs₀ (F := F)) 𝒱₀ (c : Thread nD τ) none) Set.univ)
  isplitl [HSt]
  · iapply (part13_spec m K c fx W12 v2 r12.1 r12.2.1 r12.2.2 fd fx' f0 hv)
    isplitr; · iexact HR
    isplitr; · iexact Hlev
    iexact HSt
  iintro %r13 ⟨%W13, HSt⟩
  -- part 14
  iapply (wp_wand_r frame (wpE (defs₀ (F := F)) 𝒱₀ (c : Thread nD τ) none) Set.univ)
  isplitl [HSt]
  · iapply (part14_spec m K c fx W13 v2 r13)
    isplitr; · iexact HR
    isplitr; · iexact Hlev
    iexact HSt
  iintro %r14 ⟨%W14, HSt⟩
  -- part 15
  iapply (wp_wand_r frame (wpE (defs₀ (F := F)) 𝒱₀ (c : Thread nD τ) none) Set.univ)
  isplitl [HSt]
  · iapply (part15_spec m K c fx W14 v2 r14)
    isplitr; · iexact HR
    isplitr; · iexact Hlev
    iexact HSt
  iintro %r15 ⟨%W15, %fd, %fx', %f0, %hv, HSt⟩
  -- part 16
  iapply (wp_wand_r frame (wpE (defs₀ (F := F)) 𝒱₀ (c : Thread nD τ) none) Set.univ)
  isplitl [HSt]
  · iapply (part16_spec m K c fx W15 v2 r15.1 r15.2.1 r15.2.2 fd fx' f0 hv)
    isplitr; · iexact HR
    isplitr; · iexact Hlev
    iexact HSt
  iintro %r16 ⟨%W16, HSt⟩
  -- part 17
  iapply (wp_wand_r frame (wpE (defs₀ (F := F)) 𝒱₀ (c : Thread nD τ) none) Set.univ)
  isplitl [HSt]
  · iapply (part17_spec m K c fx W16 v2 r16)
    isplitr; · iexact HR
    isplitr; · iexact Hlev
    iexact HSt
  iintro %r17 ⟨%W17, HSt⟩
  -- part 18
  iapply (wp_wand_r frame (wpE (defs₀ (F := F)) 𝒱₀ (c : Thread nD τ) none) Set.univ)
  isplitl [HSt]
  · iapply (part18_spec m K c fx W17 v2 r17)
    isplitr; · iexact HR
    isplitr; · iexact Hlev
    iexact HSt
  iintro %r18 ⟨%W18, %fd, %fx', %f0, %hv, HSt⟩
  -- part 19
  iapply (wp_wand_r frame (wpE (defs₀ (F := F)) 𝒱₀ (c : Thread nD τ) none) Set.univ)
  isplitl [HSt]
  · iapply (part19_spec m K c fx W18 v2 r18.1 r18.2.1 r18.2.2 fd fx' f0 hv)
    isplitr; · iexact HR
    isplitr; · iexact Hlev
    iexact HSt
  iintro %r19 ⟨%W19, HSt⟩
  -- part 20
  iapply (wp_wand_r frame (wpE (defs₀ (F := F)) 𝒱₀ (c : Thread nD τ) none) Set.univ)
  isplitl [HSt]
  · iapply (part20_spec m K c fx W19 v2 r19)
    isplitr; · iexact HR
    isplitr; · iexact Hlev
    iexact HSt
  iintro %r20 ⟨%W20, HSt⟩
  -- part 21
  iapply (wp_wand_r frame (wpE (defs₀ (F := F)) 𝒱₀ (c : Thread nD τ) none) Set.univ)
  isplitl [HSt]
  · iapply (part21_spec m K c fx W20 v2 r20)
    isplitr; · iexact HR
    isplitr; · iexact Hlev
    iexact HSt
  iintro %r21 ⟨%W21, %fd, %fx', %f0, %hv, HSt⟩
  -- part 22
  iapply (wp_wand_r frame (wpE (defs₀ (F := F)) 𝒱₀ (c : Thread nD τ) none) Set.univ)
  isplitl [HSt]
  · iapply (part22_spec m K c fx W21 v2 r21.1 r21.2.1 r21.2.2 fd fx' f0 hv)
    isplitr; · iexact HR
    isplitr; · iexact Hlev
    iexact HSt
  iintro %r22 ⟨%W22, HSt⟩
  -- part 23
  iapply (wp_wand_r frame (wpE (defs₀ (F := F)) 𝒱₀ (c : Thread nD τ) none) Set.univ)
  isplitl [HSt]
  · iapply (part23_spec m K c fx W22 v2 r22)
    isplitr; · iexact HR
    isplitr; · iexact Hlev
    iexact HSt
  iintro %r23 ⟨%W23, HSt⟩
  -- part 24
  iapply (wp_wand_r frame (wpE (defs₀ (F := F)) 𝒱₀ (c : Thread nD τ) none) Set.univ)
  isplitl [HSt]
  · iapply (part24_spec m K c fx W23 )
    isplitr; · iexact HR
    isplitr; · iexact Hlev
    iexact HSt
  iintro %r24 ⟨%W24, HSt⟩
  -- part 25
  iapply (wp_wand_r frame (wpE (defs₀ (F := F)) 𝒱₀ (c : Thread nD τ) none) Set.univ)
  isplitl [HSt]
  · iapply (part25_spec m K c fx W24 )
    isplitr; · iexact HR
    isplitr; · iexact Hlev
    iexact HSt
  iintro %r25 ⟨%W25, HSt⟩
  -- part 26
  iapply (wp_wand_r frame (wpE (defs₀ (F := F)) 𝒱₀ (c : Thread nD τ) none) Set.univ)
  isplitl [HSt]
  · iapply (part26_spec m K c fx W25 )
    isplitr; · iexact HR
    isplitr; · iexact Hlev
    iexact HSt
  iintro %r26 ⟨%W26, HSt⟩
  -- part 27
  iapply (wp_wand_r frame (wpE (defs₀ (F := F)) 𝒱₀ (c : Thread nD τ) none) Set.univ)
  isplitl [HSt]
  · iapply (part27_spec m K c fx W26 )
    isplitr; · iexact HR
    isplitr; · iexact Hlev
    iexact HSt
  iintro %r27 ⟨%W27, HSt⟩
  -- part 28
  iapply (wp_wand_r frame (wpE (defs₀ (F := F)) 𝒱₀ (c : Thread nD τ) none) Set.univ)
  isplitl [HSt]
  · iapply (part28_spec m K c fx W27 )
    isplitr; · iexact HR
    isplitr; · iexact Hlev
    iexact HSt
  iintro %r28 ⟨%W28, HSt⟩
  -- the last wait: the copy of the block from `src c 14` into the result array
  simp only [Prog.lift, Prog.pure_eq_ret]
  icases HSt with ⟨HO, HG, Hown, S0, S1, S2, S3, S4, S5, S6, S7, S8, S9, S10, S11, S12, S13, S14, R0, R1, R2, R3, R4, R5, R6, R7, R8, R9, R10, R11, R12, R13, R14⟩
  ihave R14' := (Entails.of_eq (recv14_two m c)) $$ R14
  icases R14' with ⟨Hr, HatR, Hcred, HatO⟩
  iapply (step_wait_out m K c (src c 14) W28 (rows_src c 14 _) (outSem_src c 14)) $$ [Hcred HO HatO]
  · isplitr; · iexact HR
    isplitl [Hcred]; · iexact Hcred
    isplitl [HO]; · iexact HO
    iexact HatO
  iintro ⟨HO, HatO, Hpay⟩
  rw [wp_ret, wp_ret]
  imod (finish m K c fx (insert (SemLoc.dma (outS (src c 14)), ()) W28)) $$ [HO HG Hown S0 S1 S2 S3 S4 S5 S6 S7 S8 S9 S10 S11 S12 S13 S14 R0 R1 R2 R3 R4 R5 R6 R7 R8 R9 R10 R11 R12 R13 Hr HatR Hpay HatO] with ⟨HΦ, HO⟩
  · isplitr; · iexact HR
    isplitl [HO]; · iexact HO
    isplitl [HG]; · iexact HG
    isplitl [Hown]; · iexact Hown
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iapply (Entails.of_eq (recv14_three m c).symm)
    isplitl [Hr]; · iexact Hr
    isplitl [HatR]; · iexact HatR
    isplitl [Hpay]; · iexact Hpay
    iexact HatO
  imodintro; imodintro
  iapply Hk
  isplitl [HΦ]; · iexact HΦ
  iexact HO

/-- info: 'Cert.KernelProof.sound_body' depends on axioms: [propext, Classical.choice, Quot.sound] -/
#guard_msgs in #print axioms sound_body

/-- The launch theorem's body obligation, on device `c`. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ bigSep Finset.univ fun w : Fin 0 => _)
    ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ =>
        iprop(Φ₁ m c ∗ (dats m 0 c).owesAt () t0_0.succ ∗ bigSep Finset.univ fun w : Fin 0 => _))
  unfold Φ₀ start Dat.owesAt Pipeline.owesWithin
  rw [show (dats m 0 c).owed t0_0.castSucc = O₀ c from rfl, show (dats m 0 c).owed t0_0.succ = 0 from rfl]
  iintro ⟨⟨⟨⟨%K, Hg⟩, Hcr, #Hlev, Harg, Hv1⟩, Hscr⟩, ⟨%W, %hW, HO⟩, -⟩
  iapply (sound_body m K c W)
  isplitl [Hg]; · iexact Hg
  isplitl [Hcr]; · iexact Hcr
  isplitr; · iexact Hlev
  isplitl [Harg]; · iexact Harg
  isplitl [Hv1]; · iexact Hv1
  isplitl [Hscr]; · iexact Hscr
  isplitl [HO]; · iexact HO
  iintro %W' ⟨HΦ, HO⟩
  isplitl [HΦ]; · iexact HΦ
  isplitl [HO]
  · iexists W'
    isplitr; · ipureintro; exact fun _ _ => Or.inl trivial
    iexact HO
  rw [show (Finset.univ : Finset (Fin 0)) = ∅ from rfl, bigSep_empty]; iempintro

end Cert.KernelProof

end
-- ==== Proof.RefRun.lean ====
/-
  The reference program's run and its frame.

  The reference is the identity on ONE device: its @main performs no operation and returns its argument
  buffer. It is therefore the empty straight line of host operations, and every weakly fair execution
  terminates with each TensorCore buffer holding what it held at launch. The frame of the claim and the
  reference half of the algebraic conjunct are that run with the post weakened.
-/
import proofs.«900406_g7700000000000407_dist_a2a_v7x_i16_i_m256_n256_bf16_1_alg».proof.Defs
import proofs.«900406_g7700000000000407_dist_a2a_v7x_i16_i_m256_n256_bf16_1_alg».proof.Proof.Gen.ReferenceIdeal
import proofs.«900406_g7700000000000407_dist_a2a_v7x_i16_i_m256_n256_bf16_1_alg».proof.Proof.Gen.Pre_finite_inputs_ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

/-- @main's operations, in order: none. -/
abbrev ops {F : FTy → Type} [FloatOps F] : List (HloOp τ sig (Elt F)) := []

/-- @main is the empty line of operations followed by the return. -/
theorem main_eq {F : FTy → Type} [FloatOps F] (c : Dev nD) : main (F := F) c = seq ops := rfl
/-- The signature scopes no TensorCore buffer. -/
theorem scopedRefs_eq : (Finset.univ.filter fun b : Ref sig .tc => b.isScoped) = ∅ := by decide
/-- The signature scopes no semaphore (it has none). -/
theorem scopedSems_eq : (Finset.univ.filter fun sm : SemLoc sig => sm.isScoped .tc) = ∅ := by decide
/-- Every operation of the (empty) line touches TensorCore references only. -/
theorem ops_sub {F : FTy → Type} [FloatOps F] :
    (ops : List (HloOp τ sig (Elt F))).Forall fun op => op.bufs ⊆ tcRefs τ sig := trivial

/-- For any float values, from any memory with zero counters: every weakly fair execution of the reference's
    @main terminates, and every TensorCore buffer of every device ends holding its launch contents (no
    operation ran, so the fold of the operations' results over the launch contents is the launch contents). -/
theorem run {F : FTy → Type} [FloatOps F]
    (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => ∀ (c : Dev Cert.ReferenceIdeal.nD) (b : Ref Cert.ReferenceIdeal.sig .tc),
        r.2.mem ((c.tc : Thread Cert.ReferenceIdeal.nD Cert.ReferenceIdeal.τ).loc b)
          = m' ((c.tc : Thread Cert.ReferenceIdeal.nD Cert.ReferenceIdeal.τ).loc b)) :=
  (θ_run defs _ _).mono (fun _ h c b => (h c b).trans rfl)
    (run_seq scopedRefs_eq scopedSems_eq defs main (fun _ => ops) main_eq (fun _ => ops_sub) m' g')

/-- The same run read at the argument buffer alone. -/
theorem run_arg0 {F : FTy → Type} [FloatOps F]
    (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run _ _ _).mono (fun _ h c => h c Cert.ReferenceIdeal.main_arg0) (run m' g')

/-- The reference runs and its argument array ends unchanged: the run, whatever the precondition. -/
theorem frame_ri : Cert.frame_ReferenceIdeal := fun m g _ => run_arg0 (F := Ideal) m g

/-- The reference half of the algebraic conjunct: the reference's result buffer is its argument buffer, so the
    result ends holding the argument's launch contents, and the argument ends unchanged. -/
theorem ref_half
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run _ _ _).mono (fun _ h => ⟨h 0, h 0⟩) (run_arg0 (F := Ideal) m' g')

/-- info: 'Cert.RefRun.run' depends on axioms: [propext, Classical.choice, Quot.sound] -/
#guard_msgs in #print axioms run

/-- info: 'Cert.RefRun.frame_ri' depends on axioms: [propext, Classical.choice, Quot.sound] -/
#guard_msgs in #print axioms frame_ri

/-- info: 'Cert.RefRun.ref_half' depends on axioms: [propext, Classical.choice, Quot.sound] -/
#guard_msgs in #print axioms ref_half

end Cert.RefRun

end
-- ==== Proof.lean ====
/-
  The certificate's five conjuncts.

  Sixteen devices hold the row blocks of a 4096 × 4096 array; each ends with a column block of it: an all-to-all.
  Every device signals every other device's barrier once and waits for fifteen units, so that no transfer lands
  in a peer that has not entered the kernel; it then sends column block `d` of its row block, narrowed, to device
  `d`, and writes the block it receives from device `s`, widened, into row block `s` of its result; its own
  column block it copies directly. Narrowing and widening are the identity on the extended reals, so device `c`'s
  result is column block `c` of the whole array, which is what the reference (the identity) returns.

  The frames of the two kernels are their runs (the launch theorem over the body's obligation) with the values
  dropped; the reference's frame is its run; the idealization rewrote nothing.
-/
import proofs.«900406_g7700000000000407_dist_a2a_v7x_i16_i_m256_n256_bf16_1_alg».proof.Defs
import proofs.«900406_g7700000000000407_dist_a2a_v7x_i16_i_m256_n256_bf16_1_alg».proof.Proof.Gen.Kernel
import proofs.«900406_g7700000000000407_dist_a2a_v7x_i16_i_m256_n256_bf16_1_alg».proof.Proof.Gen.KernelIdeal
import proofs.«900406_g7700000000000407_dist_a2a_v7x_i16_i_m256_n256_bf16_1_alg».proof.Proof.Gen.ReferenceIdeal
import proofs.«900406_g7700000000000407_dist_a2a_v7x_i16_i_m256_n256_bf16_1_alg».proof.Proof.Gen.Pre_finite_inputs_Kernel
import proofs.«900406_g7700000000000407_dist_a2a_v7x_i16_i_m256_n256_bf16_1_alg».proof.Proof.Gen.Pre_finite_inputs_ReferenceIdeal
import proofs.«900406_g7700000000000407_dist_a2a_v7x_i16_i_m256_n256_bf16_1_alg».proof.Proof.Body
import proofs.«900406_g7700000000000407_dist_a2a_v7x_i16_i_m256_n256_bf16_1_alg».proof.Proof.Launch
import proofs.«900406_g7700000000000407_dist_a2a_v7x_i16_i_m256_n256_bf16_1_alg».proof.Proof.Value
import proofs.«900406_g7700000000000407_dist_a2a_v7x_i16_i_m256_n256_bf16_1_alg».proof.Proof.BitsBody
import proofs.«900406_g7700000000000407_dist_a2a_v7x_i16_i_m256_n256_bf16_1_alg».proof.Proof.BitsLaunch
import proofs.«900406_g7700000000000407_dist_a2a_v7x_i16_i_m256_n256_bf16_1_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs_Kernel := Cert.Pre_finite_inputs_Kernel.Gen.facts) := fun m g _ =>
  (θ_run (Cert.Kernel.defs (F := Bits)) _ _).mono (fun _ h c => (h c).2)
    (Cert.KernelProof.run_main (F := Bits) m g (Cert.KernelProof.body_obligation (F := Bits) m))

theorem frame_pi : Cert.frame_KernelIdeal (hKernelIdeal := Cert.KernelIdeal.Gen.facts) (hPre_finite_inputs_Kernel := Cert.Pre_finite_inputs_Kernel.Gen.facts) := fun m g _ =>
  (θ_run (Cert.KernelIdeal.defs (F := Ideal)) _ _).mono (fun _ h c => (h c).2)
    (Cert.KernelIdealProof.run_main (F := Ideal) m g (Cert.KernelIdealProof.body_obligation (F := Ideal) m))

/-- Every device's result is its column block of the reference's result, the whole array. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hagree
  refine ⟨_, ?_, Cert.RefRun.ref_half m' g'⟩
  refine (θ_run (Cert.KernelIdeal.defs (F := Ideal)) _ _).mono (fun r h c => ⟨?_, (h c).2⟩)
    (Cert.KernelIdealProof.run_main (F := Ideal) m g (Cert.KernelIdealProof.body_obligation (F := Ideal) m))
  obtain ⟨σ, hσ⟩ := (h c).1
  rw [hσ]
  exact Cert.KernelIdealProof.joined_block m c σ _ hagree

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, Cert.RefRun.frame_ri, trivial, algebraic⟩

end Cert.Proof

end
